-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S640000x16 : Shape := ⟨2, ![640000, 16]⟩
abbrev S640000 : Shape := ⟨1, ![640000]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S192x50 : Shape := ⟨2, ![192, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x192x64 : S_.BroadcastsInDim S2x192x64 (![] : Fin 0 → Fin S2x192x64.rank)
  reducesTo_S2x192x64_S_d0_1_2 : S2x192x64.ReducesTo [0, 1, 2] S_
  bcast_S_S192x50 : S_.BroadcastsInDim S192x50 (![] : Fin 0 → Fin S192x50.rank)
  reducesTo_S192x50_S_d0_1 : S192x50.ReducesTo [0, 1] S_
  bcast_S_S50 : S_.BroadcastsInDim S50 (![] : Fin 0 → Fin S50.rank)
  reducesTo_S50_S_d0 : S50.ReducesTo [0] S_
  bcast_S_S50x25 : S_.BroadcastsInDim S50x25 (![] : Fin 0 → Fin S50x25.rank)
  reducesTo_S50x25_S_d0_1 : S50x25.ReducesTo [0, 1] S_
  bcast_S_S25 : S_.BroadcastsInDim S25 (![] : Fin 0 → Fin S25.rank)
  reducesTo_S25_S_d0 : S25.ReducesTo [0] S_
  bcast_S_S25x1 : S_.BroadcastsInDim S25x1 (![] : Fin 0 → Fin S25x1.rank)
  reducesTo_S25x1_S_d0_1 : S25x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S25 .f32) (main_arg24 : FVec F S25x1 .f32) (main_arg25 : FVec F S1 .f32) (main_v98 : IVec S_ 1) (main_v101 : IVec S50x25 1) (main_c_39 : IVec S_ 1) : IVec S_ 1 :=
  let main_v102 : IVec S_ 1 := (fun x v => Host.reduce IntOp.andi x v reducesTo_S50x25_S_d0_1 h_S_) main_v101 main_c_39
  let main_v103 : IVec S_ 1 := andi main_v98 main_v102
  let main_v104 : FVec F S25 .f32 := Host.absf main_arg23
  let main_cst_40 : FVec F S_ .f32 := constant S_ .f32 0x7F800000#32
  let main_v105 : FVec F S25 .f32 := broadcastInDim S25 ![] bcast_S_S25 main_cst_40
  let main_v106 : IVec S25 1 := cmpf .olt main_v104 main_v105
  let main_c_41 : IVec S_ 1 := constantI S_ 1 1#1
  let main_v107 : IVec S_ 1 := (fun x v => Host.reduce IntOp.andi x v reducesTo_S25_S_d0 h_S_) main_v106 main_c_41
  let main_v108 : IVec S_ 1 := andi main_v103 main_v107
  let main_v109 : FVec F S25x1 .f32 := Host.absf main_arg24
  let main_cst_42 : FVec F S_ .f32 := constant S_ .f32 0x7F800000#32
  let main_v110 : FVec F S25x1 .f32 := broadcastInDim S25x1 ![] bcast_S_S25x1 main_cst_42
  let main_v111 : IVec S25x1 1 := cmpf .olt main_v109 main_v110
  let main_c_43 : IVec S_ 1 := constantI S_ 1 1#1
  let main_v112 : IVec S_ 1 := (fun x v => Host.reduce IntOp.andi x v reducesTo_S25x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg20 : FVec F S192x50 .f32) (main_arg21 : FVec F S50 .f32) (main_arg22 : FVec F S50x25 .f32) (main_arg23 : FVec F S25 .f32) (main_arg24 : FVec F S25x1 .f32) (main_arg25 : FVec F S1 .f32) (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  let main_v89 : FVec F S192x50 .f32 := Host.absf main_arg20
  let main_cst_34 : FVec F S_ .f32 := constant S_ .f32 0x7F800000#32
  let main_v90 : FVec F S192x50 .f32 := broadcastInDim S192x50 ![] bcast_S_S192x50 main_cst_34
  let main_v91 : IVec S192x50 1 := cmpf .olt main_v89 main_v90
  let main_c_35 : IVec S_ 1 := constantI S_ 1 1#1
  let main_v92 : IVec S_ 1 := (fun x v => Host.reduce IntOp.andi x v reducesTo_S192x50_S_d0_1 h_S_) main_v91 main_c_35
  let main_v93 : IVec S_ 1 := andi main_v88 main_v92
  let main_v94 : FVec F S50 .f32 := Host.absf main_arg21
  let main_cst_36 : FVec F S_ .f32 := constant S_ .f32 0x7F800000#32
  let main_v95 : FVec F S50 .f32 := broadcastInDim S50 ![] bcast_S_S50 main_cst_36
  let main_v96 : IVec S50 1 := cmpf .olt main_v94 main_v95
  let main_c_37 : IVec S_ 1 := constantI S_ 1 1#1
  let main_v97 : IVec S_ 1 := (fun x v => Host.reduce IntOp.andi x v reducesTo_S50_S_d0 h_S_) main_v96 main_c_37
  let main_v98 : IVec S_ 1 := andi main_v93 main_v97
  let main_v99 : FVec F S50x25 .f32 := Host.absf main_arg22
  let main_cst_38 : FVec F S_ .f32 := constant S_ .f32 0x7F800000#32
  let main_v100 : FVec F S50x25 .f32 := broadcastInDim S50x25 ![] bcast_S_S50x25 main_cst_38
  let main_v101 : IVec S50x25 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S2x64x64 .f32) (main_arg17 : FVec F S2x64 .f32) (main_arg18 : FVec F S2x64 .f32) (main_arg19 : FVec F S2x64 .f32) (main_arg20 : FVec F S192x50 .f32) (main_arg21 : FVec F S50 .f32) (main_arg22 : FVec F S50x25 .f32) (main_arg23 : FVec F S25 .f32) (main_arg24 : FVec F S25x1 .f32) (main_arg25 : FVec F S1 .f32) (main_v63 : IVec S_ 1) (main_v67 : IVec S_ 1) : IVec S_ 1 :=
  let main_v68 : IVec S_ 1 := andi main_v63 main_v67
  let main_v69 : FVec F S2x64x64 .f32 := Host.absf main_arg16
  let main_cst_26 : FVec F S_ .f32 := constant S_ .f32 0x7F800000#32
  let main_v70 : FVec F S2x64x64 .f32 := broadcastInDim S2x64x64 ![] bcast_S_S2x64x64 main_cst_26
  let main_v71 : IVec S2x64x64 1 := cmpf .olt main_v69 main_v70
  let main_c_27 : IVec S_ 1 := constantI S_ 1 1#1
  let main_v72 : IVec S_ 1 := (fun x v => Host.reduce IntOp.andi x v reducesTo_S2x64x64_S_d0_1_2 h_S_) main_v71 main_c_27
  let main_v73 : IVec S_ 1 := andi main_v68 main_v72
  let main_v74 : FVec F S2x64 .f32 := Host.absf main_arg17
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S2x64 .f32 := Host.absf main_arg18
  let main_cst_30 : FVec F S_ .f32 := constant S_ .f32 0x7F800000#32
  let main_v80 : FVec F S2x64 .f32 := broadcastInDim S2x64 ![] bcast_S_S2x64 main_cst_30
  let main_v81 : IVec S2x64 1 := cmpf .olt main_v79 main_v80
  let main_c_31 : IVec S_ 1 := constantI S_ 1 1#1
  let main_v82 : IVec S_ 1 := (fun x v => Host.reduce IntOp.andi x v reducesTo_S2x64_S_d0_1 h_S_) main_v81 main_c_31
  let main_v83 : IVec S_ 1 := andi main_v78 main_v82
  let main_v84 : FVec F S2x64 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S2x64 .f32) (main_arg14 : FVec F S2x192x64 .f32) (main_arg15 : FVec F S2x64 .f32) (main_arg16 : FVec F S2x64x64 .f32) (main_arg17 : FVec F S2x64 .f32) (main_arg18 : FVec F S2x64 .f32) (main_arg19 : FVec F S2x64 .f32) (main_arg20 : FVec F S192x50 .f32) (main_arg21 : FVec F S50 .f32) (main_arg22 : FVec F S50x25 .f32) (main_arg23 : FVec F S25 .f32) (main_arg24 : FVec F S25x1 .f32) (main_arg25 : FVec F S1 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x192x64 .f32 := Host.absf main_arg14
  let main_cst_22 : FVec F S_ .f32 := constant S_ .f32 0x7F800000#32
  let main_v60 : FVec F S2x192x64 .f32 := broadcastInDim S2x192x64 ![] bcast_S_S2x192x64 main_cst_22
  let main_v61 : IVec S2x192x64 1 := cmpf .olt main_v59 main_v60
  let main_c_23 : IVec S_ 1 := constantI S_ 1 1#1
  let main_v62 : IVec S_ 1 := (fun x v => Host.reduce IntOp.andi x v reducesTo_S2x192x64_S_d0_1_2 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S2x64 .f32) (main_arg10 : FVec F S2x64x64 .f32) (main_arg11 : FVec F S2x64 .f32) (main_arg12 : FVec F S2x64x64 .f32) (main_arg13 : FVec F S2x64 .f32) (main_arg14 : FVec F S2x192x64 .f32) (main_arg15 : FVec F S2x64 .f32) (main_arg16 : FVec F S2x64x64 .f32) (main_arg17 : FVec F S2x64 .f32) (main_arg18 : FVec F S2x64 .f32) (main_arg19 : FVec F S2x64 .f32) (main_arg20 : FVec F S192x50 .f32) (main_arg21 : FVec F S50 .f32) (main_arg22 : FVec F S50x25 .f32) (main_arg23 : FVec F S25 .f32) (main_arg24 : FVec F S25x1 .f32) (main_arg25 : FVec F S1 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg10
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x64 .f32 := Host.absf main_arg12
  let main_cst_18 : FVec F S_ .f32 := constant S_ .f32 0x7F800000#32
  let main_v50 : FVec F S2x64x64 .f32 := broadcastInDim S2x64x64 ![] bcast_S_S2x64x64 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S16x64 .f32) (main_arg7 : FVec F S64 .f32) (main_arg8 : FVec F S2x64x64 .f32) (main_arg9 : FVec F S2x64 .f32) (main_arg10 : FVec F S2x64x64 .f32) (main_arg11 : FVec F S2x64 .f32) (main_arg12 : FVec F S2x64x64 .f32) (main_arg13 : FVec F S2x64 .f32) (main_arg14 : FVec F S2x192x64 .f32) (main_arg15 : FVec F S2x64 .f32) (main_arg16 : FVec F S2x64x64 .f32) (main_arg17 : FVec F S2x64 .f32) (main_arg18 : FVec F S2x64 .f32) (main_arg19 : FVec F S2x64 .f32) (main_arg20 : FVec F S192x50 .f32) (main_arg21 : FVec F S50 .f32) (main_arg22 : FVec F S50x25 .f32) (main_arg23 : FVec F S25 .f32) (main_arg24 : FVec F S25x1 .f32) (main_arg25 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x32 .f32) (main_arg1 : FVec F S640000x16 .f32) (main_arg2 : IVec S640000 32) (main_arg3 : IVec S640000 32) (main_arg4 : FVec F S32x64 .f32) (main_arg5 : FVec F S64 .f32) (main_arg6 : FVec F S16x64 .f32) (main_arg7 : FVec F S64 .f32) (main_arg8 : FVec F S2x64x64 .f32) (main_arg9 : FVec F S2x64 .f32) (main_arg10 : FVec F S2x64x64 .f32) (main_arg11 : FVec F S2x64 .f32) (main_arg12 : FVec F S2x64x64 .f32) (main_arg13 : FVec F S2x64 .f32) (main_arg14 : FVec F S2x192x64 .f32) (main_arg15 : FVec F S2x64 .f32) (main_arg16 : FVec F S2x64x64 .f32) (main_arg17 : FVec F S2x64 .f32) (main_arg18 : FVec F S2x64 .f32) (main_arg19 : FVec F S2x64 .f32) (main_arg20 : FVec F S192x50 .f32) (main_arg21 : FVec F S50 .f32) (main_arg22 : FVec F S50x25 .f32) (main_arg23 : FVec F S25 .f32) (main_arg24 : FVec F S25x1 .f32) (main_arg25 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S640000x16 .f32 := Host.absf main_arg1
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x32 : Shape := ⟨2, ![100000, 32]⟩
abbrev S640000x16 : Shape := ⟨2, ![640000, 16]⟩
abbrev S640000 : Shape := ⟨1, ![640000]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S192x50 : Shape := ⟨2, ![192, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S640000x64 : Shape := ⟨2, ![640000, 64]⟩
abbrev S10000x16 : Shape := ⟨2, ![10000, 16]⟩
abbrev S_ : Shape := ⟨0, ![]⟩
abbrev S640000x1 : Shape := ⟨2, ![640000, 1]⟩
abbrev S1x64x64 : Shape := ⟨3, ![1, 64, 64]⟩
abbrev S64x64 : Shape := ⟨2, ![64, 64]⟩
abbrev S1x192x64 : Shape := ⟨3, ![1, 192, 64]⟩
abbrev S192x64 : Shape := ⟨2, ![192, 64]⟩
abbrev S10000x192 : Shape := ⟨2, ![10000, 192]⟩
abbrev S1x50 : Shape := ⟨2, ![1, 50]⟩
abbrev S1x25 : Shape := ⟨2, ![1, 25]⟩
abbrev S1x1 : Shape := ⟨2, ![1, 1]⟩
abbrev S10000x1 : Shape := ⟨2, ![10000, 1]⟩
abbrev S10000x128 : Shape := ⟨2, ![10000, 128]⟩
abbrev S10000x50 : Shape := ⟨2, ![10000, 50]⟩
abbrev S10000x25 : Shape := ⟨2, ![10000, 25]⟩

abbrev nBuf : Space → Nat
  | .hbm => 212
  | .vmem => 114
  | .smem => 0
  | _ => 0

abbrev hbmTy0_0 (i : Nat) : BufTy := match i % 128 with
  | 0 => ⟨S100000x32, .f32⟩
  | 1 => ⟨S640000x16, .f32⟩
  | 2 => ⟨S640000, .i32⟩
  | 3 => ⟨S640000, .i32⟩
  | 4 => ⟨S32x64, .f32⟩
  | 5 => ⟨S64, .f32⟩
  | 6 => ⟨S16x64, .f32⟩
  | 7 => ⟨S64, .f32⟩
  | 8 => ⟨S2x64x64, .f32⟩
  | 9 => ⟨S2x64, .f32⟩
  | 10 => ⟨S2x64x64, .f32⟩
  | 11 => ⟨S2x64, .f32⟩
  | 12 => ⟨S2x64x64, .f32⟩
  | 13 => ⟨S2x64, .f32⟩
  | 14 => ⟨S2x192x64, .f32⟩
  | 15 => ⟨S2x64, .f32⟩
  | 16 => ⟨S2x64x64, .f32⟩
  | 17 => ⟨S2x64, .f32⟩
  | 18 => ⟨S2x64, .f32⟩
  | 19 => ⟨S2x64, .f32⟩
  | 20 => ⟨S192x50, .f32⟩
  | 21 => ⟨S50, .f32⟩
  | 22 => ⟨S50x25, .f32⟩
  | 23 => ⟨S25, .f32⟩
  | 24 => ⟨S25x1, .f32⟩
  | 25 => ⟨S1, .f32⟩
  | 26 => ⟨S1x64, .f32⟩
  | 27 => ⟨S100000x64, .f32⟩
  | 28 => ⟨S1x64, .f32⟩
  | 29 => ⟨S640000x64, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x64, .f32⟩
  | 39 => ⟨S1x64x64, .f32⟩
  | 40 => ⟨S64x64, .f32⟩
  | 41 => ⟨S1x64, .f32⟩
  | 42 => ⟨S64, .f32⟩
  | 43 => ⟨S1x64, .f32⟩
  | 44 => ⟨S640000x64, .f32⟩
  | 45 => ⟨S_, .f32⟩
  | 46 => ⟨S100000x64, .f32⟩
  | 47 => ⟨S640000x1, .i32⟩
  | 48 => ⟨S100000x64, .f32⟩
  | 49 => ⟨S1x64x64, .f32⟩
  | 50 => ⟨S64x64, .f32⟩
  | 51 => ⟨S1x64, .f32⟩
  | 52 => ⟨S64, .f32⟩
  | 53 => ⟨S1x64x64, .f32⟩
  | 54 => ⟨S64x64, .f32⟩
  | 55 => ⟨S1x64, .f32⟩
  | 56 => ⟨S64, .f32⟩
  | 57 => ⟨S1x64, .f32⟩
  | 58 => ⟨S1x64, .f32⟩
  | 59 => ⟨S100000x64, .f32⟩
  | 60 => ⟨S1x64, .f32⟩
  | 61 => ⟨S1x64, .f32⟩
  | 62 => ⟨S64, .f32⟩
  | 63 => ⟨S_, .f32⟩
  | 64 => ⟨S64, .f32⟩
  | 65 => ⟨S64, .f32⟩
  | 66 => ⟨S64, .f32⟩
  | 67 => ⟨S_, .f32⟩
  | 68 => ⟨S64, .f32⟩
  | 69 => ⟨S64, .f32⟩
  | 70 => ⟨S64, .f32⟩
  | 71 => ⟨S64, .f32⟩
  | 72 => ⟨S1x64, .f32⟩
  | 73 => ⟨S64, .f32⟩
  | 74 => ⟨S1x64, .f32⟩
  | 75 => ⟨S64, .f32⟩
  | 76 => ⟨S1x64, .f32⟩
  | 77 => ⟨S1x64, .f32⟩
  | 78 => ⟨S1x64, .f32⟩
  | 79 => ⟨S1x64, .f32⟩
  | 80 => ⟨S100000x64, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x64, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x64, .f32⟩
  | 99 => ⟨S1x192x64, .f32⟩
  | 100 => ⟨S192x64, .f32⟩
  | 101 => ⟨S1x64, .f32⟩
  | 102 => ⟨S64, .f32⟩
  | 103 => ⟨S1x64x64, .f32⟩
  | 104 => ⟨S64x64, .f32⟩
  | 105 => ⟨S1x64, .f32⟩
  | 106 => ⟨S64, .f32⟩
  | 107 => ⟨S1x64, .f32⟩
  | 108 => ⟨S1x64, .f32⟩
  | 109 => ⟨S640000x64, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S640000x64, .f32⟩
  | 125 => ⟨S_, .f32⟩
  | 126 => ⟨S100000x64, .f32⟩
  | 127 => ⟨S640000x1, .i32⟩
  | _ => ⟨S100000x32, .f32⟩

abbrev hbmTy0_1 (i : Nat) : BufTy := match i % 128 with
  | 0 => ⟨S100000x64, .f32⟩
  | 1 => ⟨S1x64x64, .f32⟩
  | 2 => ⟨S64x64, .f32⟩
  | 3 => ⟨S1x64, .f32⟩
  | 4 => ⟨S64, .f32⟩
  | 5 => ⟨S1x64x64, .f32⟩
  | 6 => ⟨S64x64, .f32⟩
  | 7 => ⟨S1x64, .f32⟩
  | 8 => ⟨S64, .f32⟩
  | 9 => ⟨S1x64, .f32⟩
  | 10 => ⟨S1x64, .f32⟩
  | 11 => ⟨S100000x64, .f32⟩
  | 12 => ⟨S1x64, .f32⟩
  | 13 => ⟨S1x64, .f32⟩
  | 14 => ⟨S64, .f32⟩
  | 15 => ⟨S_, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S1x64, .f32⟩
  | 30 => ⟨S1x64, .f32⟩
  | 31 => ⟨S1x64, .f32⟩
  | 32 => ⟨S100000x64, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x64, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x64, .f32⟩
  | 51 => ⟨S1x192x64, .f32⟩
  | 52 => ⟨S192x64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S1x64, .f32⟩
  | 60 => ⟨S1x64, .f32⟩
  | 61 => ⟨S640000x64, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x64, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x64, .f32⟩
  | 80 => ⟨S1x50, .f32⟩
  | 81 => ⟨S1x25, .f32⟩
  | 82 => ⟨S1x1, .f32⟩
  | 83 => ⟨S640000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x16, .f32⟩
  | .local _ .vmem, ⟨7, _⟩ => ⟨S10000x16, .f32⟩
  | .local _ .vmem, ⟨8, _⟩ => ⟨S16x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S192x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S1x64, .f32⟩
  | .local _ .vmem, ⟨70, _⟩ => ⟨S64x64, .f32⟩
  | .local _ .vmem, ⟨71, _⟩ => ⟨S1x64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S1x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S10000x64, .f32⟩
  | .local _ .vmem, ⟨93, _⟩ => ⟨S10000x64, .f32⟩
  | .local _ .vmem, ⟨94, _⟩ => ⟨S192x64, .f32⟩
  | .local _ .vmem, ⟨95, _⟩ => ⟨S1x64, .f32⟩
  | .local _ .vmem, ⟨96, _⟩ => ⟨S64x64, .f32⟩
  | .local _ .vmem, ⟨97, _⟩ => ⟨S1x64, .f32⟩
  | .local _ .vmem, ⟨98, _⟩ => ⟨S10000x64, .f32⟩
  | .local _ .vmem, ⟨99, _⟩ => ⟨S10000x64, .f32⟩
  | .local _ .vmem, ⟨100, _⟩ => ⟨S10000x64, .f32⟩
  | .local _ .vmem, ⟨101, _⟩ => ⟨S10000x64, .f32⟩
  | .local _ .vmem, ⟨102, _⟩ => ⟨S10000x64, .f32⟩
  | .local _ .vmem, ⟨103, _⟩ => ⟨S10000x64, .f32⟩
  | .local _ .vmem, ⟨104, _⟩ => ⟨S10000x64, .f32⟩
  | .local _ .vmem, ⟨105, _⟩ => ⟨S10000x64, .f32⟩
  | .local _ .vmem, ⟨106, _⟩ => ⟨S192x50, .f32⟩
  | .local _ .vmem, ⟨107, _⟩ => ⟨S1x50, .f32⟩
  | .local _ .vmem, ⟨108, _⟩ => ⟨S50x25, .f32⟩
  | .local _ .vmem, ⟨109, _⟩ => ⟨S1x25, .f32⟩
  | .local _ .vmem, ⟨110, _⟩ => ⟨S25x1, .f32⟩
  | .local _ .vmem, ⟨111, _⟩ => ⟨S1x1, .f32⟩
  | .local _ .vmem, ⟨112, _⟩ => ⟨S10000x1, .f32⟩
  | .local _ .vmem, ⟨113, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v32 : Ref sig .tc := ⟨.hbm, 62, rfl⟩
abbrev main_cst_1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_3 : Ref sig .tc := ⟨.hbm, 81, rfl⟩
abbrev main_v49 : Ref sig .tc := ⟨.hbm, 82, rfl⟩
abbrev main_v50 : Ref sig .tc := ⟨.hbm, 83, rfl⟩
abbrev main_c_4 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_5 : Ref sig .tc := ⟨.hbm, 90, rfl⟩
abbrev main_v56 : Ref sig .tc := ⟨.hbm, 91, rfl⟩
abbrev main_v57 : Ref sig .tc := ⟨.hbm, 92, rfl⟩
abbrev main_c_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_7 : Ref sig .tc := ⟨.hbm, 110, rfl⟩
abbrev main_v74 : Ref sig .tc := ⟨.hbm, 111, rfl⟩
abbrev main_v75 : Ref sig .tc := ⟨.hbm, 112, rfl⟩
abbrev main_c_8 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_9 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101_0 : Ref sig .tc := ⟨.hbm, 140, rfl⟩
abbrev main_v101_1 : Ref sig .tc := ⟨.hbm, 141, rfl⟩
abbrev main_v102 : Ref sig .tc := ⟨.hbm, 142, rfl⟩
abbrev main_cst_10 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_11 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_12 : Ref sig .tc := ⟨.hbm, 161, rfl⟩
abbrev main_v119 : Ref sig .tc := ⟨.hbm, 162, rfl⟩
abbrev main_v120 : Ref sig .tc := ⟨.hbm, 163, rfl⟩
abbrev main_c_13 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_14 : Ref sig .tc := ⟨.hbm, 170, rfl⟩
abbrev main_v126 : Ref sig .tc := ⟨.hbm, 171, rfl⟩
abbrev main_v127 : Ref sig .tc := ⟨.hbm, 172, rfl⟩
abbrev main_c_15 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_16 : Ref sig .tc := ⟨.hbm, 190, rfl⟩
abbrev main_v144 : Ref sig .tc := ⟨.hbm, 191, rfl⟩
abbrev main_v145 : Ref sig .tc := ⟨.hbm, 192, rfl⟩
abbrev main_c_17 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_18 : Ref sig .tc := ⟨.hbm, 199, rfl⟩
abbrev main_v151 : Ref sig .tc := ⟨.hbm, 200, rfl⟩
abbrev main_v152 : Ref sig .tc := ⟨.hbm, 201, rfl⟩
abbrev main_c_19 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg3_1 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg6_0 : Ref sig .tc := ⟨.vmem, 72, rfl⟩
abbrev cc8_stg6_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg2_0 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg5_0 : Ref sig .tc := ⟨.vmem, 85, rfl⟩
abbrev cc10_stg6_0 : Ref sig .tc := ⟨.vmem, 86, rfl⟩
abbrev cc10_stg6_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg1_1 : Ref sig .tc := ⟨.vmem, 91, rfl⟩
abbrev cc11_stg2_0 : Ref sig .tc := ⟨.vmem, 92, rfl⟩
abbrev cc11_stg2_1 : Ref sig .tc := ⟨.vmem, 93, rfl⟩
abbrev cc11_stg3_0 : Ref sig .tc := ⟨.vmem, 94, rfl⟩
abbrev cc11_stg4_0 : Ref sig .tc := ⟨.vmem, 95, rfl⟩
abbrev cc11_stg5_0 : Ref sig .tc := ⟨.vmem, 96, rfl⟩
abbrev cc11_stg6_0 : Ref sig .tc := ⟨.vmem, 97, rfl⟩
abbrev cc11_stg7_0 : Ref sig .tc := ⟨.vmem, 98, rfl⟩
abbrev cc11_stg7_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg2_1 : Ref sig .tc := ⟨.vmem, 105, rfl⟩
abbrev cc12_stg3_0 : Ref sig .tc := ⟨.vmem, 106, rfl⟩
abbrev cc12_stg4_0 : Ref sig .tc := ⟨.vmem, 107, rfl⟩
abbrev cc12_stg5_0 : Ref sig .tc := ⟨.vmem, 108, rfl⟩
abbrev cc12_stg6_0 : Ref sig .tc := ⟨.vmem, 109, rfl⟩
abbrev cc12_stg7_0 : Ref sig .tc := ⟨.vmem, 110, rfl⟩
abbrev cc12_stg8_0 : Ref sig .tc := ⟨.vmem, 111, rfl⟩
abbrev cc12_stg9_0 : Ref sig .tc := ⟨.vmem, 112, rfl⟩
abbrev cc12_stg9_1 : Ref sig .tc := ⟨.vmem, 113, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem7_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem3_1 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem5_0 : DmaSem sig := 71
abbrev cc8_sem6_0 : DmaSem sig := 72
abbrev cc8_sem6_1 : DmaSem sig := 73
abbrev cc9_sem0_0 : DmaSem sig := 74
abbrev cc9_sem0_1 : DmaSem sig := 75
abbrev cc9_sem1_0 : DmaSem sig := 76
abbrev cc9_sem2_0 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem6_0 : DmaSem sig := 86
abbrev cc10_sem6_1 : DmaSem sig := 87
abbrev cc11_sem0_0 : DmaSem sig := 88
abbrev cc11_sem0_1 : DmaSem sig := 89
abbrev cc11_sem1_0 : DmaSem sig := 90
abbrev cc11_sem1_1 : DmaSem sig := 91
abbrev cc11_sem2_0 : DmaSem sig := 92
abbrev cc11_sem2_1 : DmaSem sig := 93
abbrev cc11_sem3_0 : DmaSem sig := 94
abbrev cc11_sem4_0 : DmaSem sig := 95
abbrev cc11_sem5_0 : DmaSem sig := 96
abbrev cc11_sem6_0 : DmaSem sig := 97
abbrev cc11_sem7_0 : DmaSem sig := 98
abbrev cc11_sem7_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem2_1 : DmaSem sig := 105
abbrev cc12_sem3_0 : DmaSem sig := 106
abbrev cc12_sem4_0 : DmaSem sig := 107
abbrev cc12_sem5_0 : DmaSem sig := 108
abbrev cc12_sem6_0 : DmaSem sig := 109
abbrev cc12_sem7_0 : DmaSem sig := 110
abbrev cc12_sem8_0 : DmaSem sig := 111
abbrev cc12_sem9_0 : DmaSem sig := 112
abbrev cc12_sem9_1 : DmaSem sig := 113

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S192x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S10000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S192x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S10000x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![64], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S192x50 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x50 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S50x25 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x25 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S25x1 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x1 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S10000x1 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

class Facts₀ : Prop where
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  bcast_S_S640000 : S_.BroadcastsInDim S640000 (![] : Fin 0 → Fin S640000.rank)
  bcast_S640000_S640000x1_0 : S640000.BroadcastsInDim S640000x1 (![0] : Fin 1 → Fin S640000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  reduces_S10000x64_S64 : S10000x64.Reduces [0] S64
  bcast_S_S64 : S_.BroadcastsInDim S64 (![] : Fin 0 → Fin S64.rank)
  slices_S2x192x64_S1x192x64_0_0_0 : S2x192x64.Slices ![0, 0, 0] S1x192x64
  shapeCasts_S1x192x64_S192x64 : S1x192x64.ShapeCasts S192x64
  concatenates_S10000x64_S10000x64_S10000x64_S10000x192_d1 : Shape.Concatenates [S10000x64, S10000x64, S10000x64] S10000x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  slices_S2x64x64_S1x64x64_1_0_0 : S2x64x64.Slices ![1, 0, 0] S1x64x64
  slices_S2x64_S1x64_1_0 : S2x64.Slices ![1, 0] S1x64
  slices_S2x192x64_S1x192x64_1_0_0 : S2x192x64.Slices ![1, 0, 0] S1x192x64
  shapeCasts_S50_S1x50 : S50.ShapeCasts S1x50
  shapeCasts_S25_S1x25 : S25.ShapeCasts S1x25
  shapeCasts_S1_S1x1 : S1.ShapeCasts S1x1
  concatenates_S10000x64_S10000x64_S10000x128_d1 : Shape.Concatenates [S10000x64, S10000x64] S10000x128 1
  concatenates_S10000x128_S10000x64_S10000x192_d1 : Shape.Concatenates [S10000x128, S10000x64] S10000x192 1
  inb_S192x50_S192x50_0_0 : ∀ a, (![0, 0] : Fin 2 → Nat) a + S192x50.size a ≤ S192x50.size a
  h_S192x50 : 0 < S192x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S50x25_S50x25_0_0 : ∀ a, (![0, 0] : Fin 2 → Nat) a + S50x25.size a ≤ S50x25.size a
  h_S50x25 : 0 < S50x25.numel
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S10000x25 : S1x25.Broadcasts S10000x25
  inb_S25x1_S25x1_0_0 : ∀ a, (![0, 0] : Fin 2 → Nat) a + S25x1.size a ≤ S25x1.size a
  h_S25x1 : 0 < S25x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x32_S32x64_S10000x64_1_0_0_1_n_n_wf : DotDims.WF S10000x32 S32x64 S10000x64 [1] [0] [0] [1] [] []
  dot_S10000x16_S16x64_S10000x64_1_0_0_1_n_n_wf : DotDims.WF S10000x16 S16x64 S10000x64 [1] [0] [0] [1] [] []
  gather_S100000x64_S640000x1_S640000x64_1_0_n_n_0_1_164_wf : GatherDims.WF S100000x64 S640000x1 S640000x64 [1] [0] [] [0] [] 1 ![1, 64]
  dot_S10000x64_S64x64_S10000x64_1_0_0_1_n_n_wf : DotDims.WF S10000x64 S64x64 S10000x64 [1] [0] [0] [1] [] []
  scatter_S100000x64_S640000x1_S640000x64_1_0_0_1_wf : ScatterDims.WF S100000x64 S640000x1 S640000x64 [1] [0] [0] 1
  dot_S10000x192_S192x64_S10000x64_1_0_0_1_n_n_wf : DotDims.WF S10000x192 S192x64 S10000x64 [1] [0] [0] [1] [] []
  dot_S10000x192_S192x50_S10000x50_1_0_0_1_n_n_wf : DotDims.WF S10000x192 S192x50 S10000x50 [1] [0] [0] [1] [] []
  dot_S10000x50_S50x25_S10000x25_1_0_0_1_n_n_wf : DotDims.WF S10000x50 S50x25 S10000x25 [1] [0] [0] [1] [] []
  dot_S10000x25_S25x1_S10000x1_1_0_0_1_n_n_wf : DotDims.WF S10000x25 S25x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S640000x16.size a
  hwx1_0 : ∀ i : grid1.Coords, EltTy.bits .f32 = 32 ∨ (Rect.block (s := S640000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S640000x64.size a
  hwx1_3 : ∀ i : grid1.Coords, EltTy.bits .f32 = 32 ∨ (Rect.block (s := S640000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S640000x64.size a
  hwx2_0 : ∀ i : grid2.Coords, EltTy.bits .f32 = 32 ∨ (Rect.block (s := S640000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S640000x64.size a
  hwx2_3 : ∀ i : grid2.Coords, EltTy.bits .f32 = 32 ∨ (Rect.block (s := S640000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S640000x64.size a
  hwx2_4 : ∀ i : grid2.Coords, EltTy.bits .f32 = 32 ∨ (Rect.block (s := S640000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S640000x64.size a
  hwx6_0 : ∀ i : grid6.Coords, EltTy.bits .f32 = 32 ∨ (Rect.block (s := S640000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S640000x64.size a
  hwx6_1 : ∀ i : grid6.Coords, EltTy.bits .f32 = 32 ∨ (Rect.block (s := S640000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S640000x64.size a
  hwx6_2 : ∀ i : grid6.Coords, EltTy.bits .f32 = 32 ∨ (Rect.block (s := S640000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S192x64.size a ≤ S192x64.size a
  hwx6_3 : ∀ i : grid6.Coords, EltTy.bits .f32 = 32 ∨ (Rect.block (s := S192x64) S192x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x64.size a ≤ S640000x64.size a
  hwx6_7 : ∀ i : grid6.Coords, EltTy.bits .f32 = 32 ∨ (Rect.block (s := S640000x64) S10000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S640000x64.size a
  hwx7_0 : ∀ i : grid7.Coords, EltTy.bits .f32 = 32 ∨ (Rect.block (s := S640000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S640000x64.size a
  hwx7_3 : ∀ i : grid7.Coords, EltTy.bits .f32 = 32 ∨ (Rect.block (s := S640000x64) S10000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S640000x64.size a
  hwx7_4 : ∀ i : grid7.Coords, EltTy.bits .f32 = 32 ∨ (Rect.block (s := S640000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S100000x64.size a
  hwx10_1 : ∀ i : grid10.Coords, EltTy.bits .f32 = 32 ∨ (Rect.block (s := S100000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S10000x64.size a ≤ S100000x64.size a
  hwx10_6 : ∀ i : grid10.Coords, EltTy.bits .f32 = 32 ∨ (Rect.block (s := S100000x64) S10000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S640000x64.size a
  hwx11_0 : ∀ i : grid11.Coords, EltTy.bits .f32 = 32 ∨ (Rect.block (s := S640000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S640000x64.size a
  hwx11_1 : ∀ i : grid11.Coords, EltTy.bits .f32 = 32 ∨ (Rect.block (s := S640000x64) S10000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S640000x64.size a
  hwx11_2 : ∀ i : grid11.Coords, EltTy.bits .f32 = 32 ∨ (Rect.block (s := S640000x64) S10000x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S192x64.size a ≤ S192x64.size a
  hwx11_3 : ∀ i : grid11.Coords, EltTy.bits .f32 = 32 ∨ (Rect.block (s := S192x64) S192x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S10000x64.size a ≤ S640000x64.size a
  hwx11_7 : ∀ i : grid11.Coords, EltTy.bits .f32 = 32 ∨ (Rect.block (s := S640000x64) S10000x64.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S640000x64.size a
  hwx12_0 : ∀ i : grid12.Coords, EltTy.bits .f32 = 32 ∨ (Rect.block (s := S640000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S640000x64.size a
  hwx12_1 : ∀ i : grid12.Coords, EltTy.bits .f32 = 32 ∨ (Rect.block (s := S640000x64) S10000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x64.size a ≤ S640000x64.size a
  hwx12_2 : ∀ i : grid12.Coords, EltTy.bits .f32 = 32 ∨ (Rect.block (s := S640000x64) S10000x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S192x50.size a ≤ S192x50.size a
  hwx12_3 : ∀ i : grid12.Coords, EltTy.bits .f32 = 32 ∨ (Rect.block (s := S192x50) S192x50.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x50.size a ≤ S1x50.size a
  hwx12_4 : ∀ i : grid12.Coords, EltTy.bits .f32 = 32 ∨ (Rect.block (s := S1x50) S1x50.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S50x25.size a ≤ S50x25.size a
  hwx12_5 : ∀ i : grid12.Coords, EltTy.bits .f32 = 32 ∨ (Rect.block (s := S50x25) S50x25.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x25.size a ≤ S1x25.size a
  hwx12_6 : ∀ i : grid12.Coords, EltTy.bits .f32 = 32 ∨ (Rect.block (s := S1x25) S1x25.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S25x1.size a ≤ S25x1.size a
  hwx12_7 : ∀ i : grid12.Coords, EltTy.bits .f32 = 32 ∨ (Rect.block (s := S25x1) S25x1.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x1.size a ≤ S1x1.size a
  hwx12_8 : ∀ i : grid12.Coords, EltTy.bits .f32 = 32 ∨ (Rect.block (s := S1x1) S1x1.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S10000x1.size a ≤ S640000x1.size a
  hwx12_9 : ∀ i : grid12.Coords, EltTy.bits .f32 = 32 ∨ (Rect.block (s := S640000x1) S10000x1.size (cc12_transform_9 i) (hinb12_9 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x192_S192x50_S10000x50_1_0_0_1_n_n : DotDims S10000x192 S192x50 S10000x50 where
  lhsContracting := [1]
  rhsContracting := [0]
  lhsNonContracting := [0]
  rhsNonContracting := [1]
  lhsBatch := []
  rhsBatch := []
  wf := dot_S10000x192_S192x50_S10000x50_1_0_0_1_n_n_wf
def dot_S10000x50_S50x25_S10000x25_1_0_0_1_n_n : DotDims S10000x50 S50x25 S10000x25 where
  lhsContracting := [1]
  rhsContracting := [0]
  lhsNonContracting := [0]
  rhsNonContracting := [1]
  lhsBatch := []
  rhsBatch := []
  wf := dot_S10000x50_S50x25_S10000x25_1_0_0_1_n_n_wf
def dot_S10000x25_S25x1_S10000x1_1_0_0_1_n_n : DotDims S10000x25 S25x1 S10000x1 where
  lhsContracting := [1]
  rhsContracting := [0]
  lhsNonContracting := [0]
  rhsNonContracting := [1]
  lhsBatch := []
  rhsBatch := []
  wf := dot_S10000x25_S25x1_S10000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v1) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v30) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v30) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v48) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v55) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v64) S192x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v71) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v68) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v72) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v73) S10000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v73) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S10000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v86) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v48) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v91) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v98) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v95) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v99) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v100) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v100) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v101_0) S1x64.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101_1) S1x64.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v100) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v48) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v114) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v115) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v116) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v117) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v118) S10000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v125) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v132) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v73) S10000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v134) S192x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v141) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v138) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v142) S1x64.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v143) S10000x64.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v150) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v157) S10000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v143) S10000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_arg20) S192x50.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v158) S1x50.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg22) S50x25.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v159) S1x25.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_arg24) S25x1.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v160) S1x1.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v161) S10000x1.size cc12_transform_9 reads12_9 true false 2 stage12_9 sem12_9
    hrank12 hreads12_9 hinb12_9 nbuf12_9 (Memref.isWhole_whole _) hwx12_9 hstage12_9

abbrev win12 : Fin 10 → Pipeline.Window sig grid12 := fun | 0 => win12_0 | 1 => win12_1 | 2 => win12_2 | 3 => win12_3 | 4 => win12_4 | 5 => win12_5 | 6 => win12_6 | 7 => win12_7 | 8 => win12_8 | 9 => win12_9 | ⟨_ + 10, h⟩ => absurd h (Nat.not_lt.2 (Nat.le_add_left _ _))
abbrev spec12 : Fin 10 → Pipeline.WinSpec sig grid12.rank := fun w => (win12 w).toWinSpec

class Facts : Prop extends Facts₀ where

variable [Facts]
-- ==== ReferenceIdeal.lean ====
abbrev S100000x32 : Shape := ⟨2, ![100000, 32]⟩
abbrev S640000x16 : Shape := ⟨2, ![640000, 16]⟩
abbrev S640000 : Shape := ⟨1, ![640000]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S192x50 : Shape := ⟨2, ![192, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S100000x64 : Shape := ⟨2, ![100000, 64]⟩
abbrev S1x64 : Shape := ⟨2, ![1, 64]⟩
abbrev S640000x64 : Shape := ⟨2, ![640000, 64]⟩
abbrev S_ : Shape := ⟨0, ![]⟩
abbrev S640000x1 : Shape := ⟨2, ![640000, 1]⟩
abbrev S1x64x64 : Shape := ⟨3, ![1, 64, 64]⟩
abbrev S64x64 : Shape := ⟨2, ![64, 64]⟩
abbrev S640000x192 : Shape := ⟨2, ![640000, 192]⟩
abbrev S1x192x64 : Shape := ⟨3, ![1, 192, 64]⟩
abbrev S192x64 : Shape := ⟨2, ![192, 64]⟩
abbrev S640000x128 : Shape := ⟨2, ![640000, 128]⟩
abbrev S640000x50 : Shape := ⟨2, ![640000, 50]⟩
abbrev S1x50 : Shape := ⟨2, ![1, 50]⟩
abbrev S640000x25 : Shape := ⟨2, ![640000, 25]⟩
abbrev S1x25 : Shape := ⟨2, ![1, 25]⟩
abbrev S1x1 : Shape := ⟨2, ![1, 1]⟩

abbrev nBuf : Space → Nat
  | .hbm => 331
  | .vmem => 0
  | .smem => 0
  | _ => 0

abbrev hbmTy0_0 (i : Nat) : BufTy := match i % 128 with
  | 0 => ⟨S100000x32, .f32⟩
  | 1 => ⟨S640000x16, .f32⟩
  | 2 => ⟨S640000, .i32⟩
  | 3 => ⟨S640000, .i32⟩
  | 4 => ⟨S32x64, .f32⟩
  | 5 => ⟨S64, .f32⟩
  | 6 => ⟨S16x64, .f32⟩
  | 7 => ⟨S64, .f32⟩
  | 8 => ⟨S2x64x64, .f32⟩
  | 9 => ⟨S2x64, .f32⟩
  | 10 => ⟨S2x64x64, .f32⟩
  | 11 => ⟨S2x64, .f32⟩
  | 12 => ⟨S2x64x64, .f32⟩
  | 13 => ⟨S2x64, .f32⟩
  | 14 => ⟨S2x192x64, .f32⟩
  | 15 => ⟨S2x64, .f32⟩
  | 16 => ⟨S2x64x64, .f32⟩
  | 17 => ⟨S2x64, .f32⟩
  | 18 => ⟨S2x64, .f32⟩
  | 19 => ⟨S2x64, .f32⟩
  | 20 => ⟨S192x50, .f32⟩
  | 21 => ⟨S50, .f32⟩
  | 22 => ⟨S50x25, .f32⟩
  | 23 => ⟨S25, .f32⟩
  | 24 => ⟨S25x1, .f32⟩
  | 25 => ⟨S1, .f32⟩
  | 26 => ⟨S100000x64, .f32⟩
  | 27 => ⟨S1x64, .f32⟩
  | 28 => ⟨S100000x64, .f32⟩
  | 29 => ⟨S100000x64, .f32⟩
  | 30 => ⟨S640000x64, .f32⟩
  | 31 => ⟨S1x64, .f32⟩
  | 32 => ⟨S640000x64, .f32⟩
  | 33 => ⟨S640000x64, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x64, .f32⟩
  | 43 => ⟨S1x64x64, .f32⟩
  | 44 => ⟨S64x64, .f32⟩
  | 45 => ⟨S640000x64, .f32⟩
  | 46 => ⟨S640000x64, .f32⟩
  | 47 => ⟨S1x64, .f32⟩
  | 48 => ⟨S64, .f32⟩
  | 49 => ⟨S1x64, .f32⟩
  | 50 => ⟨S640000x64, .f32⟩
  | 51 => ⟨S640000x64, .f32⟩
  | 52 => ⟨S_, .f32⟩
  | 53 => ⟨S640000x64, .f32⟩
  | 54 => ⟨S640000x64, .f32⟩
  | 55 => ⟨S_, .f32⟩
  | 56 => ⟨S100000x64, .f32⟩
  | 57 => ⟨S640000x1, .i32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S100000x32, .f32⟩

abbrev hbmTy0_1 (i : Nat) : BufTy := match i % 128 with
  | 0 => ⟨S640000x64, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x64, .f32⟩
  | 10 => ⟨S640000x192, .f32⟩
  | 11 => ⟨S1x192x64, .f32⟩
  | 12 => ⟨S192x64, .f32⟩
  | 13 => ⟨S640000x64, .f32⟩
  | 14 => ⟨S1x64, .f32⟩
  | 15 => ⟨S64, .f32⟩
  | 16 => ⟨S1x64, .f32⟩
  | 17 => ⟨S640000x64, .f32⟩
  | 18 => ⟨S640000x64, .f32⟩
  | 19 => ⟨S_, .f32⟩
  | 20 => ⟨S640000x64, .f32⟩
  | 21 => ⟨S640000x64, .f32⟩
  | 22 => ⟨S1x64x64, .f32⟩
  | 23 => ⟨S64x64, .f32⟩
  | 24 => ⟨S640000x64, .f32⟩
  | 25 => ⟨S1x64, .f32⟩
  | 26 => ⟨S64, .f32⟩
  | 27 => ⟨S1x64, .f32⟩
  | 28 => ⟨S640000x64, .f32⟩
  | 29 => ⟨S640000x64, .f32⟩
  | 30 => ⟨S_, .f32⟩
  | 31 => ⟨S640000x64, .f32⟩
  | 32 => ⟨S640000x64, .f32⟩
  | 33 => ⟨S640000x64, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x64, .f32⟩
  | 43 => ⟨S1x64x64, .f32⟩
  | 44 => ⟨S64x64, .f32⟩
  | 45 => ⟨S640000x64, .f32⟩
  | 46 => ⟨S640000x64, .f32⟩
  | 47 => ⟨S1x64, .f32⟩
  | 48 => ⟨S64, .f32⟩
  | 49 => ⟨S1x64, .f32⟩
  | 50 => ⟨S640000x64, .f32⟩
  | 51 => ⟨S640000x64, .f32⟩
  | 52 => ⟨S_, .f32⟩
  | 53 => ⟨S640000x64, .f32⟩
  | 54 => ⟨S640000x64, .f32⟩
  | 55 => ⟨S_, .f32⟩
  | 56 => ⟨S100000x64, .f32⟩
  | 57 => ⟨S640000x1, .i32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S100000x32, .f32⟩

abbrev hbmTy0_2 (i : Nat) : BufTy := match i % 128 with
  | 0 => ⟨S640000x64, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x64, .f32⟩
  | 10 => ⟨S640000x192, .f32⟩
  | 11 => ⟨S1x192x64, .f32⟩
  | 12 => ⟨S192x64, .f32⟩
  | 13 => ⟨S640000x64, .f32⟩
  | 14 => ⟨S1x64, .f32⟩
  | 15 => ⟨S64, .f32⟩
  | 16 => ⟨S1x64, .f32⟩
  | 17 => ⟨S640000x64, .f32⟩
  | 18 => ⟨S640000x64, .f32⟩
  | 19 => ⟨S_, .f32⟩
  | 20 => ⟨S640000x64, .f32⟩
  | 21 => ⟨S640000x64, .f32⟩
  | 22 => ⟨S1x64x64, .f32⟩
  | 23 => ⟨S64x64, .f32⟩
  | 24 => ⟨S640000x64, .f32⟩
  | 25 => ⟨S1x64, .f32⟩
  | 26 => ⟨S64, .f32⟩
  | 27 => ⟨S1x64, .f32⟩
  | 28 => ⟨S640000x64, .f32⟩
  | 29 => ⟨S640000x64, .f32⟩
  | 30 => ⟨S_, .f32⟩
  | 31 => ⟨S640000x64, .f32⟩
  | 32 => ⟨S640000x64, .f32⟩
  | 33 => ⟨S640000x64, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x64, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x64, .f32⟩
  | 52 => ⟨S640000x128, .f32⟩
  | 53 => ⟨S_, .f32⟩
  | 54 => ⟨S640000x128, .f32⟩
  | 55 => ⟨S640000x128, .f32⟩
  | 56 => ⟨S640000x192, .f32⟩
  | 57 => ⟨S640000x50, .f32⟩
  | 58 => ⟨S1x50, .f32⟩
  | 59 => ⟨S640000x50, .f32⟩
  | 60 => ⟨S640000x50, .f32⟩
  | 61 => ⟨S_, .f32⟩
  | 62 => ⟨S640000x50, .f32⟩
  | 63 => ⟨S640000x50, .f32⟩
  | 64 => ⟨S640000x25, .f32⟩
  | 65 => ⟨S1x25, .f32⟩
  | 66 => ⟨S640000x25, .f32⟩
  | 67 => ⟨S640000x25, .f32⟩
  | 68 => ⟨S_, .f32⟩
  | 69 => ⟨S640000x25, .f32⟩
  | 70 => ⟨S640000x25, .f32⟩
  | 71 => ⟨S640000x1, .f32⟩
  | 72 => ⟨S1x1, .f32⟩
  | 73 => ⟨S640000x1, .f32⟩
  | 74 => ⟨S640000x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call0_cst : Ref sig .tc := ⟨.hbm, 52, rfl⟩
abbrev main_call0_v0 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_cst : Ref sig .tc := ⟨.hbm, 68, rfl⟩
abbrev main_call1_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_1 : Ref sig .tc := ⟨.hbm, 83, rfl⟩
abbrev main_v50 : Ref sig .tc := ⟨.hbm, 84, rfl⟩
abbrev main_cst_2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_3 : Ref sig .tc := ⟨.hbm, 92, rfl⟩
abbrev main_v57 : Ref sig .tc := ⟨.hbm, 93, rfl⟩
abbrev main_cst_4 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_5 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_cst_6 : Ref sig .tc := ⟨.hbm, 117, rfl⟩
abbrev main_v77 : Ref sig .tc := ⟨.hbm, 118, rfl⟩
abbrev main_v78 : Ref sig .tc := ⟨.hbm, 119, rfl⟩
abbrev main_c_7 : Ref sig .tc := ⟨.hbm, 120, rfl⟩
abbrev main_v79 : Ref sig .tc := ⟨.hbm, 121, rfl⟩
abbrev main_v80 : Ref sig .tc := ⟨.hbm, 122, rfl⟩
abbrev main_c_8 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_9 : Ref sig .tc := ⟨.hbm, 129, rfl⟩
abbrev main_v86 : Ref sig .tc := ⟨.hbm, 130, rfl⟩
abbrev main_v87 : Ref sig .tc := ⟨.hbm, 131, rfl⟩
abbrev main_c_10 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call3_cst : Ref sig .tc := ⟨.hbm, 147, rfl⟩
abbrev main_call3_v0 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_11 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_12 : Ref sig .tc := ⟨.hbm, 162, rfl⟩
abbrev main_v114 : Ref sig .tc := ⟨.hbm, 163, rfl⟩
abbrev main_v115 : Ref sig .tc := ⟨.hbm, 164, rfl⟩
abbrev main_c_13 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_call4_cst : Ref sig .tc := ⟨.hbm, 180, rfl⟩
abbrev main_call4_v0 : Ref sig .tc := ⟨.hbm, 181, rfl⟩
abbrev main_v130 : Ref sig .tc := ⟨.hbm, 182, rfl⟩
abbrev main_cst_14 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call5_cst : Ref sig .tc := ⟨.hbm, 196, rfl⟩
abbrev main_call5_v0 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_15 : Ref sig .tc := ⟨.hbm, 211, rfl⟩
abbrev main_v156 : Ref sig .tc := ⟨.hbm, 212, rfl⟩
abbrev main_cst_16 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_17 : Ref sig .tc := ⟨.hbm, 220, rfl⟩
abbrev main_v163 : Ref sig .tc := ⟨.hbm, 221, rfl⟩
abbrev main_cst_18 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_19 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_call6_cst : Ref sig .tc := ⟨.hbm, 241, rfl⟩
abbrev main_call6_v0 : Ref sig .tc := ⟨.hbm, 242, rfl⟩
abbrev main_v181 : Ref sig .tc := ⟨.hbm, 243, rfl⟩
abbrev main_v182 : Ref sig .tc := ⟨.hbm, 244, rfl⟩
abbrev main_cst_20 : Ref sig .tc := ⟨.hbm, 245, rfl⟩
abbrev main_v183 : Ref sig .tc := ⟨.hbm, 246, rfl⟩
abbrev main_v184 : Ref sig .tc := ⟨.hbm, 247, rfl⟩
abbrev main_c_21 : Ref sig .tc := ⟨.hbm, 248, rfl⟩
abbrev main_v185 : Ref sig .tc := ⟨.hbm, 249, rfl⟩
abbrev main_v186 : Ref sig .tc := ⟨.hbm, 250, rfl⟩
abbrev main_c_22 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_c_23 : Ref sig .tc := ⟨.hbm, 257, rfl⟩
abbrev main_v192 : Ref sig .tc := ⟨.hbm, 258, rfl⟩
abbrev main_v193 : Ref sig .tc := ⟨.hbm, 259, rfl⟩
abbrev main_c_24 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_call7_cst : Ref sig .tc := ⟨.hbm, 275, rfl⟩
abbrev main_call7_v0 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_cst_25 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_c_26 : Ref sig .tc := ⟨.hbm, 290, rfl⟩
abbrev main_v220 : Ref sig .tc := ⟨.hbm, 291, rfl⟩
abbrev main_v221 : Ref sig .tc := ⟨.hbm, 292, rfl⟩
abbrev main_c_27 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_c_28 : Ref sig .tc := ⟨.hbm, 299, rfl⟩
abbrev main_v227 : Ref sig .tc := ⟨.hbm, 300, rfl⟩
abbrev main_v228 : Ref sig .tc := ⟨.hbm, 301, rfl⟩
abbrev main_c_29 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_call8_cst : Ref sig .tc := ⟨.hbm, 309, rfl⟩
abbrev main_call8_v0 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_call9_cst : Ref sig .tc := ⟨.hbm, 317, rfl⟩
abbrev main_call9_v0 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_call10_cst : Ref sig .tc := ⟨.hbm, 324, rfl⟩
abbrev main_call10_v0 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S640000x64_0_1 : S1x64.BroadcastsInDim S640000x64 (![0, 1] : Fin 2 → Fin S640000x64.rank)
  bcast_S_S640000 : S_.BroadcastsInDim S640000 (![] : Fin 0 → Fin S640000.rank)
  bcast_S640000_S640000x1_0 : S640000.BroadcastsInDim S640000x1 (![0] : Fin 1 → Fin S640000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S640000x64 : S_.BroadcastsInDim S640000x64 (![] : Fin 0 → Fin S640000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  concatenates_S640000x64_S640000x64_S640000x64_S640000x192_d1 : Shape.Concatenates [S640000x64, S640000x64, S640000x64] S640000x192 1
  slices_S2x192x64_S1x192x64_0_0_0 : S2x192x64.Slices ![0, 0, 0] S1x192x64
  shapeCasts_S1x192x64_S192x64 : S1x192x64.ShapeCasts S192x64
  slices_S2x64x64_S1x64x64_1_0_0 : S2x64x64.Slices ![1, 0, 0] S1x64x64
  slices_S2x64_S1x64_1_0 : S2x64.Slices ![1, 0] S1x64
  slices_S2x192x64_S1x192x64_1_0_0 : S2x192x64.Slices ![1, 0, 0] S1x192x64
  concatenates_S640000x64_S640000x64_S640000x128_d1 : Shape.Concatenates [S640000x64, S640000x64] S640000x128 1
  bcast_S_S640000x128 : S_.BroadcastsInDim S640000x128 (![] : Fin 0 → Fin S640000x128.rank)
  concatenates_S640000x128_S640000x64_S640000x192_d1 : Shape.Concatenates [S640000x128, S640000x64] S640000x192 1
  bcast_S50_S1x50_1 : S50.BroadcastsInDim S1x50 (![1] : Fin 1 → Fin S1x50.rank)
  bcast_S1x50_S640000x50_0_1 : S1x50.BroadcastsInDim S640000x50 (![0, 1] : Fin 2 → Fin S640000x50.rank)
  bcast_S_S640000x50 : S_.BroadcastsInDim S640000x50 (![] : Fin 0 → Fin S640000x50.rank)
  bcast_S25_S1x25_1 : S25.BroadcastsInDim S1x25 (![1] : Fin 1 → Fin S1x25.rank)
  bcast_S1x25_S640000x25_0_1 : S1x25.BroadcastsInDim S640000x25 (![0, 1] : Fin 2 → Fin S640000x25.rank)
  bcast_S_S640000x25 : S_.BroadcastsInDim S640000x25 (![] : Fin 0 → Fin S640000x25.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  dot_S100000x32_S32x64_S100000x64_1_0_0_1_n_n_wf : DotDims.WF S100000x32 S32x64 S100000x64 [1] [0] [0] [1] [] []
  dot_S640000x16_S16x64_S640000x64_1_0_0_1_n_n_wf : DotDims.WF S640000x16 S16x64 S640000x64 [1] [0] [0] [1] [] []
  gather_S100000x64_S640000x1_S640000x64_1_0_n_n_0_1_164_wf : GatherDims.WF S100000x64 S640000x1 S640000x64 [1] [0] [] [0] [] 1 ![1, 64]
  dot_S640000x64_S64x64_S640000x64_1_0_0_1_n_n_wf : DotDims.WF S640000x64 S64x64 S640000x64 [1] [0] [0] [1] [] []
  scatter_S100000x64_S640000x1_S640000x64_1_0_0_1_wf : ScatterDims.WF S100000x64 S640000x1 S640000x64 [1] [0] [0] 1
  dot_S100000x64_S64x64_S100000x64_1_0_0_1_n_n_wf : DotDims.WF S100000x64 S64x64 S100000x64 [1] [0] [0] [1] [] []
  dot_S640000x192_S192x64_S640000x64_1_0_0_1_n_n_wf : DotDims.WF S640000x192 S192x64 S640000x64 [1] [0] [0] [1] [] []
  dot_S640000x192_S192x50_S640000x50_1_0_0_1_n_n_wf : DotDims.WF S640000x192 S192x50 S640000x50 [1] [0] [0] [1] [] []
  dot_S640000x50_S50x25_S640000x25_1_0_0_1_n_n_wf : DotDims.WF S640000x50 S50x25 S640000x25 [1] [0] [0] [1] [] []
  dot_S640000x25_S25x1_S640000x1_1_0_0_1_n_n_wf : DotDims.WF S640000x25 S25x1 S640000x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S640000x16_S16x64_S640000x64_1_0_0_1_n_n : DotDims S640000x16 S16x64 S640000x64 where
  lhsContracting := [1]
  rhsContracting := [0]
  lhsNonContracting := [0]
  rhsNonContracting := [1]
  lhsBatch := []
  rhsBatch := []
  wf := dot_S640000x16_S16x64_S640000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def dot_S640000x64_S64x64_S640000x64_1_0_0_1_n_n : DotDims S640000x64 S64x64 S640000x64 where
  lhsContracting := [1]
  rhsContracting := [0]
  lhsNonContracting := [0]
  rhsNonContracting := [1]
  lhsBatch := []
  rhsBatch := []
  wf := dot_S640000x64_S64x64_S640000x64_1_0_0_1_n_n_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S640000x192_S192x64_S640000x64_1_0_0_1_n_n : DotDims S640000x192 S192x64 S640000x64 where
  lhsContracting := [1]
  rhsContracting := [0]
  lhsNonContracting := [0]
  rhsNonContracting := [1]
  lhsBatch := []
  rhsBatch := []
  wf := dot_S640000x192_S192x64_S640000x64_1_0_0_1_n_n_wf
def dot_S640000x192_S192x50_S640000x50_1_0_0_1_n_n : DotDims S640000x192 S192x50 S640000x50 where
  lhsContracting := [1]
  rhsContracting := [0]
  lhsNonContracting := [0]
  rhsNonContracting := [1]
  lhsBatch := []
  rhsBatch := []
  wf := dot_S640000x192_S192x50_S640000x50_1_0_0_1_n_n_wf
def dot_S640000x50_S50x25_S640000x25_1_0_0_1_n_n : DotDims S640000x50 S50x25 S640000x25 where
  lhsContracting := [1]
  rhsContracting := [0]
  lhsNonContracting := [0]
  rhsNonContracting := [1]
  lhsBatch := []
  rhsBatch := []
  wf := dot_S640000x50_S50x25_S640000x25_1_0_0_1_n_n_wf
def dot_S640000x25_S25x1_S640000x1_1_0_0_1_n_n : DotDims S640000x25 S25x1 S640000x1 where
  lhsContracting := [1]
  rhsContracting := [0]
  lhsNonContracting := [0]
  rhsNonContracting := [1]
  lhsBatch := []
  rhsBatch := []
  wf := dot_S640000x25_S25x1_S640000x1_1_0_0_1_n_n_wf

class Facts : Prop extends Facts₀ where

variable [Facts]
-- ==== Proof.Spec.lean ====
/-
  The network's stages as whole-array functions over the extended reals, index by index.

  Every stage is row-local: row `p` of a result depends on row `p` of the row-tiled operands and on the whole of the
  small weight arrays. `lin` is a matrix product with a bias row; `msg` adds a gathered row before the rectifier;
  `conv` is two such layers on the sum of two arrays; `colsum` and `colsumsq` are the column sums of an array and
  of its squares; `bnres` normalises a column by a given mean and variance, rectifies, adds the residual and halves;
  `emlp` runs two layers on three arrays joined side by side and adds half of the result to the third; `readout`
  is the three-layer read-out on the rectified join of two arrays joined with a third.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Mat (r c : Nat) : Type := (⟨2, ![r, c]⟩ : Shape).Idx → EReal

/-- The variance's guard, the float pattern of 1e-5 read exactly. -/
abbrev eps : EReal := Ideal.ofBits .f32 0x3727C5AC#32
/-- One half, as the float pattern of 0.5. -/
abbrev half : EReal := Ideal.ofBits .f32 0x3F000000#32

/-- `x · w + b`: entry `(p, q)` is the sum over `k` of `x p k * w k q`, plus `b 0 q`. -/
def lin {M K N : Nat} (x : Mat M K) (w : Mat K N) (b : Mat 1 N) : Mat M N :=
  fun i => (∑ k : Fin K, x (ix2 (i 0) k) * w (ix2 k (i 1))) + b (ix2 (0 : Fin 1) (i 1))

/-- The rectifier, entry by entry. -/
def relu {M N : Nat} (x : Mat M N) : Mat M N := fun i => max (x i) 0

/-- The message of an edge: the gathered source row plus the edge's linear image, rectified. -/
def msg {M : Nat} (e : Mat M 64) (w : Mat 64 64) (b : Mat 1 64) (xs : Mat M 64) : Mat M 64 :=
  fun i => max (xs i + lin e w b i) 0

/-- The node update before normalisation: two layers on `x + agg`, the first rectified. -/
def conv {M : Nat} (x agg : Mat M 64) (w1 : Mat 64 64) (b1 : Mat 1 64) (w2 : Mat 64 64) (b2 : Mat 1 64) : Mat M 64 :=
  lin (relu (lin (fun j => x j + agg j) w1 b1)) w2 b2

/-- The column sums of an array, as a one-row array. -/
def colsum {M : Nat} (h : Mat M 64) : Mat 1 64 := fun i => ∑ p : Fin M, h (ix2 p (i 1))

/-- The column sums of the squares. -/
def colsumsq {M : Nat} (h : Mat M 64) : Mat 1 64 := fun i => ∑ p : Fin M, h (ix2 p (i 1)) * h (ix2 p (i 1))

/-- Normalise by a given mean and variance, scale and shift, rectify, add the residual `x`, halve. -/
def bnres {M : Nat} (h x : Mat M 64) (mean var gamma beta : Mat 1 64) : Mat M 64 :=
  fun i => (x i + max (gamma (ix2 (0 : Fin 1) (i 1)) * (h i - mean (ix2 (0 : Fin 1) (i 1)))
      * Ideal.rsqrt (var (ix2 (0 : Fin 1) (i 1)) + eps) + beta (ix2 (0 : Fin 1) (i 1))) 0) * half

/-- Three arrays of 64 columns side by side: columns 0–63, 64–127, 128–191. -/
def cat3 {M : Nat} (a b c : Mat M 64) : Mat M 192 :=
  fun i => if h : (i 1).val < 64 then a (ix2 (i 0) ⟨(i 1).val, h⟩)
    else if h' : (i 1).val < 128 then b (ix2 (i 0) ⟨(i 1).val - 64, by omega⟩)
    else c (ix2 (i 0) ⟨(i 1).val - 128, by have := idx2_lt1 i; omega⟩)

/-- The edge update: two layers on the join, the first rectified; half of it added to `e`. -/
def emlp {M : Nat} (xs xd e : Mat M 64) (w1 : Mat 192 64) (b1 : Mat 1 64) (w2 : Mat 64 64) (b2 : Mat 1 64) : Mat M 64 :=
  fun i => e i + lin (relu (lin (cat3 xs xd e) w1 b1)) w2 b2 i * half

/-- The read-out's operand: the rectified join of the two gathered arrays, joined with `e` (not rectified). -/
def catRelu {M : Nat} (a b c : Mat M 64) : Mat M 192 :=
  fun i => if h : (i 1).val < 64 then max (a (ix2 (i 0) ⟨(i 1).val, h⟩)) 0
    else if h' : (i 1).val < 128 then max (b (ix2 (i 0) ⟨(i 1).val - 64, by omega⟩)) 0
    else c (ix2 (i 0) ⟨(i 1).val - 128, by have := idx2_lt1 i; omega⟩)

/-- The read-out: three layers, the first two rectified. -/
def readout {M : Nat} (xs xd e : Mat M 64) (w1 : Mat 192 50) (b1 : Mat 1 50) (w2 : Mat 50 25) (b2 : Mat 1 25)
    (w3 : Mat 25 1) (b3 : Mat 1 1) : Mat M 1 :=
  lin (relu (lin (relu (lin (catRelu xs xd e) w1 b1)) w2 b2)) w3 b3

/-! ## Small re-layouts and the reference's spellings -/

/-- A rank-1 array of extended reals. -/
abbrev Vec1 (n : Nat) : Type := (⟨1, ![n]⟩ : Shape).Idx → EReal

/-- The divisor 2 and the count 100000, as float patterns. -/
abbrev two : EReal := Ideal.ofBits .f32 0x40000000#32
abbrev cnt : EReal := Ideal.ofBits .f32 0x47C35000#32

/-- A rank-1 array as a one-row array. -/
def row {n : Nat} (b : Vec1 n) : Mat 1 n := fun i => b (ix1 (i 1))

/-- Layer `l` of a stack of two matrices. -/
def sl {r c : Nat} (l : Fin 2) (A : (⟨3, ![2, r, c]⟩ : Shape).Idx → EReal) : Mat r c := fun i => A (ix3 l (i 0) (i 1))

/-- Layer `l` of a stack of two rows. -/
def slRow {n : Nat} (l : Fin 2) (A : (⟨2, ![2, n]⟩ : Shape).Idx → EReal) : Vec1 n := fun i => A (ix2 l (i 0))

/-- `bnres` in the reference's spelling: mean, variance, scale and shift as rank-1 arrays, and the average taken
    by dividing by two. -/
def bnresRef {M : Nat} (h x : Mat M 64) (mean var gamma beta : Vec1 64) : Mat M 64 :=
  fun i => Ideal.div (x i + max (gamma (ix1 (i 1)) * (h i - mean (ix1 (i 1))) * Ideal.rsqrt (var (ix1 (i 1)) + eps)
      + beta (ix1 (i 1))) 0) two

end Cert.Spec

end
-- ==== Proof.Net.lean ====
/-
  The whole network as one function of its arguments, in two spellings.

  Both programs compute: a node embedding and an edge embedding (`lin`); twice, a message per edge from the gathered
  source row, its sum at the destination node, the node update, its batch normalisation with residual, and the edge
  update from the gathered endpoint rows; then the read-out per edge. The gathers and the scatter-sum are the same
  host operations of the same index arrays in both programs, so here they are three given functions `gS`, `gD`, `sc`.
  The two spellings differ in the normalisation's statistics only: one takes the variance as the mean of the squares
  minus the squared mean and averages by a factor one half, the other takes the mean of the squared deviations and
  averages by dividing by two.
-/
import proofs.«156771_j85263690760421_1_alg».proof.Proof.Spec

noncomputable section

open scoped BigOperators

namespace Cert.Spec

open Idealize.ShloMosaic Idealize.ShloMosaic.ValueIdx

/-- The arguments: the two feature arrays, the weights (stacked per layer where the network has two layers), and the
    three index-driven host functions. -/
structure Args where
  x : Mat 100000 32
  ea : Mat 640000 16
  nw : Mat 32 64
  nb : Vec1 64
  ew : Mat 16 64
  eb : Vec1 64
  lw : (⟨3, ![2, 64, 64]⟩ : Shape).Idx → EReal
  lb : (⟨2, ![2, 64]⟩ : Shape).Idx → EReal
  cw1 : (⟨3, ![2, 64, 64]⟩ : Shape).Idx → EReal
  cb1 : (⟨2, ![2, 64]⟩ : Shape).Idx → EReal
  cw2 : (⟨3, ![2, 64, 64]⟩ : Shape).Idx → EReal
  cb2 : (⟨2, ![2, 64]⟩ : Shape).Idx → EReal
  mw1 : (⟨3, ![2, 192, 64]⟩ : Shape).Idx → EReal
  mb1 : (⟨2, ![2, 64]⟩ : Shape).Idx → EReal
  mw2 : (⟨3, ![2, 64, 64]⟩ : Shape).Idx → EReal
  mb2 : (⟨2, ![2, 64]⟩ : Shape).Idx → EReal
  gam : (⟨2, ![2, 64]⟩ : Shape).Idx → EReal
  bet : (⟨2, ![2, 64]⟩ : Shape).Idx → EReal
  rw1 : Mat 192 50
  rb1 : Vec1 50
  rw2 : Mat 50 25
  rb2 : Vec1 25
  rw3 : Mat 25 1
  rb3 : Vec1 1
  gS : Mat 100000 64 → Mat 640000 64
  gD : Mat 100000 64 → Mat 640000 64
  sc : Mat 640000 64 → Mat 100000 64

/-! ## The statistics, in the two spellings -/

/-- The column means as a one-row array: the column sums over the count. -/
def meanK (h : Mat 100000 64) : Mat 1 64 := fun i => Ideal.div (colsum h (ix2 (0 : Fin 1) (i 1))) cnt

/-- The variance as the mean of the squares minus the squared mean. -/
def varK (h : Mat 100000 64) : Mat 1 64 :=
  fun i => Ideal.div (colsumsq h (ix2 (0 : Fin 1) (i 1))) cnt - meanK h i * meanK h i

/-- The column means as a rank-1 array (the sum started from zero). -/
def meanR (h : Mat 100000 64) : Vec1 64 := fun j => Ideal.div (0 + ∑ p : Fin 100000, h (ix2 p (j 0))) cnt

/-- The variance as the mean of the squared deviations. -/
def varR (h : Mat 100000 64) : Vec1 64 :=
  fun j => Ideal.div (0 + ∑ p : Fin 100000, (h (ix2 p (j 0)) - meanR h j) * (h (ix2 p (j 0)) - meanR h j)) cnt

/-- The edge update with the average taken by dividing by two. -/
def emlpRef {M : Nat} (xs xd e : Mat M 64) (w1 : Mat 192 64) (b1 : Mat 1 64) (w2 : Mat 64 64) (b2 : Mat 1 64) : Mat M 64 :=
  fun i => e i + Ideal.div (lin (relu (lin (cat3 xs xd e) w1 b1)) w2 b2 i) two

/-! ## One layer and the network -/

/-- The node update before normalisation, of layer `l`. -/
def preNorm (A : Args) (l : Fin 2) (x : Mat 100000 64) (e : Mat 640000 64) : Mat 100000 64 :=
  conv x (A.sc (msg e (sl l A.lw) (row (slRow l A.lb)) (A.gS x))) (sl l A.cw1) (row (slRow l A.cb1)) (sl l A.cw2) (row (slRow l A.cb2))

def nodeK (A : Args) (l : Fin 2) (x : Mat 100000 64) (e : Mat 640000 64) : Mat 100000 64 :=
  bnres (preNorm A l x e) x (meanK (preNorm A l x e)) (varK (preNorm A l x e)) (row (slRow l A.gam)) (row (slRow l A.bet))

def edgeK (A : Args) (l : Fin 2) (x' : Mat 100000 64) (e : Mat 640000 64) : Mat 640000 64 :=
  emlp (A.gS x') (A.gD x') e (sl l A.mw1) (row (slRow l A.mb1)) (sl l A.mw2) (row (slRow l A.mb2))

def nodeR (A : Args) (l : Fin 2) (x : Mat 100000 64) (e : Mat 640000 64) : Mat 100000 64 :=
  bnresRef (preNorm A l x e) x (meanR (preNorm A l x e)) (varR (preNorm A l x e)) (slRow l A.gam) (slRow l A.bet)

def edgeR (A : Args) (l : Fin 2) (x' : Mat 100000 64) (e : Mat 640000 64) : Mat 640000 64 :=
  emlpRef (A.gS x') (A.gD x') e (sl l A.mw1) (row (slRow l A.mb1)) (sl l A.mw2) (row (slRow l A.mb2))

def x0 (A : Args) : Mat 100000 64 := lin A.x A.nw (row A.nb)
def e0 (A : Args) : Mat 640000 64 := lin A.ea A.ew (row A.eb)

def x1K (A : Args) : Mat 100000 64 := nodeK A 0 (x0 A) (e0 A)
def e1K (A : Args) : Mat 640000 64 := edgeK A 0 (x1K A) (e0 A)
def x2K (A : Args) : Mat 100000 64 := nodeK A 1 (x1K A) (e1K A)
def e2K (A : Args) : Mat 640000 64 := edgeK A 1 (x2K A) (e1K A)
def logitK (A : Args) : Mat 640000 1 :=
  readout (A.gS (x2K A)) (A.gD (x2K A)) (e2K A) A.rw1 (row A.rb1) A.rw2 (row A.rb2) A.rw3 (row A.rb3)

def x1R (A : Args) : Mat 100000 64 := nodeR A 0 (x0 A) (e0 A)
def e1R (A : Args) : Mat 640000 64 := edgeR A 0 (x1R A) (e0 A)
def x2R (A : Args) : Mat 100000 64 := nodeR A 1 (x1R A) (e1R A)
def e2R (A : Args) : Mat 640000 64 := edgeR A 1 (x2R A) (e1R A)
def logitR (A : Args) : Mat 640000 1 :=
  readout (A.gS (x2R A)) (A.gD (x2R A)) (e2R A) A.rw1 (row A.rb1) A.rw2 (row A.rb2) A.rw3 (row A.rb3)

/-- Every entry of an array is finite. -/
def AllReal {ι : Type} (a : ι → EReal) : Prop := ∀ i, ∃ r : ℝ, a i = (r : EReal)

/-- The arguments are finite and the three host functions keep arrays finite. -/
structure Args.Finite (A : Args) : Prop where
  x : AllReal A.x
  ea : AllReal A.ea
  nw : AllReal A.nw
  nb : AllReal A.nb
  ew : AllReal A.ew
  eb : AllReal A.eb
  lw : AllReal A.lw
  lb : AllReal A.lb
  cw1 : AllReal A.cw1
  cb1 : AllReal A.cb1
  cw2 : AllReal A.cw2
  cb2 : AllReal A.cb2
  mw1 : AllReal A.mw1
  mb1 : AllReal A.mb1
  mw2 : AllReal A.mw2
  mb2 : AllReal A.mb2
  gam : AllReal A.gam
  bet : AllReal A.bet
  gS : ∀ a, AllReal a → AllReal (A.gS a)
  gD : ∀ a, AllReal a → AllReal (A.gD a)
  sc : ∀ a, AllReal a → AllReal (A.sc a)

end Cert.Spec

end
-- ==== Proof.Real.lean ====
/-
  Finite entries and the variance identity.

  An extended real is FINITE when it is the image of a real number. Sums, products, differences and maxima with
  zero of finite extended reals are finite, the reciprocal square root of a positive real is finite, and a quotient
  by a nonzero real is the product with its reciprocal. For finitely many finite entries the mean of the squares
  minus the square of the mean is the mean of the squared deviations from the mean: both are the real number
  (Σ f²)/n − (Σ f / n)², by expanding the square and using Σ f = n · mean.
-/
import Idealize.ShloMosaic.PureOps.Ideal

noncomputable section

open scoped BigOperators

namespace Cert.Spec

open Idealize.ShloMosaic

/-- An extended real that is the image of a real number. -/
def IsReal (x : EReal) : Prop := ∃ r : ℝ, x = (r : EReal)

theorem IsReal.zero : IsReal 0 := ⟨0, rfl⟩

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  exact ⟨max a 0, by rw [EReal.coe_strictMono.monotone.map_max, EReal.coe_zero]⟩

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by a nonzero real is finite when the dividend is. -/
theorem IsReal.div_coe {x : EReal} (hx : IsReal x) {y : ℝ} (hy : y ≠ 0) : IsReal (Ideal.div x (y : EReal)) := by
  rw [Ideal.div_coe hy]; exact hx.mul (IsReal.coe _)

/-- The reciprocal square root of a positive real is finite. -/
theorem IsReal.rsqrt_pos {r : ℝ} (hr : 0 < r) : IsReal (Ideal.rsqrt (r : EReal)) := by
  rw [Ideal.rsqrt_coe, if_neg (not_lt.mpr hr.le), if_neg hr.ne']
  exact IsReal.coe _

/-- Over the reals: the mean of the squares minus the squared mean is the mean of the squared deviations. -/
theorem var_identity_real {n : ℕ} (hn : (n : ℝ) ≠ 0) (f : Fin n → ℝ) :
    (∑ p, f p * f p) * (1 / (n : ℝ)) - ((∑ p, f p) * (1 / (n : ℝ))) * ((∑ p, f p) * (1 / (n : ℝ)))
      = (∑ p, (f p - (∑ p, f p) * (1 / (n : ℝ))) * (f p - (∑ p, f p) * (1 / (n : ℝ)))) * (1 / (n : ℝ)) := by
  generalize hμ : (∑ p, f p) * (1 / (n : ℝ)) = μ
  have hS : (∑ p, f p) = (n : ℝ) * μ := by rw [← hμ]; field_simp
  have h1 : (∑ p, (f p - μ) * (f p - μ)) = (∑ p, f p * f p) - 2 * μ * (∑ p, f p) + (n : ℝ) * (μ * μ) := by
    have : ∀ p, (f p - μ) * (f p - μ) = f p * f p - 2 * μ * f p + μ * μ := fun p => by ring
    simp only [this, Finset.sum_add_distrib, Finset.sum_sub_distrib, ← Finset.mul_sum, Finset.sum_const,
      Finset.card_univ, Fintype.card_fin, nsmul_eq_mul]
    ring
  rw [h1, hS]; field_simp; ring

/-- The variance identity on finite extended reals, in the two programs' spellings: quotients by the real `n`. -/
theorem var_identity {n : ℕ} (hn : (n : ℝ) ≠ 0) (h : Fin n → EReal) (hfin : ∀ p, IsReal (h p)) :
    Ideal.div (∑ p, h p * h p) ((n : ℝ) : EReal)
        - Ideal.div (∑ p, h p) ((n : ℝ) : EReal) * Ideal.div (∑ p, h p) ((n : ℝ) : EReal)
      = Ideal.div (∑ p, (h p - Ideal.div (∑ p, h p) ((n : ℝ) : EReal)) * (h p - Ideal.div (∑ p, h p) ((n : ℝ) : EReal)))
          ((n : ℝ) : EReal) := by
  choose f hf using hfin
  have hh : h = fun p => (f p : EReal) := funext hf
  subst hh
  simp only [Ideal.div_coe hn, ← EReal.coe_mul, ← coe_sum, ← EReal.coe_sub]
  exact congrArg _ (var_identity_real hn f)

end Cert.Spec

end
-- ==== Proof.Consts.lean ====
/-
  The float patterns the two programs spell, as the extended reals they denote: the divisor 100000 of the means,
  the divisor 2 and the factor one half of the residual averages, and the variance's guard, a positive real.
-/
import Idealize.ShloMosaic.PureOps.Ideal

noncomputable section

namespace Cert.Consts

open Idealize.ShloMosaic

/-- The pattern of `1.0e5` denotes the real `100000`. -/
theorem ofBits_1e5 : Ideal.ofBits .f32 0x47C35000#32 = ((100000 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The variance's guard denotes a positive real. -/
theorem ofBits_eps : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

end Cert.Consts

end
-- ==== Proof.NetEq.lean ====
/-
  The two spellings of the network agree on finite arguments.

  Every stage keeps arrays finite: a linear layer is a finite sum of products plus a bias, the rectifier is a maximum
  with zero, the joins only select entries, and the normalisation is finite as soon as the guarded variance is a
  positive real, because the reciprocal square root of a positive real is a real. On a finite array the two spellings
  of the statistics agree: the means differ by a leading zero of the sum only, and the mean of the squares minus the
  squared mean is the mean of the squared deviations. In the second form the variance is a sum of squares of reals
  times 1/100000, hence a nonnegative real, and the guard is a positive real, so the guarded variance is positive.
  Dividing by two is multiplying by one half on every extended real, so the residual averages agree with no
  finiteness needed. The network's equality then follows stage by stage.
-/
import proofs.«156771_j85263690760421_1_alg».proof.Proof.Spec
import proofs.«156771_j85263690760421_1_alg».proof.Proof.Real
import proofs.«156771_j85263690760421_1_alg».proof.Proof.Consts
import proofs.«156771_j85263690760421_1_alg».proof.Proof.Net

noncomputable section

open scoped BigOperators

namespace Cert.Spec

open Idealize.ShloMosaic Idealize.ShloMosaic.ValueIdx

/-! ## Finiteness through the stages -/

/-- One half is finite. -/
theorem isReal_half : IsReal half := ⟨_, Cert.Consts.ofBits_half⟩

theorem cnt_eq : cnt = ((100000 : ℝ) : EReal) := Cert.Consts.ofBits_1e5

theorem cnt_eq_cast : cnt = (((100000 : ℕ) : ℝ) : EReal) := by
  rw [Nat.cast_ofNat]; exact Cert.Consts.ofBits_1e5

theorem allReal_row {n : Nat} {b : Vec1 n} (hb : AllReal b) : AllReal (row b) := fun _ => hb _

theorem allReal_sl {r c : Nat} (l : Fin 2) {A : (⟨3, ![2, r, c]⟩ : Shape).Idx → EReal} (hA : AllReal A) :
    AllReal (sl l A) := fun _ => hA _

theorem allReal_slRow {n : Nat} (l : Fin 2) {A : (⟨2, ![2, n]⟩ : Shape).Idx → EReal} (hA : AllReal A) :
    AllReal (slRow l A) := fun _ => hA _

theorem allReal_lin {M K N : Nat} {x : Mat M K} {w : Mat K N} {b : Mat 1 N}
    (hx : AllReal x) (hw : AllReal w) (hb : AllReal b) : AllReal (lin x w b) := by
  intro i
  show IsReal ((∑ k : Fin K, x (ix2 (i 0) k) * w (ix2 k (i 1))) + b (ix2 (0 : Fin 1) (i 1)))
  exact IsReal.add (IsReal.sum _ _ fun k _ => IsReal.mul (hx _) (hw _)) (hb _)

theorem allReal_relu {M N : Nat} {x : Mat M N} (hx : AllReal x) : AllReal (relu x) := by
  intro i
  show IsReal (max (x i) 0)
  exact IsReal.max_zero (hx i)

theorem allReal_msg {M : Nat} {e : Mat M 64} {w : Mat 64 64} {b : Mat 1 64} {xs : Mat M 64}
    (he : AllReal e) (hw : AllReal w) (hb : AllReal b) (hxs : AllReal xs) : AllReal (msg e w b xs) := by
  intro i
  show IsReal (max (xs i + lin e w b i) 0)
  exact IsReal.max_zero (IsReal.add (hxs i) (allReal_lin he hw hb i))

theorem allReal_conv {M : Nat} {x agg : Mat M 64} {w1 : Mat 64 64} {b1 : Mat 1 64} {w2 : Mat 64 64} {b2 : Mat 1 64}
    (hx : AllReal x) (ha : AllReal agg) (hw1 : AllReal w1) (hb1 : AllReal b1) (hw2 : AllReal w2) (hb2 : AllReal b2) :
    AllReal (conv x agg w1 b1 w2 b2) := by
  have h0 : AllReal (fun j => x j + agg j) := fun j => IsReal.add (hx j) (ha j)
  exact allReal_lin (allReal_relu (allReal_lin h0 hw1 hb1)) hw2 hb2

theorem allReal_cat3 {M : Nat} {a b c : Mat M 64} (ha : AllReal a) (hb : AllReal b) (hc : AllReal c) :
    AllReal (cat3 a b c) := by
  intro i
  show IsReal (cat3 a b c i)
  unfold cat3
  split_ifs
  · exact ha _
  · exact hb _
  · exact hc _

theorem allReal_emlp {M : Nat} {xs xd e : Mat M 64} {w1 : Mat 192 64} {b1 : Mat 1 64} {w2 : Mat 64 64} {b2 : Mat 1 64}
    (hxs : AllReal xs) (hxd : AllReal xd) (he : AllReal e) (hw1 : AllReal w1) (hb1 : AllReal b1)
    (hw2 : AllReal w2) (hb2 : AllReal b2) : AllReal (emlp xs xd e w1 b1 w2 b2) := by
  intro i
  show IsReal (e i + lin (relu (lin (cat3 xs xd e) w1 b1)) w2 b2 i * half)
  exact IsReal.add (he i)
    (IsReal.mul (allReal_lin (allReal_relu (allReal_lin (allReal_cat3 hxs hxd he) hw1 hb1)) hw2 hb2 i) isReal_half)

/-- The normalisation keeps arrays finite when the guarded variance is a positive real. -/
theorem allReal_bnres {M : Nat} {h x : Mat M 64} {mean var gamma beta : Mat 1 64}
    (hh : AllReal h) (hx : AllReal x) (hm : AllReal mean) (hg : AllReal gamma) (hb : AllReal beta)
    (hv : ∀ i, ∃ r : ℝ, 0 < r ∧ var i + eps = (r : EReal)) : AllReal (bnres h x mean var gamma beta) := by
  intro i
  obtain ⟨r, hr, hre⟩ := hv (ix2 (0 : Fin 1) (i 1))
  show IsReal ((x i + max (gamma (ix2 (0 : Fin 1) (i 1)) * (h i - mean (ix2 (0 : Fin 1) (i 1)))
      * Ideal.rsqrt (var (ix2 (0 : Fin 1) (i 1)) + eps) + beta (ix2 (0 : Fin 1) (i 1))) 0) * half)
  rw [hre]
  exact IsReal.mul (IsReal.add (hx i) (IsReal.max_zero (IsReal.add
    (IsReal.mul (IsReal.mul (hg _) (IsReal.sub (hh i) (hm _))) (IsReal.rsqrt_pos hr)) (hb _)))) isReal_half

/-! ## The statistics agree on a finite array -/

/-- The two spellings of the column means agree on every array. -/
theorem row_meanR (h : Mat 100000 64) : row (meanR h) = meanK h := by
  funext i
  show Ideal.div (0 + ∑ p : Fin 100000, h (ix2 p (i 1))) cnt = Ideal.div (∑ p : Fin 100000, h (ix2 p (i 1))) cnt
  rw [zero_add]

/-- The two spellings of the variance agree on a finite array. -/
theorem row_varR {h : Mat 100000 64} (hh : AllReal h) : row (varR h) = varK h := by
  funext i
  have key := var_identity (n := 100000) (by norm_num) (fun p => h (ix2 p (i 1))) (fun p => hh _)
  show Ideal.div (0 + ∑ p : Fin 100000,
        (h (ix2 p (i 1)) - Ideal.div (0 + ∑ p : Fin 100000, h (ix2 p (i 1))) cnt)
          * (h (ix2 p (i 1)) - Ideal.div (0 + ∑ p : Fin 100000, h (ix2 p (i 1))) cnt)) cnt
      = Ideal.div (∑ p : Fin 100000, h (ix2 p (i 1)) * h (ix2 p (i 1))) cnt
          - Ideal.div (∑ p : Fin 100000, h (ix2 p (i 1))) cnt * Ideal.div (∑ p : Fin 100000, h (ix2 p (i 1))) cnt
  rw [zero_add, zero_add, cnt_eq_cast]
  exact key.symm

theorem allReal_meanK {h : Mat 100000 64} (hh : AllReal h) : AllReal (meanK h) := by
  intro i
  show IsReal (Ideal.div (∑ p : Fin 100000, h (ix2 p (i 1))) cnt)
  rw [cnt_eq]
  exact IsReal.div_coe (IsReal.sum _ _ fun p _ => hh _) (by norm_num)

/-- A finite sum of squares of finite entries is a nonnegative real. -/
theorem sum_sq_nonneg {n : ℕ} (g : Fin n → EReal) (hg : ∀ p, IsReal (g p)) :
    ∃ r : ℝ, 0 ≤ r ∧ ∑ p, g p * g p = (r : EReal) := by
  choose f hf using hg
  refine ⟨∑ p, f p * f p, Finset.sum_nonneg fun p _ => mul_self_nonneg (f p), ?_⟩
  rw [coe_sum]
  exact Finset.sum_congr rfl fun p _ => by rw [hf p, EReal.coe_mul]

/-- The guarded variance of a finite array is a positive real. -/
theorem varK_add_eps_pos {h : Mat 100000 64} (hh : AllReal h) (i : (⟨2, ![1, 64]⟩ : Shape).Idx) :
    ∃ r : ℝ, 0 < r ∧ varK h i + eps = (r : EReal) := by
  obtain ⟨e, he, (hee : eps = (e : EReal))⟩ := Cert.Consts.ofBits_eps
  have hmean : IsReal (meanR h (ix1 (i 1))) := by
    have := allReal_meanK hh i
    rw [← row_meanR] at this
    exact this
  obtain ⟨s, hs, hse⟩ := sum_sq_nonneg (fun p : Fin 100000 => h (ix2 p (i 1)) - meanR h (ix1 (i 1)))
    (fun p => IsReal.sub (hh _) hmean)
  have hse' : ∑ p : Fin 100000, (h (ix2 p (i 1)) - meanR h (ix1 (i 1))) * (h (ix2 p (i 1)) - meanR h (ix1 (i 1)))
      = (s : EReal) := hse
  refine ⟨s * (1 / 100000) + e, by have := mul_nonneg hs (by norm_num : (0 : ℝ) ≤ 1 / 100000); linarith, ?_⟩
  rw [← row_varR hh]
  show Ideal.div (0 + ∑ p : Fin 100000,
      (h (ix2 p (i 1)) - meanR h (ix1 (i 1))) * (h (ix2 p (i 1)) - meanR h (ix1 (i 1)))) cnt + eps = _
  rw [zero_add, hse', hee, cnt_eq, Ideal.div_coe (by norm_num), ← EReal.coe_mul, ← EReal.coe_add]

/-! ## Dividing by two is multiplying by one half -/

theorem div_two (y : EReal) : Ideal.div y two = y * half := by
  rw [show two = ((2 : ℝ) : EReal) from Cert.Consts.ofBits_two, Ideal.div_coe (by norm_num : (2 : ℝ) ≠ 0),
    show half = ((1 / 2 : ℝ) : EReal) from Cert.Consts.ofBits_half]

theorem bnresRef_eq {M : Nat} (h x : Mat M 64) (mean var gamma beta : Vec1 64) :
    bnresRef h x mean var gamma beta = bnres h x (row mean) (row var) (row gamma) (row beta) := by
  funext i
  exact div_two _

theorem emlpRef_eq {M : Nat} (xs xd e : Mat M 64) (w1 : Mat 192 64) (b1 : Mat 1 64) (w2 : Mat 64 64) (b2 : Mat 1 64) :
    emlpRef xs xd e w1 b1 w2 b2 = emlp xs xd e w1 b1 w2 b2 := by
  funext i
  show e i + Ideal.div (lin (relu (lin (cat3 xs xd e) w1 b1)) w2 b2 i) two
    = e i + lin (relu (lin (cat3 xs xd e) w1 b1)) w2 b2 i * half
  rw [div_two]

/-! ## One layer, then the network -/

theorem allReal_preNorm (A : Args) (hA : A.Finite) (l : Fin 2) {x : Mat 100000 64} {e : Mat 640000 64}
    (hx : AllReal x) (he : AllReal e) : AllReal (preNorm A l x e) :=
  allReal_conv hx
    (hA.sc _ (allReal_msg he (allReal_sl l hA.lw) (allReal_row (allReal_slRow l hA.lb)) (hA.gS _ hx)))
    (allReal_sl l hA.cw1) (allReal_row (allReal_slRow l hA.cb1))
    (allReal_sl l hA.cw2) (allReal_row (allReal_slRow l hA.cb2))

theorem nodeR_eq (A : Args) (hA : A.Finite) (l : Fin 2) {x : Mat 100000 64} {e : Mat 640000 64}
    (hx : AllReal x) (he : AllReal e) : nodeR A l x e = nodeK A l x e := by
  have hp := allReal_preNorm A hA l hx he
  unfold nodeR nodeK
  rw [bnresRef_eq, row_meanR, row_varR hp]

theorem allReal_nodeK (A : Args) (hA : A.Finite) (l : Fin 2) {x : Mat 100000 64} {e : Mat 640000 64}
    (hx : AllReal x) (he : AllReal e) : AllReal (nodeK A l x e) := by
  have hp := allReal_preNorm A hA l hx he
  exact allReal_bnres hp hx (allReal_meanK hp) (allReal_row (allReal_slRow l hA.gam))
    (allReal_row (allReal_slRow l hA.bet)) (varK_add_eps_pos hp)

theorem edgeR_eq (A : Args) (l : Fin 2) (x' : Mat 100000 64) (e : Mat 640000 64) :
    edgeR A l x' e = edgeK A l x' e := emlpRef_eq _ _ _ _ _ _ _

theorem allReal_edgeK (A : Args) (hA : A.Finite) (l : Fin 2) {x' : Mat 100000 64} {e : Mat 640000 64}
    (hx : AllReal x') (he : AllReal e) : AllReal (edgeK A l x' e) :=
  allReal_emlp (hA.gS _ hx) (hA.gD _ hx) he (allReal_sl l hA.mw1) (allReal_row (allReal_slRow l hA.mb1))
    (allReal_sl l hA.mw2) (allReal_row (allReal_slRow l hA.mb2))

theorem allReal_x0 (A : Args) (hA : A.Finite) : AllReal (x0 A) := allReal_lin hA.x hA.nw (allReal_row hA.nb)

theorem allReal_e0 (A : Args) (hA : A.Finite) : AllReal (e0 A) := allReal_lin hA.ea hA.ew (allReal_row hA.eb)

theorem x1_eq (A : Args) (hA : A.Finite) : x1R A = x1K A := nodeR_eq A hA 0 (allReal_x0 A hA) (allReal_e0 A hA)

theorem allReal_x1K (A : Args) (hA : A.Finite) : AllReal (x1K A) :=
  allReal_nodeK A hA 0 (allReal_x0 A hA) (allReal_e0 A hA)

theorem e1_eq (A : Args) (hA : A.Finite) : e1R A = e1K A := by
  unfold e1R e1K; rw [x1_eq A hA, edgeR_eq]

theorem allReal_e1K (A : Args) (hA : A.Finite) : AllReal (e1K A) :=
  allReal_edgeK A hA 0 (allReal_x1K A hA) (allReal_e0 A hA)

theorem x2_eq (A : Args) (hA : A.Finite) : x2R A = x2K A := by
  unfold x2R x2K; rw [x1_eq A hA, e1_eq A hA]; exact nodeR_eq A hA 1 (allReal_x1K A hA) (allReal_e1K A hA)

theorem allReal_x2K (A : Args) (hA : A.Finite) : AllReal (x2K A) :=
  allReal_nodeK A hA 1 (allReal_x1K A hA) (allReal_e1K A hA)

theorem e2_eq (A : Args) (hA : A.Finite) : e2R A = e2K A := by
  unfold e2R e2K; rw [x2_eq A hA, e1_eq A hA, edgeR_eq]

theorem allReal_e2K (A : Args) (hA : A.Finite) : AllReal (e2K A) :=
  allReal_edgeK A hA 1 (allReal_x2K A hA) (allReal_e1K A hA)

theorem logit_eq (A : Args) (hA : A.Finite) : logitR A = logitK A := by
  unfold logitR logitK; rw [x2_eq A hA, e2_eq A hA]

/-- On finite arguments the two spellings of the network give the same node array and the same read-out. -/
theorem net_eq (A : Args) (hA : A.Finite) : x2R A = x2K A ∧ logitR A = logitK A :=
  ⟨x2_eq A hA, logit_eq A hA⟩

end Cert.Spec

end
-- ==== Proof.KernelRun.lean ====
/-
  The idealized kernel's run with its two results named.

  Every weakly fair execution of the program terminates without a fault, and in the final state the two result
  buffers hold what the last boundary of the run's fold through the thirteen regions holds at them, while the
  argument arrays are as launched. The fold's boundaries are the generated frame's; only the post says more.
-/
import proofs.«156771_j85263690760421_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_results : θ_run defs (onTc (τ := τ) (main (F := F))) ⟨m, fun _ => 0, ρ⟩ (fun r => ∀ c : Dev nD,
      r.2.mem ((c.tc : Thread nD τ).loc main_v118) = W24 m ρ c (Proc.devRef .tc main_v118)
      ∧ r.2.mem ((c.tc : Thread nD τ).loc main_v161) = W24 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v118 (by decide)),
       h c _ (mem_uc main_v161 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c),
       (h c _ (mem_uc main_arg19 (by decide))).trans (W24_main_arg19 m ρ c),
       (h c _ (mem_uc main_arg20 (by decide))).trans (W24_main_arg20 m ρ c),
       (h c _ (mem_uc main_arg21 (by decide))).trans (W24_main_arg21 m ρ c),
       (h c _ (mem_uc main_arg22 (by decide))).trans (W24_main_arg22 m ρ c),
       (h c _ (mem_uc main_arg23 (by decide))).trans (W24_main_arg23 m ρ c),
       (h c _ (mem_uc main_arg24 (by decide))).trans (W24_main_arg24 m ρ c),
       (h c _ (mem_uc main_arg25 (by decide))).trans (W24_main_arg25 m ρ c)⟩)

end Cert.KernelIdeal.RunValue

end
-- ==== Proof.HostFinite.lean ====
/-
  The index-driven host operations keep arrays finite.

  A gather and a broadcast read each result entry from one operand entry, so a finite operand gives a finite result.
  An accumulating scatter gives, at each index, the operand's entry plus the sum of the finitely many update entries
  landing there: a finite sum of finite entries. The zero pattern denotes the real zero, so the all-zeros array is finite.
-/
import proofs.«156771_j85263690760421_1_alg».proof.Proof.Net
import proofs.«156771_j85263690760421_1_alg».proof.Proof.Real
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Spec

open Idealize.ShloMosaic Idealize.ShloMosaic.ValueIdx

/-- A gather only selects entries of its operand. -/
theorem allReal_gather {s si t : Shape} {w : Nat} (d : GatherDims s si t) (x : s.Idx → EReal) (idx : IVec si w)
    (hx : AllReal x) : AllReal (Host.gather d x idx) := fun _ => hx _

/-- An accumulating scatter adds to each operand entry a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show IsReal (Ideal.hostScatterAdd d x idx upd i)
  unfold Ideal.hostScatterAdd
  exact IsReal.add (hx i) (IsReal.sum _ _ fun j _ => hu j)

/-- A broadcast only selects entries of its operand. -/
theorem allReal_broadcastInDim {s t : Shape} (dims : Fin s.rank → Fin t.rank) (h : s.BroadcastsInDim t dims)
    (x : s.Idx → EReal) (hx : AllReal x) : AllReal (broadcastInDim t dims h x) := fun _ => hx _

/-- The constant array of the zero pattern is finite: every entry is the real zero. -/
theorem allReal_constant_zero (s : Shape) : AllReal (constant (F := Ideal) s .f32 0x00000000#32) :=
  fun _ => ⟨0, Ideal.ofBits_zero_f32⟩

/-- The all-zeros array of any shape, a broadcast of the scalar zero, is finite. -/
theorem allReal_zeros {T : Shape} (hb : (⟨0, ![]⟩ : Shape).BroadcastsInDim T ![]) :
    AllReal (broadcastInDim T ![] hb (constant (F := Ideal) (⟨0, ![]⟩ : Shape) .f32 0x00000000#32)) :=
  allReal_broadcastInDim _ hb _ (allReal_constant_zero _)

end Cert.Spec

end
-- ==== Proof.PreFinite.lean ====
/-
  Finiteness of the float arguments, read back from the precondition.

  The precondition is the conjunction, over the float arguments, of "every entry has absolute value below +∞":
  each conjunct is a reduction by `and` over all axes of the entrywise comparison |a| < +∞. A reduction by `and`
  that comes out 1 met only 1s, so every entry x satisfies max x (-x) < ⊤ in the extended reals; such an x is
  neither ⊤ nor ⊥, hence the image of a real number.
-/
import proofs.«156771_j85263690760421_1_alg».proof.Defs
import proofs.«156771_j85263690760421_1_alg».proof.Proof.Gen.Pre_finite_inputs
import proofs.«156771_j85263690760421_1_alg».proof.Proof.Real
import Idealize.ShloMosaic.Lib.ReduceAll
import Idealize.ShloMosaic.Lib.ValueIdx

noncomputable section

namespace Cert.PreDecode

open Idealize.ShloMosaic Idealize.SL.Sem Cert.Spec Cert.Pre_finite_inputs

/-- The shape with no axes has exactly one index. -/
instance subsingleton_scalar_idx : Subsingleton S_.Idx := ⟨fun a b => funext fun d => d.elim0⟩

/-- An extended real whose absolute value is below +∞ is the image of a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- One entry: the comparison |x| < +∞ coming out 1 says x is real. -/
theorem isReal_of_cmp (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact isReal_of_abs_lt_top x hlt
  · simp [hlt] at h

/-- One argument: if the reduction by `and` over all axes of the entrywise |a| < +∞ is 1, every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
          (cmpf .olt (Host.absf a) (broadcastInDim s ![] hb (constant (F := Ideal) S_ .f32 0x7F800000#32))) init hr hu j = 1#1)
    (i : s.Idx) : IsReal (a i) :=
  isReal_of_cmp (a i) (Host.reduce_andi_all _ init hr hu j h i)

/-- The precondition, decoded: on every device, every entry of every float argument is the image of a real number.
    The precondition's value at its one index is a left-nested chain of `and`s of the per-argument reductions; it is 1
    exactly when every link is, and each link gives the finiteness of one argument's entries. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i)) := by
  have h := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  obtain ⟨h, e25⟩ := IntOp.andi_eq_one.1 h
  obtain ⟨h, e24⟩ := IntOp.andi_eq_one.1 h
  obtain ⟨h, e23⟩ := IntOp.andi_eq_one.1 h
  obtain ⟨h, e22⟩ := IntOp.andi_eq_one.1 h
  obtain ⟨h, e21⟩ := IntOp.andi_eq_one.1 h
  obtain ⟨h, e20⟩ := IntOp.andi_eq_one.1 h
  obtain ⟨h, e19⟩ := IntOp.andi_eq_one.1 h
  obtain ⟨h, e18⟩ := IntOp.andi_eq_one.1 h
  obtain ⟨h, e17⟩ := IntOp.andi_eq_one.1 h
  obtain ⟨h, e16⟩ := IntOp.andi_eq_one.1 h
  obtain ⟨h, e15⟩ := IntOp.andi_eq_one.1 h
  obtain ⟨h, e14⟩ := IntOp.andi_eq_one.1 h
  obtain ⟨h, e13⟩ := IntOp.andi_eq_one.1 h
  obtain ⟨h, e12⟩ := IntOp.andi_eq_one.1 h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨e0, e1⟩ := IntOp.andi_eq_one.1 h
  exact ⟨fun i => all_real _ _ _ _ _ _ e0 i,
    fun i => all_real _ _ _ _ _ _ e1 i,
    fun i => all_real _ _ _ _ _ _ e4 i,
    fun i => all_real _ _ _ _ _ _ e5 i,
    fun i => all_real _ _ _ _ _ _ e6 i,
    fun i => all_real _ _ _ _ _ _ e7 i,
    fun i => all_real _ _ _ _ _ _ e8 i,
    fun i => all_real _ _ _ _ _ _ e9 i,
    fun i => all_real _ _ _ _ _ _ e10 i,
    fun i => all_real _ _ _ _ _ _ e11 i,
    fun i => all_real _ _ _ _ _ _ e12 i,
    fun i => all_real _ _ _ _ _ _ e13 i,
    fun i => all_real _ _ _ _ _ _ e14 i,
    fun i => all_real _ _ _ _ _ _ e15 i,
    fun i => all_real _ _ _ _ _ _ e16 i,
    fun i => all_real _ _ _ _ _ _ e17 i,
    fun i => all_real _ _ _ _ _ _ e18 i,
    fun i => all_real _ _ _ _ _ _ e19 i,
    fun i => all_real _ _ _ _ _ _ e20 i,
    fun i => all_real _ _ _ _ _ _ e21 i,
    fun i => all_real _ _ _ _ _ _ e22 i,
    fun i => all_real _ _ _ _ _ _ e23 i,
    fun i => all_real _ _ _ _ _ _ e24 i,
    fun i => all_real _ _ _ _ _ _ e25 i⟩

end Cert.PreDecode

end
-- ==== Proof.KArgs.lean ====
/-
  The network's arguments, read off the launch memory of the kernel's program.
-/
import proofs.«156771_j85263690760421_1_alg».proof.KernelIdeal
import proofs.«156771_j85263690760421_1_alg».proof.Proof.Net

noncomputable section

namespace Cert.KernelIdeal.Chain

open Idealize.ShloMosaic Idealize.SL.Sem
open Cert.KernelIdeal Cert.KernelIdeal.Facts₀ Cert.KernelIdeal.Facts

variable [Cert.KernelIdeal.Facts]

/-- An array of signed row numbers with the negative ones wrapped around by the row count 100000, as a column:
    the start indices the program's gathers use. -/
def idxWrap (a : (⟨S640000, .i32⟩ : BufTy).Contents (Elt Ideal)) : (⟨S640000x1, .i32⟩ : BufTy).Contents (Elt Ideal) :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 100000#32))) a)

/-- The all-zeros [100000, 64] array the scatter-sum accumulates into. -/
def zeros : (⟨S100000x64, .f32⟩ : BufTy).Contents (Elt Ideal) :=
  broadcastInDim S100000x64 ![] bcast_S_S100000x64 (constant (F := Ideal) S_ .f32 0x00000000#32)

/-- The network's arguments as device c finds them in the launch memory: the float arrays as they are, and the three
    index-driven host functions built from the two index arrays exactly as the program spells them — the source rows
    gathered at the wrapped first index array, the destination rows at the wrapped second, and the scatter-sum into
    zeros at the second index array as a column. -/
def argsK (m : (ℓ : Loc nD τ sig) → Buf (Elt Ideal) ℓ) (c : Dev nD) : Cert.Spec.Args where
  x := m ((c.tc : Thread nD τ).loc main_arg0)
  ea := m ((c.tc : Thread nD τ).loc main_arg1)
  nw := m ((c.tc : Thread nD τ).loc main_arg4)
  nb := m ((c.tc : Thread nD τ).loc main_arg5)
  ew := m ((c.tc : Thread nD τ).loc main_arg6)
  eb := m ((c.tc : Thread nD τ).loc main_arg7)
  lw := m ((c.tc : Thread nD τ).loc main_arg8)
  lb := m ((c.tc : Thread nD τ).loc main_arg9)
  cw1 := m ((c.tc : Thread nD τ).loc main_arg10)
  cb1 := m ((c.tc : Thread nD τ).loc main_arg11)
  cw2 := m ((c.tc : Thread nD τ).loc main_arg12)
  cb2 := m ((c.tc : Thread nD τ).loc main_arg13)
  mw1 := m ((c.tc : Thread nD τ).loc main_arg14)
  mb1 := m ((c.tc : Thread nD τ).loc main_arg15)
  mw2 := m ((c.tc : Thread nD τ).loc main_arg16)
  mb2 := m ((c.tc : Thread nD τ).loc main_arg17)
  gam := m ((c.tc : Thread nD τ).loc main_arg18)
  bet := m ((c.tc : Thread nD τ).loc main_arg19)
  rw1 := m ((c.tc : Thread nD τ).loc main_arg20)
  rb1 := m ((c.tc : Thread nD τ).loc main_arg21)
  rw2 := m ((c.tc : Thread nD τ).loc main_arg22)
  rb2 := m ((c.tc : Thread nD τ).loc main_arg23)
  rw3 := m ((c.tc : Thread nD τ).loc main_arg24)
  rb3 := m ((c.tc : Thread nD τ).loc main_arg25)
  gS := fun x => Host.gather gather_S100000x64_S640000x1_S640000x64_1_0_n_n_0_1_164 x (idxWrap (m ((c.tc : Thread nD τ).loc main_arg2)))
  gD := fun x => Host.gather gather_S100000x64_S640000x1_S640000x64_1_0_n_n_0_1_164 x (idxWrap (m ((c.tc : Thread nD τ).loc main_arg3)))
  sc := fun u => Host.scatterAdd (F := Ideal) (φ := .f32) scatter_S100000x64_S640000x1_S640000x64_1_0_0_1 zeros
    (broadcastInDim S640000x1 ![0] bcast_S640000_S640000x1_0 (m ((c.tc : Thread nD τ).loc main_arg3))) u

end Cert.KernelIdeal.Chain

end
-- ==== Proof.RArgs.lean ====
/-
  The network's arguments, read off the launch memory of the reference program.
-/
import proofs.«156771_j85263690760421_1_alg».proof.ReferenceIdeal
import proofs.«156771_j85263690760421_1_alg».proof.Proof.Net

noncomputable section

namespace Cert.ReferenceIdeal.RefValue

open Idealize.ShloMosaic Idealize.SL.Sem
open Cert.ReferenceIdeal Cert.ReferenceIdeal.Facts₀ Cert.ReferenceIdeal.Facts

variable [Cert.ReferenceIdeal.Facts]

/-- An array of signed row numbers with the negative ones wrapped around by the row count 100000, as a column:
    the start indices the program's gathers use. -/
def idxWrap (a : (⟨S640000, .i32⟩ : BufTy).Contents (Elt Ideal)) : (⟨S640000x1, .i32⟩ : BufTy).Contents (Elt Ideal) :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 100000#32))) a)

/-- The all-zeros [100000, 64] array the scatter-sum accumulates into. -/
def zeros : (⟨S100000x64, .f32⟩ : BufTy).Contents (Elt Ideal) :=
  broadcastInDim S100000x64 ![] bcast_S_S100000x64 (constant (F := Ideal) S_ .f32 0x00000000#32)

/-- The network's arguments as device c finds them in the launch memory: the float arrays as they are, and the three
    index-driven host functions built from the two index arrays exactly as the program spells them — the source rows
    gathered at the wrapped first index array, the destination rows at the wrapped second, and the scatter-sum into
    zeros at the second index array as a column. -/
def argsR (m' : (ℓ : Loc nD τ sig) → Buf (Elt Ideal) ℓ) (c : Dev nD) : Cert.Spec.Args where
  x := m' ((c.tc : Thread nD τ).loc main_arg0)
  ea := m' ((c.tc : Thread nD τ).loc main_arg1)
  nw := m' ((c.tc : Thread nD τ).loc main_arg4)
  nb := m' ((c.tc : Thread nD τ).loc main_arg5)
  ew := m' ((c.tc : Thread nD τ).loc main_arg6)
  eb := m' ((c.tc : Thread nD τ).loc main_arg7)
  lw := m' ((c.tc : Thread nD τ).loc main_arg8)
  lb := m' ((c.tc : Thread nD τ).loc main_arg9)
  cw1 := m' ((c.tc : Thread nD τ).loc main_arg10)
  cb1 := m' ((c.tc : Thread nD τ).loc main_arg11)
  cw2 := m' ((c.tc : Thread nD τ).loc main_arg12)
  cb2 := m' ((c.tc : Thread nD τ).loc main_arg13)
  mw1 := m' ((c.tc : Thread nD τ).loc main_arg14)
  mb1 := m' ((c.tc : Thread nD τ).loc main_arg15)
  mw2 := m' ((c.tc : Thread nD τ).loc main_arg16)
  mb2 := m' ((c.tc : Thread nD τ).loc main_arg17)
  gam := m' ((c.tc : Thread nD τ).loc main_arg18)
  bet := m' ((c.tc : Thread nD τ).loc main_arg19)
  rw1 := m' ((c.tc : Thread nD τ).loc main_arg20)
  rb1 := m' ((c.tc : Thread nD τ).loc main_arg21)
  rw2 := m' ((c.tc : Thread nD τ).loc main_arg22)
  rb2 := m' ((c.tc : Thread nD τ).loc main_arg23)
  rw3 := m' ((c.tc : Thread nD τ).loc main_arg24)
  rb3 := m' ((c.tc : Thread nD τ).loc main_arg25)
  gS := fun x => Host.gather gather_S100000x64_S640000x1_S640000x64_1_0_n_n_0_1_164 x (idxWrap (m' ((c.tc : Thread nD τ).loc main_arg2)))
  gD := fun x => Host.gather gather_S100000x64_S640000x1_S640000x64_1_0_n_n_0_1_164 x (idxWrap (m' ((c.tc : Thread nD τ).loc main_arg3)))
  sc := fun u => Host.scatterAdd (F := Ideal) (φ := .f32) scatter_S100000x64_S640000x1_S640000x64_1_0_0_1 zeros
    (broadcastInDim S640000x1 ![0] bcast_S640000_S640000x1_0 (m' ((c.tc : Thread nD τ).loc main_arg3))) u

end Cert.ReferenceIdeal.RefValue

end
-- ==== Proof.Assemble.lean ====
/-
  The parts of the claim around the two value chains.

  The network's arguments as each program finds them in its launch memory are one record of arrays and three
  index-driven host functions. The precondition makes the kernel side's record finite: each float argument has
  every entry the image of a real number, a gather only selects entries, and a scatter-sum into zeros adds finitely
  many finite entries. Memories that agree on the 26 arguments give the two programs the same record, because the
  host functions are spelt with the same operations of the same index arrays. The frame claims of the kernel's two
  programs are the generated ones, and the idealisation rewrote nothing.
-/
import proofs.«156771_j85263690760421_1_alg».proof.Defs
import proofs.«156771_j85263690760421_1_alg».proof.Proof.Gen.Kernel.Frame
import proofs.«156771_j85263690760421_1_alg».proof.Proof.Gen.KernelIdeal.Frame
import proofs.«156771_j85263690760421_1_alg».proof.Proof.Net
import proofs.«156771_j85263690760421_1_alg».proof.Proof.NetEq
import proofs.«156771_j85263690760421_1_alg».proof.Proof.KernelRun
import proofs.«156771_j85263690760421_1_alg».proof.Proof.HostFinite
import proofs.«156771_j85263690760421_1_alg».proof.Proof.PreFinite
import proofs.«156771_j85263690760421_1_alg».proof.Proof.KArgs
import proofs.«156771_j85263690760421_1_alg».proof.Proof.RArgs

noncomputable section

namespace Cert.Proof.Parts

open Idealize.ShloMosaic Idealize.SL.Sem

/-- Under the precondition the kernel side's arguments are finite, and its three host functions keep arrays finite. -/
theorem argsK_finite [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.Chain.argsK m c).Finite := by
  obtain ⟨h0, h1, h4, h5, h6, h7, h8, h9, h10, h11, h12, h13, h14, h15, h16, h17, h18, h19, h20, h21, h22, h23, h24, h25⟩ := Cert.PreDecode.finite_of_pre m h c
  exact {
    x := h0
    ea := h1
    nw := h4
    nb := h5
    ew := h6
    eb := h7
    lw := h8
    lb := h9
    cw1 := h10
    cb1 := h11
    cw2 := h12
    cb2 := h13
    mw1 := h14
    mb1 := h15
    mw2 := h16
    mb2 := h17
    gam := h18
    bet := h19
    gS := fun a ha => Cert.Spec.allReal_gather _ a _ ha
    gD := fun a ha => Cert.Spec.allReal_gather _ a _ ha
    sc := fun a ha => Cert.Spec.allReal_scatterAdd _ _ _ a (Cert.Spec.allReal_zeros _) ha }

/-- Two records of arguments with equal components are equal. -/
theorem args_ext {A B : Cert.Spec.Args}
    (h_x : A.x = B.x)
    (h_ea : A.ea = B.ea)
    (h_nw : A.nw = B.nw)
    (h_nb : A.nb = B.nb)
    (h_ew : A.ew = B.ew)
    (h_eb : A.eb = B.eb)
    (h_lw : A.lw = B.lw)
    (h_lb : A.lb = B.lb)
    (h_cw1 : A.cw1 = B.cw1)
    (h_cb1 : A.cb1 = B.cb1)
    (h_cw2 : A.cw2 = B.cw2)
    (h_cb2 : A.cb2 = B.cb2)
    (h_mw1 : A.mw1 = B.mw1)
    (h_mb1 : A.mb1 = B.mb1)
    (h_mw2 : A.mw2 = B.mw2)
    (h_mb2 : A.mb2 = B.mb2)
    (h_gam : A.gam = B.gam)
    (h_bet : A.bet = B.bet)
    (h_rw1 : A.rw1 = B.rw1)
    (h_rb1 : A.rb1 = B.rb1)
    (h_rw2 : A.rw2 = B.rw2)
    (h_rb2 : A.rb2 = B.rb2)
    (h_rw3 : A.rw3 = B.rw3)
    (h_rb3 : A.rb3 = B.rb3)
    (h_gS : A.gS = B.gS)
    (h_gD : A.gD = B.gD)
    (h_sc : A.sc = B.sc) : A = B := by
  cases A; cases B
  dsimp only at *
  subst h_x h_ea h_nw h_nb h_ew h_eb h_lw h_lb h_cw1 h_cb1 h_cw2 h_cb2 h_mw1 h_mb1 h_mw2 h_mb2 h_gam h_bet h_rw1 h_rb1 h_rw2 h_rb2 h_rw3 h_rb3 h_gS h_gD h_sc
  rfl

/-- The gather's and the scatter's dimension records, the index wrapping and the zero array are spelt alike in the
    two programs. -/
theorem gather_same [Cert.KernelIdeal.Facts] [Cert.ReferenceIdeal.Facts] :
    Cert.ReferenceIdeal.gather_S100000x64_S640000x1_S640000x64_1_0_n_n_0_1_164
      = Cert.KernelIdeal.gather_S100000x64_S640000x1_S640000x64_1_0_n_n_0_1_164 := rfl

theorem scatter_same [Cert.KernelIdeal.Facts] [Cert.ReferenceIdeal.Facts] :
    Cert.ReferenceIdeal.scatter_S100000x64_S640000x1_S640000x64_1_0_0_1
      = Cert.KernelIdeal.scatter_S100000x64_S640000x1_S640000x64_1_0_0_1 := rfl

theorem idxWrap_same [Cert.KernelIdeal.Facts] [Cert.ReferenceIdeal.Facts]
    (a : (⟨Cert.KernelIdeal.S640000, .i32⟩ : BufTy).Contents (Elt Ideal)) :
    Cert.ReferenceIdeal.RefValue.idxWrap a = Cert.KernelIdeal.Chain.idxWrap a := rfl

theorem zeros_same [Cert.KernelIdeal.Facts] [Cert.ReferenceIdeal.Facts] :
    Cert.ReferenceIdeal.RefValue.zeros = Cert.KernelIdeal.Chain.zeros := rfl

/-- Equal first index arrays give equal source gathers; -/
theorem gS_agree [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.RefValue.argsR m' c).gS = (Cert.KernelIdeal.Chain.argsK m c).gS := by
  unfold Cert.ReferenceIdeal.RefValue.argsR Cert.KernelIdeal.Chain.argsK
  dsimp only
  rw [gather_same, idxWrap_same, e2]

/-- equal second index arrays give equal destination gathers -/
theorem gD_agree [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.RefValue.argsR m' c).gD = (Cert.KernelIdeal.Chain.argsK m c).gD := by
  unfold Cert.ReferenceIdeal.RefValue.argsR Cert.KernelIdeal.Chain.argsK
  dsimp only
  rw [gather_same, idxWrap_same, e3]

/-- and equal scatter-sums. -/
theorem sc_agree [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.RefValue.argsR m' c).sc = (Cert.KernelIdeal.Chain.argsK m c).sc := by
  unfold Cert.ReferenceIdeal.RefValue.argsR Cert.KernelIdeal.Chain.argsK
  dsimp only
  rw [scatter_same, zeros_same, e3]

/-- Memories that agree on the arguments give the two programs the same record of arguments. -/
theorem args_agree [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RefValue.argsR m' c = Cert.KernelIdeal.Chain.argsK m c := by
  obtain ⟨e0, e1, e2, e3, e4, e5, e6, e7, e8, e9, e10, e11, e12, e13, e14, e15, e16, e17, e18, e19, e20, e21, e22, e23, e24, e25⟩ := hagree
  exact args_ext e0 e1 e4 e5 e6 e7 e8 e9 e10 e11 e12 e13 e14 e15 e16 e17 e18 e19 e20 e21 e22 e23 e24 e25 (gS_agree m m' c e2) (gD_agree m m' c e3) (sc_agree m m' c e3)

/-- The frame claim of the kernel's program at the machine's words is the generated one. -/
theorem frame_Kernel [Cert.Kernel.Facts] [Cert.Pre_finite_inputs.Facts] : Cert.frame_Kernel :=
  fun m ρ _ => Cert.Kernel.Gen.frame m ρ

/-- The frame claim of the kernel's program over the extended reals is the generated one. -/
theorem frame_KernelIdeal [Cert.KernelIdeal.Facts] [Cert.Pre_finite_inputs.Facts] : Cert.frame_KernelIdeal :=
  fun m ρ _ => Cert.KernelIdeal.Gen.frame m ρ

/-- The idealisation rewrote no operation. -/
theorem preserves : Cert.preserves_Kernel_KernelIdeal := trivial

/-- THE ALGEBRAIC CLAIM, from its three ingredients: the kernel program's two result arrays are the network in the
    first spelling (hx, hl), the reference program's run ends with the network in the second spelling (href), and on
    finite arguments the two spellings agree. The witnesses are the first spelling at the kernel side's arguments. -/
theorem algebraic_of [Cert.KernelIdeal.Facts] [Cert.ReferenceIdeal.Facts] [Cert.Pre_finite_inputs.Facts]
    (hx : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W24 m ρ c (Proc.devRef .tc Cert.KernelIdeal.main_v118)
        = Cert.Spec.x2K (Cert.KernelIdeal.Chain.argsK m c))
    (hl : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W24 m ρ c (Proc.devRef .tc Cert.KernelIdeal.main_v161)
        = Cert.Spec.logitK (Cert.KernelIdeal.Chain.argsK m c))
    (href : ∀ (m' : (ℓ : Loc Cert.ReferenceIdeal.nD Cert.ReferenceIdeal.τ Cert.ReferenceIdeal.sig) → Buf (Elt Ideal) ℓ)
      (ρ' : Dev Cert.ReferenceIdeal.nD → PrngReg),
      θ_run (Cert.ReferenceIdeal.defs (F := Ideal)) (onTc (τ := Cert.ReferenceIdeal.τ) (Cert.ReferenceIdeal.main (F := Ideal)))
        ⟨m', fun _ => 0, ρ'⟩ (fun r => ∀ c : Dev Cert.ReferenceIdeal.nD,
          r.2.mem ((c.tc : Thread Cert.ReferenceIdeal.nD Cert.ReferenceIdeal.τ).loc Cert.ReferenceIdeal.main_v184) = Cert.Spec.x2R (Cert.ReferenceIdeal.RefValue.argsR m' c)
          ∧ r.2.mem ((c.tc : Thread Cert.ReferenceIdeal.nD Cert.ReferenceIdeal.τ).loc Cert.ReferenceIdeal.main_v250) = Cert.Spec.logitR (Cert.ReferenceIdeal.RefValue.argsR m' c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))) :
    Cert.algebraic_KernelIdeal_ReferenceIdeal := by
  intro m ρ m' ρ' hpre hagree
  refine ⟨fun c => Cert.Spec.x2K (Cert.KernelIdeal.Chain.argsK m c),
    fun c => Cert.Spec.logitK (Cert.KernelIdeal.Chain.argsK m c), ?_, ?_⟩
  · exact (θ_run (Cert.KernelIdeal.defs (F := Ideal)) _ _).mono
      (fun r h c => ⟨(h c).1.trans (hx m ρ c), (h c).2.1.trans (hl m ρ c), (h c).2.2⟩)
      (Cert.KernelIdeal.RunValue.run_results (F := Ideal) m ρ)
  · refine (θ_run (Cert.ReferenceIdeal.defs (F := Ideal)) _ _).mono (fun r h c => ?_) (href m' ρ')
    have ha := args_agree m m' c (hagree c)
    have hn := Cert.Spec.net_eq _ (argsK_finite m hpre c)
    exact ⟨(h c).1.trans (by rw [ha]; exact hn.1), (h c).2.1.trans (by rw [ha]; exact hn.2), (h c).2.2⟩

end Cert.Proof.Parts

end
-- ==== Proof.ChainSteps.lean ====
/-
  The run's fold through the program, one boundary at a time.

  The buffer contents at the boundaries between the program's segments form a chain: a stretch of host operations
  changes only the buffers its operations write, and a region changes only its output arrays. So a buffer read at a
  later boundary holds what it held right after the segment that wrote it. This module states that one step at a
  time: per host stretch the list of buffers it writes and "a buffer outside the list is unchanged"; per region,
  "an input array is unchanged" and "an output array holds what the region's write-backs leave".
-/
import proofs.«156771_j85263690760421_1_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The buffers host stretch 0 writes. -/
def writes0 : List (Ref sig .tc) := [main_v0]

theorem hostOps0_writes_sub : (hostOps0 : List (HloOp τ sig (Elt Ideal))).Forall fun op =>
    op.writes ⊆ ((writes0).map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 1 agrees with boundary 0 at every buffer host stretch 0 does not write. -/
theorem down1 (c : Dev nD) (b : Ref sig .tc) (hb : b ∉ writes0) :
    W1 m ρ c (Proc.devRef .tc b) = W0 m ρ c (Proc.devRef .tc b) :=
  StableHlo.after_of_writes_sub _ _ (hostOps0_writes_sub) hb

theorem in0_0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem in0_1 (c : Dev nD) : W2 m ρ c (Proc.devRef .tc main_arg4) = W1 m ρ c (Proc.devRef .tc main_arg4) :=
  (W2_arr m ρ c 1).trans (((dat0 (V1 m ρ) c).arrAt_in 1 rfl _).trans (A_eq0 (V1 m ρ) c 1))

theorem in0_2 (c : Dev nD) : W2 m ρ c (Proc.devRef .tc main_v0) = W1 m ρ c (Proc.devRef .tc main_v0) :=
  (W2_arr m ρ c 2).trans (((dat0 (V1 m ρ) c).arrAt_in 2 rfl _).trans (A_eq0 (V1 m ρ) c 2))

theorem out0_3 (c : Dev nD) : W2 m ρ c (Proc.devRef .tc main_v1) = (dat0 (V1 m ρ) c).arrAt 3 cfg0.N :=
  W2_arr m ρ c 3

/-- The buffers host stretch 1 writes. -/
def writes1 : List (Ref sig .tc) := [main_v2]

theorem hostOps1_writes_sub : (hostOps1 : List (HloOp τ sig (Elt Ideal))).Forall fun op =>
    op.writes ⊆ ((writes1).map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 3 agrees with boundary 2 at every buffer host stretch 1 does not write. -/
theorem down3 (c : Dev nD) (b : Ref sig .tc) (hb : b ∉ writes1) :
    W3 m ρ c (Proc.devRef .tc b) = W2 m ρ c (Proc.devRef .tc b) :=
  StableHlo.after_of_writes_sub _ _ (hostOps1_writes_sub) hb

theorem in1_0 (c : Dev nD) : W4 m ρ c (Proc.devRef .tc main_arg1) = W3 m ρ c (Proc.devRef .tc main_arg1) :=
  (W4_arr m ρ c 0).trans (((dat1 (V3 m ρ) c).arrAt_in 0 rfl _).trans (A_eq1 (V3 m ρ) c 0))

theorem in1_1 (c : Dev nD) : W4 m ρ c (Proc.devRef .tc main_arg6) = W3 m ρ c (Proc.devRef .tc main_arg6) :=
  (W4_arr m ρ c 1).trans (((dat1 (V3 m ρ) c).arrAt_in 1 rfl _).trans (A_eq1 (V3 m ρ) c 1))

theorem in1_2 (c : Dev nD) : W4 m ρ c (Proc.devRef .tc main_v2) = W3 m ρ c (Proc.devRef .tc main_v2) :=
  (W4_arr m ρ c 2).trans (((dat1 (V3 m ρ) c).arrAt_in 2 rfl _).trans (A_eq1 (V3 m ρ) c 2))

theorem out1_3 (c : Dev nD) : W4 m ρ c (Proc.devRef .tc main_v3) = (dat1 (V3 m ρ) c).arrAt 3 cfg1.N :=
  W4_arr m ρ c 3

/-- The buffers host stretch 2 writes. -/
def writes2 : List (Ref sig .tc) := [main_c, main_v4, main_v5, main_c_0, main_v6, main_v7, main_v8, main_v9, main_v10, main_v11, main_v12, main_v13, main_v14, main_v15]

theorem hostOps2_writes_sub : (hostOps2 : List (HloOp τ sig (Elt Ideal))).Forall fun op =>
    op.writes ⊆ ((writes2).map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 5 agrees with boundary 4 at every buffer host stretch 2 does not write. -/
theorem down5 (c : Dev nD) (b : Ref sig .tc) (hb : b ∉ writes2) :
    W5 m ρ c (Proc.devRef .tc b) = W4 m ρ c (Proc.devRef .tc b) :=
  StableHlo.after_of_writes_sub _ _ (hostOps2_writes_sub) hb

theorem in2_0 (c : Dev nD) : W6 m ρ c (Proc.devRef .tc main_v3) = W5 m ρ c (Proc.devRef .tc main_v3) :=
  (W6_arr m ρ c 0).trans (((dat2 (V5 m ρ) c).arrAt_in 0 rfl _).trans (A_eq2 (V5 m ρ) c 0))

theorem in2_1 (c : Dev nD) : W6 m ρ c (Proc.devRef .tc main_v12) = W5 m ρ c (Proc.devRef .tc main_v12) :=
  (W6_arr m ρ c 1).trans (((dat2 (V5 m ρ) c).arrAt_in 1 rfl _).trans (A_eq2 (V5 m ρ) c 1))

theorem in2_2 (c : Dev nD) : W6 m ρ c (Proc.devRef .tc main_v15) = W5 m ρ c (Proc.devRef .tc main_v15) :=
  (W6_arr m ρ c 2).trans (((dat2 (V5 m ρ) c).arrAt_in 2 rfl _).trans (A_eq2 (V5 m ρ) c 2))

theorem in2_3 (c : Dev nD) : W6 m ρ c (Proc.devRef .tc main_v10) = W5 m ρ c (Proc.devRef .tc main_v10) :=
  (W6_arr m ρ c 3).trans (((dat2 (V5 m ρ) c).arrAt_in 3 rfl _).trans (A_eq2 (V5 m ρ) c 3))

theorem out2_4 (c : Dev nD) : W6 m ρ c (Proc.devRef .tc main_v16) = (dat2 (V5 m ρ) c).arrAt 4 cfg2.N :=
  W6_arr m ρ c 4

/-- The buffers host stretch 3 writes. -/
def writes3 : List (Ref sig .tc) := [main_cst, main_v17, main_v18, main_v19, main_v20, main_v21, main_v22, main_v23, main_v24, main_v25, main_v26, main_v27, main_v28, main_v29]

theorem hostOps3_writes_sub : (hostOps3 : List (HloOp τ sig (Elt Ideal))).Forall fun op =>
    op.writes ⊆ ((writes3).map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 7 agrees with boundary 6 at every buffer host stretch 3 does not write. -/
theorem down7 (c : Dev nD) (b : Ref sig .tc) (hb : b ∉ writes3) :
    W7 m ρ c (Proc.devRef .tc b) = W6 m ρ c (Proc.devRef .tc b) :=
  StableHlo.after_of_writes_sub _ _ (hostOps3_writes_sub) hb

theorem in3_0 (c : Dev nD) : W8 m ρ c (Proc.devRef .tc main_v1) = W7 m ρ c (Proc.devRef .tc main_v1) :=
  (W8_arr m ρ c 0).trans (((dat3 (V7 m ρ) c).arrAt_in 0 rfl _).trans (A_eq3 (V7 m ρ) c 0))

theorem in3_1 (c : Dev nD) : W8 m ρ c (Proc.devRef .tc main_v19) = W7 m ρ c (Proc.devRef .tc main_v19) :=
  (W8_arr m ρ c 1).trans (((dat3 (V7 m ρ) c).arrAt_in 1 rfl _).trans (A_eq3 (V7 m ρ) c 1))

theorem in3_2 (c : Dev nD) : W8 m ρ c (Proc.devRef .tc main_v21) = W7 m ρ c (Proc.devRef .tc main_v21) :=
  (W8_arr m ρ c 2).trans (((dat3 (V7 m ρ) c).arrAt_in 2 rfl _).trans (A_eq3 (V7 m ρ) c 2))

theorem in3_3 (c : Dev nD) : W8 m ρ c (Proc.devRef .tc main_v28) = W7 m ρ c (Proc.devRef .tc main_v28) :=
  (W8_arr m ρ c 3).trans (((dat3 (V7 m ρ) c).arrAt_in 3 rfl _).trans (A_eq3 (V7 m ρ) c 3))

theorem in3_4 (c : Dev nD) : W8 m ρ c (Proc.devRef .tc main_v25) = W7 m ρ c (Proc.devRef .tc main_v25) :=
  (W8_arr m ρ c 4).trans (((dat3 (V7 m ρ) c).arrAt_in 4 rfl _).trans (A_eq3 (V7 m ρ) c 4))

theorem in3_5 (c : Dev nD) : W8 m ρ c (Proc.devRef .tc main_v29) = W7 m ρ c (Proc.devRef .tc main_v29) :=
  (W8_arr m ρ c 5).trans (((dat3 (V7 m ρ) c).arrAt_in 5 rfl _).trans (A_eq3 (V7 m ρ) c 5))

theorem out3_6 (c : Dev nD) : W8 m ρ c (Proc.devRef .tc main_v30) = (dat3 (V7 m ρ) c).arrAt 6 cfg3.N :=
  W8_arr m ρ c 6

theorem in4_0 (c : Dev nD) : W9 m ρ c (Proc.devRef .tc main_v30) = W8 m ρ c (Proc.devRef .tc main_v30) :=
  (W9_arr m ρ c 0).trans (((dat4 (V8 m ρ) c).arrAt_in 0 rfl _).trans (A_eq4 (V8 m ρ) c 0))

theorem out4_1 (c : Dev nD) : W9 m ρ c (Proc.devRef .tc main_v31_0) = (dat4 (V8 m ρ) c).arrAt 1 cfg4.N :=
  W9_arr m ρ c 1

theorem out4_2 (c : Dev nD) : W9 m ρ c (Proc.devRef .tc main_v31_1) = (dat4 (V8 m ρ) c).arrAt 2 cfg4.N :=
  W9_arr m ρ c 2

/-- The buffers host stretch 5 writes. -/
def writes5 : List (Ref sig .tc) := [main_v32, main_cst_1, main_v33, main_v34, main_v35, main_cst_2, main_v36, main_v37, main_v38, main_v39, main_v40, main_v41, main_v42, main_v43, main_v44, main_v45, main_v46, main_v47]

theorem hostOps5_writes_sub : (hostOps5 : List (HloOp τ sig (Elt Ideal))).Forall fun op =>
    op.writes ⊆ ((writes5).map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 10 agrees with boundary 9 at every buffer host stretch 5 does not write. -/
theorem down10 (c : Dev nD) (b : Ref sig .tc) (hb : b ∉ writes5) :
    W10 m ρ c (Proc.devRef .tc b) = W9 m ρ c (Proc.devRef .tc b) :=
  StableHlo.after_of_writes_sub _ _ (hostOps5_writes_sub) hb

theorem in5_0 (c : Dev nD) : W11 m ρ c (Proc.devRef .tc main_v30) = W10 m ρ c (Proc.devRef .tc main_v30) :=
  (W11_arr m ρ c 0).trans (((dat5 (V10 m ρ) c).arrAt_in 0 rfl _).trans (A_eq5 (V10 m ρ) c 0))

theorem in5_1 (c : Dev nD) : W11 m ρ c (Proc.devRef .tc main_v1) = W10 m ρ c (Proc.devRef .tc main_v1) :=
  (W11_arr m ρ c 1).trans (((dat5 (V10 m ρ) c).arrAt_in 1 rfl _).trans (A_eq5 (V10 m ρ) c 1))

theorem in5_2 (c : Dev nD) : W11 m ρ c (Proc.devRef .tc main_v44) = W10 m ρ c (Proc.devRef .tc main_v44) :=
  (W11_arr m ρ c 2).trans (((dat5 (V10 m ρ) c).arrAt_in 2 rfl _).trans (A_eq5 (V10 m ρ) c 2))

theorem in5_3 (c : Dev nD) : W11 m ρ c (Proc.devRef .tc main_v45) = W10 m ρ c (Proc.devRef .tc main_v45) :=
  (W11_arr m ρ c 3).trans (((dat5 (V10 m ρ) c).arrAt_in 3 rfl _).trans (A_eq5 (V10 m ρ) c 3))

theorem in5_4 (c : Dev nD) : W11 m ρ c (Proc.devRef .tc main_v46) = W10 m ρ c (Proc.devRef .tc main_v46) :=
  (W11_arr m ρ c 4).trans (((dat5 (V10 m ρ) c).arrAt_in 4 rfl _).trans (A_eq5 (V10 m ρ) c 4))

theorem in5_5 (c : Dev nD) : W11 m ρ c (Proc.devRef .tc main_v47) = W10 m ρ c (Proc.devRef .tc main_v47) :=
  (W11_arr m ρ c 5).trans (((dat5 (V10 m ρ) c).arrAt_in 5 rfl _).trans (A_eq5 (V10 m ρ) c 5))

theorem out5_6 (c : Dev nD) : W11 m ρ c (Proc.devRef .tc main_v48) = (dat5 (V10 m ρ) c).arrAt 6 cfg5.N :=
  W11_arr m ρ c 6

/-- The buffers host stretch 6 writes. -/
def writes6 : List (Ref sig .tc) := [main_c_3, main_v49, main_v50, main_c_4, main_v51, main_v52, main_v53, main_v54, main_v55, main_c_5, main_v56, main_v57, main_c_6, main_v58, main_v59, main_v60, main_v61, main_v62, main_v63, main_v64, main_v65, main_v66, main_v67, main_v68, main_v69, main_v70, main_v71, main_v72]

theorem hostOps6_writes_sub : (hostOps6 : List (HloOp τ sig (Elt Ideal))).Forall fun op =>
    op.writes ⊆ ((writes6).map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 12 agrees with boundary 11 at every buffer host stretch 6 does not write. -/
theorem down12 (c : Dev nD) (b : Ref sig .tc) (hb : b ∉ writes6) :
    W12 m ρ c (Proc.devRef .tc b) = W11 m ρ c (Proc.devRef .tc b) :=
  StableHlo.after_of_writes_sub _ _ (hostOps6_writes_sub) hb

theorem in6_0 (c : Dev nD) : W13 m ρ c (Proc.devRef .tc main_v55) = W12 m ρ c (Proc.devRef .tc main_v55) :=
  (W13_arr m ρ c 0).trans (((dat6 (V12 m ρ) c).arrAt_in 0 rfl _).trans (A_eq6 (V12 m ρ) c 0))

theorem in6_1 (c : Dev nD) : W13 m ρ c (Proc.devRef .tc main_v62) = W12 m ρ c (Proc.devRef .tc main_v62) :=
  (W13_arr m ρ c 1).trans (((dat6 (V12 m ρ) c).arrAt_in 1 rfl _).trans (A_eq6 (V12 m ρ) c 1))

theorem in6_2 (c : Dev nD) : W13 m ρ c (Proc.devRef .tc main_v3) = W12 m ρ c (Proc.devRef .tc main_v3) :=
  (W13_arr m ρ c 2).trans (((dat6 (V12 m ρ) c).arrAt_in 2 rfl _).trans (A_eq6 (V12 m ρ) c 2))

theorem in6_3 (c : Dev nD) : W13 m ρ c (Proc.devRef .tc main_v64) = W12 m ρ c (Proc.devRef .tc main_v64) :=
  (W13_arr m ρ c 3).trans (((dat6 (V12 m ρ) c).arrAt_in 3 rfl _).trans (A_eq6 (V12 m ρ) c 3))

theorem in6_4 (c : Dev nD) : W13 m ρ c (Proc.devRef .tc main_v71) = W12 m ρ c (Proc.devRef .tc main_v71) :=
  (W13_arr m ρ c 4).trans (((dat6 (V12 m ρ) c).arrAt_in 4 rfl _).trans (A_eq6 (V12 m ρ) c 4))

theorem in6_5 (c : Dev nD) : W13 m ρ c (Proc.devRef .tc main_v68) = W12 m ρ c (Proc.devRef .tc main_v68) :=
  (W13_arr m ρ c 5).trans (((dat6 (V12 m ρ) c).arrAt_in 5 rfl _).trans (A_eq6 (V12 m ρ) c 5))

theorem in6_6 (c : Dev nD) : W13 m ρ c (Proc.devRef .tc main_v72) = W12 m ρ c (Proc.devRef .tc main_v72) :=
  (W13_arr m ρ c 6).trans (((dat6 (V12 m ρ) c).arrAt_in 6 rfl _).trans (A_eq6 (V12 m ρ) c 6))

theorem out6_7 (c : Dev nD) : W13 m ρ c (Proc.devRef .tc main_v73) = (dat6 (V12 m ρ) c).arrAt 7 cfg6.N :=
  W13_arr m ρ c 7

/-- The buffers host stretch 7 writes. -/
def writes7 : List (Ref sig .tc) := [main_c_7, main_v74, main_v75, main_c_8, main_v76, main_v77, main_v78, main_v79, main_v80, main_v81, main_v82, main_v83, main_v84, main_v85]

theorem hostOps7_writes_sub : (hostOps7 : List (HloOp τ sig (Elt Ideal))).Forall fun op =>
    op.writes ⊆ ((writes7).map (Proc.devRef (τ := τ) .tc)).toFinset := by
  simp only [hostOps7, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 14 agrees with boundary 13 at every buffer host stretch 7 does not write. -/
theorem down14 (c : Dev nD) (b : Ref sig .tc) (hb : b ∉ writes7) :
    W14 m ρ c (Proc.devRef .tc b) = W13 m ρ c (Proc.devRef .tc b) :=
  StableHlo.after_of_writes_sub _ _ (hostOps7_writes_sub) hb

theorem in7_0 (c : Dev nD) : W15 m ρ c (Proc.devRef .tc main_v73) = W14 m ρ c (Proc.devRef .tc main_v73) :=
  (W15_arr m ρ c 0).trans (((dat7 (V14 m ρ) c).arrAt_in 0 rfl _).trans (A_eq7 (V14 m ρ) c 0))

theorem in7_1 (c : Dev nD) : W15 m ρ c (Proc.devRef .tc main_v82) = W14 m ρ c (Proc.devRef .tc main_v82) :=
  (W15_arr m ρ c 1).trans (((dat7 (V14 m ρ) c).arrAt_in 1 rfl _).trans (A_eq7 (V14 m ρ) c 1))

theorem in7_2 (c : Dev nD) : W15 m ρ c (Proc.devRef .tc main_v85) = W14 m ρ c (Proc.devRef .tc main_v85) :=
  (W15_arr m ρ c 2).trans (((dat7 (V14 m ρ) c).arrAt_in 2 rfl _).trans (A_eq7 (V14 m ρ) c 2))

theorem in7_3 (c : Dev nD) : W15 m ρ c (Proc.devRef .tc main_v80) = W14 m ρ c (Proc.devRef .tc main_v80) :=
  (W15_arr m ρ c 3).trans (((dat7 (V14 m ρ) c).arrAt_in 3 rfl _).trans (A_eq7 (V14 m ρ) c 3))

theorem out7_4 (c : Dev nD) : W15 m ρ c (Proc.devRef .tc main_v86) = (dat7 (V14 m ρ) c).arrAt 4 cfg7.N :=
  W15_arr m ρ c 4

/-- The buffers host stretch 8 writes. -/
def writes8 : List (Ref sig .tc) := [main_cst_9, main_v87, main_v88, main_v89, main_v90, main_v91, main_v92, main_v93, main_v94, main_v95, main_v96, main_v97, main_v98, main_v99]

theorem hostOps8_writes_sub : (hostOps8 : List (HloOp τ sig (Elt Ideal))).Forall fun op =>
    op.writes ⊆ ((writes8).map (Proc.devRef (τ := τ) .tc)).toFinset := by
  simp only [hostOps8, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 16 agrees with boundary 15 at every buffer host stretch 8 does not write. -/
theorem down16 (c : Dev nD) (b : Ref sig .tc) (hb : b ∉ writes8) :
    W16 m ρ c (Proc.devRef .tc b) = W15 m ρ c (Proc.devRef .tc b) :=
  StableHlo.after_of_writes_sub _ _ (hostOps8_writes_sub) hb

theorem in8_0 (c : Dev nD) : W17 m ρ c (Proc.devRef .tc main_v48) = W16 m ρ c (Proc.devRef .tc main_v48) :=
  (W17_arr m ρ c 0).trans (((dat8 (V16 m ρ) c).arrAt_in 0 rfl _).trans (A_eq8 (V16 m ρ) c 0))

theorem in8_1 (c : Dev nD) : W17 m ρ c (Proc.devRef .tc main_v89) = W16 m ρ c (Proc.devRef .tc main_v89) :=
  (W17_arr m ρ c 1).trans (((dat8 (V16 m ρ) c).arrAt_in 1 rfl _).trans (A_eq8 (V16 m ρ) c 1))

theorem in8_2 (c : Dev nD) : W17 m ρ c (Proc.devRef .tc main_v91) = W16 m ρ c (Proc.devRef .tc main_v91) :=
  (W17_arr m ρ c 2).trans (((dat8 (V16 m ρ) c).arrAt_in 2 rfl _).trans (A_eq8 (V16 m ρ) c 2))

theorem in8_3 (c : Dev nD) : W17 m ρ c (Proc.devRef .tc main_v98) = W16 m ρ c (Proc.devRef .tc main_v98) :=
  (W17_arr m ρ c 3).trans (((dat8 (V16 m ρ) c).arrAt_in 3 rfl _).trans (A_eq8 (V16 m ρ) c 3))

theorem in8_4 (c : Dev nD) : W17 m ρ c (Proc.devRef .tc main_v95) = W16 m ρ c (Proc.devRef .tc main_v95) :=
  (W17_arr m ρ c 4).trans (((dat8 (V16 m ρ) c).arrAt_in 4 rfl _).trans (A_eq8 (V16 m ρ) c 4))

theorem in8_5 (c : Dev nD) : W17 m ρ c (Proc.devRef .tc main_v99) = W16 m ρ c (Proc.devRef .tc main_v99) :=
  (W17_arr m ρ c 5).trans (((dat8 (V16 m ρ) c).arrAt_in 5 rfl _).trans (A_eq8 (V16 m ρ) c 5))

theorem out8_6 (c : Dev nD) : W17 m ρ c (Proc.devRef .tc main_v100) = (dat8 (V16 m ρ) c).arrAt 6 cfg8.N :=
  W17_arr m ρ c 6

theorem in9_0 (c : Dev nD) : W18 m ρ c (Proc.devRef .tc main_v100) = W17 m ρ c (Proc.devRef .tc main_v100) :=
  (W18_arr m ρ c 0).trans (((dat9 (V17 m ρ) c).arrAt_in 0 rfl _).trans (A_eq9 (V17 m ρ) c 0))

theorem out9_1 (c : Dev nD) : W18 m ρ c (Proc.devRef .tc main_v101_0) = (dat9 (V17 m ρ) c).arrAt 1 cfg9.N :=
  W18_arr m ρ c 1

theorem out9_2 (c : Dev nD) : W18 m ρ c (Proc.devRef .tc main_v101_1) = (dat9 (V17 m ρ) c).arrAt 2 cfg9.N :=
  W18_arr m ρ c 2

/-- The buffers host stretch 10 writes. -/
def writes10 : List (Ref sig .tc) := [main_v102, main_cst_10, main_v103, main_v104, main_v105, main_cst_11, main_v106, main_v107, main_v108, main_v109, main_v110, main_v111, main_v112, main_v113, main_v114, main_v115, main_v116, main_v117]

theorem hostOps10_writes_sub : (hostOps10 : List (HloOp τ sig (Elt Ideal))).Forall fun op =>
    op.writes ⊆ ((writes10).map (Proc.devRef (τ := τ) .tc)).toFinset := by
  simp only [hostOps10, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 19 agrees with boundary 18 at every buffer host stretch 10 does not write. -/
theorem down19 (c : Dev nD) (b : Ref sig .tc) (hb : b ∉ writes10) :
    W19 m ρ c (Proc.devRef .tc b) = W18 m ρ c (Proc.devRef .tc b) :=
  StableHlo.after_of_writes_sub _ _ (hostOps10_writes_sub) hb

theorem in10_0 (c : Dev nD) : W20 m ρ c (Proc.devRef .tc main_v100) = W19 m ρ c (Proc.devRef .tc main_v100) :=
  (W20_arr m ρ c 0).trans (((dat10 (V19 m ρ) c).arrAt_in 0 rfl _).trans (A_eq10 (V19 m ρ) c 0))

theorem in10_1 (c : Dev nD) : W20 m ρ c (Proc.devRef .tc main_v48) = W19 m ρ c (Proc.devRef .tc main_v48) :=
  (W20_arr m ρ c 1).trans (((dat10 (V19 m ρ) c).arrAt_in 1 rfl _).trans (A_eq10 (V19 m ρ) c 1))

theorem in10_2 (c : Dev nD) : W20 m ρ c (Proc.devRef .tc main_v114) = W19 m ρ c (Proc.devRef .tc main_v114) :=
  (W20_arr m ρ c 2).trans (((dat10 (V19 m ρ) c).arrAt_in 2 rfl _).trans (A_eq10 (V19 m ρ) c 2))

theorem in10_3 (c : Dev nD) : W20 m ρ c (Proc.devRef .tc main_v115) = W19 m ρ c (Proc.devRef .tc main_v115) :=
  (W20_arr m ρ c 3).trans (((dat10 (V19 m ρ) c).arrAt_in 3 rfl _).trans (A_eq10 (V19 m ρ) c 3))

theorem in10_4 (c : Dev nD) : W20 m ρ c (Proc.devRef .tc main_v116) = W19 m ρ c (Proc.devRef .tc main_v116) :=
  (W20_arr m ρ c 4).trans (((dat10 (V19 m ρ) c).arrAt_in 4 rfl _).trans (A_eq10 (V19 m ρ) c 4))

theorem in10_5 (c : Dev nD) : W20 m ρ c (Proc.devRef .tc main_v117) = W19 m ρ c (Proc.devRef .tc main_v117) :=
  (W20_arr m ρ c 5).trans (((dat10 (V19 m ρ) c).arrAt_in 5 rfl _).trans (A_eq10 (V19 m ρ) c 5))

theorem out10_6 (c : Dev nD) : W20 m ρ c (Proc.devRef .tc main_v118) = (dat10 (V19 m ρ) c).arrAt 6 cfg10.N :=
  W20_arr m ρ c 6

/-- The buffers host stretch 11 writes. -/
def writes11 : List (Ref sig .tc) := [main_c_12, main_v119, main_v120, main_c_13, main_v121, main_v122, main_v123, main_v124, main_v125, main_c_14, main_v126, main_v127, main_c_15, main_v128, main_v129, main_v130, main_v131, main_v132, main_v133, main_v134, main_v135, main_v136, main_v137, main_v138, main_v139, main_v140, main_v141, main_v142]

theorem hostOps11_writes_sub : (hostOps11 : List (HloOp τ sig (Elt Ideal))).Forall fun op =>
    op.writes ⊆ ((writes11).map (Proc.devRef (τ := τ) .tc)).toFinset := by
  simp only [hostOps11, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 21 agrees with boundary 20 at every buffer host stretch 11 does not write. -/
theorem down21 (c : Dev nD) (b : Ref sig .tc) (hb : b ∉ writes11) :
    W21 m ρ c (Proc.devRef .tc b) = W20 m ρ c (Proc.devRef .tc b) :=
  StableHlo.after_of_writes_sub _ _ (hostOps11_writes_sub) hb

theorem in11_0 (c : Dev nD) : W22 m ρ c (Proc.devRef .tc main_v125) = W21 m ρ c (Proc.devRef .tc main_v125) :=
  (W22_arr m ρ c 0).trans (((dat11 (V21 m ρ) c).arrAt_in 0 rfl _).trans (A_eq11 (V21 m ρ) c 0))

theorem in11_1 (c : Dev nD) : W22 m ρ c (Proc.devRef .tc main_v132) = W21 m ρ c (Proc.devRef .tc main_v132) :=
  (W22_arr m ρ c 1).trans (((dat11 (V21 m ρ) c).arrAt_in 1 rfl _).trans (A_eq11 (V21 m ρ) c 1))

theorem in11_2 (c : Dev nD) : W22 m ρ c (Proc.devRef .tc main_v73) = W21 m ρ c (Proc.devRef .tc main_v73) :=
  (W22_arr m ρ c 2).trans (((dat11 (V21 m ρ) c).arrAt_in 2 rfl _).trans (A_eq11 (V21 m ρ) c 2))

theorem in11_3 (c : Dev nD) : W22 m ρ c (Proc.devRef .tc main_v134) = W21 m ρ c (Proc.devRef .tc main_v134) :=
  (W22_arr m ρ c 3).trans (((dat11 (V21 m ρ) c).arrAt_in 3 rfl _).trans (A_eq11 (V21 m ρ) c 3))

theorem in11_4 (c : Dev nD) : W22 m ρ c (Proc.devRef .tc main_v141) = W21 m ρ c (Proc.devRef .tc main_v141) :=
  (W22_arr m ρ c 4).trans (((dat11 (V21 m ρ) c).arrAt_in 4 rfl _).trans (A_eq11 (V21 m ρ) c 4))

theorem in11_5 (c : Dev nD) : W22 m ρ c (Proc.devRef .tc main_v138) = W21 m ρ c (Proc.devRef .tc main_v138) :=
  (W22_arr m ρ c 5).trans (((dat11 (V21 m ρ) c).arrAt_in 5 rfl _).trans (A_eq11 (V21 m ρ) c 5))

theorem in11_6 (c : Dev nD) : W22 m ρ c (Proc.devRef .tc main_v142) = W21 m ρ c (Proc.devRef .tc main_v142) :=
  (W22_arr m ρ c 6).trans (((dat11 (V21 m ρ) c).arrAt_in 6 rfl _).trans (A_eq11 (V21 m ρ) c 6))

theorem out11_7 (c : Dev nD) : W22 m ρ c (Proc.devRef .tc main_v143) = (dat11 (V21 m ρ) c).arrAt 7 cfg11.N :=
  W22_arr m ρ c 7

/-- The buffers host stretch 12 writes. -/
def writes12 : List (Ref sig .tc) := [main_c_16, main_v144, main_v145, main_c_17, main_v146, main_v147, main_v148, main_v149, main_v150, main_c_18, main_v151, main_v152, main_c_19, main_v153, main_v154, main_v155, main_v156, main_v157, main_v158, main_v159, main_v160]

theorem hostOps12_writes_sub : (hostOps12 : List (HloOp τ sig (Elt Ideal))).Forall fun op =>
    op.writes ⊆ ((writes12).map (Proc.devRef (τ := τ) .tc)).toFinset := by
  simp only [hostOps12, List.Forall, StableHlo.nullary_writes, StableHlo.unary_writes, StableHlo.binary_writes,
    StableHlo.ternary_writes, StableHlo.reshape_writes]
  repeat' apply And.intro
  all_goals (intro x hx; rw [Finset.mem_singleton] at hx; subst hx
             exact List.mem_toFinset.mpr (List.mem_map.mpr ⟨_, by decide, rfl⟩))

/-- Boundary 23 agrees with boundary 22 at every buffer host stretch 12 does not write. -/
theorem down23 (c : Dev nD) (b : Ref sig .tc) (hb : b ∉ writes12) :
    W23 m ρ c (Proc.devRef .tc b) = W22 m ρ c (Proc.devRef .tc b) :=
  StableHlo.after_of_writes_sub _ _ (hostOps12_writes_sub) hb

theorem in12_0 (c : Dev nD) : W24 m ρ c (Proc.devRef .tc main_v150) = W23 m ρ c (Proc.devRef .tc main_v150) :=
  (W24_arr m ρ c 0).trans (((dat12 (V23 m ρ) c).arrAt_in 0 rfl _).trans (A_eq12 (V23 m ρ) c 0))

theorem in12_1 (c : Dev nD) : W24 m ρ c (Proc.devRef .tc main_v157) = W23 m ρ c (Proc.devRef .tc main_v157) :=
  (W24_arr m ρ c 1).trans (((dat12 (V23 m ρ) c).arrAt_in 1 rfl _).trans (A_eq12 (V23 m ρ) c 1))

theorem in12_2 (c : Dev nD) : W24 m ρ c (Proc.devRef .tc main_v143) = W23 m ρ c (Proc.devRef .tc main_v143) :=
  (W24_arr m ρ c 2).trans (((dat12 (V23 m ρ) c).arrAt_in 2 rfl _).trans (A_eq12 (V23 m ρ) c 2))

theorem in12_3 (c : Dev nD) : W24 m ρ c (Proc.devRef .tc main_arg20) = W23 m ρ c (Proc.devRef .tc main_arg20) :=
  (W24_arr m ρ c 3).trans (((dat12 (V23 m ρ) c).arrAt_in 3 rfl _).trans (A_eq12 (V23 m ρ) c 3))

theorem in12_4 (c : Dev nD) : W24 m ρ c (Proc.devRef .tc main_v158) = W23 m ρ c (Proc.devRef .tc main_v158) :=
  (W24_arr m ρ c 4).trans (((dat12 (V23 m ρ) c).arrAt_in 4 rfl _).trans (A_eq12 (V23 m ρ) c 4))

theorem in12_5 (c : Dev nD) : W24 m ρ c (Proc.devRef .tc main_arg22) = W23 m ρ c (Proc.devRef .tc main_arg22) :=
  (W24_arr m ρ c 5).trans (((dat12 (V23 m ρ) c).arrAt_in 5 rfl _).trans (A_eq12 (V23 m ρ) c 5))

theorem in12_6 (c : Dev nD) : W24 m ρ c (Proc.devRef .tc main_v159) = W23 m ρ c (Proc.devRef .tc main_v159) :=
  (W24_arr m ρ c 6).trans (((dat12 (V23 m ρ) c).arrAt_in 6 rfl _).trans (A_eq12 (V23 m ρ) c 6))

theorem in12_7 (c : Dev nD) : W24 m ρ c (Proc.devRef .tc main_arg24) = W23 m ρ c (Proc.devRef .tc main_arg24) :=
  (W24_arr m ρ c 7).trans (((dat12 (V23 m ρ) c).arrAt_in 7 rfl _).trans (A_eq12 (V23 m ρ) c 7))

theorem in12_8 (c : Dev nD) : W24 m ρ c (Proc.devRef .tc main_v160) = W23 m ρ c (Proc.devRef .tc main_v160) :=
  (W24_arr m ρ c 8).trans (((dat12 (V23 m ρ) c).arrAt_in 8 rfl _).trans (A_eq12 (V23 m ρ) c 8))

theorem out12_9 (c : Dev nD) : W24 m ρ c (Proc.devRef .tc main_v161) = (dat12 (V23 m ρ) c).arrAt 9 cfg12.N :=
  W24_arr m ρ c 9

end Cert.KernelIdeal.Chain

end
-- ==== Proof.ChainKeep.lean ====
/-
  Buffers carried along the run's fold.

  Each statement says that a buffer read at a later boundary of the fold holds what it held right after the segment
  that wrote it (or at launch, for an argument array): the intermediate segments do not write it. Each is the
  composition of the one-boundary steps.
-/
import proofs.«156771_j85263690760421_1_alg».proof.Proof.ChainSteps

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

theorem at1_arg0 (c : Dev nD) : W1 m ρ c (Proc.devRef .tc main_arg0) = W0 m ρ c (Proc.devRef .tc main_arg0) :=
  down1 m ρ c main_arg0 (by decide)

theorem at1_arg4 (c : Dev nD) : W1 m ρ c (Proc.devRef .tc main_arg4) = W0 m ρ c (Proc.devRef .tc main_arg4) :=
  down1 m ρ c main_arg4 (by decide)

theorem at2_arg7 (c : Dev nD) : W2 m ρ c (Proc.devRef .tc main_arg7) = W0 m ρ c (Proc.devRef .tc main_arg7) :=
  (W2_of_ne m ρ c main_arg7 (by decide)).trans <|
    down1 m ρ c main_arg7 (by decide)

theorem at3_arg1 (c : Dev nD) : W3 m ρ c (Proc.devRef .tc main_arg1) = W0 m ρ c (Proc.devRef .tc main_arg1) :=
  (down3 m ρ c main_arg1 (by decide)).trans <|
    (W2_of_ne m ρ c main_arg1 (by decide)).trans <|
    down1 m ρ c main_arg1 (by decide)

theorem at3_arg6 (c : Dev nD) : W3 m ρ c (Proc.devRef .tc main_arg6) = W0 m ρ c (Proc.devRef .tc main_arg6) :=
  (down3 m ρ c main_arg6 (by decide)).trans <|
    (W2_of_ne m ρ c main_arg6 (by decide)).trans <|
    down1 m ρ c main_arg6 (by decide)

theorem at4_arg8 (c : Dev nD) : W4 m ρ c (Proc.devRef .tc main_arg8) = W0 m ρ c (Proc.devRef .tc main_arg8) :=
  (W4_of_ne m ρ c main_arg8 (by decide)).trans <|
    (down3 m ρ c main_arg8 (by decide)).trans <|
    (W2_of_ne m ρ c main_arg8 (by decide)).trans <|
    down1 m ρ c main_arg8 (by decide)

theorem at4_arg9 (c : Dev nD) : W4 m ρ c (Proc.devRef .tc main_arg9) = W0 m ρ c (Proc.devRef .tc main_arg9) :=
  (W4_of_ne m ρ c main_arg9 (by decide)).trans <|
    (down3 m ρ c main_arg9 (by decide)).trans <|
    (W2_of_ne m ρ c main_arg9 (by decide)).trans <|
    down1 m ρ c main_arg9 (by decide)

theorem at4_v1 (c : Dev nD) : W4 m ρ c (Proc.devRef .tc main_v1) = W2 m ρ c (Proc.devRef .tc main_v1) :=
  (W4_of_ne m ρ c main_v1 (by decide)).trans <|
    down3 m ρ c main_v1 (by decide)

theorem at4_arg2 (c : Dev nD) : W4 m ρ c (Proc.devRef .tc main_arg2) = W0 m ρ c (Proc.devRef .tc main_arg2) :=
  (W4_of_ne m ρ c main_arg2 (by decide)).trans <|
    (down3 m ρ c main_arg2 (by decide)).trans <|
    (W2_of_ne m ρ c main_arg2 (by decide)).trans <|
    down1 m ρ c main_arg2 (by decide)

theorem at5_v3 (c : Dev nD) : W5 m ρ c (Proc.devRef .tc main_v3) = W4 m ρ c (Proc.devRef .tc main_v3) :=
  down5 m ρ c main_v3 (by decide)

theorem at6_arg3 (c : Dev nD) : W6 m ρ c (Proc.devRef .tc main_arg3) = W0 m ρ c (Proc.devRef .tc main_arg3) :=
  (W6_of_ne m ρ c main_arg3 (by decide)).trans <|
    (down5 m ρ c main_arg3 (by decide)).trans <|
    (W4_of_ne m ρ c main_arg3 (by decide)).trans <|
    (down3 m ρ c main_arg3 (by decide)).trans <|
    (W2_of_ne m ρ c main_arg3 (by decide)).trans <|
    down1 m ρ c main_arg3 (by decide)

theorem at6_arg10 (c : Dev nD) : W6 m ρ c (Proc.devRef .tc main_arg10) = W0 m ρ c (Proc.devRef .tc main_arg10) :=
  (W6_of_ne m ρ c main_arg10 (by decide)).trans <|
    (down5 m ρ c main_arg10 (by decide)).trans <|
    (W4_of_ne m ρ c main_arg10 (by decide)).trans <|
    (down3 m ρ c main_arg10 (by decide)).trans <|
    (W2_of_ne m ρ c main_arg10 (by decide)).trans <|
    down1 m ρ c main_arg10 (by decide)

theorem at6_arg11 (c : Dev nD) : W6 m ρ c (Proc.devRef .tc main_arg11) = W0 m ρ c (Proc.devRef .tc main_arg11) :=
  (W6_of_ne m ρ c main_arg11 (by decide)).trans <|
    (down5 m ρ c main_arg11 (by decide)).trans <|
    (W4_of_ne m ρ c main_arg11 (by decide)).trans <|
    (down3 m ρ c main_arg11 (by decide)).trans <|
    (W2_of_ne m ρ c main_arg11 (by decide)).trans <|
    down1 m ρ c main_arg11 (by decide)

theorem at6_arg12 (c : Dev nD) : W6 m ρ c (Proc.devRef .tc main_arg12) = W0 m ρ c (Proc.devRef .tc main_arg12) :=
  (W6_of_ne m ρ c main_arg12 (by decide)).trans <|
    (down5 m ρ c main_arg12 (by decide)).trans <|
    (W4_of_ne m ρ c main_arg12 (by decide)).trans <|
    (down3 m ρ c main_arg12 (by decide)).trans <|
    (W2_of_ne m ρ c main_arg12 (by decide)).trans <|
    down1 m ρ c main_arg12 (by decide)

theorem at6_arg13 (c : Dev nD) : W6 m ρ c (Proc.devRef .tc main_arg13) = W0 m ρ c (Proc.devRef .tc main_arg13) :=
  (W6_of_ne m ρ c main_arg13 (by decide)).trans <|
    (down5 m ρ c main_arg13 (by decide)).trans <|
    (W4_of_ne m ρ c main_arg13 (by decide)).trans <|
    (down3 m ρ c main_arg13 (by decide)).trans <|
    (W2_of_ne m ρ c main_arg13 (by decide)).trans <|
    down1 m ρ c main_arg13 (by decide)

theorem at7_v1 (c : Dev nD) : W7 m ρ c (Proc.devRef .tc main_v1) = W2 m ρ c (Proc.devRef .tc main_v1) :=
  (down7 m ρ c main_v1 (by decide)).trans <|
    (W6_of_ne m ρ c main_v1 (by decide)).trans <|
    (down5 m ρ c main_v1 (by decide)).trans <|
    (W4_of_ne m ρ c main_v1 (by decide)).trans <|
    down3 m ρ c main_v1 (by decide)

theorem at9_arg18 (c : Dev nD) : W9 m ρ c (Proc.devRef .tc main_arg18) = W0 m ρ c (Proc.devRef .tc main_arg18) :=
  (W9_of_ne m ρ c main_arg18 (by decide)).trans <|
    (W8_of_ne m ρ c main_arg18 (by decide)).trans <|
    (down7 m ρ c main_arg18 (by decide)).trans <|
    (W6_of_ne m ρ c main_arg18 (by decide)).trans <|
    (down5 m ρ c main_arg18 (by decide)).trans <|
    (W4_of_ne m ρ c main_arg18 (by decide)).trans <|
    (down3 m ρ c main_arg18 (by decide)).trans <|
    (W2_of_ne m ρ c main_arg18 (by decide)).trans <|
    down1 m ρ c main_arg18 (by decide)

theorem at9_arg19 (c : Dev nD) : W9 m ρ c (Proc.devRef .tc main_arg19) = W0 m ρ c (Proc.devRef .tc main_arg19) :=
  (W9_of_ne m ρ c main_arg19 (by decide)).trans <|
    (W8_of_ne m ρ c main_arg19 (by decide)).trans <|
    (down7 m ρ c main_arg19 (by decide)).trans <|
    (W6_of_ne m ρ c main_arg19 (by decide)).trans <|
    (down5 m ρ c main_arg19 (by decide)).trans <|
    (W4_of_ne m ρ c main_arg19 (by decide)).trans <|
    (down3 m ρ c main_arg19 (by decide)).trans <|
    (W2_of_ne m ρ c main_arg19 (by decide)).trans <|
    down1 m ρ c main_arg19 (by decide)

theorem at10_v30 (c : Dev nD) : W10 m ρ c (Proc.devRef .tc main_v30) = W8 m ρ c (Proc.devRef .tc main_v30) :=
  (down10 m ρ c main_v30 (by decide)).trans <|
    in4_0 m ρ c

theorem at10_v1 (c : Dev nD) : W10 m ρ c (Proc.devRef .tc main_v1) = W2 m ρ c (Proc.devRef .tc main_v1) :=
  (down10 m ρ c main_v1 (by decide)).trans <|
    (W9_of_ne m ρ c main_v1 (by decide)).trans <|
    (in3_0 m ρ c).trans <|
    (down7 m ρ c main_v1 (by decide)).trans <|
    (W6_of_ne m ρ c main_v1 (by decide)).trans <|
    (down5 m ρ c main_v1 (by decide)).trans <|
    (W4_of_ne m ρ c main_v1 (by decide)).trans <|
    down3 m ρ c main_v1 (by decide)

theorem at11_arg2 (c : Dev nD) : W11 m ρ c (Proc.devRef .tc main_arg2) = W0 m ρ c (Proc.devRef .tc main_arg2) :=
  (W11_of_ne m ρ c main_arg2 (by decide)).trans <|
    (down10 m ρ c main_arg2 (by decide)).trans <|
    (W9_of_ne m ρ c main_arg2 (by decide)).trans <|
    (W8_of_ne m ρ c main_arg2 (by decide)).trans <|
    (down7 m ρ c main_arg2 (by decide)).trans <|
    (W6_of_ne m ρ c main_arg2 (by decide)).trans <|
    (down5 m ρ c main_arg2 (by decide)).trans <|
    (W4_of_ne m ρ c main_arg2 (by decide)).trans <|
    (down3 m ρ c main_arg2 (by decide)).trans <|
    (W2_of_ne m ρ c main_arg2 (by decide)).trans <|
    down1 m ρ c main_arg2 (by decide)

theorem at11_arg3 (c : Dev nD) : W11 m ρ c (Proc.devRef .tc main_arg3) = W0 m ρ c (Proc.devRef .tc main_arg3) :=
  (W11_of_ne m ρ c main_arg3 (by decide)).trans <|
    (down10 m ρ c main_arg3 (by decide)).trans <|
    (W9_of_ne m ρ c main_arg3 (by decide)).trans <|
    (W8_of_ne m ρ c main_arg3 (by decide)).trans <|
    (down7 m ρ c main_arg3 (by decide)).trans <|
    (W6_of_ne m ρ c main_arg3 (by decide)).trans <|
    (down5 m ρ c main_arg3 (by decide)).trans <|
    (W4_of_ne m ρ c main_arg3 (by decide)).trans <|
    (down3 m ρ c main_arg3 (by decide)).trans <|
    (W2_of_ne m ρ c main_arg3 (by decide)).trans <|
    down1 m ρ c main_arg3 (by decide)

theorem at11_arg14 (c : Dev nD) : W11 m ρ c (Proc.devRef .tc main_arg14) = W0 m ρ c (Proc.devRef .tc main_arg14) :=
  (W11_of_ne m ρ c main_arg14 (by decide)).trans <|
    (down10 m ρ c main_arg14 (by decide)).trans <|
    (W9_of_ne m ρ c main_arg14 (by decide)).trans <|
    (W8_of_ne m ρ c main_arg14 (by decide)).trans <|
    (down7 m ρ c main_arg14 (by decide)).trans <|
    (W6_of_ne m ρ c main_arg14 (by decide)).trans <|
    (down5 m ρ c main_arg14 (by decide)).trans <|
    (W4_of_ne m ρ c main_arg14 (by decide)).trans <|
    (down3 m ρ c main_arg14 (by decide)).trans <|
    (W2_of_ne m ρ c main_arg14 (by decide)).trans <|
    down1 m ρ c main_arg14 (by decide)

theorem at11_arg15 (c : Dev nD) : W11 m ρ c (Proc.devRef .tc main_arg15) = W0 m ρ c (Proc.devRef .tc main_arg15) :=
  (W11_of_ne m ρ c main_arg15 (by decide)).trans <|
    (down10 m ρ c main_arg15 (by decide)).trans <|
    (W9_of_ne m ρ c main_arg15 (by decide)).trans <|
    (W8_of_ne m ρ c main_arg15 (by decide)).trans <|
    (down7 m ρ c main_arg15 (by decide)).trans <|
    (W6_of_ne m ρ c main_arg15 (by decide)).trans <|
    (down5 m ρ c main_arg15 (by decide)).trans <|
    (W4_of_ne m ρ c main_arg15 (by decide)).trans <|
    (down3 m ρ c main_arg15 (by decide)).trans <|
    (W2_of_ne m ρ c main_arg15 (by decide)).trans <|
    down1 m ρ c main_arg15 (by decide)

theorem at11_arg16 (c : Dev nD) : W11 m ρ c (Proc.devRef .tc main_arg16) = W0 m ρ c (Proc.devRef .tc main_arg16) :=
  (W11_of_ne m ρ c main_arg16 (by decide)).trans <|
    (down10 m ρ c main_arg16 (by decide)).trans <|
    (W9_of_ne m ρ c main_arg16 (by decide)).trans <|
    (W8_of_ne m ρ c main_arg16 (by decide)).trans <|
    (down7 m ρ c main_arg16 (by decide)).trans <|
    (W6_of_ne m ρ c main_arg16 (by decide)).trans <|
    (down5 m ρ c main_arg16 (by decide)).trans <|
    (W4_of_ne m ρ c main_arg16 (by decide)).trans <|
    (down3 m ρ c main_arg16 (by decide)).trans <|
    (W2_of_ne m ρ c main_arg16 (by decide)).trans <|
    down1 m ρ c main_arg16 (by decide)

theorem at11_arg17 (c : Dev nD) : W11 m ρ c (Proc.devRef .tc main_arg17) = W0 m ρ c (Proc.devRef .tc main_arg17) :=
  (W11_of_ne m ρ c main_arg17 (by decide)).trans <|
    (down10 m ρ c main_arg17 (by decide)).trans <|
    (W9_of_ne m ρ c main_arg17 (by decide)).trans <|
    (W8_of_ne m ρ c main_arg17 (by decide)).trans <|
    (down7 m ρ c main_arg17 (by decide)).trans <|
    (W6_of_ne m ρ c main_arg17 (by decide)).trans <|
    (down5 m ρ c main_arg17 (by decide)).trans <|
    (W4_of_ne m ρ c main_arg17 (by decide)).trans <|
    (down3 m ρ c main_arg17 (by decide)).trans <|
    (W2_of_ne m ρ c main_arg17 (by decide)).trans <|
    down1 m ρ c main_arg17 (by decide)

theorem at12_v3 (c : Dev nD) : W12 m ρ c (Proc.devRef .tc main_v3) = W4 m ρ c (Proc.devRef .tc main_v3) :=
  (down12 m ρ c main_v3 (by decide)).trans <|
    (W11_of_ne m ρ c main_v3 (by decide)).trans <|
    (down10 m ρ c main_v3 (by decide)).trans <|
    (W9_of_ne m ρ c main_v3 (by decide)).trans <|
    (W8_of_ne m ρ c main_v3 (by decide)).trans <|
    (down7 m ρ c main_v3 (by decide)).trans <|
    (in2_0 m ρ c).trans <|
    down5 m ρ c main_v3 (by decide)

theorem at13_arg8 (c : Dev nD) : W13 m ρ c (Proc.devRef .tc main_arg8) = W0 m ρ c (Proc.devRef .tc main_arg8) :=
  (W13_of_ne m ρ c main_arg8 (by decide)).trans <|
    (down12 m ρ c main_arg8 (by decide)).trans <|
    (W11_of_ne m ρ c main_arg8 (by decide)).trans <|
    (down10 m ρ c main_arg8 (by decide)).trans <|
    (W9_of_ne m ρ c main_arg8 (by decide)).trans <|
    (W8_of_ne m ρ c main_arg8 (by decide)).trans <|
    (down7 m ρ c main_arg8 (by decide)).trans <|
    (W6_of_ne m ρ c main_arg8 (by decide)).trans <|
    (down5 m ρ c main_arg8 (by decide)).trans <|
    (W4_of_ne m ρ c main_arg8 (by decide)).trans <|
    (down3 m ρ c main_arg8 (by decide)).trans <|
    (W2_of_ne m ρ c main_arg8 (by decide)).trans <|
    down1 m ρ c main_arg8 (by decide)

theorem at13_arg9 (c : Dev nD) : W13 m ρ c (Proc.devRef .tc main_arg9) = W0 m ρ c (Proc.devRef .tc main_arg9) :=
  (W13_of_ne m ρ c main_arg9 (by decide)).trans <|
    (down12 m ρ c main_arg9 (by decide)).trans <|
    (W11_of_ne m ρ c main_arg9 (by decide)).trans <|
    (down10 m ρ c main_arg9 (by decide)).trans <|
    (W9_of_ne m ρ c main_arg9 (by decide)).trans <|
    (W8_of_ne m ρ c main_arg9 (by decide)).trans <|
    (down7 m ρ c main_arg9 (by decide)).trans <|
    (W6_of_ne m ρ c main_arg9 (by decide)).trans <|
    (down5 m ρ c main_arg9 (by decide)).trans <|
    (W4_of_ne m ρ c main_arg9 (by decide)).trans <|
    (down3 m ρ c main_arg9 (by decide)).trans <|
    (W2_of_ne m ρ c main_arg9 (by decide)).trans <|
    down1 m ρ c main_arg9 (by decide)

theorem at13_v48 (c : Dev nD) : W13 m ρ c (Proc.devRef .tc main_v48) = W11 m ρ c (Proc.devRef .tc main_v48) :=
  (W13_of_ne m ρ c main_v48 (by decide)).trans <|
    down12 m ρ c main_v48 (by decide)

theorem at13_arg2 (c : Dev nD) : W13 m ρ c (Proc.devRef .tc main_arg2) = W0 m ρ c (Proc.devRef .tc main_arg2) :=
  (W13_of_ne m ρ c main_arg2 (by decide)).trans <|
    (down12 m ρ c main_arg2 (by decide)).trans <|
    (W11_of_ne m ρ c main_arg2 (by decide)).trans <|
    (down10 m ρ c main_arg2 (by decide)).trans <|
    (W9_of_ne m ρ c main_arg2 (by decide)).trans <|
    (W8_of_ne m ρ c main_arg2 (by decide)).trans <|
    (down7 m ρ c main_arg2 (by decide)).trans <|
    (W6_of_ne m ρ c main_arg2 (by decide)).trans <|
    (down5 m ρ c main_arg2 (by decide)).trans <|
    (W4_of_ne m ρ c main_arg2 (by decide)).trans <|
    (down3 m ρ c main_arg2 (by decide)).trans <|
    (W2_of_ne m ρ c main_arg2 (by decide)).trans <|
    down1 m ρ c main_arg2 (by decide)

theorem at14_v73 (c : Dev nD) : W14 m ρ c (Proc.devRef .tc main_v73) = W13 m ρ c (Proc.devRef .tc main_v73) :=
  down14 m ρ c main_v73 (by decide)

theorem at15_arg3 (c : Dev nD) : W15 m ρ c (Proc.devRef .tc main_arg3) = W0 m ρ c (Proc.devRef .tc main_arg3) :=
  (W15_of_ne m ρ c main_arg3 (by decide)).trans <|
    (down14 m ρ c main_arg3 (by decide)).trans <|
    (W13_of_ne m ρ c main_arg3 (by decide)).trans <|
    (down12 m ρ c main_arg3 (by decide)).trans <|
    (W11_of_ne m ρ c main_arg3 (by decide)).trans <|
    (down10 m ρ c main_arg3 (by decide)).trans <|
    (W9_of_ne m ρ c main_arg3 (by decide)).trans <|
    (W8_of_ne m ρ c main_arg3 (by decide)).trans <|
    (down7 m ρ c main_arg3 (by decide)).trans <|
    (W6_of_ne m ρ c main_arg3 (by decide)).trans <|
    (down5 m ρ c main_arg3 (by decide)).trans <|
    (W4_of_ne m ρ c main_arg3 (by decide)).trans <|
    (down3 m ρ c main_arg3 (by decide)).trans <|
    (W2_of_ne m ρ c main_arg3 (by decide)).trans <|
    down1 m ρ c main_arg3 (by decide)

theorem at15_arg10 (c : Dev nD) : W15 m ρ c (Proc.devRef .tc main_arg10) = W0 m ρ c (Proc.devRef .tc main_arg10) :=
  (W15_of_ne m ρ c main_arg10 (by decide)).trans <|
    (down14 m ρ c main_arg10 (by decide)).trans <|
    (W13_of_ne m ρ c main_arg10 (by decide)).trans <|
    (down12 m ρ c main_arg10 (by decide)).trans <|
    (W11_of_ne m ρ c main_arg10 (by decide)).trans <|
    (down10 m ρ c main_arg10 (by decide)).trans <|
    (W9_of_ne m ρ c main_arg10 (by decide)).trans <|
    (W8_of_ne m ρ c main_arg10 (by decide)).trans <|
    (down7 m ρ c main_arg10 (by decide)).trans <|
    (W6_of_ne m ρ c main_arg10 (by decide)).trans <|
    (down5 m ρ c main_arg10 (by decide)).trans <|
    (W4_of_ne m ρ c main_arg10 (by decide)).trans <|
    (down3 m ρ c main_arg10 (by decide)).trans <|
    (W2_of_ne m ρ c main_arg10 (by decide)).trans <|
    down1 m ρ c main_arg10 (by decide)

theorem at15_arg11 (c : Dev nD) : W15 m ρ c (Proc.devRef .tc main_arg11) = W0 m ρ c (Proc.devRef .tc main_arg11) :=
  (W15_of_ne m ρ c main_arg11 (by decide)).trans <|
    (down14 m ρ c main_arg11 (by decide)).trans <|
    (W13_of_ne m ρ c main_arg11 (by decide)).trans <|
    (down12 m ρ c main_arg11 (by decide)).trans <|
    (W11_of_ne m ρ c main_arg11 (by decide)).trans <|
    (down10 m ρ c main_arg11 (by decide)).trans <|
    (W9_of_ne m ρ c main_arg11 (by decide)).trans <|
    (W8_of_ne m ρ c main_arg11 (by decide)).trans <|
    (down7 m ρ c main_arg11 (by decide)).trans <|
    (W6_of_ne m ρ c main_arg11 (by decide)).trans <|
    (down5 m ρ c main_arg11 (by decide)).trans <|
    (W4_of_ne m ρ c main_arg11 (by decide)).trans <|
    (down3 m ρ c main_arg11 (by decide)).trans <|
    (W2_of_ne m ρ c main_arg11 (by decide)).trans <|
    down1 m ρ c main_arg11 (by decide)

theorem at15_arg12 (c : Dev nD) : W15 m ρ c (Proc.devRef .tc main_arg12) = W0 m ρ c (Proc.devRef .tc main_arg12) :=
  (W15_of_ne m ρ c main_arg12 (by decide)).trans <|
    (down14 m ρ c main_arg12 (by decide)).trans <|
    (W13_of_ne m ρ c main_arg12 (by decide)).trans <|
    (down12 m ρ c main_arg12 (by decide)).trans <|
    (W11_of_ne m ρ c main_arg12 (by decide)).trans <|
    (down10 m ρ c main_arg12 (by decide)).trans <|
    (W9_of_ne m ρ c main_arg12 (by decide)).trans <|
    (W8_of_ne m ρ c main_arg12 (by decide)).trans <|
    (down7 m ρ c main_arg12 (by decide)).trans <|
    (W6_of_ne m ρ c main_arg12 (by decide)).trans <|
    (down5 m ρ c main_arg12 (by decide)).trans <|
    (W4_of_ne m ρ c main_arg12 (by decide)).trans <|
    (down3 m ρ c main_arg12 (by decide)).trans <|
    (W2_of_ne m ρ c main_arg12 (by decide)).trans <|
    down1 m ρ c main_arg12 (by decide)

theorem at15_arg13 (c : Dev nD) : W15 m ρ c (Proc.devRef .tc main_arg13) = W0 m ρ c (Proc.devRef .tc main_arg13) :=
  (W15_of_ne m ρ c main_arg13 (by decide)).trans <|
    (down14 m ρ c main_arg13 (by decide)).trans <|
    (W13_of_ne m ρ c main_arg13 (by decide)).trans <|
    (down12 m ρ c main_arg13 (by decide)).trans <|
    (W11_of_ne m ρ c main_arg13 (by decide)).trans <|
    (down10 m ρ c main_arg13 (by decide)).trans <|
    (W9_of_ne m ρ c main_arg13 (by decide)).trans <|
    (W8_of_ne m ρ c main_arg13 (by decide)).trans <|
    (down7 m ρ c main_arg13 (by decide)).trans <|
    (W6_of_ne m ρ c main_arg13 (by decide)).trans <|
    (down5 m ρ c main_arg13 (by decide)).trans <|
    (W4_of_ne m ρ c main_arg13 (by decide)).trans <|
    (down3 m ρ c main_arg13 (by decide)).trans <|
    (W2_of_ne m ρ c main_arg13 (by decide)).trans <|
    down1 m ρ c main_arg13 (by decide)

theorem at16_v48 (c : Dev nD) : W16 m ρ c (Proc.devRef .tc main_v48) = W11 m ρ c (Proc.devRef .tc main_v48) :=
  (down16 m ρ c main_v48 (by decide)).trans <|
    (W15_of_ne m ρ c main_v48 (by decide)).trans <|
    (down14 m ρ c main_v48 (by decide)).trans <|
    (W13_of_ne m ρ c main_v48 (by decide)).trans <|
    down12 m ρ c main_v48 (by decide)

theorem at18_arg18 (c : Dev nD) : W18 m ρ c (Proc.devRef .tc main_arg18) = W0 m ρ c (Proc.devRef .tc main_arg18) :=
  (W18_of_ne m ρ c main_arg18 (by decide)).trans <|
    (W17_of_ne m ρ c main_arg18 (by decide)).trans <|
    (down16 m ρ c main_arg18 (by decide)).trans <|
    (W15_of_ne m ρ c main_arg18 (by decide)).trans <|
    (down14 m ρ c main_arg18 (by decide)).trans <|
    (W13_of_ne m ρ c main_arg18 (by decide)).trans <|
    (down12 m ρ c main_arg18 (by decide)).trans <|
    (W11_of_ne m ρ c main_arg18 (by decide)).trans <|
    (down10 m ρ c main_arg18 (by decide)).trans <|
    (W9_of_ne m ρ c main_arg18 (by decide)).trans <|
    (W8_of_ne m ρ c main_arg18 (by decide)).trans <|
    (down7 m ρ c main_arg18 (by decide)).trans <|
    (W6_of_ne m ρ c main_arg18 (by decide)).trans <|
    (down5 m ρ c main_arg18 (by decide)).trans <|
    (W4_of_ne m ρ c main_arg18 (by decide)).trans <|
    (down3 m ρ c main_arg18 (by decide)).trans <|
    (W2_of_ne m ρ c main_arg18 (by decide)).trans <|
    down1 m ρ c main_arg18 (by decide)

theorem at18_arg19 (c : Dev nD) : W18 m ρ c (Proc.devRef .tc main_arg19) = W0 m ρ c (Proc.devRef .tc main_arg19) :=
  (W18_of_ne m ρ c main_arg19 (by decide)).trans <|
    (W17_of_ne m ρ c main_arg19 (by decide)).trans <|
    (down16 m ρ c main_arg19 (by decide)).trans <|
    (W15_of_ne m ρ c main_arg19 (by decide)).trans <|
    (down14 m ρ c main_arg19 (by decide)).trans <|
    (W13_of_ne m ρ c main_arg19 (by decide)).trans <|
    (down12 m ρ c main_arg19 (by decide)).trans <|
    (W11_of_ne m ρ c main_arg19 (by decide)).trans <|
    (down10 m ρ c main_arg19 (by decide)).trans <|
    (W9_of_ne m ρ c main_arg19 (by decide)).trans <|
    (W8_of_ne m ρ c main_arg19 (by decide)).trans <|
    (down7 m ρ c main_arg19 (by decide)).trans <|
    (W6_of_ne m ρ c main_arg19 (by decide)).trans <|
    (down5 m ρ c main_arg19 (by decide)).trans <|
    (W4_of_ne m ρ c main_arg19 (by decide)).trans <|
    (down3 m ρ c main_arg19 (by decide)).trans <|
    (W2_of_ne m ρ c main_arg19 (by decide)).trans <|
    down1 m ρ c main_arg19 (by decide)

theorem at19_v100 (c : Dev nD) : W19 m ρ c (Proc.devRef .tc main_v100) = W17 m ρ c (Proc.devRef .tc main_v100) :=
  (down19 m ρ c main_v100 (by decide)).trans <|
    in9_0 m ρ c

theorem at19_v48 (c : Dev nD) : W19 m ρ c (Proc.devRef .tc main_v48) = W11 m ρ c (Proc.devRef .tc main_v48) :=
  (down19 m ρ c main_v48 (by decide)).trans <|
    (W18_of_ne m ρ c main_v48 (by decide)).trans <|
    (in8_0 m ρ c).trans <|
    (down16 m ρ c main_v48 (by decide)).trans <|
    (W15_of_ne m ρ c main_v48 (by decide)).trans <|
    (down14 m ρ c main_v48 (by decide)).trans <|
    (W13_of_ne m ρ c main_v48 (by decide)).trans <|
    down12 m ρ c main_v48 (by decide)

theorem at20_arg2 (c : Dev nD) : W20 m ρ c (Proc.devRef .tc main_arg2) = W0 m ρ c (Proc.devRef .tc main_arg2) :=
  (W20_of_ne m ρ c main_arg2 (by decide)).trans <|
    (down19 m ρ c main_arg2 (by decide)).trans <|
    (W18_of_ne m ρ c main_arg2 (by decide)).trans <|
    (W17_of_ne m ρ c main_arg2 (by decide)).trans <|
    (down16 m ρ c main_arg2 (by decide)).trans <|
    (W15_of_ne m ρ c main_arg2 (by decide)).trans <|
    (down14 m ρ c main_arg2 (by decide)).trans <|
    (W13_of_ne m ρ c main_arg2 (by decide)).trans <|
    (down12 m ρ c main_arg2 (by decide)).trans <|
    (W11_of_ne m ρ c main_arg2 (by decide)).trans <|
    (down10 m ρ c main_arg2 (by decide)).trans <|
    (W9_of_ne m ρ c main_arg2 (by decide)).trans <|
    (W8_of_ne m ρ c main_arg2 (by decide)).trans <|
    (down7 m ρ c main_arg2 (by decide)).trans <|
    (W6_of_ne m ρ c main_arg2 (by decide)).trans <|
    (down5 m ρ c main_arg2 (by decide)).trans <|
    (W4_of_ne m ρ c main_arg2 (by decide)).trans <|
    (down3 m ρ c main_arg2 (by decide)).trans <|
    (W2_of_ne m ρ c main_arg2 (by decide)).trans <|
    down1 m ρ c main_arg2 (by decide)

theorem at20_arg3 (c : Dev nD) : W20 m ρ c (Proc.devRef .tc main_arg3) = W0 m ρ c (Proc.devRef .tc main_arg3) :=
  (W20_of_ne m ρ c main_arg3 (by decide)).trans <|
    (down19 m ρ c main_arg3 (by decide)).trans <|
    (W18_of_ne m ρ c main_arg3 (by decide)).trans <|
    (W17_of_ne m ρ c main_arg3 (by decide)).trans <|
    (down16 m ρ c main_arg3 (by decide)).trans <|
    (W15_of_ne m ρ c main_arg3 (by decide)).trans <|
    (down14 m ρ c main_arg3 (by decide)).trans <|
    (W13_of_ne m ρ c main_arg3 (by decide)).trans <|
    (down12 m ρ c main_arg3 (by decide)).trans <|
    (W11_of_ne m ρ c main_arg3 (by decide)).trans <|
    (down10 m ρ c main_arg3 (by decide)).trans <|
    (W9_of_ne m ρ c main_arg3 (by decide)).trans <|
    (W8_of_ne m ρ c main_arg3 (by decide)).trans <|
    (down7 m ρ c main_arg3 (by decide)).trans <|
    (W6_of_ne m ρ c main_arg3 (by decide)).trans <|
    (down5 m ρ c main_arg3 (by decide)).trans <|
    (W4_of_ne m ρ c main_arg3 (by decide)).trans <|
    (down3 m ρ c main_arg3 (by decide)).trans <|
    (W2_of_ne m ρ c main_arg3 (by decide)).trans <|
    down1 m ρ c main_arg3 (by decide)

theorem at20_arg14 (c : Dev nD) : W20 m ρ c (Proc.devRef .tc main_arg14) = W0 m ρ c (Proc.devRef .tc main_arg14) :=
  (W20_of_ne m ρ c main_arg14 (by decide)).trans <|
    (down19 m ρ c main_arg14 (by decide)).trans <|
    (W18_of_ne m ρ c main_arg14 (by decide)).trans <|
    (W17_of_ne m ρ c main_arg14 (by decide)).trans <|
    (down16 m ρ c main_arg14 (by decide)).trans <|
    (W15_of_ne m ρ c main_arg14 (by decide)).trans <|
    (down14 m ρ c main_arg14 (by decide)).trans <|
    (W13_of_ne m ρ c main_arg14 (by decide)).trans <|
    (down12 m ρ c main_arg14 (by decide)).trans <|
    (W11_of_ne m ρ c main_arg14 (by decide)).trans <|
    (down10 m ρ c main_arg14 (by decide)).trans <|
    (W9_of_ne m ρ c main_arg14 (by decide)).trans <|
    (W8_of_ne m ρ c main_arg14 (by decide)).trans <|
    (down7 m ρ c main_arg14 (by decide)).trans <|
    (W6_of_ne m ρ c main_arg14 (by decide)).trans <|
    (down5 m ρ c main_arg14 (by decide)).trans <|
    (W4_of_ne m ρ c main_arg14 (by decide)).trans <|
    (down3 m ρ c main_arg14 (by decide)).trans <|
    (W2_of_ne m ρ c main_arg14 (by decide)).trans <|
    down1 m ρ c main_arg14 (by decide)

theorem at20_arg15 (c : Dev nD) : W20 m ρ c (Proc.devRef .tc main_arg15) = W0 m ρ c (Proc.devRef .tc main_arg15) :=
  (W20_of_ne m ρ c main_arg15 (by decide)).trans <|
    (down19 m ρ c main_arg15 (by decide)).trans <|
    (W18_of_ne m ρ c main_arg15 (by decide)).trans <|
    (W17_of_ne m ρ c main_arg15 (by decide)).trans <|
    (down16 m ρ c main_arg15 (by decide)).trans <|
    (W15_of_ne m ρ c main_arg15 (by decide)).trans <|
    (down14 m ρ c main_arg15 (by decide)).trans <|
    (W13_of_ne m ρ c main_arg15 (by decide)).trans <|
    (down12 m ρ c main_arg15 (by decide)).trans <|
    (W11_of_ne m ρ c main_arg15 (by decide)).trans <|
    (down10 m ρ c main_arg15 (by decide)).trans <|
    (W9_of_ne m ρ c main_arg15 (by decide)).trans <|
    (W8_of_ne m ρ c main_arg15 (by decide)).trans <|
    (down7 m ρ c main_arg15 (by decide)).trans <|
    (W6_of_ne m ρ c main_arg15 (by decide)).trans <|
    (down5 m ρ c main_arg15 (by decide)).trans <|
    (W4_of_ne m ρ c main_arg15 (by decide)).trans <|
    (down3 m ρ c main_arg15 (by decide)).trans <|
    (W2_of_ne m ρ c main_arg15 (by decide)).trans <|
    down1 m ρ c main_arg15 (by decide)

theorem at20_arg16 (c : Dev nD) : W20 m ρ c (Proc.devRef .tc main_arg16) = W0 m ρ c (Proc.devRef .tc main_arg16) :=
  (W20_of_ne m ρ c main_arg16 (by decide)).trans <|
    (down19 m ρ c main_arg16 (by decide)).trans <|
    (W18_of_ne m ρ c main_arg16 (by decide)).trans <|
    (W17_of_ne m ρ c main_arg16 (by decide)).trans <|
    (down16 m ρ c main_arg16 (by decide)).trans <|
    (W15_of_ne m ρ c main_arg16 (by decide)).trans <|
    (down14 m ρ c main_arg16 (by decide)).trans <|
    (W13_of_ne m ρ c main_arg16 (by decide)).trans <|
    (down12 m ρ c main_arg16 (by decide)).trans <|
    (W11_of_ne m ρ c main_arg16 (by decide)).trans <|
    (down10 m ρ c main_arg16 (by decide)).trans <|
    (W9_of_ne m ρ c main_arg16 (by decide)).trans <|
    (W8_of_ne m ρ c main_arg16 (by decide)).trans <|
    (down7 m ρ c main_arg16 (by decide)).trans <|
    (W6_of_ne m ρ c main_arg16 (by decide)).trans <|
    (down5 m ρ c main_arg16 (by decide)).trans <|
    (W4_of_ne m ρ c main_arg16 (by decide)).trans <|
    (down3 m ρ c main_arg16 (by decide)).trans <|
    (W2_of_ne m ρ c main_arg16 (by decide)).trans <|
    down1 m ρ c main_arg16 (by decide)

theorem at20_arg17 (c : Dev nD) : W20 m ρ c (Proc.devRef .tc main_arg17) = W0 m ρ c (Proc.devRef .tc main_arg17) :=
  (W20_of_ne m ρ c main_arg17 (by decide)).trans <|
    (down19 m ρ c main_arg17 (by decide)).trans <|
    (W18_of_ne m ρ c main_arg17 (by decide)).trans <|
    (W17_of_ne m ρ c main_arg17 (by decide)).trans <|
    (down16 m ρ c main_arg17 (by decide)).trans <|
    (W15_of_ne m ρ c main_arg17 (by decide)).trans <|
    (down14 m ρ c main_arg17 (by decide)).trans <|
    (W13_of_ne m ρ c main_arg17 (by decide)).trans <|
    (down12 m ρ c main_arg17 (by decide)).trans <|
    (W11_of_ne m ρ c main_arg17 (by decide)).trans <|
    (down10 m ρ c main_arg17 (by decide)).trans <|
    (W9_of_ne m ρ c main_arg17 (by decide)).trans <|
    (W8_of_ne m ρ c main_arg17 (by decide)).trans <|
    (down7 m ρ c main_arg17 (by decide)).trans <|
    (W6_of_ne m ρ c main_arg17 (by decide)).trans <|
    (down5 m ρ c main_arg17 (by decide)).trans <|
    (W4_of_ne m ρ c main_arg17 (by decide)).trans <|
    (down3 m ρ c main_arg17 (by decide)).trans <|
    (W2_of_ne m ρ c main_arg17 (by decide)).trans <|
    down1 m ρ c main_arg17 (by decide)

theorem at21_v73 (c : Dev nD) : W21 m ρ c (Proc.devRef .tc main_v73) = W13 m ρ c (Proc.devRef .tc main_v73) :=
  (down21 m ρ c main_v73 (by decide)).trans <|
    (W20_of_ne m ρ c main_v73 (by decide)).trans <|
    (down19 m ρ c main_v73 (by decide)).trans <|
    (W18_of_ne m ρ c main_v73 (by decide)).trans <|
    (W17_of_ne m ρ c main_v73 (by decide)).trans <|
    (down16 m ρ c main_v73 (by decide)).trans <|
    (in7_0 m ρ c).trans <|
    down14 m ρ c main_v73 (by decide)

theorem at22_v118 (c : Dev nD) : W22 m ρ c (Proc.devRef .tc main_v118) = W20 m ρ c (Proc.devRef .tc main_v118) :=
  (W22_of_ne m ρ c main_v118 (by decide)).trans <|
    down21 m ρ c main_v118 (by decide)

theorem at22_arg2 (c : Dev nD) : W22 m ρ c (Proc.devRef .tc main_arg2) = W0 m ρ c (Proc.devRef .tc main_arg2) :=
  (W22_of_ne m ρ c main_arg2 (by decide)).trans <|
    (down21 m ρ c main_arg2 (by decide)).trans <|
    (W20_of_ne m ρ c main_arg2 (by decide)).trans <|
    (down19 m ρ c main_arg2 (by decide)).trans <|
    (W18_of_ne m ρ c main_arg2 (by decide)).trans <|
    (W17_of_ne m ρ c main_arg2 (by decide)).trans <|
    (down16 m ρ c main_arg2 (by decide)).trans <|
    (W15_of_ne m ρ c main_arg2 (by decide)).trans <|
    (down14 m ρ c main_arg2 (by decide)).trans <|
    (W13_of_ne m ρ c main_arg2 (by decide)).trans <|
    (down12 m ρ c main_arg2 (by decide)).trans <|
    (W11_of_ne m ρ c main_arg2 (by decide)).trans <|
    (down10 m ρ c main_arg2 (by decide)).trans <|
    (W9_of_ne m ρ c main_arg2 (by decide)).trans <|
    (W8_of_ne m ρ c main_arg2 (by decide)).trans <|
    (down7 m ρ c main_arg2 (by decide)).trans <|
    (W6_of_ne m ρ c main_arg2 (by decide)).trans <|
    (down5 m ρ c main_arg2 (by decide)).trans <|
    (W4_of_ne m ρ c main_arg2 (by decide)).trans <|
    (down3 m ρ c main_arg2 (by decide)).trans <|
    (W2_of_ne m ρ c main_arg2 (by decide)).trans <|
    down1 m ρ c main_arg2 (by decide)

theorem at22_arg3 (c : Dev nD) : W22 m ρ c (Proc.devRef .tc main_arg3) = W0 m ρ c (Proc.devRef .tc main_arg3) :=
  (W22_of_ne m ρ c main_arg3 (by decide)).trans <|
    (down21 m ρ c main_arg3 (by decide)).trans <|
    (W20_of_ne m ρ c main_arg3 (by decide)).trans <|
    (down19 m ρ c main_arg3 (by decide)).trans <|
    (W18_of_ne m ρ c main_arg3 (by decide)).trans <|
    (W17_of_ne m ρ c main_arg3 (by decide)).trans <|
    (down16 m ρ c main_arg3 (by decide)).trans <|
    (W15_of_ne m ρ c main_arg3 (by decide)).trans <|
    (down14 m ρ c main_arg3 (by decide)).trans <|
    (W13_of_ne m ρ c main_arg3 (by decide)).trans <|
    (down12 m ρ c main_arg3 (by decide)).trans <|
    (W11_of_ne m ρ c main_arg3 (by decide)).trans <|
    (down10 m ρ c main_arg3 (by decide)).trans <|
    (W9_of_ne m ρ c main_arg3 (by decide)).trans <|
    (W8_of_ne m ρ c main_arg3 (by decide)).trans <|
    (down7 m ρ c main_arg3 (by decide)).trans <|
    (W6_of_ne m ρ c main_arg3 (by decide)).trans <|
    (down5 m ρ c main_arg3 (by decide)).trans <|
    (W4_of_ne m ρ c main_arg3 (by decide)).trans <|
    (down3 m ρ c main_arg3 (by decide)).trans <|
    (W2_of_ne m ρ c main_arg3 (by decide)).trans <|
    down1 m ρ c main_arg3 (by decide)

theorem at22_arg21 (c : Dev nD) : W22 m ρ c (Proc.devRef .tc main_arg21) = W0 m ρ c (Proc.devRef .tc main_arg21) :=
  (W22_of_ne m ρ c main_arg21 (by decide)).trans <|
    (down21 m ρ c main_arg21 (by decide)).trans <|
    (W20_of_ne m ρ c main_arg21 (by decide)).trans <|
    (down19 m ρ c main_arg21 (by decide)).trans <|
    (W18_of_ne m ρ c main_arg21 (by decide)).trans <|
    (W17_of_ne m ρ c main_arg21 (by decide)).trans <|
    (down16 m ρ c main_arg21 (by decide)).trans <|
    (W15_of_ne m ρ c main_arg21 (by decide)).trans <|
    (down14 m ρ c main_arg21 (by decide)).trans <|
    (W13_of_ne m ρ c main_arg21 (by decide)).trans <|
    (down12 m ρ c main_arg21 (by decide)).trans <|
    (W11_of_ne m ρ c main_arg21 (by decide)).trans <|
    (down10 m ρ c main_arg21 (by decide)).trans <|
    (W9_of_ne m ρ c main_arg21 (by decide)).trans <|
    (W8_of_ne m ρ c main_arg21 (by decide)).trans <|
    (down7 m ρ c main_arg21 (by decide)).trans <|
    (W6_of_ne m ρ c main_arg21 (by decide)).trans <|
    (down5 m ρ c main_arg21 (by decide)).trans <|
    (W4_of_ne m ρ c main_arg21 (by decide)).trans <|
    (down3 m ρ c main_arg21 (by decide)).trans <|
    (W2_of_ne m ρ c main_arg21 (by decide)).trans <|
    down1 m ρ c main_arg21 (by decide)

theorem at22_arg23 (c : Dev nD) : W22 m ρ c (Proc.devRef .tc main_arg23) = W0 m ρ c (Proc.devRef .tc main_arg23) :=
  (W22_of_ne m ρ c main_arg23 (by decide)).trans <|
    (down21 m ρ c main_arg23 (by decide)).trans <|
    (W20_of_ne m ρ c main_arg23 (by decide)).trans <|
    (down19 m ρ c main_arg23 (by decide)).trans <|
    (W18_of_ne m ρ c main_arg23 (by decide)).trans <|
    (W17_of_ne m ρ c main_arg23 (by decide)).trans <|
    (down16 m ρ c main_arg23 (by decide)).trans <|
    (W15_of_ne m ρ c main_arg23 (by decide)).trans <|
    (down14 m ρ c main_arg23 (by decide)).trans <|
    (W13_of_ne m ρ c main_arg23 (by decide)).trans <|
    (down12 m ρ c main_arg23 (by decide)).trans <|
    (W11_of_ne m ρ c main_arg23 (by decide)).trans <|
    (down10 m ρ c main_arg23 (by decide)).trans <|
    (W9_of_ne m ρ c main_arg23 (by decide)).trans <|
    (W8_of_ne m ρ c main_arg23 (by decide)).trans <|
    (down7 m ρ c main_arg23 (by decide)).trans <|
    (W6_of_ne m ρ c main_arg23 (by decide)).trans <|
    (down5 m ρ c main_arg23 (by decide)).trans <|
    (W4_of_ne m ρ c main_arg23 (by decide)).trans <|
    (down3 m ρ c main_arg23 (by decide)).trans <|
    (W2_of_ne m ρ c main_arg23 (by decide)).trans <|
    down1 m ρ c main_arg23 (by decide)

theorem at22_arg25 (c : Dev nD) : W22 m ρ c (Proc.devRef .tc main_arg25) = W0 m ρ c (Proc.devRef .tc main_arg25) :=
  (W22_of_ne m ρ c main_arg25 (by decide)).trans <|
    (down21 m ρ c main_arg25 (by decide)).trans <|
    (W20_of_ne m ρ c main_arg25 (by decide)).trans <|
    (down19 m ρ c main_arg25 (by decide)).trans <|
    (W18_of_ne m ρ c main_arg25 (by decide)).trans <|
    (W17_of_ne m ρ c main_arg25 (by decide)).trans <|
    (down16 m ρ c main_arg25 (by decide)).trans <|
    (W15_of_ne m ρ c main_arg25 (by decide)).trans <|
    (down14 m ρ c main_arg25 (by decide)).trans <|
    (W13_of_ne m ρ c main_arg25 (by decide)).trans <|
    (down12 m ρ c main_arg25 (by decide)).trans <|
    (W11_of_ne m ρ c main_arg25 (by decide)).trans <|
    (down10 m ρ c main_arg25 (by decide)).trans <|
    (W9_of_ne m ρ c main_arg25 (by decide)).trans <|
    (W8_of_ne m ρ c main_arg25 (by decide)).trans <|
    (down7 m ρ c main_arg25 (by decide)).trans <|
    (W6_of_ne m ρ c main_arg25 (by decide)).trans <|
    (down5 m ρ c main_arg25 (by decide)).trans <|
    (W4_of_ne m ρ c main_arg25 (by decide)).trans <|
    (down3 m ρ c main_arg25 (by decide)).trans <|
    (W2_of_ne m ρ c main_arg25 (by decide)).trans <|
    down1 m ρ c main_arg25 (by decide)

theorem at23_v143 (c : Dev nD) : W23 m ρ c (Proc.devRef .tc main_v143) = W22 m ρ c (Proc.devRef .tc main_v143) :=
  down23 m ρ c main_v143 (by decide)

theorem at23_arg20 (c : Dev nD) : W23 m ρ c (Proc.devRef .tc main_arg20) = W0 m ρ c (Proc.devRef .tc main_arg20) :=
  (down23 m ρ c main_arg20 (by decide)).trans <|
    (W22_of_ne m ρ c main_arg20 (by decide)).trans <|
    (down21 m ρ c main_arg20 (by decide)).trans <|
    (W20_of_ne m ρ c main_arg20 (by decide)).trans <|
    (down19 m ρ c main_arg20 (by decide)).trans <|
    (W18_of_ne m ρ c main_arg20 (by decide)).trans <|
    (W17_of_ne m ρ c main_arg20 (by decide)).trans <|
    (down16 m ρ c main_arg20 (by decide)).trans <|
    (W15_of_ne m ρ c main_arg20 (by decide)).trans <|
    (down14 m ρ c main_arg20 (by decide)).trans <|
    (W13_of_ne m ρ c main_arg20 (by decide)).trans <|
    (down12 m ρ c main_arg20 (by decide)).trans <|
    (W11_of_ne m ρ c main_arg20 (by decide)).trans <|
    (down10 m ρ c main_arg20 (by decide)).trans <|
    (W9_of_ne m ρ c main_arg20 (by decide)).trans <|
    (W8_of_ne m ρ c main_arg20 (by decide)).trans <|
    (down7 m ρ c main_arg20 (by decide)).trans <|
    (W6_of_ne m ρ c main_arg20 (by decide)).trans <|
    (down5 m ρ c main_arg20 (by decide)).trans <|
    (W4_of_ne m ρ c main_arg20 (by decide)).trans <|
    (down3 m ρ c main_arg20 (by decide)).trans <|
    (W2_of_ne m ρ c main_arg20 (by decide)).trans <|
    down1 m ρ c main_arg20 (by decide)

theorem at23_arg22 (c : Dev nD) : W23 m ρ c (Proc.devRef .tc main_arg22) = W0 m ρ c (Proc.devRef .tc main_arg22) :=
  (down23 m ρ c main_arg22 (by decide)).trans <|
    (W22_of_ne m ρ c main_arg22 (by decide)).trans <|
    (down21 m ρ c main_arg22 (by decide)).trans <|
    (W20_of_ne m ρ c main_arg22 (by decide)).trans <|
    (down19 m ρ c main_arg22 (by decide)).trans <|
    (W18_of_ne m ρ c main_arg22 (by decide)).trans <|
    (W17_of_ne m ρ c main_arg22 (by decide)).trans <|
    (down16 m ρ c main_arg22 (by decide)).trans <|
    (W15_of_ne m ρ c main_arg22 (by decide)).trans <|
    (down14 m ρ c main_arg22 (by decide)).trans <|
    (W13_of_ne m ρ c main_arg22 (by decide)).trans <|
    (down12 m ρ c main_arg22 (by decide)).trans <|
    (W11_of_ne m ρ c main_arg22 (by decide)).trans <|
    (down10 m ρ c main_arg22 (by decide)).trans <|
    (W9_of_ne m ρ c main_arg22 (by decide)).trans <|
    (W8_of_ne m ρ c main_arg22 (by decide)).trans <|
    (down7 m ρ c main_arg22 (by decide)).trans <|
    (W6_of_ne m ρ c main_arg22 (by decide)).trans <|
    (down5 m ρ c main_arg22 (by decide)).trans <|
    (W4_of_ne m ρ c main_arg22 (by decide)).trans <|
    (down3 m ρ c main_arg22 (by decide)).trans <|
    (W2_of_ne m ρ c main_arg22 (by decide)).trans <|
    down1 m ρ c main_arg22 (by decide)

theorem at23_arg24 (c : Dev nD) : W23 m ρ c (Proc.devRef .tc main_arg24) = W0 m ρ c (Proc.devRef .tc main_arg24) :=
  (down23 m ρ c main_arg24 (by decide)).trans <|
    (W22_of_ne m ρ c main_arg24 (by decide)).trans <|
    (down21 m ρ c main_arg24 (by decide)).trans <|
    (W20_of_ne m ρ c main_arg24 (by decide)).trans <|
    (down19 m ρ c main_arg24 (by decide)).trans <|
    (W18_of_ne m ρ c main_arg24 (by decide)).trans <|
    (W17_of_ne m ρ c main_arg24 (by decide)).trans <|
    (down16 m ρ c main_arg24 (by decide)).trans <|
    (W15_of_ne m ρ c main_arg24 (by decide)).trans <|
    (down14 m ρ c main_arg24 (by decide)).trans <|
    (W13_of_ne m ρ c main_arg24 (by decide)).trans <|
    (down12 m ρ c main_arg24 (by decide)).trans <|
    (W11_of_ne m ρ c main_arg24 (by decide)).trans <|
    (down10 m ρ c main_arg24 (by decide)).trans <|
    (W9_of_ne m ρ c main_arg24 (by decide)).trans <|
    (W8_of_ne m ρ c main_arg24 (by decide)).trans <|
    (down7 m ρ c main_arg24 (by decide)).trans <|
    (W6_of_ne m ρ c main_arg24 (by decide)).trans <|
    (down5 m ρ c main_arg24 (by decide)).trans <|
    (W4_of_ne m ρ c main_arg24 (by decide)).trans <|
    (down3 m ρ c main_arg24 (by decide)).trans <|
    (W2_of_ne m ρ c main_arg24 (by decide)).trans <|
    down1 m ρ c main_arg24 (by decide)

theorem at24_v118 (c : Dev nD) : W24 m ρ c (Proc.devRef .tc main_v118) = W20 m ρ c (Proc.devRef .tc main_v118) :=
  (W24_of_ne m ρ c main_v118 (by decide)).trans <|
    (down23 m ρ c main_v118 (by decide)).trans <|
    (W22_of_ne m ρ c main_v118 (by decide)).trans <|
    down21 m ρ c main_v118 (by decide)

end Cert.KernelIdeal.Chain

end
-- ==== Proof.KGlue.lean ====
/-
  The kernel program's host re-layouts, read as the network's small operands.

  Between two regions the host reshapes a bias vector to a one-row array, slices one layer off a stack of two weight
  matrices or two bias vectors and drops the unit axis, and forms the batch statistics from the column sums: the sums
  over the count, and the mean of the squares minus the squared mean. A shape cast keeps the row-major position, a
  unit-stride slice shifts by its offsets, and at the extended reals the elementwise operations are the textbook
  ones, so each of these arrays is, index by index, the corresponding term of the network's description.
-/
import proofs.«156771_j85263690760421_1_alg».proof.KernelIdeal
import proofs.«156771_j85263690760421_1_alg».proof.Proof.Spec
import proofs.«156771_j85263690760421_1_alg».proof.Proof.Net
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.KernelIdeal.Glue

open Idealize.ShloMosaic Idealize.ShloMosaic.ValueIdx Cert.KernelIdeal
open Cert.KernelIdeal.Facts₀ Cert.KernelIdeal.Facts

/-! ## A vector as a one-row array -/

/-- A vector cast to one row is the one-row array of its entries, whatever the length. -/
theorem row_cast {n : Nat} (b : (⟨1, ![n]⟩ : Shape).Idx → EReal)
    (h : (⟨1, ![n]⟩ : Shape).ShapeCasts ⟨2, ![1, n]⟩) : shapeCast ⟨2, ![1, n]⟩ b h = Cert.Spec.row b := by
  funext i
  obtain ⟨u, a, rfl⟩ : ∃ u a, i = ix2 u a := ⟨_, _, eq_ix2 i⟩
  exact shapeCast_a_1a_apply b h u a

/-- A one-row array cast to a vector reads row zero. -/
theorem unrow_cast {n : Nat} (s : (⟨2, ![1, n]⟩ : Shape).Idx → EReal)
    (h : (⟨2, ![1, n]⟩ : Shape).ShapeCasts ⟨1, ![n]⟩) (j : (⟨1, ![n]⟩ : Shape).Idx) :
    shapeCast ⟨1, ![n]⟩ s h j = s (ix2 (0 : Fin 1) (j 0)) := by
  obtain ⟨a, rfl⟩ : ∃ a, j = ix1 a := ⟨_, eq_ix1 j⟩
  exact shapeCast_1a_a_apply s h a

variable [Facts]

theorem row_S64 (b : S64.Idx → EReal) : shapeCast S1x64 b shapeCasts_S64_S1x64 = Cert.Spec.row b := row_cast b _
theorem row_S50 (b : S50.Idx → EReal) : shapeCast S1x50 b shapeCasts_S50_S1x50 = Cert.Spec.row b := row_cast b _
theorem row_S25 (b : S25.Idx → EReal) : shapeCast S1x25 b shapeCasts_S25_S1x25 = Cert.Spec.row b := row_cast b _
theorem row_S1 (b : S1.Idx → EReal) : shapeCast S1x1 b shapeCasts_S1_S1x1 = Cert.Spec.row b := row_cast b _

/-- The same with the reshape's entrywise spelling. -/
theorem row_S64' (b : S64.Idx → EReal) : (fun i => shapeCast S1x64 b shapeCasts_S64_S1x64 i) = Cert.Spec.row b := row_S64 b

/-! ## One layer of a stack of two matrices -/

/-- Layer zero of a stack, sliced off and with the unit axis dropped. -/
theorem sl0_cast {r c : Nat} (A : (⟨3, ![2, r, c]⟩ : Shape).Idx → EReal)
    (hs : (⟨3, ![2, r, c]⟩ : Shape).Slices ![0, 0, 0] ⟨3, ![1, r, c]⟩)
    (hc : (⟨3, ![1, r, c]⟩ : Shape).ShapeCasts ⟨2, ![r, c]⟩) :
    shapeCast ⟨2, ![r, c]⟩ (extractStridedSlice ⟨3, ![1, r, c]⟩ ![0, 0, 0] A hs) hc = Cert.Spec.sl 0 A := by
  funext i
  obtain ⟨a, b, rfl⟩ : ∃ a b, i = ix2 a b := ⟨_, _, eq_ix2 i⟩
  rw [shapeCast_1ab_ab_apply]
  exact extractStridedSlice_apply _ A hs _ (ix3 (0 : Fin 2) a b) fun ax =>
    match ax with | ⟨0, _⟩ => rfl | ⟨1, _⟩ => (Nat.zero_add _).symm | ⟨2, _⟩ => (Nat.zero_add _).symm

/-- Layer one of a stack, sliced off and with the unit axis dropped. -/
theorem sl1_cast {r c : Nat} (A : (⟨3, ![2, r, c]⟩ : Shape).Idx → EReal)
    (hs : (⟨3, ![2, r, c]⟩ : Shape).Slices ![1, 0, 0] ⟨3, ![1, r, c]⟩)
    (hc : (⟨3, ![1, r, c]⟩ : Shape).ShapeCasts ⟨2, ![r, c]⟩) :
    shapeCast ⟨2, ![r, c]⟩ (extractStridedSlice ⟨3, ![1, r, c]⟩ ![1, 0, 0] A hs) hc = Cert.Spec.sl 1 A := by
  funext i
  obtain ⟨a, b, rfl⟩ : ∃ a b, i = ix2 a b := ⟨_, _, eq_ix2 i⟩
  rw [shapeCast_1ab_ab_apply]
  exact extractStridedSlice_apply _ A hs _ (ix3 (1 : Fin 2) a b) fun ax =>
    match ax with | ⟨0, _⟩ => rfl | ⟨1, _⟩ => (Nat.zero_add _).symm | ⟨2, _⟩ => (Nat.zero_add _).symm

theorem sl0_S64x64 (A : S2x64x64.Idx → EReal) :
    shapeCast S64x64 (extractStridedSlice S1x64x64 ![0, 0, 0] A slices_S2x64x64_S1x64x64_0_0_0) shapeCasts_S1x64x64_S64x64
      = Cert.Spec.sl 0 A := sl0_cast A _ _

theorem sl1_S64x64 (A : S2x64x64.Idx → EReal) :
    shapeCast S64x64 (extractStridedSlice S1x64x64 ![1, 0, 0] A slices_S2x64x64_S1x64x64_1_0_0) shapeCasts_S1x64x64_S64x64
      = Cert.Spec.sl 1 A := sl1_cast A _ _

theorem sl0_S192x64 (A : S2x192x64.Idx → EReal) :
    shapeCast S192x64 (extractStridedSlice S1x192x64 ![0, 0, 0] A slices_S2x192x64_S1x192x64_0_0_0) shapeCasts_S1x192x64_S192x64
      = Cert.Spec.sl 0 A := sl0_cast A _ _

theorem sl1_S192x64 (A : S2x192x64.Idx → EReal) :
    shapeCast S192x64 (extractStridedSlice S1x192x64 ![1, 0, 0] A slices_S2x192x64_S1x192x64_1_0_0) shapeCasts_S1x192x64_S192x64
      = Cert.Spec.sl 1 A := sl1_cast A _ _

/-! ## One layer of a stack of two rows, as a one-row array -/

omit [Facts] in
theorem slRow0_cast {n : Nat} (A : (⟨2, ![2, n]⟩ : Shape).Idx → EReal)
    (hs : (⟨2, ![2, n]⟩ : Shape).Slices ![0, 0] ⟨2, ![1, n]⟩) (hc : (⟨2, ![1, n]⟩ : Shape).ShapeCasts ⟨1, ![n]⟩) :
    shapeCast ⟨1, ![n]⟩ (extractStridedSlice ⟨2, ![1, n]⟩ ![0, 0] A hs) hc = Cert.Spec.slRow 0 A := by
  funext j
  rw [unrow_cast]
  exact extractStridedSlice_apply _ A hs _ (ix2 (0 : Fin 2) (j 0)) fun ax =>
    match ax with | ⟨0, _⟩ => rfl | ⟨1, _⟩ => (Nat.zero_add _).symm

omit [Facts] in
theorem slRow1_cast {n : Nat} (A : (⟨2, ![2, n]⟩ : Shape).Idx → EReal)
    (hs : (⟨2, ![2, n]⟩ : Shape).Slices ![1, 0] ⟨2, ![1, n]⟩) (hc : (⟨2, ![1, n]⟩ : Shape).ShapeCasts ⟨1, ![n]⟩) :
    shapeCast ⟨1, ![n]⟩ (extractStridedSlice ⟨2, ![1, n]⟩ ![1, 0] A hs) hc = Cert.Spec.slRow 1 A := by
  funext j
  rw [unrow_cast]
  exact extractStridedSlice_apply _ A hs _ (ix2 (1 : Fin 2) (j 0)) fun ax =>
    match ax with | ⟨0, _⟩ => rfl | ⟨1, _⟩ => (Nat.zero_add _).symm

theorem slRow0_S64 (A : S2x64.Idx → EReal) :
    shapeCast S64 (extractStridedSlice S1x64 ![0, 0] A slices_S2x64_S1x64_0_0) shapeCasts_S1x64_S64 = Cert.Spec.slRow 0 A :=
  slRow0_cast A _ _

theorem slRow1_S64 (A : S2x64.Idx → EReal) :
    shapeCast S64 (extractStridedSlice S1x64 ![1, 0] A slices_S2x64_S1x64_1_0) shapeCasts_S1x64_S64 = Cert.Spec.slRow 1 A :=
  slRow1_cast A _ _

theorem rowSlRow0_S64 (A : S2x64.Idx → EReal) :
    shapeCast S1x64 (shapeCast S64 (extractStridedSlice S1x64 ![0, 0] A slices_S2x64_S1x64_0_0) shapeCasts_S1x64_S64)
      shapeCasts_S64_S1x64 = Cert.Spec.row (Cert.Spec.slRow 0 A) := by
  rw [slRow0_S64, row_S64]

theorem rowSlRow1_S64 (A : S2x64.Idx → EReal) :
    shapeCast S1x64 (shapeCast S64 (extractStridedSlice S1x64 ![1, 0] A slices_S2x64_S1x64_1_0) shapeCasts_S1x64_S64)
      shapeCasts_S64_S1x64 = Cert.Spec.row (Cert.Spec.slRow 1 A) := by
  rw [slRow1_S64, row_S64]

/-! ## The batch statistics from the column sums -/

/-- The count, broadcast to a vector, reads the count everywhere. -/
theorem cntVec_apply (j : S64.Idx) :
    broadcastInDim S64 ![] bcast_S_S64 (constant (F := Ideal) S_ .f32 0x47C35000#32) j = Cert.Spec.cnt := rfl

/-- The column sums over the count, as a vector. -/
theorem meanVec_apply (s : S1x64.Idx → EReal) (j : S64.Idx) :
    Host.divf (F := Ideal) (shapeCast S64 s shapeCasts_S1x64_S64)
        (broadcastInDim S64 ![] bcast_S_S64 (constant (F := Ideal) S_ .f32 0x47C35000#32)) j
      = Ideal.div (s (ix2 (0 : Fin 1) (j 0))) Cert.Spec.cnt := by
  show Ideal.div (shapeCast S64 s shapeCasts_S1x64_S64 j) Cert.Spec.cnt = _
  rw [unrow_cast]

/-- The mean, as the one-row array the normalisation reads. -/
theorem mean_S1x64 (s : S1x64.Idx → EReal) :
    shapeCast S1x64 (Host.divf (F := Ideal) (shapeCast S64 s shapeCasts_S1x64_S64)
        (broadcastInDim S64 ![] bcast_S_S64 (constant (F := Ideal) S_ .f32 0x47C35000#32))) shapeCasts_S64_S1x64
      = fun i => Ideal.div (s (ix2 (0 : Fin 1) (i 1))) Cert.Spec.cnt := by
  rw [row_S64]
  funext i
  exact meanVec_apply s (ix1 (i 1))

theorem mean_colsum (h : Cert.Spec.Mat 100000 64) :
    shapeCast S1x64 (Host.divf (F := Ideal) (shapeCast S64 (Cert.Spec.colsum h) shapeCasts_S1x64_S64)
        (broadcastInDim S64 ![] bcast_S_S64 (constant (F := Ideal) S_ .f32 0x47C35000#32))) shapeCasts_S64_S1x64
      = Cert.Spec.meanK h := by
  rw [mean_S1x64]; rfl

/-- The variance, as the one-row array the normalisation reads: the mean of the squares minus the squared mean. -/
theorem var_S1x64 (s q : S1x64.Idx → EReal) :
    shapeCast S1x64
        (subf (F := Ideal)
          (Host.divf (F := Ideal) (shapeCast S64 q shapeCasts_S1x64_S64)
            (broadcastInDim S64 ![] bcast_S_S64 (constant (F := Ideal) S_ .f32 0x47C35000#32)))
          (mulf (F := Ideal)
            (Host.divf (F := Ideal) (shapeCast S64 s shapeCasts_S1x64_S64)
              (broadcastInDim S64 ![] bcast_S_S64 (constant (F := Ideal) S_ .f32 0x47C35000#32)))
            (Host.divf (F := Ideal) (shapeCast S64 s shapeCasts_S1x64_S64)
              (broadcastInDim S64 ![] bcast_S_S64 (constant (F := Ideal) S_ .f32 0x47C35000#32)))))
        shapeCasts_S64_S1x64
      = fun i => Ideal.div (q (ix2 (0 : Fin 1) (i 1))) Cert.Spec.cnt
          - Ideal.div (s (ix2 (0 : Fin 1) (i 1))) Cert.Spec.cnt * Ideal.div (s (ix2 (0 : Fin 1) (i 1))) Cert.Spec.cnt := by
  rw [row_S64]
  funext i
  show Host.divf (F := Ideal) (shapeCast S64 q shapeCasts_S1x64_S64) _ (ix1 (i 1))
      - Host.divf (F := Ideal) (shapeCast S64 s shapeCasts_S1x64_S64) _ (ix1 (i 1))
        * Host.divf (F := Ideal) (shapeCast S64 s shapeCasts_S1x64_S64) _ (ix1 (i 1)) = _
  rw [meanVec_apply, meanVec_apply]

theorem var_colsum (h : Cert.Spec.Mat 100000 64) :
    shapeCast S1x64
        (subf (F := Ideal)
          (Host.divf (F := Ideal) (shapeCast S64 (Cert.Spec.colsumsq h) shapeCasts_S1x64_S64)
            (broadcastInDim S64 ![] bcast_S_S64 (constant (F := Ideal) S_ .f32 0x47C35000#32)))
          (mulf (F := Ideal)
            (Host.divf (F := Ideal) (shapeCast S64 (Cert.Spec.colsum h) shapeCasts_S1x64_S64)
              (broadcastInDim S64 ![] bcast_S_S64 (constant (F := Ideal) S_ .f32 0x47C35000#32)))
            (Host.divf (F := Ideal) (shapeCast S64 (Cert.Spec.colsum h) shapeCasts_S1x64_S64)
              (broadcastInDim S64 ![] bcast_S_S64 (constant (F := Ideal) S_ .f32 0x47C35000#32)))))
        shapeCasts_S64_S1x64
      = Cert.Spec.varK h := by
  rw [var_S1x64]; rfl

/-! ## The reshape's transported spelling -/

omit [Facts] in
/-- A reshape's result is spelled with a transport along an equation of element types; along a reflexive equation
    the transport is the identity, so the result is the cast itself. -/
theorem reshape_wrap {Val : EltTy → Type} {s t : Shape} {e : EltTy} (x : s.Idx → Val e) (hn : s.ShapeCasts t) :
    (fun i => ((rfl : e = e) ▸ shapeCast t x hn i : Val e)) = shapeCast t x hn := rfl

end Cert.KernelIdeal.Glue

end
-- ==== Proof.Region0.lean ====
/-
  Region 0: a linear layer, block of rows by block of rows.

  The output array has 100000 rows and is cut into ten blocks of 10000 rows. Point `t` of the grid reads rows
  `10000 t … 10000 t + 9999` of the row-tiled operand `x`, the whole weight array `w` and the whole bias row `b`, and
  writes the same rows of the result: entry `(p, q)` of its block is the sum over `k` of `x (10000 t + p) k * w k q`,
  plus `b 0 q`. An entry of the result depends on one row of `x` only, so each written block is the restriction of one
  whole-array function, and the blocks tile the array.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-! ## The body's arithmetic at an entry of the block -/

/-- The contraction's left index keeps the entry's row. -/
theorem dot0_lhs_row (i : S10000x64.Idx) (k : dot_S10000x32_S32x64_S10000x64_1_0_0_1_n_n.contr.Idx) :
    (dot_S10000x32_S32x64_S10000x64_1_0_0_1_n_n.lhsIdx i k 0).val = (i 0).val := by
  unfold DotDims.lhsIdx
  rw [dif_neg (show ¬(0 : Fin S10000x32.rank) ∈ dot_S10000x32_S32x64_S10000x64_1_0_0_1_n_n.lhsBatch by decide),
    dif_pos (show (0 : Fin S10000x32.rank) ∈ dot_S10000x32_S32x64_S10000x64_1_0_0_1_n_n.lhsNonContracting by decide)]
  rfl

/-- The contraction's right index keeps the entry's column. -/
theorem dot0_rhs_col (i : S10000x64.Idx) (k : dot_S10000x32_S32x64_S10000x64_1_0_0_1_n_n.contr.Idx) :
    (dot_S10000x32_S32x64_S10000x64_1_0_0_1_n_n.rhsIdx i k 1).val = (i 1).val := by
  unfold DotDims.rhsIdx
  rw [dif_neg (show ¬(1 : Fin S32x64.rank) ∈ dot_S10000x32_S32x64_S10000x64_1_0_0_1_n_n.rhsBatch by decide),
    dif_pos (show (1 : Fin S32x64.rank) ∈ dot_S10000x32_S32x64_S10000x64_1_0_0_1_n_n.rhsNonContracting by decide)]
  rfl

/-- The block's matrix product into the zero accumulator, at entry `(p, q)`: the sum over `k` of `x p k * w k q`. -/
theorem matmul0_apply (x : FVec Ideal S10000x32 .f32) (w : FVec Ideal S32x64 .f32) (p : Fin 10000) (q : Fin 64) :
    matmul dot_S10000x32_S32x64_S10000x64_1_0_0_1_n_n none x w (constant (F := Ideal) S10000x64 .f32 0x00000000#32) (ix2 p q)
      = ∑ k : Fin 32, x (ix2 p k) * w (ix2 k q) := by
  refine (Ideal.matmul_constant_zero_apply dot_S10000x32_S32x64_S10000x64_1_0_0_1_n_n none x w (ix2 p q)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q)
      ((contrEquiv1 dot_S10000x32_S32x64_S10000x64_1_0_0_1_n_n 32 rfl rfl).symm k) = ix2 p k :=
    funext fun a => Fin.ext (by
      match a with
      | ⟨0, _⟩ => exact dot0_lhs_row _ _
      | ⟨1, _⟩ => exact (dot_S10000x32_S32x64_S10000x64_1_0_0_1_n_n.lhsIdx_val_of_single rfl _ _).trans hk)
  have er : dot_S10000x32_S32x64_S10000x64_1_0_0_1_n_n.rhsIdx (ix2 p q)
      ((contrEquiv1 dot_S10000x32_S32x64_S10000x64_1_0_0_1_n_n 32 rfl rfl).symm k) = ix2 k q :=
    funext fun a => Fin.ext (by
      match a with
      | ⟨0, _⟩ => exact (dot_S10000x32_S32x64_S10000x64_1_0_0_1_n_n.rhsIdx_val_of_single rfl _ _).trans hk
      | ⟨1, _⟩ => exact dot0_rhs_col _ _)
  rw [el, er]

/-- The body's result at entry `(p, q)` of the block: the product's entry plus the bias row's entry in column `q`
    (the bias row is broadcast down the rows). -/
theorem pay0_apply (x : Vec Ideal S10000x32 .f32) (w : Vec Ideal S32x64 .f32) (b : Vec Ideal S1x64 .f32)
    (p : Fin 10000) (q : Fin 64) :
    k0_pay1 (F := Ideal) x w b (ix2 p q) = (∑ k : Fin 32, x (ix2 p k) * w (ix2 k q)) + b (ix2 (0 : Fin 1) q) := by
  unfold k0_pay1
  refine (addf_apply _ _ _).trans ?_
  refine congrArg₂ (· + ·) (matmul0_apply x w p q) ?_
  rw [shapeCast_self]
  exact broadcastTo_1b_ab_apply b _ p q

/-- The body's result on blocks cut out of whole arrays: when the block of `x` is rows `10000 r …` of `X` (`ex`) and the
    blocks of `w` and `b` are all of `W` and `B`, entry `j` of the result is entry `i` of the linear layer of the whole
    arrays, `i` being `j` moved down by `10000 r` rows. -/
theorem pay0_block (X : S100000x32.Idx → EReal) (W : S32x64.Idx → EReal) (B : S1x64.Idx → EReal)
    (ex : S10000x32.Idx → S100000x32.Idx) (ew : S32x64.Idx → S32x64.Idx) (eb : S1x64.Idx → S1x64.Idx) (r : Nat)
    (hex0 : ∀ y, ((ex y) 0).val = r * 10000 + (y 0).val) (hex1 : ∀ y, ((ex y) 1).val = (y 1).val)
    (hew : ∀ y, ew y = y) (heb : ∀ y, eb y = y)
    (j : S10000x64.Idx) (i : S100000x64.Idx) (hi0 : (i 0).val = r * 10000 + (j 0).val) (hi1 : (i 1).val = (j 1).val) :
    k0_pay1 (F := Ideal) (fun y => X (ex y)) (fun y => W (ew y)) (fun y => B (eb y)) j = Cert.Spec.lin X W B i := by
  obtain ⟨p, q, rfl⟩ : ∃ (p : Fin 10000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [pay0_apply]
  show (∑ k : Fin 32, X (ex (ix2 p k)) * W (ew (ix2 k Q))) + B (eb (ix2 (0 : Fin 1) Q))
    = (∑ k : Fin 32, X (ix2 P k) * W (ix2 k Q)) + B (ix2 (0 : Fin 1) Q)
  rw [heb]
  refine congrArg (· + B (ix2 (0 : Fin 1) Q)) (Finset.sum_congr rfl fun k _ => ?_)
  rw [hew]
  refine congrArg (fun z => X z * W (ix2 k Q)) (funext fun a => Fin.ext ?_)
  match a with
  | ⟨0, _⟩ => exact (hex0 (ix2 p k)).trans hi0.symm
  | ⟨1, _⟩ => exact hex1 (ix2 p k)

/-! ## From the blocks to the array -/

variable (V : (c : Dev nD) → (b : Ref sig .tc) → Buf (Elt Ideal) ((c : Thread nD τ).loc b))

/-- The body reads and writes its staging buffers from the origin. -/
theorem origin0 : (![0, 0] : Fin 2 → Nat) = fun _ => 0 := funext fun a => by fin_cases a <;> rfl

/-- The index maps, decided over the grid: at point `t` the row-tiled windows are at block row `t`, block column 0;
    the weight and bias windows are at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the linear layer of the arrays as the region finds them. -/
theorem flushed0_eq (c : Dev nD) (t : Fin cfg0.N) :
    (dat0 V c).flushed 3 t = ((cfg0.win 3).blk t).view.read (Elt Ideal)
      (Cert.Spec.lin (M := 100000) (K := 32) (N := 64) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin0]
  simp only [View.ld_unit_zero (S := S10000x32) origin0, View.ld_unit_zero (S := S32x64) origin0, View.ld_unit_zero (S := S1x64) origin0]
  obtain ⟨e00, e01, e10, e11, e20, e21, e30, e31⟩ := blockIndex0 t
  funext j
  show k0_pay1 (F := Ideal) (fun y => V c (Pipeline.arrRef spec0 0) (((cfg0.win 0).blk t).view.emb y))
      (fun y => V c (Pipeline.arrRef spec0 1) (((cfg0.win 1).blk t).view.emb y))
      (fun y => V c (Pipeline.arrRef spec0 2) (((cfg0.win 2).blk t).view.emb y)) j
    = Cert.Spec.lin (M := 100000) (K := 32) (N := 64) (V c (Pipeline.arrRef spec0 0)) (V c (Pipeline.arrRef spec0 1)) (V c (Pipeline.arrRef spec0 2))
      (((cfg0.win 3).blk t).view.emb j)
  refine pay0_block _ _ _ _ _ _ t.val ?_ ?_ ?_ ?_ j _ ?_ ?_
  · intro y
    show win0_0.index t (0 : Fin 2) * 10000 + 1 * (y 0).val = _
    omega
  · intro y
    show win0_0.index t (1 : Fin 2) * 32 + 1 * (y 1).val = _
    omega
  · intro y
    funext a; apply Fin.ext
    match a with
    | ⟨0, _⟩ => show win0_1.index t (0 : Fin 2) * 32 + 1 * (y 0).val = (y 0).val; omega
    | ⟨1, _⟩ => show win0_1.index t (1 : Fin 2) * 64 + 1 * (y 1).val = (y 1).val; omega
  · intro y
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show win0_3.index t (0 : Fin 2) * 10000 + 1 * (j 0).val = _
    omega
  · show win0_3.index t (1 : Fin 2) * 64 + 1 * (j 1).val = _
    omega

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

/-- Every index of the output array is in the block of the point its row falls in: row `r` is written by point `r / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have ht : (i 0).val / 10000 < grid0.N := by rw [hN]; omega
  obtain ⟨-, -, -, -, -, -, e30, e31⟩ := blockIndex0 ⟨(i 0).val / 10000, ht⟩
  have e30' : win0_3.index ⟨(i 0).val / 10000, ht⟩ (0 : Fin 2) = (i 0).val / 10000 := e30
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- The output array after the region: the linear layer of the three operand arrays as the region finds them. -/
theorem final0 (c : Dev nD) :
    (dat0 V c).arrAt 3 cfg0.N
      = Cert.Spec.lin (M := 100000) (K := 32) (N := 64) (V c (Pipeline.arrRef spec0 0)) (V c (Pipeline.arrRef spec0 1)) (V c (Pipeline.arrRef spec0 2)) :=
  (dat0 V c).arrAt_eq_of_cover 3 _ (fun t _ => flushed0_eq V c t) (cover0)

end Cert.KernelIdeal.RegionValue

end
-- ==== Proof.Region1.lean ====
/-
  Region 1: a linear layer, block of rows by block of rows.

  The output array has 640000 rows and is cut into sixty-four blocks of 10000 rows. Point `t` of the grid reads rows
  `10000 t … 10000 t + 9999` of the row-tiled operand `x`, the whole weight array `w` and the whole bias row `b`, and
  writes the same rows of the result: entry `(p, q)` of its block is the sum over `k` of `x (10000 t + p) k * w k q`,
  plus `b 0 q`. An entry of the result depends on one row of `x` only, so each written block is the restriction of one
  whole-array function, and the blocks tile the array.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-! ## The body's arithmetic at an entry of the block -/

/-- The contraction's left index keeps the entry's row. -/
theorem dot1_lhs_row (i : S10000x64.Idx) (k : dot_S10000x16_S16x64_S10000x64_1_0_0_1_n_n.contr.Idx) :
    (dot_S10000x16_S16x64_S10000x64_1_0_0_1_n_n.lhsIdx i k 0).val = (i 0).val := by
  unfold DotDims.lhsIdx
  rw [dif_neg (show ¬(0 : Fin S10000x16.rank) ∈ dot_S10000x16_S16x64_S10000x64_1_0_0_1_n_n.lhsBatch by decide),
    dif_pos (show (0 : Fin S10000x16.rank) ∈ dot_S10000x16_S16x64_S10000x64_1_0_0_1_n_n.lhsNonContracting by decide)]
  rfl

/-- The contraction's right index keeps the entry's column. -/
theorem dot1_rhs_col (i : S10000x64.Idx) (k : dot_S10000x16_S16x64_S10000x64_1_0_0_1_n_n.contr.Idx) :
    (dot_S10000x16_S16x64_S10000x64_1_0_0_1_n_n.rhsIdx i k 1).val = (i 1).val := by
  unfold DotDims.rhsIdx
  rw [dif_neg (show ¬(1 : Fin S16x64.rank) ∈ dot_S10000x16_S16x64_S10000x64_1_0_0_1_n_n.rhsBatch by decide),
    dif_pos (show (1 : Fin S16x64.rank) ∈ dot_S10000x16_S16x64_S10000x64_1_0_0_1_n_n.rhsNonContracting by decide)]
  rfl

/-- The block's matrix product into the zero accumulator, at entry `(p, q)`: the sum over `k` of `x p k * w k q`. -/
theorem matmul1_apply (x : FVec Ideal S10000x16 .f32) (w : FVec Ideal S16x64 .f32) (p : Fin 10000) (q : Fin 64) :
    matmul dot_S10000x16_S16x64_S10000x64_1_0_0_1_n_n none x w (constant (F := Ideal) S10000x64 .f32 0x00000000#32) (ix2 p q)
      = ∑ k : Fin 16, x (ix2 p k) * w (ix2 k q) := by
  refine (Ideal.matmul_constant_zero_apply dot_S10000x16_S16x64_S10000x64_1_0_0_1_n_n none x w (ix2 p q)).trans ?_
  rw [← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 p q)
      ((contrEquiv1 dot_S10000x16_S16x64_S10000x64_1_0_0_1_n_n 16 rfl rfl).symm k) = ix2 p k :=
    funext fun a => Fin.ext (by
      match a with
      | ⟨0, _⟩ => exact dot1_lhs_row _ _
      | ⟨1, _⟩ => exact (dot_S10000x16_S16x64_S10000x64_1_0_0_1_n_n.lhsIdx_val_of_single rfl _ _).trans hk)
  have er : dot_S10000x16_S16x64_S10000x64_1_0_0_1_n_n.rhsIdx (ix2 p q)
      ((contrEquiv1 dot_S10000x16_S16x64_S10000x64_1_0_0_1_n_n 16 rfl rfl).symm k) = ix2 k q :=
    funext fun a => Fin.ext (by
      match a with
      | ⟨0, _⟩ => exact (dot_S10000x16_S16x64_S10000x64_1_0_0_1_n_n.rhsIdx_val_of_single rfl _ _).trans hk
      | ⟨1, _⟩ => exact dot1_rhs_col _ _)
  rw [el, er]

/-- The body's result at entry `(p, q)` of the block: the product's entry plus the bias row's entry in column `q`
    (the bias row is broadcast down the rows). -/
theorem pay1_apply (x : Vec Ideal S10000x16 .f32) (w : Vec Ideal S16x64 .f32) (b : Vec Ideal S1x64 .f32)
    (p : Fin 10000) (q : Fin 64) :
    k1_pay1 (F := Ideal) x w b (ix2 p q) = (∑ k : Fin 16, x (ix2 p k) * w (ix2 k q)) + b (ix2 (0 : Fin 1) q) := by
  unfold k1_pay1
  refine (addf_apply _ _ _).trans ?_
  refine congrArg₂ (· + ·) (matmul1_apply x w p q) ?_
  rw [shapeCast_self]
  exact broadcastTo_1b_ab_apply b _ p q

/-- The body's result on blocks cut out of whole arrays: when the block of `x` is rows `10000 r …` of `X` (`ex`) and the
    blocks of `w` and `b` are all of `W` and `B`, entry `j` of the result is entry `i` of the linear layer of the whole
    arrays, `i` being `j` moved down by `10000 r` rows. -/
theorem pay1_block (X : S640000x16.Idx → EReal) (W : S16x64.Idx → EReal) (B : S1x64.Idx → EReal)
    (ex : S10000x16.Idx → S640000x16.Idx) (ew : S16x64.Idx → S16x64.Idx) (eb : S1x64.Idx → S1x64.Idx) (r : Nat)
    (hex0 : ∀ y, ((ex y) 0).val = r * 10000 + (y 0).val) (hex1 : ∀ y, ((ex y) 1).val = (y 1).val)
    (hew : ∀ y, ew y = y) (heb : ∀ y, eb y = y)
    (j : S10000x64.Idx) (i : S640000x64.Idx) (hi0 : (i 0).val = r * 10000 + (j 0).val) (hi1 : (i 1).val = (j 1).val) :
    k1_pay1 (F := Ideal) (fun y => X (ex y)) (fun y => W (ew y)) (fun y => B (eb y)) j = Cert.Spec.lin X W B i := by
  obtain ⟨p, q, rfl⟩ : ∃ (p : Fin 10000) (q : Fin 64), j = ix2 p q := ⟨j 0, j 1, eq_ix2 j⟩
  obtain ⟨P, Q, rfl⟩ : ∃ (P : Fin 640000) (Q : Fin 64), i = ix2 P Q := ⟨i 0, i 1, eq_ix2 i⟩
  have hQ : Q = q := Fin.ext hi1
  subst hQ
  rw [pay1_apply]
  show (∑ k : Fin 16, X (ex (ix2 p k)) * W (ew (ix2 k Q))) + B (eb (ix2 (0 : Fin 1) Q))
    = (∑ k : Fin 16, X (ix2 P k) * W (ix2 k Q)) + B (ix2 (0 : Fin 1) Q)
  rw [heb]
  refine congrArg (· + B (ix2 (0 : Fin 1) Q)) (Finset.sum_congr rfl fun k _ => ?_)
  rw [hew]
  refine congrArg (fun z => X z * W (ix2 k Q)) (funext fun a => Fin.ext ?_)
  match a with
  | ⟨0, _⟩ => exact (hex0 (ix2 p k)).trans hi0.symm
  | ⟨1, _⟩ => exact hex1 (ix2 p k)

/-! ## From the blocks to the array -/

variable (V : (c : Dev nD) → (b : Ref sig .tc) → Buf (Elt Ideal) ((c : Thread nD τ).loc b))

/-- The body reads and writes its staging buffers from the origin. -/
theorem origin1 : (![0, 0] : Fin 2 → Nat) = fun _ => 0 := funext fun a => by fin_cases a <;> rfl

/-- The index maps, decided over the grid: at point `t` the row-tiled windows are at block row `t`, block column 0;
    the weight and bias windows are at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the linear layer of the arrays as the region finds them. -/
theorem flushed1_eq (c : Dev nD) (t : Fin cfg1.N) :
    (dat1 V c).flushed 3 t = ((cfg1.win 3).blk t).view.read (Elt Ideal)
      (Cert.Spec.lin (M := 640000) (K := 16) (N := 64) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin1]
  simp only [View.ld_unit_zero (S := S10000x16) origin1, View.ld_unit_zero (S := S16x64) origin1, View.ld_unit_zero (S := S1x64) origin1]
  obtain ⟨e00, e01, e10, e11, e20, e21, e30, e31⟩ := blockIndex1 t
  funext j
  show k1_pay1 (F := Ideal) (fun y => V c (Pipeline.arrRef spec1 0) (((cfg1.win 0).blk t).view.emb y))
      (fun y => V c (Pipeline.arrRef spec1 1) (((cfg1.win 1).blk t).view.emb y))
      (fun y => V c (Pipeline.arrRef spec1 2) (((cfg1.win 2).blk t).view.emb y)) j
    = Cert.Spec.lin (M := 640000) (K := 16) (N := 64) (V c (Pipeline.arrRef spec1 0)) (V c (Pipeline.arrRef spec1 1)) (V c (Pipeline.arrRef spec1 2))
      (((cfg1.win 3).blk t).view.emb j)
  refine pay1_block _ _ _ _ _ _ t.val ?_ ?_ ?_ ?_ j _ ?_ ?_
  · intro y
    show win1_0.index t (0 : Fin 2) * 10000 + 1 * (y 0).val = _
    omega
  · intro y
    show win1_0.index t (1 : Fin 2) * 16 + 1 * (y 1).val = _
    omega
  · intro y
    funext a; apply Fin.ext
    match a with
    | ⟨0, _⟩ => show win1_1.index t (0 : Fin 2) * 16 + 1 * (y 0).val = (y 0).val; omega
    | ⟨1, _⟩ => show win1_1.index t (1 : Fin 2) * 64 + 1 * (y 1).val = (y 1).val; omega
  · intro y
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show win1_3.index t (0 : Fin 2) * 10000 + 1 * (j 0).val = _
    omega
  · show win1_3.index t (1 : Fin 2) * 64 + 1 * (j 1).val = _
    omega

/-- An index of the output array is in point `t`'s block iff each coordinate is in the block's range on its axis. -/
theorem mem_blk1 (t : Fin cfg1.N) (i : S640000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v3).slice (win1_3.rect t)).set ↔ _
  rw [View.set_slice_whole, Rect.mem_set_unit]
  exact Iff.rfl

/-- Every index of the output array is in the block of the point its row falls in: row `r` is written by point `r / 10000`. -/
theorem cover1 (i : S640000x64.Idx) :
    ∃ t : Fin cfg1.N, (cfg1.win 3).flush t = true ∧ i ∈ ((cfg1.win 3).blk t).view.set := by
  have hi0 : (i 0).val < 640000 := (i 0).isLt
  have hi1 : (i 1).val < 64 := (i 1).isLt
  have hN : grid1.N = 64 := N_1
  have ht : (i 0).val / 10000 < grid1.N := by rw [hN]; omega
  obtain ⟨-, -, -, -, -, -, e30, e31⟩ := blockIndex1 ⟨(i 0).val / 10000, ht⟩
  have e30' : win1_3.index ⟨(i 0).val / 10000, ht⟩ (0 : Fin 2) = (i 0).val / 10000 := e30
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- The output array after the region: the linear layer of the three operand arrays as the region finds them. -/
theorem final1 (c : Dev nD) :
    (dat1 V c).arrAt 3 cfg1.N
      = Cert.Spec.lin (M := 640000) (K := 16) (N := 64) (V c (Pipeline.arrRef spec1 0)) (V c (Pipeline.arrRef spec1 1)) (V c (Pipeline.arrRef spec1 2)) :=
  (dat1 V c).arrAt_eq_of_cover 3 _ (fun t _ => flushed1_eq V c t) (cover1)

end Cert.KernelIdeal.RegionValue

end
-- ==== Proof.Region2.lean ====
/-
  Region 2: the message of an edge, block of rows by block of rows.

  The output array has 640000 rows and is cut into sixty-four blocks of 10000 rows. Point `t` of the grid reads rows
  `10000 t … 10000 t + 9999` of the edge array `e` and of the gathered source rows `xs`, the whole weight array `w`
  and the whole bias row `b`, and writes the same rows of the result: entry `(p, q)` of its block is
  `max (xs (10000 t + p) q + (Σ k, e (10000 t + p) k * w k q + b 0 q)) 0`. An entry of the result depends on one row
  of `e` and of `xs` only, so each written block is the restriction of one whole-array function, and the blocks tile
  the array.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-! ## The body's arithmetic at an entry of the block -/

/-- The contraction's left index keeps the entry's row. -/
theorem dot2_lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The contraction's right index keeps the entry's column. -/
theorem dot2_rhs_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block's matrix product into the zero accumulator, at entry `(p, q)`: the sum over `k` of `x p k * w k q`. -/
theorem matmul2_apply (x : FVec Ideal S10000x64 .f32) (w : FVec Ideal S64x64 .f32) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none x w (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact dot2_lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact dot2_rhs_col _ _)
  rw [el, er]

/-- The body's result at entry `(p, q)` of the block: the gathered row's entry plus the edge block's linear image
    there, rectified. -/
theorem pay2_apply (e : Vec Ideal S10000x64 .f32) (w : Vec Ideal S64x64 .f32) (b : Vec Ideal S1x64 .f32)
    (xs : Vec Ideal S10000x64 .f32) (p : Fin 10000) (q : Fin 64) :
    k2_pay1 (F := Ideal) e w b xs (ix2 p q)
      = max (xs (ix2 p q) + ((∑ k : Fin 64, e (ix2 p k) * w (ix2 k q)) + b (ix2 (0 : Fin 1) q))) 0 := by
  unfold k2_pay1
  refine (maximumf_apply _ _ _).trans ?_
  refine congrArg₂ max ?_ ?_
  · refine (addf_apply _ _ _).trans ?_
    refine congrArg₂ (· + ·) ?_ ?_
    · rw [shapeCast_self]
    · refine (addf_apply _ _ _).trans ?_
      refine congrArg₂ (· + ·) ?_ ?_
      · rw [shapeCast_self, shapeCast_self]
        exact matmul2_apply e w p q
      · rw [shapeCast_self]
        exact broadcastTo_1b_ab_apply b _ p q
  · exact Ideal.ofBits_zero_f32

/-- The body's result on blocks cut out of whole arrays: when the blocks of `e` and `xs` are rows `10000 r …` of `E`
    and `XS` (`ee`, `es`) and the blocks of `w` and `b` are all of `W` and `B`, entry `j` of the result is entry `i` of
    the message of the whole arrays, `i` being `j` moved down by `10000 r` rows. -/
theorem pay2_block (E : S640000x64.Idx → EReal) (W : S64x64.Idx → EReal) (B : S1x64.Idx → EReal) (XS : S640000x64.Idx → EReal)
    (ee : S10000x64.Idx → S640000x64.Idx) (ew : S64x64.Idx → S64x64.Idx) (eb : S1x64.Idx → S1x64.Idx)
    (es : S10000x64.Idx → S640000x64.Idx) (r : Nat)
    (hee0 : ∀ y, ((ee y) 0).val = r * 10000 + (y 0).val) (hee1 : ∀ y, ((ee y) 1).val = (y 1).val)
    (hew : ∀ y, ew y = y) (heb : ∀ y, eb y = y)
    (hes0 : ∀ y, ((es y) 0).val = r * 10000 + (y 0).val) (hes1 : ∀ y, ((es y) 1).val = (y 1).val)
    (j : S10000x64.Idx) (i : S640000x64.Idx) (hi0 : (i 0).val = r * 10000 + (j 0).val) (hi1 : (i 1).val = (j 1).val) :
    k2_pay1 (F := Ideal) (fun y => E (ee y)) (fun y => W (ew y)) (fun y => B (eb y)) (fun y => XS (es y)) j
      = Cert.Spec.msg E W B XS i := by
  obtain ⟨p, q, rfl⟩ : ∃ (p : Fin 10000) (q : Fin 64), j = ix2 p q := ⟨j 0, j 1, eq_ix2 j⟩
  obtain ⟨P, Q, rfl⟩ : ∃ (P : Fin 640000) (Q : Fin 64), i = ix2 P Q := ⟨i 0, i 1, eq_ix2 i⟩
  have hQ : Q = q := Fin.ext hi1
  subst hQ
  rw [pay2_apply]
  show max (XS (es (ix2 p Q)) + ((∑ k : Fin 64, E (ee (ix2 p k)) * W (ew (ix2 k Q))) + B (eb (ix2 (0 : Fin 1) Q)))) 0
    = max (XS (ix2 P Q) + ((∑ k : Fin 64, E (ix2 P k) * W (ix2 k Q)) + B (ix2 (0 : Fin 1) Q))) 0
  have hs : es (ix2 p Q) = ix2 P Q := funext fun a => Fin.ext (by
    match a with
    | ⟨0, _⟩ => exact (hes0 (ix2 p Q)).trans hi0.symm
    | ⟨1, _⟩ => exact hes1 (ix2 p Q))
  have he : ∀ k : Fin 64, ee (ix2 p k) = ix2 P k := fun k => funext fun a => Fin.ext (by
    match a with
    | ⟨0, _⟩ => exact (hee0 (ix2 p k)).trans hi0.symm
    | ⟨1, _⟩ => exact hee1 (ix2 p k))
  rw [hs, heb]
  refine congrArg (fun z => max (XS (ix2 P Q) + (z + B (ix2 (0 : Fin 1) Q))) 0) (Finset.sum_congr rfl fun k _ => ?_)
  rw [hew, he]

/-! ## From the blocks to the array -/

variable (V : (c : Dev nD) → (b : Ref sig .tc) → Buf (Elt Ideal) ((c : Thread nD τ).loc b))

/-- The body reads and writes its staging buffers from the origin. -/
theorem origin2 : (![0, 0] : Fin 2 → Nat) = fun _ => 0 := funext fun a => by fin_cases a <;> rfl

/-- The index maps, decided over the grid: at point `t` the row-tiled windows are at block row `t`, block column 0;
    the weight and bias windows are at block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the message of the arrays as the region finds them. -/
theorem flushed2_eq (c : Dev nD) (t : Fin cfg2.N) :
    (dat2 V c).flushed 4 t = ((cfg2.win 4).blk t).view.read (Elt Ideal)
      (Cert.Spec.msg (M := 640000) (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero origin2]
  simp only [View.ld_unit_zero (S := S10000x64) origin2, View.ld_unit_zero (S := S64x64) origin2, View.ld_unit_zero (S := S1x64) origin2]
  obtain ⟨e00, e01, e10, e11, e20, e21, e30, e31, e40, e41⟩ := blockIndex2 t
  funext j
  show k2_pay1 (F := Ideal) (fun y => V c (Pipeline.arrRef spec2 0) (((cfg2.win 0).blk t).view.emb y))
      (fun y => V c (Pipeline.arrRef spec2 1) (((cfg2.win 1).blk t).view.emb y))
      (fun y => V c (Pipeline.arrRef spec2 2) (((cfg2.win 2).blk t).view.emb y))
      (fun y => V c (Pipeline.arrRef spec2 3) (((cfg2.win 3).blk t).view.emb y)) j
    = Cert.Spec.msg (M := 640000) (V c (Pipeline.arrRef spec2 0)) (V c (Pipeline.arrRef spec2 1)) (V c (Pipeline.arrRef spec2 2)) (V c (Pipeline.arrRef spec2 3))
      (((cfg2.win 4).blk t).view.emb j)
  refine pay2_block _ _ _ _ _ _ _ _ t.val ?_ ?_ ?_ ?_ ?_ ?_ j _ ?_ ?_
  · intro y
    show win2_0.index t (0 : Fin 2) * 10000 + 1 * (y 0).val = _
    omega
  · intro y
    show win2_0.index t (1 : Fin 2) * 64 + 1 * (y 1).val = _
    omega
  · intro y
    funext a; apply Fin.ext
    match a with
    | ⟨0, _⟩ => show win2_1.index t (0 : Fin 2) * 64 + 1 * (y 0).val = (y 0).val; omega
    | ⟨1, _⟩ => show win2_1.index t (1 : Fin 2) * 64 + 1 * (y 1).val = (y 1).val; omega
  · intro y
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  · intro y
    show win2_3.index t (0 : Fin 2) * 10000 + 1 * (y 0).val = _
    omega
  · intro y
    show win2_3.index t (1 : Fin 2) * 64 + 1 * (y 1).val = _
    omega
  · show win2_4.index t (0 : Fin 2) * 10000 + 1 * (j 0).val = _
    omega
  · show win2_4.index t (1 : Fin 2) * 64 + 1 * (j 1).val = _
    omega

/-- An index of the output array is in point `t`'s block iff each coordinate is in the block's range on its axis. -/
theorem mem_blk2 (t : Fin cfg2.N) (i : S640000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v16).slice (win2_4.rect t)).set ↔ _
  rw [View.set_slice_whole, Rect.mem_set_unit]
  exact Iff.rfl

/-- Every index of the output array is in the block of the point its row falls in: row `r` is written by point `r / 10000`. -/
theorem cover2 (i : S640000x64.Idx) :
    ∃ t : Fin cfg2.N, (cfg2.win 4).flush t = true ∧ i ∈ ((cfg2.win 4).blk t).view.set := by
  have hi0 : (i 0).val < 640000 := (i 0).isLt
  have hi1 : (i 1).val < 64 := (i 1).isLt
  have hN : grid2.N = 64 := N_2
  have ht : (i 0).val / 10000 < grid2.N := by rw [hN]; omega
  obtain ⟨-, -, -, -, -, -, -, -, e40, e41⟩ := blockIndex2 ⟨(i 0).val / 10000, ht⟩
  have e40' : win2_4.index ⟨(i 0).val / 10000, ht⟩ (0 : Fin 2) = (i 0).val / 10000 := e40
  refine ⟨⟨(i 0).val / 10000, ht⟩, flush2_4 _, ?_⟩
  rw [mem_blk2]
  intro a
  match a with
  | ⟨0, _⟩ =>
    show win2_4.index ⟨(i 0).val / 10000, ht⟩ (0 : Fin 2) * 10000 ≤ (i 0).val
      ∧ (i 0).val < win2_4.index ⟨(i 0).val / 10000, ht⟩ (0 : Fin 2) * 10000 + 10000
    omega
  | ⟨1, _⟩ =>
    show win2_4.index ⟨(i 0).val / 10000, ht⟩ (1 : Fin 2) * 64 ≤ (i 1).val
      ∧ (i 1).val < win2_4.index ⟨(i 0).val / 10000, ht⟩ (1 : Fin 2) * 64 + 64
    omega

/-- The output array after the region: the message of the four operand arrays as the region finds them. -/
theorem final2 (c : Dev nD) :
    (dat2 V c).arrAt 4 cfg2.N
      = Cert.Spec.msg (M := 640000) (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) (cover2)

end Cert.KernelIdeal.RegionValue

end
-- ==== Proof.Region3.lean ====
/-
  Region 3: the node update before normalisation.  At each of its ten points the body reads a block of 10000 rows of
  the two row-tiled operands and the whole of the two weight matrices and of the two bias rows, and stores
  (max ((x + agg) · w1 + b1) 0) · w2 + b2 over the block.  Row p of a block depends on row p of the two row-tiled
  blocks only, and the ten blocks tile the 100000 rows, so the array the region leaves is the whole-array function
  Spec.conv of the six arrays the region finds.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-! ## The body's arithmetic at an index -/

/-- The left operand's index of the product at output index i and contraction index r: row i 0 … -/
theorem lhs3_0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and column r. -/
theorem lhs3_1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
/-- The right operand's index: row r … -/
theorem rhs3_0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
/-- … and column i 1. -/
theorem rhs3_1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of a 10000-row block with a 64 × 64 matrix into the zero splat, at (p, q): the sum over k of the
    block at (p, k) times the matrix at (k, q). -/
theorem matmul3_apply (a : FVec Ideal S10000x64 .f32) (w : FVec Ideal S64x64 .f32) (p : Fin 10000) (q : Fin 64) :
    FloatOps.matmul dot_S10000x64_S64x64_S10000x64_1_0_0_1_n_n none a w (constant (F := Ideal) S10000x64 .f32 0x00000000#32) (ix2 p q)
      = ∑ k : Fin 64, a (ix2 p k) * w (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs3_0 _ _
      | ⟨1, _⟩ => exact (lhs3_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs3_0 _ _).trans hk
      | ⟨1, _⟩ => exact rhs3_1 _ _)
  rw [el, er]

/-- The stored value at (p, q) of a block: the second layer on the rectified first layer on the sum of the two
    row-tiled blocks, each layer a product with its matrix plus its bias row. -/
theorem pay3_apply (x agg : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k3_pay1 (F := Ideal) x agg w1 b1 w2 b2 (ix2 p q)
      = (∑ k : Fin 64, max ((∑ l : Fin 64, (x (ix2 p l) + agg (ix2 p l)) * w1 (ix2 l k)) + b1 (ix2 (0 : Fin 1) k)) 0 * w2 (ix2 k q))
        + b2 (ix2 (0 : Fin 1) q) := by
  unfold k3_pay1
  simp only [shapeCast_self]
  refine (addf_apply _ _ _).trans ?_
  refine congrArg₂ (· + ·) ?_ (broadcastTo_1b_ab_apply _ _ p q)
  refine (matmul3_apply _ _ p q).trans ?_
  refine Finset.sum_congr rfl fun k _ => ?_
  refine congrArg (· * w2 (ix2 k q)) ?_
  refine (maximumf_apply _ _ _).trans ?_
  refine congrArg₂ max ?_ Ideal.ofBits_zero_f32
  refine (addf_apply _ _ _).trans ?_
  refine congrArg₂ (· + ·) ?_ (broadcastTo_1b_ab_apply _ _ p k)
  exact matmul3_apply _ _ p k

/-! ## Row-locality of the specification -/

/-- Row p of Spec.conv depends on row p of the two row-tiled operands only: two instances whose row-tiled operands
    agree on one row each, with the same weights, agree on that row — whatever the two row counts. -/
theorem conv_row3 {M M' : Nat} (x agg : Cert.Spec.Mat M 64) (x' agg' : Cert.Spec.Mat M' 64)
    (w1 w1' : Cert.Spec.Mat 64 64) (b1 b1' : Cert.Spec.Mat 1 64) (w2 w2' : Cert.Spec.Mat 64 64) (b2 b2' : Cert.Spec.Mat 1 64)
    (p : Fin M) (p' : Fin M') (q : Fin 64)
    (hx : ∀ l : Fin 64, x (ix2 p l) = x' (ix2 p' l)) (hagg : ∀ l : Fin 64, agg (ix2 p l) = agg' (ix2 p' l))
    (hw1 : w1 = w1') (hb1 : b1 = b1') (hw2 : w2 = w2') (hb2 : b2 = b2') :
    Cert.Spec.conv x agg w1 b1 w2 b2 (ix2 p q) = Cert.Spec.conv x' agg' w1' b1' w2' b2' (ix2 p' q) := by
  subst hw1 hb1 hw2 hb2
  show (∑ k : Fin 64, max ((∑ l : Fin 64, (x (ix2 p l) + agg (ix2 p l)) * w1 (ix2 l k)) + b1 (ix2 (0 : Fin 1) k)) 0 * w2 (ix2 k q))
        + b2 (ix2 (0 : Fin 1) q)
      = (∑ k : Fin 64, max ((∑ l : Fin 64, (x' (ix2 p' l) + agg' (ix2 p' l)) * w1 (ix2 l k)) + b1 (ix2 (0 : Fin 1) k)) 0 * w2 (ix2 k q))
        + b2 (ix2 (0 : Fin 1) q)
  simp only [hx, hagg]

/-- The body's stored block is Spec.conv of its loaded blocks, at 10000 rows. -/
theorem pay3_eq_conv (x agg : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k3_pay1 (F := Ideal) x agg w1 b1 w2 b2 (ix2 p q) = Cert.Spec.conv (M := 10000) x agg w1 b1 w2 b2 (ix2 p q) :=
  pay3_apply x agg w1 b1 w2 b2 p q

/-! ## From blocks to the array -/

section Blocks
variable (V : (c : Dev nD) → (b : Ref sig .tc) → Buf (Elt Ideal) ((c : Thread nD τ).loc b))

theorem hz3 : (![0, 0] : Fin 2 → Nat) = fun _ => 0 := funext fun a => by fin_cases a <;> rfl

/-- What the region leaves in its output array: Spec.conv of the six arrays it finds. -/
abbrev G3 (c : Dev nD) : S100000x64.Idx → EReal :=
  Cert.Spec.conv (V c (Pipeline.arrRef spec3 0) : S100000x64.Idx → EReal) (V c (Pipeline.arrRef spec3 1) : S100000x64.Idx → EReal)
    (V c (Pipeline.arrRef spec3 2) : S64x64.Idx → EReal) (V c (Pipeline.arrRef spec3 3) : S1x64.Idx → EReal)
    (V c (Pipeline.arrRef spec3 4) : S64x64.Idx → EReal) (V c (Pipeline.arrRef spec3 5) : S1x64.Idx → EReal)

/-- The index maps over the ten points: the row-tiled windows (0, 1 and the output 6) are at block row t and
    block column 0; the weight and bias windows stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A row-tiled input block at (p, l) is its array at row t · 10000 + p, column l. -/
theorem read3_0 (c : Dev nD) (t : Fin cfg3.N) (p : Fin 10000) (l : Fin 64) (p' : Fin 100000) (hp : p'.val = t.val * 10000 + p.val) :
    iblk3 V c 0 t (ix2 p l) = (V c (Pipeline.arrRef spec3 0) : S100000x64.Idx → EReal) (ix2 p' l) := by
  obtain ⟨e00, e01, -⟩ := idx_facts3 t
  show V c (Pipeline.arrRef spec3 0) (((cfg3.win 0).blk t).view.emb (ix2 p l)) = V c (Pipeline.arrRef spec3 0) (ix2 p' l)
  refine congrArg _ (funext fun a => Fin.ext ?_)
  match a with
  | ⟨0, _⟩ => show win3_0.index t (0 : Fin 2) * 10000 + 1 * p.val = p'.val; omega
  | ⟨1, _⟩ => show win3_0.index t (1 : Fin 2) * 64 + 1 * l.val = l.val; omega

theorem read3_1 (c : Dev nD) (t : Fin cfg3.N) (p : Fin 10000) (l : Fin 64) (p' : Fin 100000) (hp : p'.val = t.val * 10000 + p.val) :
    iblk3 V c 1 t (ix2 p l) = (V c (Pipeline.arrRef spec3 1) : S100000x64.Idx → EReal) (ix2 p' l) := by
  obtain ⟨-, -, e10, e11, -⟩ := idx_facts3 t
  show V c (Pipeline.arrRef spec3 1) (((cfg3.win 1).blk t).view.emb (ix2 p l)) = V c (Pipeline.arrRef spec3 1) (ix2 p' l)
  refine congrArg _ (funext fun a => Fin.ext ?_)
  match a with
  | ⟨0, _⟩ => show win3_1.index t (0 : Fin 2) * 10000 + 1 * p.val = p'.val; omega
  | ⟨1, _⟩ => show win3_1.index t (1 : Fin 2) * 64 + 1 * l.val = l.val; omega

/-- A weight or bias window's block is its whole array. -/
theorem read3_2 (c : Dev nD) (t : Fin cfg3.N) : iblk3 V c 2 t = (V c (Pipeline.arrRef spec3 2) : S64x64.Idx → EReal) := by
  obtain ⟨-, -, -, -, e20, e21, -⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

theorem read3_3 (c : Dev nD) (t : Fin cfg3.N) : iblk3 V c 3 t = (V c (Pipeline.arrRef spec3 3) : S1x64.Idx → EReal) := by
  obtain ⟨-, -, -, -, -, -, e30, e31, -⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem read3_4 (c : Dev nD) (t : Fin cfg3.N) : iblk3 V c 4 t = (V c (Pipeline.arrRef spec3 4) : S64x64.Idx → EReal) := by
  obtain ⟨-, -, -, -, -, -, -, -, e40, e41, -⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

theorem read3_5 (c : Dev nD) (t : Fin cfg3.N) : iblk3 V c 5 t = (V c (Pipeline.arrRef spec3 5) : S1x64.Idx → EReal) := by
  obtain ⟨-, -, -, -, -, -, -, -, -, -, e50, e51, -⟩ := idx_facts3 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- What point t writes back is block t of G3. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S10000x64) hz3, View.ld_unit_zero (S := S64x64) hz3, View.ld_unit_zero (S := S1x64) hz3]
  obtain ⟨-, -, -, -, -, -, -, -, -, -, -, -, e60, e61⟩ := idx_facts3 t
  refine funext fun (j : S10000x64.Idx) => ?_
  obtain ⟨p, q, rfl⟩ : ∃ (p : Fin 10000) (q : Fin 64), j = ix2 p q := ⟨j 0, j 1, eq_ix2 j⟩
  have ht : t.val < 10 := lt_of_lt_of_eq t.isLt N_3
  have he : ((cfg3.win 6).blk t).view.emb (ix2 p q) = ix2 (⟨t.val * 10000 + p.val, by omega⟩ : Fin 100000) q :=
    funext fun a => Fin.ext (by
      match a with
      | ⟨0, _⟩ => show win3_6.index t (0 : Fin 2) * 10000 + 1 * p.val = t.val * 10000 + p.val; omega
      | ⟨1, _⟩ => show win3_6.index t (1 : Fin 2) * 64 + 1 * q.val = q.val; omega)
  show k3_pay1 (F := Ideal) (iblk3 V c 0 t) (iblk3 V c 1 t) (iblk3 V c 2 t) (iblk3 V c 3 t) (iblk3 V c 4 t) (iblk3 V c 5 t) (ix2 p q)
    = G3 V c (((cfg3.win 6).blk t).view.emb (ix2 p q))
  refine (pay3_eq_conv (iblk3 V c 0 t) (iblk3 V c 1 t) (iblk3 V c 2 t) (iblk3 V c 3 t) (iblk3 V c 4 t) (iblk3 V c 5 t) p q).trans ?_
  refine Eq.trans ?_ (congrArg (G3 V c) he).symm
  exact conv_row3 _ _ _ _ _ _ _ _ _ _ _ _ p _ q (fun l => read3_0 V c t p l _ rfl) (fun l => read3_1 V c t p l _ rfl)
    (read3_2 V c t) (read3_3 V c t) (read3_4 V c t) (read3_5 V c t)

/-- An index of the array is in point t's block iff each coordinate is in the block's range on its axis. -/
theorem mem_blk3 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v30).slice (win3_6.rect t)).set ↔ _
  rw [View.set_slice_whole, Rect.mem_set_unit]
  exact Iff.rfl

/-- The ten blocks tile the array: row r is in the block of point r / 10000. -/
theorem cover3 (i : S100000x64.Idx) : ∃ t : Fin cfg3.N, (cfg3.win 6).flush t = true ∧ i ∈ ((cfg3.win 6).blk t).view.set := by
  have hi0 : (i 0).val < 100000 := idx2_lt0 i
  have hi1 : (i 1).val < 64 := idx2_lt1 i
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, -, -, -, -, -, e60, e61⟩ := idx_facts3 t
  refine ⟨t, flush3_6 t, ?_⟩
  rw [mem_blk3]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-- The array after the region: Spec.conv of the arrays the region finds (windows 0 … 5: x, agg, w1, b1, w2, b2). -/
theorem final3 (c : Dev nD) :
    (dat3 (F := Ideal) V c).arrAt 6 cfg3.N
      = Cert.Spec.conv (V c (Pipeline.arrRef spec3 0) : S100000x64.Idx → EReal) (V c (Pipeline.arrRef spec3 1) : S100000x64.Idx → EReal)
          (V c (Pipeline.arrRef spec3 2) : S64x64.Idx → EReal) (V c (Pipeline.arrRef spec3 3) : S1x64.Idx → EReal)
          (V c (Pipeline.arrRef spec3 4) : S64x64.Idx → EReal) (V c (Pipeline.arrRef spec3 5) : S1x64.Idx → EReal) :=
  (dat3 V c).arrAt_eq_of_cover 6 (G3 V c) (fun t _ => flushed3_eq V c t) (cover3)

end Blocks

end Cert.KernelIdeal.RegionValue

end
-- ==== Proof.Region4.lean ====
/-
  The two column statistics of a [100000, 64] array, accumulated block by block.

  The grid has ten points; point t reads rows 10000 t … 10000 t + 9999 of the array. Two one-row outputs are
  carried from point to point: at the first point both are set to zero, and at every point the first receives
  the column sums of the block and the second the column sums of the block's squares. So after point t the first
  output holds, in column q, the sum of the entries (r, q) over the rows r < 10000 (t + 1), and the second the sum
  of their squares: an induction on the point, each step splitting a sum over an initial segment of the naturals.
  After the last point the segment is all 100000 rows, and both outputs are written back once, whole.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## What each case of the body leaves, for any float values -/

section AnyValues

variable {F : FTy → Type} [FloatOps F]

theorem zeroOff_r4 : (![0, 0] : Fin 2 → Nat) = fun _ => 0 := funext fun a => by fin_cases a <;> rfl

/-- Not at the first point: the first output, holding xo1, is left at "xo1 plus the column sums of the block x". -/
theorem later_sum_r4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero zeroOff_r4]
  simp only [View.readAt_eq_ld, h1.read_unread, h2.read_unread, h3.read_unread,
    View.ld_unit_zero (S := S10000x64) zeroOff_r4, View.ld_unit_zero (S := S1x64) zeroOff_r4]

/-- Not at the first point: the second output, holding xo2, is left at "xo2 plus the column sums of the squares of x". -/
theorem later_sq_r4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero zeroOff_r4]
  simp only [View.readAt_eq_ld, h1.read_unread, h2.read_unread, h3.read_unread,
    View.ld_unit_zero (S := S10000x64) zeroOff_r4, View.ld_unit_zero (S := S1x64) zeroOff_r4]

/-- At the first point the first output is zeroed, read back, and left at "zero plus the column sums of x". -/
theorem first_sum_r4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) zeroOff_r4]
  simp only [View.readAt_eq_ld, h1.read_unread, View.readCov_unit_zero (S := S1x64) _ zeroOff_r4,
    View.ld_unit_zero (S := S10000x64) zeroOff_r4, View.ld_unit_zero (S := S1x64) zeroOff_r4]

/-- At the first point the second output is zeroed, read back, and left at "zero plus the column sums of the squares". -/
theorem first_sq_r4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) zeroOff_r4]
  simp only [View.readAt_eq_ld, h1.read_unread, View.readCov_unit_zero (S := S1x64) _ zeroOff_r4,
    View.ld_unit_zero (S := S10000x64) zeroOff_r4, View.ld_unit_zero (S := S1x64) zeroOff_r4]

end AnyValues

/-! ## The payloads at an index, over the extended reals -/

/-- A sum over the rows of a block, read at column q of the reduced vector. -/
theorem colred_r4 (src : FVec Ideal S10000x64 .f32) (hacc : (0x00000000#32 : BitVec 32) = 0x00000000#32) (q : Fin 64) :
    multiReduction .add [0] S64 src 0x00000000#32 reduces_S10000x64_S64 (.inl rfl) hacc (ix1 q)
      = ∑ p : Fin 10000, src (ix2 p q) := by
  refine (Ideal.multiReduction_add_single src 0x00000000#32 reduces_S10000x64_S64 (.inl rfl) hacc (ix1 q)).trans ?_
  show ∑ p : Fin 10000, src (reduces_S10000x64_S64.lift (ix1 q) p) = _
  refine Finset.sum_congr rfl fun p _ => congrArg src ?_
  funext a
  match a with
  | ⟨0, _⟩ => rfl
  | ⟨1, _⟩ => rfl

/-- Adding a leading unit axis keeps the entries. -/
theorem addrow_r4 (v : FVec Ideal S64 .f32) (q : Fin 64) :
    shapeCast S1x64 v shapeCasts_S64_S1x64 (ix2 (0 : Fin 1) q) = v (ix1 q) := by
  refine (shapeCast_addUnit_apply ![64] v shapeCasts_S64_S1x64 (ix2 (0 : Fin 1) q)).trans ?_
  refine congrArg v ?_
  funext a
  match a with
  | ⟨0, _⟩ => rfl

theorem pay4_apply_r4 (x : Vec Ideal S10000x64 .f32) (xo : Vec Ideal S1x64 .f32) (q : Fin 64) :
    k4_pay4 (F := Ideal) x xo (ix2 (0 : Fin 1) q) = xo (ix2 (0 : Fin 1) q) + ∑ p : Fin 10000, x (ix2 p q) := by
  unfold k4_pay4 k4_pay3
  show shapeCast S1x64 xo shapeCasts_S1x64_S1x64 (ix2 (0 : Fin 1) q)
      + shapeCast S1x64 (multiReduction (F := Ideal) .add [0] S64 (shapeCast S10000x64 x shapeCasts_S10000x64_S10000x64) 0x00000000#32 reduces_S10000x64_S64 (.inl rfl) rfl) shapeCasts_S64_S1x64 (ix2 (0 : Fin 1) q) = _
  rw [shapeCast_self, shapeCast_self]
  refine congrArg (xo (ix2 (0 : Fin 1) q) + ·) ?_
  exact (addrow_r4 _ q).trans (colred_r4 x rfl q)

theorem pay5_apply_r4 (x : Vec Ideal S10000x64 .f32) (xo : Vec Ideal S1x64 .f32) (q : Fin 64) :
    k4_pay5 (F := Ideal) x xo (ix2 (0 : Fin 1) q) = xo (ix2 (0 : Fin 1) q) + ∑ p : Fin 10000, x (ix2 p q) * x (ix2 p q) := by
  unfold k4_pay5 k4_pay3
  show shapeCast S1x64 xo shapeCasts_S1x64_S1x64 (ix2 (0 : Fin 1) q)
      + shapeCast S1x64 (multiReduction (F := Ideal) .add [0] S64 (mulf (shapeCast S10000x64 x shapeCasts_S10000x64_S10000x64) (shapeCast S10000x64 x shapeCasts_S10000x64_S10000x64)) 0x00000000#32 reduces_S10000x64_S64 (.inl rfl) rfl) shapeCasts_S64_S1x64 (ix2 (0 : Fin 1) q) = _
  rw [shapeCast_self, shapeCast_self]
  refine congrArg (xo (ix2 (0 : Fin 1) q) + ·) ?_
  exact (addrow_r4 _ q).trans (colred_r4 (mulf x x) rfl q)

theorem zero1_r4 (j : S1x64.Idx) : k4_pay1 (F := Ideal) j = 0 := Ideal.ofBits_zero_f32
theorem zero2_r4 (j : S1x64.Idx) : k4_pay2 (F := Ideal) j = 0 := Ideal.ofBits_zero_f32

/-- Splitting a sum over an initial segment of the naturals at a multiple of the block height. -/
theorem seg_succ_r4 (g : ℕ → EReal) (n : ℕ) :
    ∑ r ∈ Finset.range (10000 * (n + 1)), g r
      = ∑ r ∈ Finset.range (10000 * n), g r + ∑ p : Fin 10000, g (10000 * n + p.val) := by
  rw [show 10000 * (n + 1) = 10000 * n + 10000 by ring, Finset.sum_range_add, Fin.sum_univ_eq_sum_range (fun p => g (10000 * n + p)) 10000]

/-! ## The blocks of the array, and the running sums -/

/-- Row r of the array at column q, as a function of a natural number: zero from row 100000 on. -/
def rowAt_r4 (H : S100000x64.Idx → EReal) (q : Fin 64) (r : ℕ) : EReal :=
  if h : r < 100000 then H (ix2 ⟨r, h⟩ q) else 0

/-- The input window's block index at point t is (t, 0). -/
theorem inIdx_r4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry (p, q) of the block read at point t is entry (10000 t + p, q) of the array. -/
theorem blk_apply_r4 (V : (c : Dev nD) → (b : Ref sig .tc) → Buf (Elt Ideal) ((c : Thread nD τ).loc b)) (c : Dev nD)
    (t : Fin cfg4.N) (p : Fin 10000) (q : Fin 64) :
    (iblk4 (F := Ideal) V c 0 t : Vec Ideal S10000x64 .f32) (ix2 p q)
      = rowAt_r4 (V c (Pipeline.arrRef spec4 0)) q (10000 * t.val + p.val) := by
  have hN : t.val < 10 := lt_of_lt_of_eq t.isLt (show cfg4.N = 10 from N_4)
  obtain ⟨e0, e1⟩ := inIdx_r4 t
  unfold rowAt_r4
  rw [dif_pos (by omega)]
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 10000 + 1 * p.val = 10000 * t.val + p.val; rw [e0]; omega
  | ⟨1, _⟩ => show win4_0.index t (1 : Fin 2) * 64 + 1 * q.val = q.val; rw [e1]; omega

/-- One step of the first accumulation, over variables: a carried row holding the sum over the first 10000 n rows,
    and a block holding the next 10000 rows, give the sum over the first 10000 (n + 1) rows. -/
theorem step_sum_r4 (x : Vec Ideal S10000x64 .f32) (xo : Vec Ideal S1x64 .f32) (g : ℕ → EReal) (n : ℕ) (q : Fin 64)
    (hx : ∀ p : Fin 10000, x (ix2 p q) = g (10000 * n + p.val))
    (hxo : xo (ix2 (0 : Fin 1) q) = ∑ r ∈ Finset.range (10000 * n), g r) :
    k4_pay4 (F := Ideal) x xo (ix2 (0 : Fin 1) q) = ∑ r ∈ Finset.range (10000 * (n + 1)), g r := by
  rw [pay4_apply_r4, hxo, seg_succ_r4]
  exact congrArg (_ + ·) (Finset.sum_congr rfl fun p _ => hx p)

/-- One step of the second accumulation: the same with squares. -/
theorem step_sq_r4 (x : Vec Ideal S10000x64 .f32) (xo : Vec Ideal S1x64 .f32) (g : ℕ → EReal) (n : ℕ) (q : Fin 64)
    (hx : ∀ p : Fin 10000, x (ix2 p q) = g (10000 * n + p.val))
    (hxo : xo (ix2 (0 : Fin 1) q) = ∑ r ∈ Finset.range (10000 * n), g r * g r) :
    k4_pay5 (F := Ideal) x xo (ix2 (0 : Fin 1) q) = ∑ r ∈ Finset.range (10000 * (n + 1)), g r * g r := by
  rw [pay5_apply_r4, hxo, seg_succ_r4 (fun r => g r * g r)]
  exact congrArg (_ + ·) (Finset.sum_congr rfl fun p _ => by rw [hx p])

/-- THE INVARIANT. After point n the first carried row holds, in column q, the sum of the array's column q over the
    rows below 10000 (n + 1), and the second the sum of the squares — by induction on the point. -/
theorem acc_r4 (V : (c : Dev nD) → (b : Ref sig .tc) → Buf (Elt Ideal) ((c : Thread nD τ).loc b)) (c : Dev nD) :
    ∀ (n : ℕ) (h : n < cfg4.N) (q : Fin 64),
      (outsAt4 (F := Ideal) V c n h).1 (ix2 (0 : Fin 1) q)
          = ∑ r ∈ Finset.range (10000 * (n + 1)), rowAt_r4 (V c (Pipeline.arrRef spec4 0)) q r
      ∧ (outsAt4 (F := Ideal) V c n h).2 (ix2 (0 : Fin 1) q)
          = ∑ r ∈ Finset.range (10000 * (n + 1)),
              rowAt_r4 (V c (Pipeline.arrRef spec4 0)) q r * rowAt_r4 (V c (Pipeline.arrRef spec4 0)) q r
  | 0, h, q => by
    rw [outsAt4_A V c ⟨0, h⟩ rfl]
    dsimp only
    constructor
    · refine (congrFun (first_sum_r4 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) ((hcond4_0 ⟨0, h⟩).mpr rfl) (iblk4 V c 0 ⟨0, h⟩)) (ix2 (0 : Fin 1) q)).trans ?_
      exact step_sum_r4 (iblk4 V c 0 ⟨0, h⟩) (k4_pay1 (F := Ideal)) (rowAt_r4 (V c (Pipeline.arrRef spec4 0)) q) 0 q
        (fun p => blk_apply_r4 V c ⟨0, h⟩ p q) ((zero1_r4 _).trans (by simp))
    · refine (congrFun (first_sq_r4 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) ((hcond4_0 ⟨0, h⟩).mpr rfl) (iblk4 V c 0 ⟨0, h⟩)) (ix2 (0 : Fin 1) q)).trans ?_
      exact step_sq_r4 (iblk4 V c 0 ⟨0, h⟩) (k4_pay2 (F := Ideal)) (rowAt_r4 (V c (Pipeline.arrRef spec4 0)) q) 0 q
        (fun p => blk_apply_r4 V c ⟨0, h⟩ p q) ((zero2_r4 _).trans (by simp))
  | n + 1, h, q => by
    have hN : cfg4.N = 10 := N_4
    have hB : ¬(⟨n + 1, h⟩ : Fin cfg4.N).val % 10 = 0 := by dsimp only; omega
    obtain ⟨ih1, ih2⟩ := acc_r4 V c n (Nat.lt_of_succ_lt h) q
    rw [outsAt4_B V c ⟨n + 1, h⟩ hB]
    dsimp only
    constructor
    · refine (congrFun (later_sum_r4 (F := Ideal) c (grid4.coords ⟨n + 1, h⟩) (ms4_0 ⟨n + 1, h⟩) (hs4_0 ⟨n + 1, h⟩)
        (ms4_1 ⟨n + 1, h⟩) (hs4_1 ⟨n + 1, h⟩) (ms4_2 ⟨n + 1, h⟩) (hs4_2 ⟨n + 1, h⟩) (fun hh => hB ((hcond4_0 ⟨n + 1, h⟩).mp hh))
        (iblk4 V c 0 ⟨n + 1, h⟩) (outsAt4 V c n (Nat.lt_of_succ_lt h)).1 (outsAt4 V c n (Nat.lt_of_succ_lt h)).2)
        (ix2 (0 : Fin 1) q)).trans ?_
      exact step_sum_r4 (iblk4 V c 0 ⟨n + 1, h⟩) (outsAt4 V c n (Nat.lt_of_succ_lt h)).1
        (rowAt_r4 (V c (Pipeline.arrRef spec4 0)) q) (n + 1) q (fun p => blk_apply_r4 V c ⟨n + 1, h⟩ p q) ih1
    · refine (congrFun (later_sq_r4 (F := Ideal) c (grid4.coords ⟨n + 1, h⟩) (ms4_0 ⟨n + 1, h⟩) (hs4_0 ⟨n + 1, h⟩)
        (ms4_1 ⟨n + 1, h⟩) (hs4_1 ⟨n + 1, h⟩) (ms4_2 ⟨n + 1, h⟩) (hs4_2 ⟨n + 1, h⟩) (fun hh => hB ((hcond4_0 ⟨n + 1, h⟩).mp hh))
        (iblk4 V c 0 ⟨n + 1, h⟩) (outsAt4 V c n (Nat.lt_of_succ_lt h)).1 (outsAt4 V c n (Nat.lt_of_succ_lt h)).2)
        (ix2 (0 : Fin 1) q)).trans ?_
      exact step_sq_r4 (iblk4 V c 0 ⟨n + 1, h⟩) (outsAt4 V c n (Nat.lt_of_succ_lt h)).2
        (rowAt_r4 (V c (Pipeline.arrRef spec4 0)) q) (n + 1) q (fun p => blk_apply_r4 V c ⟨n + 1, h⟩ p q) ih2

/-- The sum of the row function over all 100000 rows is the sum over the array's rows; -/
theorem allRows_r4 (H : S100000x64.Idx → EReal) (q : Fin 64) :
    ∑ r ∈ Finset.range 100000, rowAt_r4 H q r = ∑ p : Fin 100000, H (ix2 p q) := by
  rw [← Fin.sum_univ_eq_sum_range (fun r => rowAt_r4 H q r) 100000]
  refine Finset.sum_congr rfl fun p _ => ?_
  unfold rowAt_r4
  rw [dif_pos p.isLt]

/-- and likewise for the squares. -/
theorem allRowsSq_r4 (H : S100000x64.Idx → EReal) (q : Fin 64) :
    ∑ r ∈ Finset.range 100000, rowAt_r4 H q r * rowAt_r4 H q r = ∑ p : Fin 100000, H (ix2 p q) * H (ix2 p q) := by
  rw [← Fin.sum_univ_eq_sum_range (fun r => rowAt_r4 H q r * rowAt_r4 H q r) 100000]
  refine Finset.sum_congr rfl fun p _ => ?_
  unfold rowAt_r4
  rw [dif_pos p.isLt]

/-! ## The write-back and the whole arrays -/

/-- After the last point the first carried row is the column sums of the whole array. -/
theorem carried_sum_r4 (V : (c : Dev nD) → (b : Ref sig .tc) → Buf (Elt Ideal) ((c : Thread nD τ).loc b)) (c : Dev nD)
    (h : 9 < cfg4.N) :
    (outsAt4 (F := Ideal) V c 9 h).1 = Cert.Spec.colsum (M := 100000) (V c (Pipeline.arrRef spec4 0)) := by
  funext j
  obtain ⟨p, q, rfl⟩ : ∃ (p : Fin 1) (q : Fin 64), j = ix2 p q := ⟨j 0, j 1, eq_ix2 j⟩
  obtain rfl : p = 0 := Subsingleton.elim _ _
  refine ((acc_r4 V c 9 h q).1).trans ?_
  exact allRows_r4 (V c (Pipeline.arrRef spec4 0)) q

/-- After the last point the second carried row is the column sums of the squares. -/
theorem carried_sq_r4 (V : (c : Dev nD) → (b : Ref sig .tc) → Buf (Elt Ideal) ((c : Thread nD τ).loc b)) (c : Dev nD)
    (h : 9 < cfg4.N) :
    (outsAt4 (F := Ideal) V c 9 h).2 = Cert.Spec.colsumsq (M := 100000) (V c (Pipeline.arrRef spec4 0)) := by
  funext j
  obtain ⟨p, q, rfl⟩ : ∃ (p : Fin 1) (q : Fin 64), j = ix2 p q := ⟨j 0, j 1, eq_ix2 j⟩
  obtain rfl : p = 0 := Subsingleton.elim _ _
  refine ((acc_r4 V c 9 h q).2).trans ?_
  exact allRowsSq_r4 (V c (Pipeline.arrRef spec4 0)) q

/-- The one write-back of the first output, at the last point, writes the column sums: its block (0, 0) is the array. -/
theorem flushed_sum_r4 (V : (c : Dev nD) → (b : Ref sig .tc) → Buf (Elt Ideal) ((c : Thread nD τ).loc b)) (c : Dev nD)
    (t : Fin cfg4.N) (hf : (cfg4.win 1).flush t = true) :
    (dat4 (F := Ideal) V c).flushed 1 t
      = ((cfg4.win 1).blk t).view.read (Elt Ideal) (Cert.Spec.colsum (M := 100000) (V c (Pipeline.arrRef spec4 0))) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  rw [show (outsAt4 V c t4_9.val t4_9.isLt).1 = _ from carried_sum_r4 V c t4_9.isLt]
  have hz' : (fun a => win4_1.index t4_9 a * main_v31_0.ty.shape.size a) = fun _ => 0 :=
    funext fun a => by fin_cases a <;> decide +kernel
  exact (Memref.read_access_unit_zero (Elt Ideal) main_v31_0 hz' (fun a => by rw [congrFun hz' a]; simp) _).symm

/-- The one write-back of the second output writes the column sums of the squares. -/
theorem flushed_sq_r4 (V : (c : Dev nD) → (b : Ref sig .tc) → Buf (Elt Ideal) ((c : Thread nD τ).loc b)) (c : Dev nD)
    (t : Fin cfg4.N) (hf : (cfg4.win 2).flush t = true) :
    (dat4 (F := Ideal) V c).flushed 2 t
      = ((cfg4.win 2).blk t).view.read (Elt Ideal) (Cert.Spec.colsumsq (M := 100000) (V c (Pipeline.arrRef spec4 0))) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  rw [show (outsAt4 V c t4_9.val t4_9.isLt).2 = _ from carried_sq_r4 V c t4_9.isLt]
  have hz' : (fun a => win4_2.index t4_9 a * main_v31_1.ty.shape.size a) = fun _ => 0 :=
    funext fun a => by fin_cases a <;> decide +kernel
  exact (Memref.read_access_unit_zero (Elt Ideal) main_v31_1 hz' (fun a => by rw [congrFun hz' a]; simp) _).symm

/-- THE FIRST OUTPUT ARRAY after the region: the column sums of the input array as the region found it. -/
theorem final4_sum (V : (c : Dev nD) → (b : Ref sig .tc) → Buf (Elt Ideal) ((c : Thread nD τ).loc b)) (c : Dev nD) :
    (Gen.dat4 (F := Ideal) V c).arrAt 1 cfg4.N = Cert.Spec.colsum (M := 100000) (V c (Pipeline.arrRef spec4 0)) :=
  (dat4 V c).arrAt_eq_of_cover 1 _ (flushed_sum_r4 V c) fun i =>
    ⟨t4_9, (flush4_1 t4_9).mpr rfl, by
      show i ∈ ((View.whole main_v31_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_9 0 * win4_1.size 0 ≤ (i 0 : Nat)
          ∧ (i 0 : Nat) < win4_1.index t4_9 0 * win4_1.size 0 + win4_1.xsize (grid4.coords t4_9) 0
        rw [show win4_1.index t4_9 0 * win4_1.size 0 = 0 from by decide +kernel,
          show win4_1.xsize (grid4.coords t4_9) 0 = 1 from by decide +kernel]; omega
      | ⟨1, _⟩ =>
        show win4_1.index t4_9 1 * win4_1.size 1 ≤ (i 1 : Nat)
          ∧ (i 1 : Nat) < win4_1.index t4_9 1 * win4_1.size 1 + win4_1.xsize (grid4.coords t4_9) 1
        rw [show win4_1.index t4_9 1 * win4_1.size 1 = 0 from by decide +kernel,
          show win4_1.xsize (grid4.coords t4_9) 1 = 64 from by decide +kernel]; omega⟩

/-- THE SECOND OUTPUT ARRAY after the region: the column sums of the squares of the input array. -/
theorem final4_sumsq (V : (c : Dev nD) → (b : Ref sig .tc) → Buf (Elt Ideal) ((c : Thread nD τ).loc b)) (c : Dev nD) :
    (Gen.dat4 (F := Ideal) V c).arrAt 2 cfg4.N = Cert.Spec.colsumsq (M := 100000) (V c (Pipeline.arrRef spec4 0)) :=
  (dat4 V c).arrAt_eq_of_cover 2 _ (flushed_sq_r4 V c) fun i =>
    ⟨t4_9, (flush4_2 t4_9).mpr rfl, by
      show i ∈ ((View.whole main_v31_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 1 from by decide +kernel]; omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 64 from by decide +kernel]; omega⟩

end Cert.KernelIdeal.RegionValue

end
-- ==== Proof.Region5.lean ====
/-
  Region 5: normalisation, rectifier and residual.  At each of its ten points the body reads a block of 10000 rows of
  the two row-tiled operands h and x and the whole of the four one-row arrays (mean, variance, scale, shift), and
  stores (x + max (gamma · (h − mean) · rsqrt (var + 1e-5) + beta) 0) · 0.5 over the block, the four rows read at the
  entry's column.  Entry (p, q) of a block depends on entry (p, q) of the two row-tiled blocks only, and the ten
  blocks tile the 100000 rows, so the array the region leaves is the whole-array function Spec.bnres of the six
  arrays the region finds.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-! ## The body's arithmetic at an index -/

/-- The stored value at (p, q) of a block: the block of h at (p, q) normalised by the mean and variance rows at
    column q, scaled and shifted by the rows gamma and beta there, rectified, added to the block of x at (p, q),
    and halved. -/
theorem pay5_apply (var gamma : Vec Ideal S1x64 .f32) (h : Vec Ideal S10000x64 .f32) (mean beta : Vec Ideal S1x64 .f32)
    (x : Vec Ideal S10000x64 .f32) (p : Fin 10000) (q : Fin 64) :
    k5_pay1 (F := Ideal) var gamma h mean beta x (ix2 p q)
      = (x (ix2 p q) + max (gamma (ix2 (0 : Fin 1) q) * (h (ix2 p q) - mean (ix2 (0 : Fin 1) q))
          * Ideal.rsqrt (var (ix2 (0 : Fin 1) q) + Ideal.ofBits .f32 0x3727C5AC#32) + beta (ix2 (0 : Fin 1) q)) 0)
        * Ideal.ofBits .f32 0x3F000000#32 := by
  unfold k5_pay1
  simp only [shapeCast_self]
  refine (mulf_apply _ _ _).trans ?_
  refine congrArg₂ (· * ·) ?_ rfl
  refine (addf_apply _ _ _).trans ?_
  refine congrArg (x (ix2 p q) + ·) ?_
  refine (maximumf_apply _ _ _).trans ?_
  refine congrArg₂ max ?_ Ideal.ofBits_zero_f32
  refine (addf_apply _ _ _).trans ?_
  refine congrArg₂ (· + ·) ?_ (broadcastTo_1b_ab_apply _ _ p q)
  refine (mulf_apply _ _ _).trans ?_
  refine congrArg₂ (· * ·) ?_ ?_
  · refine (mulf_apply _ _ _).trans ?_
    refine congrArg₂ (· * ·) (broadcastTo_1b_ab_apply _ _ p q) ?_
    refine (subf_apply _ _ _).trans ?_
    exact congrArg (h (ix2 p q) - ·) (broadcastTo_1b_ab_apply _ _ p q)
  · refine (broadcastTo_1b_ab_apply _ _ p q).trans ?_
    rfl

/-- The body's stored block is Spec.bnres of its loaded blocks, at 10000 rows. -/
theorem pay5_eq_bnres (var gamma : Vec Ideal S1x64 .f32) (h : Vec Ideal S10000x64 .f32) (mean beta : Vec Ideal S1x64 .f32)
    (x : Vec Ideal S10000x64 .f32) (p : Fin 10000) (q : Fin 64) :
    k5_pay1 (F := Ideal) var gamma h mean beta x (ix2 p q) = Cert.Spec.bnres (M := 10000) h x mean var gamma beta (ix2 p q) :=
  pay5_apply var gamma h mean beta x p q

/-- Entry (p, q) of Spec.bnres depends on entry (p, q) of the two row-tiled operands only: two instances whose
    row-tiled operands agree at one entry each, with the same four rows, agree there — whatever the two row counts. -/
theorem bnres_entry5 {M M' : Nat} (h x : Cert.Spec.Mat M 64) (h' x' : Cert.Spec.Mat M' 64)
    (mean mean' var var' gamma gamma' beta beta' : Cert.Spec.Mat 1 64) (p : Fin M) (p' : Fin M') (q : Fin 64)
    (hh : h (ix2 p q) = h' (ix2 p' q)) (hx : x (ix2 p q) = x' (ix2 p' q))
    (hmean : mean = mean') (hvar : var = var') (hgamma : gamma = gamma') (hbeta : beta = beta') :
    Cert.Spec.bnres h x mean var gamma beta (ix2 p q) = Cert.Spec.bnres h' x' mean' var' gamma' beta' (ix2 p' q) := by
  subst hmean hvar hgamma hbeta
  show (x (ix2 p q) + max (gamma (ix2 (0 : Fin 1) q) * (h (ix2 p q) - mean (ix2 (0 : Fin 1) q))
        * Ideal.rsqrt (var (ix2 (0 : Fin 1) q) + Cert.Spec.eps) + beta (ix2 (0 : Fin 1) q)) 0) * Cert.Spec.half
      = (x' (ix2 p' q) + max (gamma (ix2 (0 : Fin 1) q) * (h' (ix2 p' q) - mean (ix2 (0 : Fin 1) q))
        * Ideal.rsqrt (var (ix2 (0 : Fin 1) q) + Cert.Spec.eps) + beta (ix2 (0 : Fin 1) q)) 0) * Cert.Spec.half
  rw [hh, hx]

/-! ## From blocks to the array -/

section Blocks
variable (V : (c : Dev nD) → (b : Ref sig .tc) → Buf (Elt Ideal) ((c : Thread nD τ).loc b))

theorem hz5 : (![0, 0] : Fin 2 → Nat) = fun _ => 0 := funext fun a => by fin_cases a <;> rfl

/-- What the region leaves in its output array: Spec.bnres of the six arrays it finds. -/
abbrev G5 (c : Dev nD) : S100000x64.Idx → EReal :=
  Cert.Spec.bnres (V c (Pipeline.arrRef spec5 0) : S100000x64.Idx → EReal) (V c (Pipeline.arrRef spec5 1) : S100000x64.Idx → EReal)
    (V c (Pipeline.arrRef spec5 2) : S1x64.Idx → EReal) (V c (Pipeline.arrRef spec5 3) : S1x64.Idx → EReal)
    (V c (Pipeline.arrRef spec5 4) : S1x64.Idx → EReal) (V c (Pipeline.arrRef spec5 5) : S1x64.Idx → EReal)

/-- The index maps over the ten points: the row-tiled windows (0, 1 and the output 6) are at block row t and
    block column 0; the four one-row windows stay at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- A row-tiled input block at (p, l) is its array at row t · 10000 + p, column l. -/
theorem read5_0 (c : Dev nD) (t : Fin cfg5.N) (p : Fin 10000) (l : Fin 64) (p' : Fin 100000) (hp : p'.val = t.val * 10000 + p.val) :
    iblk5 V c 0 t (ix2 p l) = (V c (Pipeline.arrRef spec5 0) : S100000x64.Idx → EReal) (ix2 p' l) := by
  obtain ⟨e00, e01, -⟩ := idx_facts5 t
  show V c (Pipeline.arrRef spec5 0) (((cfg5.win 0).blk t).view.emb (ix2 p l)) = V c (Pipeline.arrRef spec5 0) (ix2 p' l)
  refine congrArg _ (funext fun a => Fin.ext ?_)
  match a with
  | ⟨0, _⟩ => show win5_0.index t (0 : Fin 2) * 10000 + 1 * p.val = p'.val; omega
  | ⟨1, _⟩ => show win5_0.index t (1 : Fin 2) * 64 + 1 * l.val = l.val; omega

theorem read5_1 (c : Dev nD) (t : Fin cfg5.N) (p : Fin 10000) (l : Fin 64) (p' : Fin 100000) (hp : p'.val = t.val * 10000 + p.val) :
    iblk5 V c 1 t (ix2 p l) = (V c (Pipeline.arrRef spec5 1) : S100000x64.Idx → EReal) (ix2 p' l) := by
  obtain ⟨-, -, e10, e11, -⟩ := idx_facts5 t
  show V c (Pipeline.arrRef spec5 1) (((cfg5.win 1).blk t).view.emb (ix2 p l)) = V c (Pipeline.arrRef spec5 1) (ix2 p' l)
  refine congrArg _ (funext fun a => Fin.ext ?_)
  match a with
  | ⟨0, _⟩ => show win5_1.index t (0 : Fin 2) * 10000 + 1 * p.val = p'.val; omega
  | ⟨1, _⟩ => show win5_1.index t (1 : Fin 2) * 64 + 1 * l.val = l.val; omega

/-- A one-row window's block is its whole array. -/
theorem read5_2 (c : Dev nD) (t : Fin cfg5.N) : iblk5 V c 2 t = (V c (Pipeline.arrRef spec5 2) : S1x64.Idx → EReal) := by
  obtain ⟨-, -, -, -, e20, e21, -⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

theorem read5_3 (c : Dev nD) (t : Fin cfg5.N) : iblk5 V c 3 t = (V c (Pipeline.arrRef spec5 3) : S1x64.Idx → EReal) := by
  obtain ⟨-, -, -, -, -, -, e30, e31, -⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

theorem read5_4 (c : Dev nD) (t : Fin cfg5.N) : iblk5 V c 4 t = (V c (Pipeline.arrRef spec5 4) : S1x64.Idx → EReal) := by
  obtain ⟨-, -, -, -, -, -, -, -, e40, e41, -⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 64 + 1 * (y 1).val = (y 1).val; omega

theorem read5_5 (c : Dev nD) (t : Fin cfg5.N) : iblk5 V c 5 t = (V c (Pipeline.arrRef spec5 5) : S1x64.Idx → EReal) := by
  obtain ⟨-, -, -, -, -, -, -, -, -, -, e50, e51, -⟩ := idx_facts5 t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 1 + 1 * (y 0).val = (y 0).val; omega
  | ⟨1, _⟩ => show win5_5.index t (1 : Fin 2) * 64 + 1 * (y 1).val = (y 1).val; omega

/-- What point t writes back is block t of G5. -/
theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 V c).after 6 t) = _
  rw [after5_6]
  unfold out5_6
  rw [View.canon_unit_zero hz5]
  simp only [View.ld_unit_zero (S := S10000x64) hz5, View.ld_unit_zero (S := S1x64) hz5]
  obtain ⟨-, -, -, -, -, -, -, -, -, -, -, -, e60, e61⟩ := idx_facts5 t
  refine funext fun (j : S10000x64.Idx) => ?_
  obtain ⟨p, q, rfl⟩ : ∃ (p : Fin 10000) (q : Fin 64), j = ix2 p q := ⟨j 0, j 1, eq_ix2 j⟩
  have ht : t.val < 10 := lt_of_lt_of_eq t.isLt N_5
  have he : ((cfg5.win 6).blk t).view.emb (ix2 p q) = ix2 (⟨t.val * 10000 + p.val, by omega⟩ : Fin 100000) q :=
    funext fun a => Fin.ext (by
      match a with
      | ⟨0, _⟩ => show win5_6.index t (0 : Fin 2) * 10000 + 1 * p.val = t.val * 10000 + p.val; omega
      | ⟨1, _⟩ => show win5_6.index t (1 : Fin 2) * 64 + 1 * q.val = q.val; omega)
  show k5_pay1 (F := Ideal) (iblk5 V c 3 t) (iblk5 V c 4 t) (iblk5 V c 0 t) (iblk5 V c 2 t) (iblk5 V c 5 t) (iblk5 V c 1 t) (ix2 p q)
    = G5 V c (((cfg5.win 6).blk t).view.emb (ix2 p q))
  refine (pay5_eq_bnres (iblk5 V c 3 t) (iblk5 V c 4 t) (iblk5 V c 0 t) (iblk5 V c 2 t) (iblk5 V c 5 t) (iblk5 V c 1 t) p q).trans ?_
  refine Eq.trans ?_ (congrArg (G5 V c) he).symm
  exact bnres_entry5 _ _ _ _ _ _ _ _ _ _ _ _ p _ q (read5_0 V c t p q _ rfl) (read5_1 V c t p q _ rfl)
    (read5_2 V c t) (read5_3 V c t) (read5_4 V c t) (read5_5 V c t)

/-- An index of the array is in point t's block iff each coordinate is in the block's range on its axis. -/
theorem mem_blk5 (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v48).slice (win5_6.rect t)).set ↔ _
  rw [View.set_slice_whole, Rect.mem_set_unit]
  exact Iff.rfl

/-- The ten blocks tile the array: row r is in the block of point r / 10000. -/
theorem cover5 (i : S100000x64.Idx) : ∃ t : Fin cfg5.N, (cfg5.win 6).flush t = true ∧ i ∈ ((cfg5.win 6).blk t).view.set := by
  have hi0 : (i 0).val < 100000 := idx2_lt0 i
  have hi1 : (i 1).val < 64 := idx2_lt1 i
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, -, -, -, -, -, -, -, -, e60, e61⟩ := idx_facts5 t
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 64 ≤ (i 1).val ∧ (i 1).val < win5_6.index t (1 : Fin 2) * 64 + 64; omega

/-- The array after the region: Spec.bnres of the arrays the region finds (windows 0 … 5: h, x, mean, variance,
    scale, shift). -/
theorem final5 (c : Dev nD) :
    (dat5 (F := Ideal) V c).arrAt 6 cfg5.N
      = Cert.Spec.bnres (V c (Pipeline.arrRef spec5 0) : S100000x64.Idx → EReal) (V c (Pipeline.arrRef spec5 1) : S100000x64.Idx → EReal)
          (V c (Pipeline.arrRef spec5 2) : S1x64.Idx → EReal) (V c (Pipeline.arrRef spec5 3) : S1x64.Idx → EReal)
          (V c (Pipeline.arrRef spec5 4) : S1x64.Idx → EReal) (V c (Pipeline.arrRef spec5 5) : S1x64.Idx → EReal) :=
  (dat5 V c).arrAt_eq_of_cover 6 (G5 V c) (fun t _ => flushed5_eq V c t) (cover5)

end Blocks

end Cert.KernelIdeal.RegionValue

end
-- ==== Proof.Region6.lean ====
/-
  Region 6: the edge update. Each of the 64 grid points takes the rows 10000 t .. 10000 t + 9999 of the three
  row-tiled operands (the two gathered node arrays and the edge array), joins them side by side into 192 columns,
  runs two layers on the join (the first rectified) against the whole weight and bias arrays, and adds half of the
  result to the edge rows. Row p of block t is row 10000 t + p of the arrays, so the value written at an entry depends
  only on that row of the operands and on the weights: the blocks are the restrictions of one whole-array function,
  and they tile the 640000 rows.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One grid point's payload at an entry of its block -/

/-- The three row blocks joined along the columns, read at row p and column q: the block whose span of 64
    columns holds q, at column q less the columns before that block. -/
theorem join6_apply (x0 x1 x2 : Vec Ideal S10000x64 .f32) (p : Fin 10000) (q : Fin 192) :
    concatenate S10000x192 1 [⟨S10000x64, x0⟩, ⟨S10000x64, x1⟩, ⟨S10000x64, x2⟩]
      concatenates_S10000x64_S10000x64_S10000x64_S10000x192_d1 (ix2 p q)
      = Cert.Spec.cat3 (M := 10000) x0 x1 x2 (ix2 p q) := by
  unfold Cert.Spec.cat3
  have hq := q.isLt
  by_cases h : q.val < 64
  · rw [dif_pos (show ((ix2 p q : S10000x192.Idx) 1).val < 64 from h)]
    refine concatenate_apply_piece (1 : Fin S10000x192.rank) _ _ (ix2 p q) 0 (by simp) S10000x64 x0 rfl rfl 0 rfl
      (ix2 p ⟨q.val, h⟩) (fun b hb => ?_) ?_
    · match b with
      | ⟨0, _⟩ => rfl
      | ⟨1, _⟩ => exact absurd rfl hb
    · show 0 + q.val = q.val; omega
  · rw [dif_neg (show ¬ ((ix2 p q : S10000x192.Idx) 1).val < 64 from h)]
    by_cases h' : q.val < 128
    · rw [dif_pos (show ((ix2 p q : S10000x192.Idx) 1).val < 128 from h')]
      refine concatenate_apply_piece (1 : Fin S10000x192.rank) _ _ (ix2 p q) 1 (by simp) S10000x64 x1 rfl rfl 64 rfl
        (ix2 p ⟨q.val - 64, by omega⟩) (fun b hb => ?_) ?_
      · match b with
        | ⟨0, _⟩ => rfl
        | ⟨1, _⟩ => exact absurd rfl hb
      · show 64 + (q.val - 64) = q.val; omega
    · rw [dif_neg (show ¬ ((ix2 p q : S10000x192.Idx) 1).val < 128 from h')]
      refine concatenate_apply_piece (1 : Fin S10000x192.rank) _ _ (ix2 p q) 2 (by simp) S10000x64 x2 rfl rfl 128 rfl
        (ix2 p ⟨q.val - 128, by omega⟩) (fun b hb => ?_) ?_
      · match b with
        | ⟨0, _⟩ => rfl
        | ⟨1, _⟩ => exact absurd rfl hb
      · show 128 + (q.val - 128) = q.val; omega

/-- A matrix product accumulated into the zero array, read at row p and column q: the sum over the one contracted
    axis of the left operand's row p times the right operand's column q. The four hypotheses say which axis of each
    operand is contracted and that the other axis follows the result's index. -/
theorem matmul6_zero_ix2 {M K N : Nat} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (a : FVec Ideal ⟨2, ![M, K]⟩ .f32) (b : FVec Ideal ⟨2, ![K, N]⟩ .f32) (p : Fin M) (q : Fin N) :
    matmul d none a b (constant (F := Ideal) ⟨2, ![M, N]⟩ .f32 0x00000000#32) (ix2 p q)
      = ∑ k : Fin K, a (ix2 p k) * b (ix2 k q) := by
  refine (Ideal.matmul_constant_zero_apply d none a b (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

/-- The first layer's product: 192 joined columns against the 192 rows of the weights. -/
theorem mm6_192_64 (a : FVec Ideal S10000x192 .f32) (b : FVec Ideal S192x64 .f32) (p : Fin 10000) (q : Fin 64) :
    matmul dot_S10000x192_S192x64_S10000x64_1_0_0_1_n_n none a b (constant (F := Ideal) S10000x64 .f32 0x00000000#32) (ix2 p q)
      = ∑ k : Fin 192, a (ix2 p k) * b (ix2 k q) :=
  matmul6_zero_ix2 dot_S10000x192_S192x64_S10000x64_1_0_0_1_n_n rfl rfl rfl rfl
    (fun j k => by
      unfold DotDims.lhsIdx
      rw [dif_neg (show ¬(0 : Fin S10000x192.rank) ∈ dot_S10000x192_S192x64_S10000x64_1_0_0_1_n_n.lhsBatch by decide), dif_pos (show (0 : Fin S10000x192.rank) ∈ dot_S10000x192_S192x64_S10000x64_1_0_0_1_n_n.lhsNonContracting by decide)]
      rfl)
    (fun j k => by
      unfold DotDims.rhsIdx
      rw [dif_neg (show ¬(1 : Fin S192x64.rank) ∈ dot_S10000x192_S192x64_S10000x64_1_0_0_1_n_n.rhsBatch by decide), dif_pos (show (1 : Fin S192x64.rank) ∈ dot_S10000x192_S192x64_S10000x64_1_0_0_1_n_n.rhsNonContracting by decide)]
      rfl)
    a b p q

/-- The second layer's product: 64 columns against the 64 rows of the weights. -/
theorem mm6_64_64 (a : FVec Ideal S10000x64 .f32) (b : FVec Ideal S64x64 .f32) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) :=
  matmul6_zero_ix2 dot_S10000x64_S64x64_S10000x64_1_0_0_1_n_n rfl rfl rfl rfl
    (fun j k => by
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl)
    (fun j k => by
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
    a b p q

/-- The three row blocks side by side, as one block of 192 columns. -/
abbrev joined6 (x0 x1 x2 : Vec Ideal S10000x64 .f32) : FVec Ideal S10000x192 .f32 :=
  concatenate S10000x192 1 [⟨S10000x64, x0⟩, ⟨S10000x64, x1⟩, ⟨S10000x64, x2⟩]
    concatenates_S10000x64_S10000x64_S10000x64_S10000x192_d1

/-- A bias row spread down the 10000 rows, read at row p and column q: the row's entry at column q. -/
theorem bias6_apply (b : Vec Ideal S1x64 .f32) (p : Fin 10000) (q : Fin 64) :
    broadcastTo S10000x64 b broadcasts_S1x64_S10000x64 (ix2 p q) = b (ix2 (0 : Fin 1) q) :=
  broadcastTo_1b_ab_apply b broadcasts_S1x64_S10000x64 p q

/-- The first layer on the joined block, rectified, at row p and column k. -/
theorem hidden6_apply (x0 x1 x2 : Vec Ideal S10000x64 .f32) (w1 : Vec Ideal S192x64 .f32) (b1 : Vec Ideal S1x64 .f32)
    (p : Fin 10000) (k : Fin 64) :
    maximumf (addf (matmul (φ₁ := .f32) (φ₂ := .f32) dot_S10000x192_S192x64_S10000x64_1_0_0_1_n_n none (joined6 x0 x1 x2)
        w1 (constant (F := Ideal) S10000x64 .f32 0x00000000#32)) (broadcastTo S10000x64 b1 broadcasts_S1x64_S10000x64))
      (broadcast S10000x64 (Scalar.ofBits (F := Ideal) .f32 0x00000000#32)) (ix2 p k)
      = Cert.Spec.relu (Cert.Spec.lin (Cert.Spec.cat3 (M := 10000) x0 x1 x2) w1 b1) (ix2 p k) := by
  show max (matmul (φ₁ := .f32) (φ₂ := .f32) dot_S10000x192_S192x64_S10000x64_1_0_0_1_n_n none (joined6 x0 x1 x2) w1 (constant (F := Ideal) S10000x64 .f32 0x00000000#32) (ix2 p k)
      + broadcastTo S10000x64 b1 broadcasts_S1x64_S10000x64 (ix2 p k)) (Ideal.ofBits .f32 0x00000000#32) = _
  rw [mm6_192_64, bias6_apply, Ideal.ofBits_zero_f32]
  unfold Cert.Spec.relu Cert.Spec.lin
  refine congrArg (fun s => max (s + b1 (ix2 (0 : Fin 1) k)) 0) (Finset.sum_congr rfl fun j _ => ?_)
  exact congrArg (· * w1 (ix2 j k)) (join6_apply x0 x1 x2 p j)

/-- The same, as an equation of whole blocks. -/
theorem hidden6_eq (x0 x1 x2 : Vec Ideal S10000x64 .f32) (w1 : Vec Ideal S192x64 .f32) (b1 : Vec Ideal S1x64 .f32) :
    maximumf (addf (matmul (φ₁ := .f32) (φ₂ := .f32) dot_S10000x192_S192x64_S10000x64_1_0_0_1_n_n none (joined6 x0 x1 x2)
        w1 (constant (F := Ideal) S10000x64 .f32 0x00000000#32)) (broadcastTo S10000x64 b1 broadcasts_S1x64_S10000x64))
      (broadcast S10000x64 (Scalar.ofBits (F := Ideal) .f32 0x00000000#32))
      = Cert.Spec.relu (Cert.Spec.lin (Cert.Spec.cat3 (M := 10000) x0 x1 x2) w1 b1) := by
  funext j
  obtain ⟨p, k, rfl⟩ : ∃ (p : Fin 10000) (k : Fin 64), j = ix2 p k := ⟨j 0, j 1, eq_ix2 j⟩
  exact hidden6_apply x0 x1 x2 w1 b1 p k

/-- The whole payload of one grid point at row p and column q of its block: the edge update of the three row blocks. -/
theorem pay6_apply (x0 x1 x2 : Vec Ideal S10000x64 .f32) (w1 : Vec Ideal S192x64 .f32) (b1 : Vec Ideal S1x64 .f32)
    (w2 : Vec Ideal S64x64 .f32) (b2 : Vec Ideal S1x64 .f32) (p : Fin 10000) (q : Fin 64) :
    k6_pay1 (F := Ideal) x0 x1 x2 w1 b1 w2 b2 x2 (ix2 p q) = Cert.Spec.emlp (M := 10000) x0 x1 x2 w1 b1 w2 b2 (ix2 p q) := by
  unfold k6_pay1
  simp only [shapeCast_self]
  show x2 (ix2 p q) + (matmul (φ₁ := .f32) (φ₂ := .f32) dot_S10000x64_S64x64_S10000x64_1_0_0_1_n_n none _ w2 (constant (F := Ideal) S10000x64 .f32 0x00000000#32) (ix2 p q)
      + broadcastTo S10000x64 b2 broadcasts_S1x64_S10000x64 (ix2 p q)) * Ideal.ofBits .f32 0x3F000000#32 = _
  rw [mm6_64_64, bias6_apply, hidden6_eq]
  simp only [shapeCast_self]
  rfl

/-! ## The specification is row-local -/

/-- The join at row p reads only row p of its three operands. -/
theorem cat3_row6 {M M' : Nat} (xs xd e : Cert.Spec.Mat M 64) (xs' xd' e' : Cert.Spec.Mat M' 64) (p : Fin M) (p' : Fin M')
    (hs : ∀ k, xs' (ix2 p' k) = xs (ix2 p k)) (hd : ∀ k, xd' (ix2 p' k) = xd (ix2 p k))
    (he : ∀ k, e' (ix2 p' k) = e (ix2 p k)) (j : Fin 192) :
    Cert.Spec.cat3 xs' xd' e' (ix2 p' j) = Cert.Spec.cat3 xs xd e (ix2 p j) := by
  unfold Cert.Spec.cat3
  by_cases h : j.val < 64
  · rw [dif_pos (show ((ix2 p' j : (⟨2, ![M', 192]⟩ : Shape).Idx) 1).val < 64 from h),
      dif_pos (show ((ix2 p j : (⟨2, ![M, 192]⟩ : Shape).Idx) 1).val < 64 from h)]
    exact hs _
  · rw [dif_neg (show ¬ ((ix2 p' j : (⟨2, ![M', 192]⟩ : Shape).Idx) 1).val < 64 from h),
      dif_neg (show ¬ ((ix2 p j : (⟨2, ![M, 192]⟩ : Shape).Idx) 1).val < 64 from h)]
    by_cases h' : j.val < 128
    · rw [dif_pos (show ((ix2 p' j : (⟨2, ![M', 192]⟩ : Shape).Idx) 1).val < 128 from h'),
        dif_pos (show ((ix2 p j : (⟨2, ![M, 192]⟩ : Shape).Idx) 1).val < 128 from h')]
      exact hd _
    · rw [dif_neg (show ¬ ((ix2 p' j : (⟨2, ![M', 192]⟩ : Shape).Idx) 1).val < 128 from h'),
        dif_neg (show ¬ ((ix2 p j : (⟨2, ![M, 192]⟩ : Shape).Idx) 1).val < 128 from h')]
      exact he _

/-- The edge update at row p reads only row p of the three row-tiled operands (and all of the weights). -/
theorem emlp_row6 {M M' : Nat} (xs xd e : Cert.Spec.Mat M 64) (xs' xd' e' : Cert.Spec.Mat M' 64)
    (w1 w1' : Cert.Spec.Mat 192 64) (b1 b1' : Cert.Spec.Mat 1 64) (w2 w2' : Cert.Spec.Mat 64 64) (b2 b2' : Cert.Spec.Mat 1 64)
    (p : Fin M) (p' : Fin M')
    (hs : ∀ k, xs' (ix2 p' k) = xs (ix2 p k)) (hd : ∀ k, xd' (ix2 p' k) = xd (ix2 p k))
    (he : ∀ k, e' (ix2 p' k) = e (ix2 p k))
    (hw1 : w1' = w1) (hb1 : b1' = b1) (hw2 : w2' = w2) (hb2 : b2' = b2) (q : Fin 64) :
    Cert.Spec.emlp xs' xd' e' w1' b1' w2' b2' (ix2 p' q) = Cert.Spec.emlp xs xd e w1 b1 w2 b2 (ix2 p q) := by
  subst hw1 hb1 hw2 hb2
  have hh : ∀ k : Fin 64, Cert.Spec.relu (Cert.Spec.lin (Cert.Spec.cat3 xs' xd' e') w1' b1') (ix2 p' k)
      = Cert.Spec.relu (Cert.Spec.lin (Cert.Spec.cat3 xs xd e) w1' b1') (ix2 p k) := fun k => by
    show max ((∑ j : Fin 192, Cert.Spec.cat3 xs' xd' e' (ix2 p' j) * w1' (ix2 j k)) + b1' (ix2 (0 : Fin 1) k)) 0
      = max ((∑ j : Fin 192, Cert.Spec.cat3 xs xd e (ix2 p j) * w1' (ix2 j k)) + b1' (ix2 (0 : Fin 1) k)) 0
    rw [Finset.sum_congr rfl fun j _ => by rw [cat3_row6 xs xd e xs' xd' e' p p' hs hd he j]]
  show e' (ix2 p' q) + ((∑ k : Fin 64, Cert.Spec.relu (Cert.Spec.lin (Cert.Spec.cat3 xs' xd' e') w1' b1') (ix2 p' k) * w2' (ix2 k q))
      + b2' (ix2 (0 : Fin 1) q)) * Cert.Spec.half
    = e (ix2 p q) + ((∑ k : Fin 64, Cert.Spec.relu (Cert.Spec.lin (Cert.Spec.cat3 xs xd e) w1' b1') (ix2 p k) * w2' (ix2 k q))
      + b2' (ix2 (0 : Fin 1) q)) * Cert.Spec.half
  rw [he q, Finset.sum_congr rfl fun k _ => by rw [hh k]]

/-! ## From the blocks to the array -/

variable (V : (c : Dev nD) → (b : Ref sig .tc) → Buf (Elt Ideal) ((c : Thread nD τ).loc b))

/-- Every access of the body starts at the origin of its staging buffer. -/
theorem origin6 : (![0, 0] : Fin 2 → Nat) = fun _ => 0 := funext fun a => by fin_cases a <;> rfl

/-- The block index of every window at every grid point, decided over the 64 points: the three row-tiled operands and
    the result are at block t of the rows; the weights and biases stay at block 0; every window is at block 0 of the
    columns. -/
theorem block_index6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row p of block t is row 10000 t + p of the array. -/
def row6 (t : Fin cfg6.N) (p : Fin 10000) : Fin 640000 :=
  ⟨t.val * 10000 + p.val, by
    have ht : t.val < grid6.N := t.isLt
    rw [N_6] at ht
    have := p.isLt
    omega⟩

/-- Where entry (p, k) of window 0's block at point t sits in its array. -/
theorem emb6_0 (t : Fin cfg6.N) (p : Fin 10000) (k : Fin 64) :
    ((cfg6.win 0).blk t).view.emb (ix2 p k) = ix2 (row6 t p) k := by
  obtain ⟨e00, e01, e10, e11, e20, e21, e30, e31, e40, e41, e50, e51, e60, e61, e70, e71⟩ := block_index6 t
  funext a; apply Fin.ext
  match a with
  | ⟨0, _⟩ => show win6_0.index t (0 : Fin 2) * 10000 + 1 * p.val = t.val * 10000 + p.val; omega
  | ⟨1, _⟩ => show win6_0.index t (1 : Fin 2) * 64 + 1 * k.val = k.val; omega

/-- Where entry (p, k) of window 1's block at point t sits in its array. -/
theorem emb6_1 (t : Fin cfg6.N) (p : Fin 10000) (k : Fin 64) :
    ((cfg6.win 1).blk t).view.emb (ix2 p k) = ix2 (row6 t p) k := by
  obtain ⟨e00, e01, e10, e11, e20, e21, e30, e31, e40, e41, e50, e51, e60, e61, e70, e71⟩ := block_index6 t
  funext a; apply Fin.ext
  match a with
  | ⟨0, _⟩ => show win6_1.index t (0 : Fin 2) * 10000 + 1 * p.val = t.val * 10000 + p.val; omega
  | ⟨1, _⟩ => show win6_1.index t (1 : Fin 2) * 64 + 1 * k.val = k.val; omega

/-- Where entry (p, k) of window 2's block at point t sits in its array. -/
theorem emb6_2 (t : Fin cfg6.N) (p : Fin 10000) (k : Fin 64) :
    ((cfg6.win 2).blk t).view.emb (ix2 p k) = ix2 (row6 t p) k := by
  obtain ⟨e00, e01, e10, e11, e20, e21, e30, e31, e40, e41, e50, e51, e60, e61, e70, e71⟩ := block_index6 t
  funext a; apply Fin.ext
  match a with
  | ⟨0, _⟩ => show win6_2.index t (0 : Fin 2) * 10000 + 1 * p.val = t.val * 10000 + p.val; omega
  | ⟨1, _⟩ => show win6_2.index t (1 : Fin 2) * 64 + 1 * k.val = k.val; omega

/-- Where entry (p, k) of window 7's block at point t sits in its array. -/
theorem emb6_7 (t : Fin cfg6.N) (p : Fin 10000) (k : Fin 64) :
    ((cfg6.win 7).blk t).view.emb (ix2 p k) = ix2 (row6 t p) k := by
  obtain ⟨e00, e01, e10, e11, e20, e21, e30, e31, e40, e41, e50, e51, e60, e61, e70, e71⟩ := block_index6 t
  funext a; apply Fin.ext
  match a with
  | ⟨0, _⟩ => show win6_7.index t (0 : Fin 2) * 10000 + 1 * p.val = t.val * 10000 + p.val; omega
  | ⟨1, _⟩ => show win6_7.index t (1 : Fin 2) * 64 + 1 * k.val = k.val; omega

/-- Window 3's one block is the whole array. -/
theorem emb6_3 (t : Fin cfg6.N) (y : S192x64.Idx) : ((cfg6.win 3).blk t).view.emb y = y := by
  obtain ⟨e00, e01, e10, e11, e20, e21, e30, e31, e40, e41, e50, e51, e60, e61, e70, e71⟩ := block_index6 t
  funext a; apply Fin.ext
  match a with
  | ⟨0, _⟩ => show win6_3.index t (0 : Fin 2) * 192 + 1 * (y 0).val = (y 0).val; omega
  | ⟨1, _⟩ => show win6_3.index t (1 : Fin 2) * 64 + 1 * (y 1).val = (y 1).val; omega

/-- Window 4's one block is the whole array. -/
theorem emb6_4 (t : Fin cfg6.N) (y : S1x64.Idx) : ((cfg6.win 4).blk t).view.emb y = y := by
  obtain ⟨e00, e01, e10, e11, e20, e21, e30, e31, e40, e41, e50, e51, e60, e61, e70, e71⟩ := block_index6 t
  funext a; apply Fin.ext
  match a with
  | ⟨0, _⟩ => show win6_4.index t (0 : Fin 2) * 1 + 1 * (y 0).val = (y 0).val; omega
  | ⟨1, _⟩ => show win6_4.index t (1 : Fin 2) * 64 + 1 * (y 1).val = (y 1).val; omega

/-- Window 5's one block is the whole array. -/
theorem emb6_5 (t : Fin cfg6.N) (y : S64x64.Idx) : ((cfg6.win 5).blk t).view.emb y = y := by
  obtain ⟨e00, e01, e10, e11, e20, e21, e30, e31, e40, e41, e50, e51, e60, e61, e70, e71⟩ := block_index6 t
  funext a; apply Fin.ext
  match a with
  | ⟨0, _⟩ => show win6_5.index t (0 : Fin 2) * 64 + 1 * (y 0).val = (y 0).val; omega
  | ⟨1, _⟩ => show win6_5.index t (1 : Fin 2) * 64 + 1 * (y 1).val = (y 1).val; omega

/-- Window 6's one block is the whole array. -/
theorem emb6_6 (t : Fin cfg6.N) (y : S1x64.Idx) : ((cfg6.win 6).blk t).view.emb y = y := by
  obtain ⟨e00, e01, e10, e11, e20, e21, e30, e31, e40, e41, e50, e51, e60, e61, e70, e71⟩ := block_index6 t
  funext a; apply Fin.ext
  match a with
  | ⟨0, _⟩ => show win6_6.index t (0 : Fin 2) * 1 + 1 * (y 0).val = (y 0).val; omega
  | ⟨1, _⟩ => show win6_6.index t (1 : Fin 2) * 64 + 1 * (y 1).val = (y 1).val; omega

/-- Operand 0's block at point t, at an entry: the array at the entry's row of the array. -/
theorem blk6_0 (c : Dev nD) (t : Fin cfg6.N) (p : Fin 10000) (k : Fin 64) :
    iblk6 V c 0 t (ix2 p k) = (V c (Pipeline.arrRef spec6 0) : Cert.Spec.Mat 640000 64) (ix2 (row6 t p) k) := by
  show V c (Pipeline.arrRef spec6 0) (((cfg6.win 0).blk t).view.emb (ix2 p k)) = _
  rw [emb6_0 t p k]

/-- Operand 1's block at point t, at an entry: the array at the entry's row of the array. -/
theorem blk6_1 (c : Dev nD) (t : Fin cfg6.N) (p : Fin 10000) (k : Fin 64) :
    iblk6 V c 1 t (ix2 p k) = (V c (Pipeline.arrRef spec6 1) : Cert.Spec.Mat 640000 64) (ix2 (row6 t p) k) := by
  show V c (Pipeline.arrRef spec6 1) (((cfg6.win 1).blk t).view.emb (ix2 p k)) = _
  rw [emb6_1 t p k]

/-- Operand 2's block at point t, at an entry: the array at the entry's row of the array. -/
theorem blk6_2 (c : Dev nD) (t : Fin cfg6.N) (p : Fin 10000) (k : Fin 64) :
    iblk6 V c 2 t (ix2 p k) = (V c (Pipeline.arrRef spec6 2) : Cert.Spec.Mat 640000 64) (ix2 (row6 t p) k) := by
  show V c (Pipeline.arrRef spec6 2) (((cfg6.win 2).blk t).view.emb (ix2 p k)) = _
  rw [emb6_2 t p k]

/-- Window 3's block at every point is its whole array. -/
theorem whole6_3 (c : Dev nD) (t : Fin cfg6.N) :
    (iblk6 V c 3 t : Cert.Spec.Mat 192 64) = (V c (Pipeline.arrRef spec6 3) : Cert.Spec.Mat 192 64) := by
  funext y
  show V c (Pipeline.arrRef spec6 3) (((cfg6.win 3).blk t).view.emb y) = _
  rw [emb6_3 t y]

/-- Window 4's block at every point is its whole array. -/
theorem whole6_4 (c : Dev nD) (t : Fin cfg6.N) :
    (iblk6 V c 4 t : Cert.Spec.Mat 1 64) = (V c (Pipeline.arrRef spec6 4) : Cert.Spec.Mat 1 64) := by
  funext y
  show V c (Pipeline.arrRef spec6 4) (((cfg6.win 4).blk t).view.emb y) = _
  rw [emb6_4 t y]

/-- Window 5's block at every point is its whole array. -/
theorem whole6_5 (c : Dev nD) (t : Fin cfg6.N) :
    (iblk6 V c 5 t : Cert.Spec.Mat 64 64) = (V c (Pipeline.arrRef spec6 5) : Cert.Spec.Mat 64 64) := by
  funext y
  show V c (Pipeline.arrRef spec6 5) (((cfg6.win 5).blk t).view.emb y) = _
  rw [emb6_5 t y]

/-- Window 6's block at every point is its whole array. -/
theorem whole6_6 (c : Dev nD) (t : Fin cfg6.N) :
    (iblk6 V c 6 t : Cert.Spec.Mat 1 64) = (V c (Pipeline.arrRef spec6 6) : Cert.Spec.Mat 1 64) := by
  funext y
  show V c (Pipeline.arrRef spec6 6) (((cfg6.win 6).blk t).view.emb y) = _
  rw [emb6_6 t y]

/-- The edge update of the arrays as the region finds them. -/
abbrev G6 (c : Dev nD) : Cert.Spec.Mat 640000 64 :=
  Cert.Spec.emlp (M := 640000) (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5)) (V c (Pipeline.arrRef spec6 6))

/-- What point t writes back is block t of the edge update of the whole arrays. -/
theorem flushed6_eq (c : Dev nD) (t : Fin cfg6.N) :
    (dat6 (F := Ideal) V c).flushed 7 t = ((cfg6.win 7).blk t).view.read (Elt Ideal) (G6 V c) := by
  show (cfg6.win 7).cut (grid6.coords t) ((dat6 (F := Ideal) V c).after 7 t) = _
  rw [after6_7]
  unfold out6_7
  rw [View.canon_unit_zero origin6]
  simp only [View.ld_unit_zero (S := S10000x64) origin6, View.ld_unit_zero (S := S192x64) origin6,
    View.ld_unit_zero (S := S1x64) origin6, View.ld_unit_zero (S := S64x64) origin6]
  funext j
  obtain ⟨p, q, rfl⟩ : ∃ (p : Fin 10000) (q : Fin 64), j = ix2 p q := ⟨j 0, j 1, eq_ix2 j⟩
  show k6_pay1 (F := Ideal) (iblk6 V c 0 t) (iblk6 V c 1 t) (iblk6 V c 2 t) (iblk6 V c 3 t) (iblk6 V c 4 t)
      (iblk6 V c 5 t) (iblk6 V c 6 t) (iblk6 V c 2 t) (ix2 p q)
    = G6 V c (((cfg6.win 7).blk t).view.emb (ix2 p q))
  rw [emb6_7 t p q]
  refine (pay6_apply (iblk6 V c 0 t) (iblk6 V c 1 t) (iblk6 V c 2 t) (iblk6 V c 3 t) (iblk6 V c 4 t)
      (iblk6 V c 5 t) (iblk6 V c 6 t) p q).trans ?_
  exact emlp_row6 (V c (Pipeline.arrRef spec6 0)) (V c (Pipeline.arrRef spec6 1)) (V c (Pipeline.arrRef spec6 2))
    (iblk6 V c 0 t) (iblk6 V c 1 t) (iblk6 V c 2 t)
    (V c (Pipeline.arrRef spec6 3)) (iblk6 V c 3 t) (V c (Pipeline.arrRef spec6 4)) (iblk6 V c 4 t)
    (V c (Pipeline.arrRef spec6 5)) (iblk6 V c 5 t) (V c (Pipeline.arrRef spec6 6)) (iblk6 V c 6 t)
    (row6 t p) p (blk6_0 V c t p) (blk6_1 V c t p) (blk6_2 V c t p)
    (whole6_3 V c t) (whole6_4 V c t) (whole6_5 V c t) (whole6_6 V c t) q

/-- An entry of the result array is in point t's block iff each coordinate is in the block's range on its axis. -/
theorem mem_blk6 (t : Fin cfg6.N) (i : S640000x64.Idx) :
    i ∈ ((cfg6.win 7).blk t).view.set ↔ ∀ a : Fin 2, win6_7.index t a * S10000x64.size a ≤ (i a).val
      ∧ (i a).val < win6_7.index t a * S10000x64.size a + S10000x64.size a := by
  show i ∈ ((View.whole main_v73).slice (win6_7.rect t)).set ↔ _
  rw [View.set_slice_whole, Rect.mem_set_unit]
  exact Iff.rfl

/-- The blocks tile the array: row r is in the block of point r / 10000. -/
theorem cover6 (i : S640000x64.Idx) :
    ∃ t : Fin cfg6.N, (cfg6.win 7).flush t = true ∧ i ∈ ((cfg6.win 7).blk t).view.set := by
  have hi0 : (i 0).val < 640000 := (i 0).isLt
  have hi1 : (i 1).val < 64 := (i 1).isLt
  have hN : grid6.N = 64 := N_6
  let t : Fin cfg6.N := ⟨(i 0).val / 10000, by show (i 0).val / 10000 < grid6.N; rw [hN]; omega⟩
  obtain ⟨e00, e01, e10, e11, e20, e21, e30, e31, e40, e41, e50, e51, e60, e61, e70, e71⟩ := block_index6 t
  have ht : t.val = (i 0).val / 10000 := rfl
  refine ⟨t, flush6_7 t, ?_⟩
  rw [mem_blk6]
  intro a
  match a with
  | ⟨0, _⟩ =>
    show win6_7.index t (0 : Fin 2) * 10000 ≤ (i 0).val ∧ (i 0).val < win6_7.index t (0 : Fin 2) * 10000 + 10000
    omega
  | ⟨1, _⟩ =>
    show win6_7.index t (1 : Fin 2) * 64 ≤ (i 1).val ∧ (i 1).val < win6_7.index t (1 : Fin 2) * 64 + 64
    omega

/-- The result array after the region: the edge update of the arrays the region was entered with. -/
theorem final6 (c : Dev nD) :
    (dat6 (F := Ideal) V c).arrAt 7 cfg6.N
      = Cert.Spec.emlp (M := 640000) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) (V c (Pipeline.arrRef spec6 6)) :=
  (dat6 (F := Ideal) V c).arrAt_eq_of_cover 7 (G6 V c) (fun t _ => flushed6_eq V c t) (cover6)

end Cert.KernelIdeal.RegionValue

end
-- ==== Proof.Region7.lean ====
/-
  Region 7: the message of an edge, block of rows by block of rows.

  The output array has 640000 rows and is cut into sixty-four blocks of 10000 rows. Point `t` of the grid reads rows
  `10000 t … 10000 t + 9999` of the edge array `e` and of the gathered source rows `xs`, the whole weight array `w`
  and the whole bias row `b`, and writes the same rows of the result: entry `(p, q)` of its block is
  `max (xs (10000 t + p) q + (Σ k, e (10000 t + p) k * w k q + b 0 q)) 0`. An entry of the result depends on one row
  of `e` and of `xs` only, so each written block is the restriction of one whole-array function, and the blocks tile
  the array.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

/-! ## The body's arithmetic at an entry of the block -/

/-- The contraction's left index keeps the entry's row. -/
theorem dot7_lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The contraction's right index keeps the entry's column. -/
theorem dot7_rhs_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block's matrix product into the zero accumulator, at entry `(p, q)`: the sum over `k` of `x p k * w k q`. -/
theorem matmul7_apply (x : FVec Ideal S10000x64 .f32) (w : FVec Ideal S64x64 .f32) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none x w (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact dot7_lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact dot7_rhs_col _ _)
  rw [el, er]

/-- The body's result at entry `(p, q)` of the block: the gathered row's entry plus the edge block's linear image
    there, rectified. -/
theorem pay7_apply (e : Vec Ideal S10000x64 .f32) (w : Vec Ideal S64x64 .f32) (b : Vec Ideal S1x64 .f32)
    (xs : Vec Ideal S10000x64 .f32) (p : Fin 10000) (q : Fin 64) :
    k7_pay1 (F := Ideal) e w b xs (ix2 p q)
      = max (xs (ix2 p q) + ((∑ k : Fin 64, e (ix2 p k) * w (ix2 k q)) + b (ix2 (0 : Fin 1) q))) 0 := by
  unfold k7_pay1
  refine (maximumf_apply _ _ _).trans ?_
  refine congrArg₂ max ?_ ?_
  · refine (addf_apply _ _ _).trans ?_
    refine congrArg₂ (· + ·) ?_ ?_
    · rw [shapeCast_self]
    · refine (addf_apply _ _ _).trans ?_
      refine congrArg₂ (· + ·) ?_ ?_
      · rw [shapeCast_self, shapeCast_self]
        exact matmul7_apply e w p q
      · rw [shapeCast_self]
        exact broadcastTo_1b_ab_apply b _ p q
  · exact Ideal.ofBits_zero_f32

/-- The body's result on blocks cut out of whole arrays: when the blocks of `e` and `xs` are rows `10000 r …` of `E`
    and `XS` (`ee`, `es`) and the blocks of `w` and `b` are all of `W` and `B`, entry `j` of the result is entry `i` of
    the message of the whole arrays, `i` being `j` moved down by `10000 r` rows. -/
theorem pay7_block (E : S640000x64.Idx → EReal) (W : S64x64.Idx → EReal) (B : S1x64.Idx → EReal) (XS : S640000x64.Idx → EReal)
    (ee : S10000x64.Idx → S640000x64.Idx) (ew : S64x64.Idx → S64x64.Idx) (eb : S1x64.Idx → S1x64.Idx)
    (es : S10000x64.Idx → S640000x64.Idx) (r : Nat)
    (hee0 : ∀ y, ((ee y) 0).val = r * 10000 + (y 0).val) (hee1 : ∀ y, ((ee y) 1).val = (y 1).val)
    (hew : ∀ y, ew y = y) (heb : ∀ y, eb y = y)
    (hes0 : ∀ y, ((es y) 0).val = r * 10000 + (y 0).val) (hes1 : ∀ y, ((es y) 1).val = (y 1).val)
    (j : S10000x64.Idx) (i : S640000x64.Idx) (hi0 : (i 0).val = r * 10000 + (j 0).val) (hi1 : (i 1).val = (j 1).val) :
    k7_pay1 (F := Ideal) (fun y => E (ee y)) (fun y => W (ew y)) (fun y => B (eb y)) (fun y => XS (es y)) j
      = Cert.Spec.msg E W B XS i := by
  obtain ⟨p, q, rfl⟩ : ∃ (p : Fin 10000) (q : Fin 64), j = ix2 p q := ⟨j 0, j 1, eq_ix2 j⟩
  obtain ⟨P, Q, rfl⟩ : ∃ (P : Fin 640000) (Q : Fin 64), i = ix2 P Q := ⟨i 0, i 1, eq_ix2 i⟩
  have hQ : Q = q := Fin.ext hi1
  subst hQ
  rw [pay7_apply]
  show max (XS (es (ix2 p Q)) + ((∑ k : Fin 64, E (ee (ix2 p k)) * W (ew (ix2 k Q))) + B (eb (ix2 (0 : Fin 1) Q)))) 0
    = max (XS (ix2 P Q) + ((∑ k : Fin 64, E (ix2 P k) * W (ix2 k Q)) + B (ix2 (0 : Fin 1) Q))) 0
  have hs : es (ix2 p Q) = ix2 P Q := funext fun a => Fin.ext (by
    match a with
    | ⟨0, _⟩ => exact (hes0 (ix2 p Q)).trans hi0.symm
    | ⟨1, _⟩ => exact hes1 (ix2 p Q))
  have he : ∀ k : Fin 64, ee (ix2 p k) = ix2 P k := fun k => funext fun a => Fin.ext (by
    match a with
    | ⟨0, _⟩ => exact (hee0 (ix2 p k)).trans hi0.symm
    | ⟨1, _⟩ => exact hee1 (ix2 p k))
  rw [hs, heb]
  refine congrArg (fun z => max (XS (ix2 P Q) + (z + B (ix2 (0 : Fin 1) Q))) 0) (Finset.sum_congr rfl fun k _ => ?_)
  rw [hew, he]

/-! ## From the blocks to the array -/

variable (V : (c : Dev nD) → (b : Ref sig .tc) → Buf (Elt Ideal) ((c : Thread nD τ).loc b))

/-- The body reads and writes its staging buffers from the origin. -/
theorem origin7 : (![0, 0] : Fin 2 → Nat) = fun _ => 0 := funext fun a => by fin_cases a <;> rfl

/-- The index maps, decided over the grid: at point `t` the row-tiled windows are at block row `t`, block column 0;
    the weight and bias windows are at block (0, 0). -/
theorem blockIndex7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

set_option maxHeartbeats 1000000 in
/-- What point `t` writes back is block `t` of the message of the arrays as the region finds them. -/
theorem flushed7_eq (c : Dev nD) (t : Fin cfg7.N) :
    (dat7 V c).flushed 4 t = ((cfg7.win 4).blk t).view.read (Elt Ideal)
      (Cert.Spec.msg (M := 640000) (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero origin7]
  simp only [View.ld_unit_zero (S := S10000x64) origin7, View.ld_unit_zero (S := S64x64) origin7, View.ld_unit_zero (S := S1x64) origin7]
  obtain ⟨e00, e01, e10, e11, e20, e21, e30, e31, e40, e41⟩ := blockIndex7 t
  funext j
  show k7_pay1 (F := Ideal) (fun y => V c (Pipeline.arrRef spec7 0) (((cfg7.win 0).blk t).view.emb y))
      (fun y => V c (Pipeline.arrRef spec7 1) (((cfg7.win 1).blk t).view.emb y))
      (fun y => V c (Pipeline.arrRef spec7 2) (((cfg7.win 2).blk t).view.emb y))
      (fun y => V c (Pipeline.arrRef spec7 3) (((cfg7.win 3).blk t).view.emb y)) j
    = Cert.Spec.msg (M := 640000) (V c (Pipeline.arrRef spec7 0)) (V c (Pipeline.arrRef spec7 1)) (V c (Pipeline.arrRef spec7 2)) (V c (Pipeline.arrRef spec7 3))
      (((cfg7.win 4).blk t).view.emb j)
  refine pay7_block _ _ _ _ _ _ _ _ t.val ?_ ?_ ?_ ?_ ?_ ?_ j _ ?_ ?_
  · intro y
    show win7_0.index t (0 : Fin 2) * 10000 + 1 * (y 0).val = _
    omega
  · intro y
    show win7_0.index t (1 : Fin 2) * 64 + 1 * (y 1).val = _
    omega
  · intro y
    funext a; apply Fin.ext
    match a with
    | ⟨0, _⟩ => show win7_1.index t (0 : Fin 2) * 64 + 1 * (y 0).val = (y 0).val; omega
    | ⟨1, _⟩ => show win7_1.index t (1 : Fin 2) * 64 + 1 * (y 1).val = (y 1).val; omega
  · intro y
    funext a; apply Fin.ext
    match a with
    | ⟨0, _⟩ => show win7_2.index t (0 : Fin 2) * 1 + 1 * (y 0).val = (y 0).val; omega
    | ⟨1, _⟩ => show win7_2.index t (1 : Fin 2) * 64 + 1 * (y 1).val = (y 1).val; omega
  · intro y
    show win7_3.index t (0 : Fin 2) * 10000 + 1 * (y 0).val = _
    omega
  · intro y
    show win7_3.index t (1 : Fin 2) * 64 + 1 * (y 1).val = _
    omega
  · show win7_4.index t (0 : Fin 2) * 10000 + 1 * (j 0).val = _
    omega
  · show win7_4.index t (1 : Fin 2) * 64 + 1 * (j 1).val = _
    omega

/-- An index of the output array is in point `t`'s block iff each coordinate is in the block's range on its axis. -/
theorem mem_blk7 (t : Fin cfg7.N) (i : S640000x64.Idx) :
    i ∈ ((cfg7.win 4).blk t).view.set ↔ ∀ a : Fin 2, win7_4.index t a * S10000x64.size a ≤ (i a).val
      ∧ (i a).val < win7_4.index t a * S10000x64.size a + S10000x64.size a := by
  show i ∈ ((View.whole main_v86).slice (win7_4.rect t)).set ↔ _
  rw [View.set_slice_whole, Rect.mem_set_unit]
  exact Iff.rfl

/-- Every index of the output array is in the block of the point its row falls in: row `r` is written by point `r / 10000`. -/
theorem cover7 (i : S640000x64.Idx) :
    ∃ t : Fin cfg7.N, (cfg7.win 4).flush t = true ∧ i ∈ ((cfg7.win 4).blk t).view.set := by
  have hi0 : (i 0).val < 640000 := (i 0).isLt
  have hi1 : (i 1).val < 64 := (i 1).isLt
  have hN : grid7.N = 64 := N_7
  have ht : (i 0).val / 10000 < grid7.N := by rw [hN]; omega
  obtain ⟨-, -, -, -, -, -, -, -, e40, e41⟩ := blockIndex7 ⟨(i 0).val / 10000, ht⟩
  have e40' : win7_4.index ⟨(i 0).val / 10000, ht⟩ (0 : Fin 2) = (i 0).val / 10000 := e40
  refine ⟨⟨(i 0).val / 10000, ht⟩, flush7_4 _, ?_⟩
  rw [mem_blk7]
  intro a
  match a with
  | ⟨0, _⟩ =>
    show win7_4.index ⟨(i 0).val / 10000, ht⟩ (0 : Fin 2) * 10000 ≤ (i 0).val
      ∧ (i 0).val < win7_4.index ⟨(i 0).val / 10000, ht⟩ (0 : Fin 2) * 10000 + 10000
    omega
  | ⟨1, _⟩ =>
    show win7_4.index ⟨(i 0).val / 10000, ht⟩ (1 : Fin 2) * 64 ≤ (i 1).val
      ∧ (i 1).val < win7_4.index ⟨(i 0).val / 10000, ht⟩ (1 : Fin 2) * 64 + 64
    omega

/-- The output array after the region: the message of the four operand arrays as the region finds them. -/
theorem final7 (c : Dev nD) :
    (dat7 V c).arrAt 4 cfg7.N
      = Cert.Spec.msg (M := 640000) (V c (Pipeline.arrRef spec7 0)) (V c (Pipeline.arrRef spec7 1)) (V c (Pipeline.arrRef spec7 2)) (V c (Pipeline.arrRef spec7 3)) :=
  (dat7 V c).arrAt_eq_of_cover 4 _ (fun t _ => flushed7_eq V c t) (cover7)

end Cert.KernelIdeal.RegionValue

end
-- ==== Proof.Region8.lean ====
/-
  Region 8: the node update before normalisation.  At each of its ten points the body reads a block of 10000 rows of
  the two row-tiled operands and the whole of the two weight matrices and of the two bias rows, and stores
  (max ((x + agg) · w1 + b1) 0) · w2 + b2 over the block.  Row p of a block depends on row p of the two row-tiled
  blocks only, and the ten blocks tile the 100000 rows, so the array the region leaves is the whole-array function
  Spec.conv of the six arrays the region finds.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-! ## The body's arithmetic at an index -/

/-- The left operand's index of the product at output index i and contraction index r: row i 0 … -/
theorem lhs8_0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and column r. -/
theorem lhs8_1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
/-- The right operand's index: row r … -/
theorem rhs8_0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
/-- … and column i 1. -/
theorem rhs8_1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of a 10000-row block with a 64 × 64 matrix into the zero splat, at (p, q): the sum over k of the
    block at (p, k) times the matrix at (k, q). -/
theorem matmul8_apply (a : FVec Ideal S10000x64 .f32) (w : FVec Ideal S64x64 .f32) (p : Fin 10000) (q : Fin 64) :
    FloatOps.matmul dot_S10000x64_S64x64_S10000x64_1_0_0_1_n_n none a w (constant (F := Ideal) S10000x64 .f32 0x00000000#32) (ix2 p q)
      = ∑ k : Fin 64, a (ix2 p k) * w (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs8_0 _ _
      | ⟨1, _⟩ => exact (lhs8_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs8_0 _ _).trans hk
      | ⟨1, _⟩ => exact rhs8_1 _ _)
  rw [el, er]

/-- The stored value at (p, q) of a block: the second layer on the rectified first layer on the sum of the two
    row-tiled blocks, each layer a product with its matrix plus its bias row. -/
theorem pay8_apply (x agg : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k8_pay1 (F := Ideal) x agg w1 b1 w2 b2 (ix2 p q)
      = (∑ k : Fin 64, max ((∑ l : Fin 64, (x (ix2 p l) + agg (ix2 p l)) * w1 (ix2 l k)) + b1 (ix2 (0 : Fin 1) k)) 0 * w2 (ix2 k q))
        + b2 (ix2 (0 : Fin 1) q) := by
  unfold k8_pay1
  simp only [shapeCast_self]
  refine (addf_apply _ _ _).trans ?_
  refine congrArg₂ (· + ·) ?_ (broadcastTo_1b_ab_apply _ _ p q)
  refine (matmul8_apply _ _ p q).trans ?_
  refine Finset.sum_congr rfl fun k _ => ?_
  refine congrArg (· * w2 (ix2 k q)) ?_
  refine (maximumf_apply _ _ _).trans ?_
  refine congrArg₂ max ?_ Ideal.ofBits_zero_f32
  refine (addf_apply _ _ _).trans ?_
  refine congrArg₂ (· + ·) ?_ (broadcastTo_1b_ab_apply _ _ p k)
  exact matmul8_apply _ _ p k

/-! ## Row-locality of the specification -/

/-- Row p of Spec.conv depends on row p of the two row-tiled operands only: two instances whose row-tiled operands
    agree on one row each, with the same weights, agree on that row — whatever the two row counts. -/
theorem conv_row8 {M M' : Nat} (x agg : Cert.Spec.Mat M 64) (x' agg' : Cert.Spec.Mat M' 64)
    (w1 w1' : Cert.Spec.Mat 64 64) (b1 b1' : Cert.Spec.Mat 1 64) (w2 w2' : Cert.Spec.Mat 64 64) (b2 b2' : Cert.Spec.Mat 1 64)
    (p : Fin M) (p' : Fin M') (q : Fin 64)
    (hx : ∀ l : Fin 64, x (ix2 p l) = x' (ix2 p' l)) (hagg : ∀ l : Fin 64, agg (ix2 p l) = agg' (ix2 p' l))
    (hw1 : w1 = w1') (hb1 : b1 = b1') (hw2 : w2 = w2') (hb2 : b2 = b2') :
    Cert.Spec.conv x agg w1 b1 w2 b2 (ix2 p q) = Cert.Spec.conv x' agg' w1' b1' w2' b2' (ix2 p' q) := by
  subst hw1 hb1 hw2 hb2
  show (∑ k : Fin 64, max ((∑ l : Fin 64, (x (ix2 p l) + agg (ix2 p l)) * w1 (ix2 l k)) + b1 (ix2 (0 : Fin 1) k)) 0 * w2 (ix2 k q))
        + b2 (ix2 (0 : Fin 1) q)
      = (∑ k : Fin 64, max ((∑ l : Fin 64, (x' (ix2 p' l) + agg' (ix2 p' l)) * w1 (ix2 l k)) + b1 (ix2 (0 : Fin 1) k)) 0 * w2 (ix2 k q))
        + b2 (ix2 (0 : Fin 1) q)
  simp only [hx, hagg]

/-- The body's stored block is Spec.conv of its loaded blocks, at 10000 rows. -/
theorem pay8_eq_conv (x agg : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k8_pay1 (F := Ideal) x agg w1 b1 w2 b2 (ix2 p q) = Cert.Spec.conv (M := 10000) x agg w1 b1 w2 b2 (ix2 p q) :=
  pay8_apply x agg w1 b1 w2 b2 p q

/-! ## From blocks to the array -/

section Blocks
variable (V : (c : Dev nD) → (b : Ref sig .tc) → Buf (Elt Ideal) ((c : Thread nD τ).loc b))

theorem hz8 : (![0, 0] : Fin 2 → Nat) = fun _ => 0 := funext fun a => by fin_cases a <;> rfl

/-- What the region leaves in its output array: Spec.conv of the six arrays it finds. -/
abbrev G8 (c : Dev nD) : S100000x64.Idx → EReal :=
  Cert.Spec.conv (V c (Pipeline.arrRef spec8 0) : S100000x64.Idx → EReal) (V c (Pipeline.arrRef spec8 1) : S100000x64.Idx → EReal)
    (V c (Pipeline.arrRef spec8 2) : S64x64.Idx → EReal) (V c (Pipeline.arrRef spec8 3) : S1x64.Idx → EReal)
    (V c (Pipeline.arrRef spec8 4) : S64x64.Idx → EReal) (V c (Pipeline.arrRef spec8 5) : S1x64.Idx → EReal)

/-- The index maps over the ten points: the row-tiled windows (0, 1 and the output 6) are at block row t and
    block column 0; the weight and bias windows stay at block (0, 0). -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- A row-tiled input block at (p, l) is its array at row t · 10000 + p, column l. -/
theorem read8_0 (c : Dev nD) (t : Fin cfg8.N) (p : Fin 10000) (l : Fin 64) (p' : Fin 100000) (hp : p'.val = t.val * 10000 + p.val) :
    iblk8 V c 0 t (ix2 p l) = (V c (Pipeline.arrRef spec8 0) : S100000x64.Idx → EReal) (ix2 p' l) := by
  obtain ⟨e00, e01, -⟩ := idx_facts8 t
  show V c (Pipeline.arrRef spec8 0) (((cfg8.win 0).blk t).view.emb (ix2 p l)) = V c (Pipeline.arrRef spec8 0) (ix2 p' l)
  refine congrArg _ (funext fun a => Fin.ext ?_)
  match a with
  | ⟨0, _⟩ => show win8_0.index t (0 : Fin 2) * 10000 + 1 * p.val = p'.val; omega
  | ⟨1, _⟩ => show win8_0.index t (1 : Fin 2) * 64 + 1 * l.val = l.val; omega

theorem read8_1 (c : Dev nD) (t : Fin cfg8.N) (p : Fin 10000) (l : Fin 64) (p' : Fin 100000) (hp : p'.val = t.val * 10000 + p.val) :
    iblk8 V c 1 t (ix2 p l) = (V c (Pipeline.arrRef spec8 1) : S100000x64.Idx → EReal) (ix2 p' l) := by
  obtain ⟨-, -, e10, e11, -⟩ := idx_facts8 t
  show V c (Pipeline.arrRef spec8 1) (((cfg8.win 1).blk t).view.emb (ix2 p l)) = V c (Pipeline.arrRef spec8 1) (ix2 p' l)
  refine congrArg _ (funext fun a => Fin.ext ?_)
  match a with
  | ⟨0, _⟩ => show win8_1.index t (0 : Fin 2) * 10000 + 1 * p.val = p'.val; omega
  | ⟨1, _⟩ => show win8_1.index t (1 : Fin 2) * 64 + 1 * l.val = l.val; omega

/-- A weight or bias window's block is its whole array. -/
theorem read8_2 (c : Dev nD) (t : Fin cfg8.N) : iblk8 V c 2 t = (V c (Pipeline.arrRef spec8 2) : S64x64.Idx → EReal) := by
  obtain ⟨-, -, -, -, e20, e21, -⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 64 + 1 * (y 0).val = (y 0).val; omega
  | ⟨1, _⟩ => show win8_2.index t (1 : Fin 2) * 64 + 1 * (y 1).val = (y 1).val; omega

theorem read8_3 (c : Dev nD) (t : Fin cfg8.N) : iblk8 V c 3 t = (V c (Pipeline.arrRef spec8 3) : S1x64.Idx → EReal) := by
  obtain ⟨-, -, -, -, -, -, e30, e31, -⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 64 + 1 * (y 1).val = (y 1).val; omega

theorem read8_4 (c : Dev nD) (t : Fin cfg8.N) : iblk8 V c 4 t = (V c (Pipeline.arrRef spec8 4) : S64x64.Idx → EReal) := by
  obtain ⟨-, -, -, -, -, -, -, -, e40, e41, -⟩ := idx_facts8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 64 + 1 * (y 0).val = (y 0).val; omega
  | ⟨1, _⟩ => show win8_4.index t (1 : Fin 2) * 64 + 1 * (y 1).val = (y 1).val; omega

theorem read8_5 (c : Dev nD) (t : Fin cfg8.N) : iblk8 V c 5 t = (V c (Pipeline.arrRef spec8 5) : S1x64.Idx → EReal) := by
  obtain ⟨-, -, -, -, -, -, -, -, -, -, e50, e51, -⟩ := idx_facts8 t
  funext y
  show V c (Pipeline.arrRef spec8 5) (((cfg8.win 5).blk t).view.emb y) = V c (Pipeline.arrRef spec8 5) y
  refine congrArg _ (funext fun a => Fin.ext ?_)
  match a with
  | ⟨0, _⟩ => show win8_5.index t (0 : Fin 2) * 1 + 1 * (y 0).val = (y 0).val; omega
  | ⟨1, _⟩ => show win8_5.index t (1 : Fin 2) * 64 + 1 * (y 1).val = (y 1).val; omega

/-- What point t writes back is block t of G8. -/
theorem flushed8_eq (c : Dev nD) (t : Fin cfg8.N) :
    (dat8 (F := Ideal) V c).flushed 6 t = ((cfg8.win 6).blk t).view.read (Elt Ideal) (G8 V c) := by
  show (cfg8.win 6).cut (grid8.coords t) ((dat8 V c).after 6 t) = _
  rw [after8_6]
  unfold out8_6
  rw [View.canon_unit_zero hz8]
  simp only [View.ld_unit_zero (S := S10000x64) hz8, View.ld_unit_zero (S := S64x64) hz8, View.ld_unit_zero (S := S1x64) hz8]
  obtain ⟨-, -, -, -, -, -, -, -, -, -, -, -, e60, e61⟩ := idx_facts8 t
  refine funext fun (j : S10000x64.Idx) => ?_
  obtain ⟨p, q, rfl⟩ : ∃ (p : Fin 10000) (q : Fin 64), j = ix2 p q := ⟨j 0, j 1, eq_ix2 j⟩
  have ht : t.val < 10 := lt_of_lt_of_eq t.isLt N_8
  have he : ((cfg8.win 6).blk t).view.emb (ix2 p q) = ix2 (⟨t.val * 10000 + p.val, by omega⟩ : Fin 100000) q :=
    funext fun a => Fin.ext (by
      match a with
      | ⟨0, _⟩ => show win8_6.index t (0 : Fin 2) * 10000 + 1 * p.val = t.val * 10000 + p.val; omega
      | ⟨1, _⟩ => show win8_6.index t (1 : Fin 2) * 64 + 1 * q.val = q.val; omega)
  show k8_pay1 (F := Ideal) (iblk8 V c 0 t) (iblk8 V c 1 t) (iblk8 V c 2 t) (iblk8 V c 3 t) (iblk8 V c 4 t) (iblk8 V c 5 t) (ix2 p q)
    = G8 V c (((cfg8.win 6).blk t).view.emb (ix2 p q))
  refine (pay8_eq_conv (iblk8 V c 0 t) (iblk8 V c 1 t) (iblk8 V c 2 t) (iblk8 V c 3 t) (iblk8 V c 4 t) (iblk8 V c 5 t) p q).trans ?_
  refine Eq.trans ?_ (congrArg (G8 V c) he).symm
  exact conv_row8 _ _ _ _ _ _ _ _ _ _ _ _ p _ q (fun l => read8_0 V c t p l _ rfl) (fun l => read8_1 V c t p l _ rfl)
    (read8_2 V c t) (read8_3 V c t) (read8_4 V c t) (read8_5 V c t)

/-- An index of the array is in point t's block iff each coordinate is in the block's range on its axis. -/
theorem mem_blk8 (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v100).slice (win8_6.rect t)).set ↔ _
  rw [View.set_slice_whole, Rect.mem_set_unit]
  exact Iff.rfl

/-- The ten blocks tile the array: row r is in the block of point r / 10000. -/
theorem cover8 (i : S100000x64.Idx) : ∃ t : Fin cfg8.N, (cfg8.win 6).flush t = true ∧ i ∈ ((cfg8.win 6).blk t).view.set := by
  have hi0 : (i 0).val < 100000 := idx2_lt0 i
  have hi1 : (i 1).val < 64 := idx2_lt1 i
  have hN : cfg8.N = 10 := N_8
  obtain ⟨t, ht⟩ : ∃ t : Fin cfg8.N, t.val = (i 0).val / 10000 := ⟨⟨(i 0).val / 10000, by rw [hN]; omega⟩, rfl⟩
  obtain ⟨-, -, -, -, -, -, -, -, -, -, -, -, e60, e61⟩ := idx_facts8 t
  refine ⟨t, flush8_6 t, ?_⟩
  rw [mem_blk8]
  intro a
  match a with
  | ⟨0, _⟩ => show win8_6.index t (0 : Fin 2) * 10000 ≤ (i 0).val ∧ (i 0).val < win8_6.index t (0 : Fin 2) * 10000 + 10000; omega
  | ⟨1, _⟩ => show win8_6.index t (1 : Fin 2) * 64 ≤ (i 1).val ∧ (i 1).val < win8_6.index t (1 : Fin 2) * 64 + 64; omega

/-- The array after the region: Spec.conv of the arrays the region finds (windows 0 … 5: x, agg, w1, b1, w2, b2). -/
theorem final8 (c : Dev nD) :
    (dat8 (F := Ideal) V c).arrAt 6 cfg8.N
      = Cert.Spec.conv (V c (Pipeline.arrRef spec8 0) : S100000x64.Idx → EReal) (V c (Pipeline.arrRef spec8 1) : S100000x64.Idx → EReal)
          (V c (Pipeline.arrRef spec8 2) : S64x64.Idx → EReal) (V c (Pipeline.arrRef spec8 3) : S1x64.Idx → EReal)
          (V c (Pipeline.arrRef spec8 4) : S64x64.Idx → EReal) (V c (Pipeline.arrRef spec8 5) : S1x64.Idx → EReal) :=
  (dat8 V c).arrAt_eq_of_cover 6 (G8 V c) (fun t _ => flushed8_eq V c t) (cover8)

end Blocks

end Cert.KernelIdeal.RegionValue

end
-- ==== Proof.Region9.lean ====
/-
  The two column statistics of a [100000, 64] array, accumulated block by block.

  The grid has ten points; point t reads rows 10000 t … 10000 t + 9999 of the array. Two one-row outputs are
  carried from point to point: at the first point both are set to zero, and at every point the first receives
  the column sums of the block and the second the column sums of the block's squares. So after point t the first
  output holds, in column q, the sum of the entries (r, q) over the rows r < 10000 (t + 1), and the second the sum
  of their squares: an induction on the point, each step splitting a sum over an initial segment of the naturals.
  After the last point the segment is all 100000 rows, and both outputs are written back once, whole.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## What each case of the body leaves, for any float values -/

section AnyValues

variable {F : FTy → Type} [FloatOps F]

theorem zeroOff_r9 : (![0, 0] : Fin 2 → Nat) = fun _ => 0 := funext fun a => by fin_cases a <;> rfl

/-- Not at the first point: the first output, holding xo1, is left at "xo1 plus the column sums of the block x". -/
theorem later_sum_r9 (c : Dev nD) (i : grid9.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond9_0 i) (x : Vec F S10000x64 .f32) (xo1 xo2 : Vec F S1x64 .f32) :
    out9_B_1 c i a1 h1 a2 h2 a3 h3 hc x xo1 xo2 = k9_pay4 x xo1 := by
  unfold out9_B_1
  rw [View.read_writes_eq_canon _ _ _ (cover9_B_1 c i a1 h1 a2 h2 a3 h3 hc x xo1 xo2)]
  unfold kernelRun9_B
  dsimp only
  rw [View.canon_unit_zero zeroOff_r9]
  simp only [View.readAt_eq_ld, h1.read_unread, h2.read_unread, h3.read_unread,
    View.ld_unit_zero (S := S10000x64) zeroOff_r9, View.ld_unit_zero (S := S1x64) zeroOff_r9]

/-- Not at the first point: the second output, holding xo2, is left at "xo2 plus the column sums of the squares of x". -/
theorem later_sq_r9 (c : Dev nD) (i : grid9.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond9_0 i) (x : Vec F S10000x64 .f32) (xo1 xo2 : Vec F S1x64 .f32) :
    out9_B_2 c i a1 h1 a2 h2 a3 h3 hc x xo1 xo2 = k9_pay5 x xo2 := by
  unfold out9_B_2
  rw [View.read_writes_eq_canon _ _ _ (cover9_B_2 c i a1 h1 a2 h2 a3 h3 hc x xo1 xo2)]
  unfold kernelRun9_B
  dsimp only
  rw [View.canon_unit_zero zeroOff_r9]
  simp only [View.readAt_eq_ld, h1.read_unread, h2.read_unread, h3.read_unread,
    View.ld_unit_zero (S := S10000x64) zeroOff_r9, View.ld_unit_zero (S := S1x64) zeroOff_r9]

/-- At the first point the first output is zeroed, read back, and left at "zero plus the column sums of x". -/
theorem first_sum_r9 (c : Dev nD) (i : grid9.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond9_0 i) (x : Vec F S10000x64 .f32) :
    out9_A_1 c i a1 h1 a2 h2 a3 h3 hc x = k9_pay4 x k9_pay1 := by
  unfold out9_A_1
  rw [View.read_writes_eq_canon _ _ _ (cover9_A_1 c i a1 h1 a2 h2 a3 h3 hc x)]
  unfold kernelRun9_A
  dsimp only
  sl_unfold_words
  rw [View.canon_cons_unit_zero (S := S1x64) zeroOff_r9]
  simp only [View.readAt_eq_ld, h1.read_unread, View.readCov_unit_zero (S := S1x64) _ zeroOff_r9,
    View.ld_unit_zero (S := S10000x64) zeroOff_r9, View.ld_unit_zero (S := S1x64) zeroOff_r9]

/-- At the first point the second output is zeroed, read back, and left at "zero plus the column sums of the squares". -/
theorem first_sq_r9 (c : Dev nD) (i : grid9.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond9_0 i) (x : Vec F S10000x64 .f32) :
    out9_A_2 c i a1 h1 a2 h2 a3 h3 hc x = k9_pay5 x k9_pay2 := by
  unfold out9_A_2
  rw [View.read_writes_eq_canon _ _ _ (cover9_A_2 c i a1 h1 a2 h2 a3 h3 hc x)]
  unfold kernelRun9_A
  dsimp only
  sl_unfold_words
  rw [View.canon_cons_unit_zero (S := S1x64) zeroOff_r9]
  simp only [View.readAt_eq_ld, h1.read_unread, View.readCov_unit_zero (S := S1x64) _ zeroOff_r9,
    View.ld_unit_zero (S := S10000x64) zeroOff_r9, View.ld_unit_zero (S := S1x64) zeroOff_r9]

end AnyValues

/-! ## The payloads at an index, over the extended reals -/

/-- A sum over the rows of a block, read at column q of the reduced vector. -/
theorem colred_r9 (src : FVec Ideal S10000x64 .f32) (hacc : (0x00000000#32 : BitVec 32) = 0x00000000#32) (q : Fin 64) :
    multiReduction .add [0] S64 src 0x00000000#32 reduces_S10000x64_S64 (.inl rfl) hacc (ix1 q)
      = ∑ p : Fin 10000, src (ix2 p q) := by
  refine (Ideal.multiReduction_add_single src 0x00000000#32 reduces_S10000x64_S64 (.inl rfl) hacc (ix1 q)).trans ?_
  show ∑ p : Fin 10000, src (reduces_S10000x64_S64.lift (ix1 q) p) = _
  refine Finset.sum_congr rfl fun p _ => congrArg src ?_
  funext a
  match a with
  | ⟨0, _⟩ => rfl
  | ⟨1, _⟩ => rfl

/-- Adding a leading unit axis keeps the entries. -/
theorem addrow_r9 (v : FVec Ideal S64 .f32) (q : Fin 64) :
    shapeCast S1x64 v shapeCasts_S64_S1x64 (ix2 (0 : Fin 1) q) = v (ix1 q) := by
  refine (shapeCast_addUnit_apply ![64] v shapeCasts_S64_S1x64 (ix2 (0 : Fin 1) q)).trans ?_
  refine congrArg v ?_
  funext a
  match a with
  | ⟨0, _⟩ => rfl

theorem pay4_apply_r9 (x : Vec Ideal S10000x64 .f32) (xo : Vec Ideal S1x64 .f32) (q : Fin 64) :
    k9_pay4 (F := Ideal) x xo (ix2 (0 : Fin 1) q) = xo (ix2 (0 : Fin 1) q) + ∑ p : Fin 10000, x (ix2 p q) := by
  unfold k9_pay4 k9_pay3
  show shapeCast S1x64 xo shapeCasts_S1x64_S1x64 (ix2 (0 : Fin 1) q)
      + shapeCast S1x64 (multiReduction (F := Ideal) .add [0] S64 (shapeCast S10000x64 x shapeCasts_S10000x64_S10000x64) 0x00000000#32 reduces_S10000x64_S64 (.inl rfl) rfl) shapeCasts_S64_S1x64 (ix2 (0 : Fin 1) q) = _
  rw [shapeCast_self, shapeCast_self]
  refine congrArg (xo (ix2 (0 : Fin 1) q) + ·) ?_
  exact (addrow_r9 _ q).trans (colred_r9 x rfl q)

theorem pay5_apply_r9 (x : Vec Ideal S10000x64 .f32) (xo : Vec Ideal S1x64 .f32) (q : Fin 64) :
    k9_pay5 (F := Ideal) x xo (ix2 (0 : Fin 1) q) = xo (ix2 (0 : Fin 1) q) + ∑ p : Fin 10000, x (ix2 p q) * x (ix2 p q) := by
  unfold k9_pay5 k9_pay3
  show shapeCast S1x64 xo shapeCasts_S1x64_S1x64 (ix2 (0 : Fin 1) q)
      + shapeCast S1x64 (multiReduction (F := Ideal) .add [0] S64 (mulf (shapeCast S10000x64 x shapeCasts_S10000x64_S10000x64) (shapeCast S10000x64 x shapeCasts_S10000x64_S10000x64)) 0x00000000#32 reduces_S10000x64_S64 (.inl rfl) rfl) shapeCasts_S64_S1x64 (ix2 (0 : Fin 1) q) = _
  rw [shapeCast_self, shapeCast_self]
  refine congrArg (xo (ix2 (0 : Fin 1) q) + ·) ?_
  exact (addrow_r9 _ q).trans (colred_r9 (mulf x x) rfl q)

theorem zero1_r9 (j : S1x64.Idx) : k9_pay1 (F := Ideal) j = 0 := Ideal.ofBits_zero_f32
theorem zero2_r9 (j : S1x64.Idx) : k9_pay2 (F := Ideal) j = 0 := Ideal.ofBits_zero_f32

/-- Splitting a sum over an initial segment of the naturals at a multiple of the block height. -/
theorem seg_succ_r9 (g : ℕ → EReal) (n : ℕ) :
    ∑ r ∈ Finset.range (10000 * (n + 1)), g r
      = ∑ r ∈ Finset.range (10000 * n), g r + ∑ p : Fin 10000, g (10000 * n + p.val) := by
  rw [show 10000 * (n + 1) = 10000 * n + 10000 by ring, Finset.sum_range_add, Fin.sum_univ_eq_sum_range (fun p => g (10000 * n + p)) 10000]

/-! ## The blocks of the array, and the running sums -/

/-- Row r of the array at column q, as a function of a natural number: zero from row 100000 on. -/
def rowAt_r9 (H : S100000x64.Idx → EReal) (q : Fin 64) (r : ℕ) : EReal :=
  if h : r < 100000 then H (ix2 ⟨r, h⟩ q) else 0

/-- The input window's block index at point t is (t, 0). -/
theorem inIdx_r9 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

/-- Entry (p, q) of the block read at point t is entry (10000 t + p, q) of the array. -/
theorem blk_apply_r9 (V : (c : Dev nD) → (b : Ref sig .tc) → Buf (Elt Ideal) ((c : Thread nD τ).loc b)) (c : Dev nD)
    (t : Fin cfg9.N) (p : Fin 10000) (q : Fin 64) :
    (iblk9 (F := Ideal) V c 0 t : Vec Ideal S10000x64 .f32) (ix2 p q)
      = rowAt_r9 (V c (Pipeline.arrRef spec9 0)) q (10000 * t.val + p.val) := by
  have hN : t.val < 10 := lt_of_lt_of_eq t.isLt (show cfg9.N = 10 from N_9)
  obtain ⟨e0, e1⟩ := inIdx_r9 t
  unfold rowAt_r9
  rw [dif_pos (by omega)]
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 10000 + 1 * p.val = 10000 * t.val + p.val; rw [e0]; omega
  | ⟨1, _⟩ => show win9_0.index t (1 : Fin 2) * 64 + 1 * q.val = q.val; rw [e1]; omega

/-- One step of the first accumulation, over variables: a carried row holding the sum over the first 10000 n rows,
    and a block holding the next 10000 rows, give the sum over the first 10000 (n + 1) rows. -/
theorem step_sum_r9 (x : Vec Ideal S10000x64 .f32) (xo : Vec Ideal S1x64 .f32) (g : ℕ → EReal) (n : ℕ) (q : Fin 64)
    (hx : ∀ p : Fin 10000, x (ix2 p q) = g (10000 * n + p.val))
    (hxo : xo (ix2 (0 : Fin 1) q) = ∑ r ∈ Finset.range (10000 * n), g r) :
    k9_pay4 (F := Ideal) x xo (ix2 (0 : Fin 1) q) = ∑ r ∈ Finset.range (10000 * (n + 1)), g r := by
  rw [pay4_apply_r9, hxo, seg_succ_r9]
  exact congrArg (_ + ·) (Finset.sum_congr rfl fun p _ => hx p)

/-- One step of the second accumulation: the same with squares. -/
theorem step_sq_r9 (x : Vec Ideal S10000x64 .f32) (xo : Vec Ideal S1x64 .f32) (g : ℕ → EReal) (n : ℕ) (q : Fin 64)
    (hx : ∀ p : Fin 10000, x (ix2 p q) = g (10000 * n + p.val))
    (hxo : xo (ix2 (0 : Fin 1) q) = ∑ r ∈ Finset.range (10000 * n), g r * g r) :
    k9_pay5 (F := Ideal) x xo (ix2 (0 : Fin 1) q) = ∑ r ∈ Finset.range (10000 * (n + 1)), g r * g r := by
  rw [pay5_apply_r9, hxo, seg_succ_r9 (fun r => g r * g r)]
  exact congrArg (_ + ·) (Finset.sum_congr rfl fun p _ => by rw [hx p])

/-- THE INVARIANT. After point n the first carried row holds, in column q, the sum of the array's column q over the
    rows below 10000 (n + 1), and the second the sum of the squares — by induction on the point. -/
theorem acc_r9 (V : (c : Dev nD) → (b : Ref sig .tc) → Buf (Elt Ideal) ((c : Thread nD τ).loc b)) (c : Dev nD) :
    ∀ (n : ℕ) (h : n < cfg9.N) (q : Fin 64),
      (outsAt9 (F := Ideal) V c n h).1 (ix2 (0 : Fin 1) q)
          = ∑ r ∈ Finset.range (10000 * (n + 1)), rowAt_r9 (V c (Pipeline.arrRef spec9 0)) q r
      ∧ (outsAt9 (F := Ideal) V c n h).2 (ix2 (0 : Fin 1) q)
          = ∑ r ∈ Finset.range (10000 * (n + 1)),
              rowAt_r9 (V c (Pipeline.arrRef spec9 0)) q r * rowAt_r9 (V c (Pipeline.arrRef spec9 0)) q r
  | 0, h, q => by
    rw [outsAt9_A V c ⟨0, h⟩ rfl]
    dsimp only
    constructor
    · refine (congrFun (first_sum_r9 (F := Ideal) c (grid9.coords ⟨0, h⟩) (ms9_0 ⟨0, h⟩) (hs9_0 ⟨0, h⟩) (ms9_1 ⟨0, h⟩) (hs9_1 ⟨0, h⟩)
        (ms9_2 ⟨0, h⟩) (hs9_2 ⟨0, h⟩) ((hcond9_0 ⟨0, h⟩).mpr rfl) (iblk9 V c 0 ⟨0, h⟩)) (ix2 (0 : Fin 1) q)).trans ?_
      exact step_sum_r9 (iblk9 V c 0 ⟨0, h⟩) (k9_pay1 (F := Ideal)) (rowAt_r9 (V c (Pipeline.arrRef spec9 0)) q) 0 q
        (fun p => blk_apply_r9 V c ⟨0, h⟩ p q) ((zero1_r9 _).trans (by simp))
    · refine (congrFun (first_sq_r9 (F := Ideal) c (grid9.coords ⟨0, h⟩) (ms9_0 ⟨0, h⟩) (hs9_0 ⟨0, h⟩) (ms9_1 ⟨0, h⟩) (hs9_1 ⟨0, h⟩)
        (ms9_2 ⟨0, h⟩) (hs9_2 ⟨0, h⟩) ((hcond9_0 ⟨0, h⟩).mpr rfl) (iblk9 V c 0 ⟨0, h⟩)) (ix2 (0 : Fin 1) q)).trans ?_
      exact step_sq_r9 (iblk9 V c 0 ⟨0, h⟩) (k9_pay2 (F := Ideal)) (rowAt_r9 (V c (Pipeline.arrRef spec9 0)) q) 0 q
        (fun p => blk_apply_r9 V c ⟨0, h⟩ p q) ((zero2_r9 _).trans (by simp))
  | n + 1, h, q => by
    have hN : cfg9.N = 10 := N_9
    have hB : ¬(⟨n + 1, h⟩ : Fin cfg9.N).val % 10 = 0 := by dsimp only; omega
    obtain ⟨ih1, ih2⟩ := acc_r9 V c n (Nat.lt_of_succ_lt h) q
    rw [outsAt9_B V c ⟨n + 1, h⟩ hB]
    dsimp only
    constructor
    · refine (congrFun (later_sum_r9 (F := Ideal) c (grid9.coords ⟨n + 1, h⟩) (ms9_0 ⟨n + 1, h⟩) (hs9_0 ⟨n + 1, h⟩)
        (ms9_1 ⟨n + 1, h⟩) (hs9_1 ⟨n + 1, h⟩) (ms9_2 ⟨n + 1, h⟩) (hs9_2 ⟨n + 1, h⟩) (fun hh => hB ((hcond9_0 ⟨n + 1, h⟩).mp hh))
        (iblk9 V c 0 ⟨n + 1, h⟩) (outsAt9 V c n (Nat.lt_of_succ_lt h)).1 (outsAt9 V c n (Nat.lt_of_succ_lt h)).2)
        (ix2 (0 : Fin 1) q)).trans ?_
      exact step_sum_r9 (iblk9 V c 0 ⟨n + 1, h⟩) (outsAt9 V c n (Nat.lt_of_succ_lt h)).1
        (rowAt_r9 (V c (Pipeline.arrRef spec9 0)) q) (n + 1) q (fun p => blk_apply_r9 V c ⟨n + 1, h⟩ p q) ih1
    · refine (congrFun (later_sq_r9 (F := Ideal) c (grid9.coords ⟨n + 1, h⟩) (ms9_0 ⟨n + 1, h⟩) (hs9_0 ⟨n + 1, h⟩)
        (ms9_1 ⟨n + 1, h⟩) (hs9_1 ⟨n + 1, h⟩) (ms9_2 ⟨n + 1, h⟩) (hs9_2 ⟨n + 1, h⟩) (fun hh => hB ((hcond9_0 ⟨n + 1, h⟩).mp hh))
        (iblk9 V c 0 ⟨n + 1, h⟩) (outsAt9 V c n (Nat.lt_of_succ_lt h)).1 (outsAt9 V c n (Nat.lt_of_succ_lt h)).2)
        (ix2 (0 : Fin 1) q)).trans ?_
      exact step_sq_r9 (iblk9 V c 0 ⟨n + 1, h⟩) (outsAt9 V c n (Nat.lt_of_succ_lt h)).2
        (rowAt_r9 (V c (Pipeline.arrRef spec9 0)) q) (n + 1) q (fun p => blk_apply_r9 V c ⟨n + 1, h⟩ p q) ih2

/-- The sum of the row function over all 100000 rows is the sum over the array's rows; -/
theorem allRows_r9 (H : S100000x64.Idx → EReal) (q : Fin 64) :
    ∑ r ∈ Finset.range 100000, rowAt_r9 H q r = ∑ p : Fin 100000, H (ix2 p q) := by
  rw [← Fin.sum_univ_eq_sum_range (fun r => rowAt_r9 H q r) 100000]
  refine Finset.sum_congr rfl fun p _ => ?_
  unfold rowAt_r9
  rw [dif_pos p.isLt]

/-- and likewise for the squares. -/
theorem allRowsSq_r9 (H : S100000x64.Idx → EReal) (q : Fin 64) :
    ∑ r ∈ Finset.range 100000, rowAt_r9 H q r * rowAt_r9 H q r = ∑ p : Fin 100000, H (ix2 p q) * H (ix2 p q) := by
  rw [← Fin.sum_univ_eq_sum_range (fun r => rowAt_r9 H q r * rowAt_r9 H q r) 100000]
  refine Finset.sum_congr rfl fun p _ => ?_
  unfold rowAt_r9
  rw [dif_pos p.isLt]

/-! ## The write-back and the whole arrays -/

/-- After the last point the first carried row is the column sums of the whole array. -/
theorem carried_sum_r9 (V : (c : Dev nD) → (b : Ref sig .tc) → Buf (Elt Ideal) ((c : Thread nD τ).loc b)) (c : Dev nD)
    (h : 9 < cfg9.N) :
    (outsAt9 (F := Ideal) V c 9 h).1 = Cert.Spec.colsum (M := 100000) (V c (Pipeline.arrRef spec9 0)) := by
  funext j
  obtain ⟨p, q, rfl⟩ : ∃ (p : Fin 1) (q : Fin 64), j = ix2 p q := ⟨j 0, j 1, eq_ix2 j⟩
  obtain rfl : p = 0 := Subsingleton.elim _ _
  refine ((acc_r9 V c 9 h q).1).trans ?_
  exact allRows_r9 (V c (Pipeline.arrRef spec9 0)) q

/-- After the last point the second carried row is the column sums of the squares. -/
theorem carried_sq_r9 (V : (c : Dev nD) → (b : Ref sig .tc) → Buf (Elt Ideal) ((c : Thread nD τ).loc b)) (c : Dev nD)
    (h : 9 < cfg9.N) :
    (outsAt9 (F := Ideal) V c 9 h).2 = Cert.Spec.colsumsq (M := 100000) (V c (Pipeline.arrRef spec9 0)) := by
  funext j
  obtain ⟨p, q, rfl⟩ : ∃ (p : Fin 1) (q : Fin 64), j = ix2 p q := ⟨j 0, j 1, eq_ix2 j⟩
  obtain rfl : p = 0 := Subsingleton.elim _ _
  refine ((acc_r9 V c 9 h q).2).trans ?_
  exact allRowsSq_r9 (V c (Pipeline.arrRef spec9 0)) q

/-- The one write-back of the first output, at the last point, writes the column sums: its block (0, 0) is the array. -/
theorem flushed_sum_r9 (V : (c : Dev nD) → (b : Ref sig .tc) → Buf (Elt Ideal) ((c : Thread nD τ).loc b)) (c : Dev nD)
    (t : Fin cfg9.N) (hf : (cfg9.win 1).flush t = true) :
    (dat9 (F := Ideal) V c).flushed 1 t
      = ((cfg9.win 1).blk t).view.read (Elt Ideal) (Cert.Spec.colsum (M := 100000) (V c (Pipeline.arrRef spec9 0))) := by
  have hN : cfg9.N = 10 := N_9
  have h9 : t.val = 9 := by have := (flush9_1 t).mp hf; have := t.isLt; omega
  obtain rfl : t = t9_9 := Fin.ext h9
  show (cfg9.win 1).cut (grid9.coords t9_9) ((dat9 V c).after 1 t9_9) = _
  rw [after9_1]
  rw [show (outsAt9 V c t9_9.val t9_9.isLt).1 = _ from carried_sum_r9 V c t9_9.isLt]
  have hz' : (fun a => win9_1.index t9_9 a * main_v101_0.ty.shape.size a) = fun _ => 0 :=
    funext fun a => by fin_cases a <;> decide +kernel
  exact (Memref.read_access_unit_zero (Elt Ideal) main_v101_0 hz' (fun a => by rw [congrFun hz' a]; simp) _).symm

/-- The one write-back of the second output writes the column sums of the squares. -/
theorem flushed_sq_r9 (V : (c : Dev nD) → (b : Ref sig .tc) → Buf (Elt Ideal) ((c : Thread nD τ).loc b)) (c : Dev nD)
    (t : Fin cfg9.N) (hf : (cfg9.win 2).flush t = true) :
    (dat9 (F := Ideal) V c).flushed 2 t
      = ((cfg9.win 2).blk t).view.read (Elt Ideal) (Cert.Spec.colsumsq (M := 100000) (V c (Pipeline.arrRef spec9 0))) := by
  have hN : cfg9.N = 10 := N_9
  have h9 : t.val = 9 := by have := (flush9_2 t).mp hf; have := t.isLt; omega
  obtain rfl : t = t9_9 := Fin.ext h9
  show (cfg9.win 2).cut (grid9.coords t9_9) ((dat9 V c).after 2 t9_9) = _
  rw [after9_2]
  rw [show (outsAt9 V c t9_9.val t9_9.isLt).2 = _ from carried_sq_r9 V c t9_9.isLt]
  have hz' : (fun a => win9_2.index t9_9 a * main_v101_1.ty.shape.size a) = fun _ => 0 :=
    funext fun a => by fin_cases a <;> decide +kernel
  exact (Memref.read_access_unit_zero (Elt Ideal) main_v101_1 hz' (fun a => by rw [congrFun hz' a]; simp) _).symm

/-- THE FIRST OUTPUT ARRAY after the region: the column sums of the input array as the region found it. -/
theorem final9_sum (V : (c : Dev nD) → (b : Ref sig .tc) → Buf (Elt Ideal) ((c : Thread nD τ).loc b)) (c : Dev nD) :
    (Gen.dat9 (F := Ideal) V c).arrAt 1 cfg9.N = Cert.Spec.colsum (M := 100000) (V c (Pipeline.arrRef spec9 0)) :=
  (dat9 V c).arrAt_eq_of_cover 1 _ (flushed_sum_r9 V c) fun i =>
    ⟨t9_9, (flush9_1 t9_9).mpr rfl, by
      show i ∈ ((View.whole main_v101_0).slice (win9_1.rect t9_9)).set
      rw [View.set_slice_whole, Rect.mem_set_unit]
      intro a
      have h0 : (i 0 : Nat) < 1 := (i 0).isLt
      have h1 : (i 1 : Nat) < 64 := (i 1).isLt
      match a with
      | ⟨0, _⟩ =>
        show win9_1.index t9_9 0 * win9_1.size 0 ≤ (i 0 : Nat)
          ∧ (i 0 : Nat) < win9_1.index t9_9 0 * win9_1.size 0 + win9_1.xsize (grid9.coords t9_9) 0
        rw [show win9_1.index t9_9 0 * win9_1.size 0 = 0 from by decide +kernel,
          show win9_1.xsize (grid9.coords t9_9) 0 = 1 from by decide +kernel]; omega
      | ⟨1, _⟩ =>
        show win9_1.index t9_9 1 * win9_1.size 1 ≤ (i 1 : Nat)
          ∧ (i 1 : Nat) < win9_1.index t9_9 1 * win9_1.size 1 + win9_1.xsize (grid9.coords t9_9) 1
        rw [show win9_1.index t9_9 1 * win9_1.size 1 = 0 from by decide +kernel,
          show win9_1.xsize (grid9.coords t9_9) 1 = 64 from by decide +kernel]; omega⟩

/-- THE SECOND OUTPUT ARRAY after the region: the column sums of the squares of the input array. -/
theorem final9_sumsq (V : (c : Dev nD) → (b : Ref sig .tc) → Buf (Elt Ideal) ((c : Thread nD τ).loc b)) (c : Dev nD) :
    (Gen.dat9 (F := Ideal) V c).arrAt 2 cfg9.N = Cert.Spec.colsumsq (M := 100000) (V c (Pipeline.arrRef spec9 0)) :=
  (dat9 V c).arrAt_eq_of_cover 2 _ (flushed_sq_r9 V c) fun i =>
    ⟨t9_9, (flush9_2 t9_9).mpr rfl, by
      show i ∈ ((View.whole main_v101_1).slice (win9_2.rect t9_9)).set
      rw [View.set_slice_whole, Rect.mem_set_unit]
      intro a
      have h0 : (i 0 : Nat) < 1 := (i 0).isLt
      have h1 : (i 1 : Nat) < 64 := (i 1).isLt
      match a with
      | ⟨0, _⟩ =>
        show win9_2.index t9_9 0 * win9_2.size 0 ≤ (i 0 : Nat)
          ∧ (i 0 : Nat) < win9_2.index t9_9 0 * win9_2.size 0 + win9_2.xsize (grid9.coords t9_9) 0
        rw [show win9_2.index t9_9 0 * win9_2.size 0 = 0 from by decide +kernel,
          show win9_2.xsize (grid9.coords t9_9) 0 = 1 from by decide +kernel]; omega
      | ⟨1, _⟩ =>
        show win9_2.index t9_9 1 * win9_2.size 1 ≤ (i 1 : Nat)
          ∧ (i 1 : Nat) < win9_2.index t9_9 1 * win9_2.size 1 + win9_2.xsize (grid9.coords t9_9) 1
        rw [show win9_2.index t9_9 1 * win9_2.size 1 = 0 from by decide +kernel,
          show win9_2.xsize (grid9.coords t9_9) 1 = 64 from by decide +kernel]; omega⟩

end Cert.KernelIdeal.RegionValue

end
-- ==== Proof.Region10.lean ====
/-
  Region 10: normalisation, rectifier and residual.  At each of its ten points the body reads a block of 10000 rows of
  the two row-tiled operands h and x and the whole of the four one-row arrays (mean, variance, scale, shift), and
  stores (x + max (gamma · (h − mean) · rsqrt (var + 1e-5) + beta) 0) · 0.5 over the block, the four rows read at the
  entry's column.  Entry (p, q) of a block depends on entry (p, q) of the two row-tiled blocks only, and the ten
  blocks tile the 100000 rows, so the array the region leaves is the whole-array function Spec.bnres of the six
  arrays the region finds.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-! ## The body's arithmetic at an index -/

/-- The stored value at (p, q) of a block: the block of h at (p, q) normalised by the mean and variance rows at
    column q, scaled and shifted by the rows gamma and beta there, rectified, added to the block of x at (p, q),
    and halved. -/
theorem pay10_apply (var gamma : Vec Ideal S1x64 .f32) (h : Vec Ideal S10000x64 .f32) (mean beta : Vec Ideal S1x64 .f32)
    (x : Vec Ideal S10000x64 .f32) (p : Fin 10000) (q : Fin 64) :
    k10_pay1 (F := Ideal) var gamma h mean beta x (ix2 p q)
      = (x (ix2 p q) + max (gamma (ix2 (0 : Fin 1) q) * (h (ix2 p q) - mean (ix2 (0 : Fin 1) q))
          * Ideal.rsqrt (var (ix2 (0 : Fin 1) q) + Ideal.ofBits .f32 0x3727C5AC#32) + beta (ix2 (0 : Fin 1) q)) 0)
        * Ideal.ofBits .f32 0x3F000000#32 := by
  unfold k10_pay1
  simp only [shapeCast_self]
  refine (mulf_apply _ _ _).trans ?_
  refine congrArg₂ (· * ·) ?_ rfl
  refine (addf_apply _ _ _).trans ?_
  refine congrArg (x (ix2 p q) + ·) ?_
  refine (maximumf_apply _ _ _).trans ?_
  refine congrArg₂ max ?_ Ideal.ofBits_zero_f32
  refine (addf_apply _ _ _).trans ?_
  refine congrArg₂ (· + ·) ?_ (broadcastTo_1b_ab_apply _ _ p q)
  refine (mulf_apply _ _ _).trans ?_
  refine congrArg₂ (· * ·) ?_ ?_
  · refine (mulf_apply _ _ _).trans ?_
    refine congrArg₂ (· * ·) (broadcastTo_1b_ab_apply _ _ p q) ?_
    refine (subf_apply _ _ _).trans ?_
    exact congrArg (h (ix2 p q) - ·) (broadcastTo_1b_ab_apply _ _ p q)
  · refine (broadcastTo_1b_ab_apply _ _ p q).trans ?_
    rfl

/-- The body's stored block is Spec.bnres of its loaded blocks, at 10000 rows. -/
theorem pay10_eq_bnres (var gamma : Vec Ideal S1x64 .f32) (h : Vec Ideal S10000x64 .f32) (mean beta : Vec Ideal S1x64 .f32)
    (x : Vec Ideal S10000x64 .f32) (p : Fin 10000) (q : Fin 64) :
    k10_pay1 (F := Ideal) var gamma h mean beta x (ix2 p q) = Cert.Spec.bnres (M := 10000) h x mean var gamma beta (ix2 p q) :=
  pay10_apply var gamma h mean beta x p q

/-- Entry (p, q) of Spec.bnres depends on entry (p, q) of the two row-tiled operands only: two instances whose
    row-tiled operands agree at one entry each, with the same four rows, agree there — whatever the two row counts. -/
theorem bnres_entry10 {M M' : Nat} (h x : Cert.Spec.Mat M 64) (h' x' : Cert.Spec.Mat M' 64)
    (mean mean' var var' gamma gamma' beta beta' : Cert.Spec.Mat 1 64) (p : Fin M) (p' : Fin M') (q : Fin 64)
    (hh : h (ix2 p q) = h' (ix2 p' q)) (hx : x (ix2 p q) = x' (ix2 p' q))
    (hmean : mean = mean') (hvar : var = var') (hgamma : gamma = gamma') (hbeta : beta = beta') :
    Cert.Spec.bnres h x mean var gamma beta (ix2 p q) = Cert.Spec.bnres h' x' mean' var' gamma' beta' (ix2 p' q) := by
  subst hmean hvar hgamma hbeta
  show (x (ix2 p q) + max (gamma (ix2 (0 : Fin 1) q) * (h (ix2 p q) - mean (ix2 (0 : Fin 1) q))
        * Ideal.rsqrt (var (ix2 (0 : Fin 1) q) + Cert.Spec.eps) + beta (ix2 (0 : Fin 1) q)) 0) * Cert.Spec.half
      = (x' (ix2 p' q) + max (gamma (ix2 (0 : Fin 1) q) * (h' (ix2 p' q) - mean (ix2 (0 : Fin 1) q))
        * Ideal.rsqrt (var (ix2 (0 : Fin 1) q) + Cert.Spec.eps) + beta (ix2 (0 : Fin 1) q)) 0) * Cert.Spec.half
  rw [hh, hx]

/-! ## From blocks to the array -/

section Blocks
variable (V : (c : Dev nD) → (b : Ref sig .tc) → Buf (Elt Ideal) ((c : Thread nD τ).loc b))

theorem hz10 : (![0, 0] : Fin 2 → Nat) = fun _ => 0 := funext fun a => by fin_cases a <;> rfl

/-- What the region leaves in its output array: Spec.bnres of the six arrays it finds. -/
abbrev G10 (c : Dev nD) : S100000x64.Idx → EReal :=
  Cert.Spec.bnres (V c (Pipeline.arrRef spec10 0) : S100000x64.Idx → EReal) (V c (Pipeline.arrRef spec10 1) : S100000x64.Idx → EReal)
    (V c (Pipeline.arrRef spec10 2) : S1x64.Idx → EReal) (V c (Pipeline.arrRef spec10 3) : S1x64.Idx → EReal)
    (V c (Pipeline.arrRef spec10 4) : S1x64.Idx → EReal) (V c (Pipeline.arrRef spec10 5) : S1x64.Idx → EReal)

/-- The index maps over the ten points: the row-tiled windows (0, 1 and the output 6) are at block row t and
    block column 0; the four one-row windows stay at block (0, 0). -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

/-- A row-tiled input block at (p, l) is its array at row t · 10000 + p, column l. -/
theorem read10_0 (c : Dev nD) (t : Fin cfg10.N) (p : Fin 10000) (l : Fin 64) (p' : Fin 100000) (hp : p'.val = t.val * 10000 + p.val) :
    iblk10 V c 0 t (ix2 p l) = (V c (Pipeline.arrRef spec10 0) : S100000x64.Idx → EReal) (ix2 p' l) := by
  obtain ⟨e00, e01, -⟩ := idx_facts10 t
  show V c (Pipeline.arrRef spec10 0) (((cfg10.win 0).blk t).view.emb (ix2 p l)) = V c (Pipeline.arrRef spec10 0) (ix2 p' l)
  refine congrArg _ (funext fun a => Fin.ext ?_)
  match a with
  | ⟨0, _⟩ => show win10_0.index t (0 : Fin 2) * 10000 + 1 * p.val = p'.val; omega
  | ⟨1, _⟩ => show win10_0.index t (1 : Fin 2) * 64 + 1 * l.val = l.val; omega

theorem read10_1 (c : Dev nD) (t : Fin cfg10.N) (p : Fin 10000) (l : Fin 64) (p' : Fin 100000) (hp : p'.val = t.val * 10000 + p.val) :
    iblk10 V c 1 t (ix2 p l) = (V c (Pipeline.arrRef spec10 1) : S100000x64.Idx → EReal) (ix2 p' l) := by
  obtain ⟨-, -, e10, e11, -⟩ := idx_facts10 t
  show V c (Pipeline.arrRef spec10 1) (((cfg10.win 1).blk t).view.emb (ix2 p l)) = V c (Pipeline.arrRef spec10 1) (ix2 p' l)
  refine congrArg _ (funext fun a => Fin.ext ?_)
  match a with
  | ⟨0, _⟩ => show win10_1.index t (0 : Fin 2) * 10000 + 1 * p.val = p'.val; omega
  | ⟨1, _⟩ => show win10_1.index t (1 : Fin 2) * 64 + 1 * l.val = l.val; omega

/-- A one-row window's block is its whole array. -/
theorem read10_2 (c : Dev nD) (t : Fin cfg10.N) : iblk10 V c 2 t = (V c (Pipeline.arrRef spec10 2) : S1x64.Idx → EReal) := by
  obtain ⟨-, -, -, -, e20, e21, -⟩ := idx_facts10 t
  funext y
  show V c (Pipeline.arrRef spec10 2) (((cfg10.win 2).blk t).view.emb y) = V c (Pipeline.arrRef spec10 2) y
  refine congrArg _ (funext fun a => Fin.ext ?_)
  match a with
  | ⟨0, _⟩ => show win10_2.index t (0 : Fin 2) * 1 + 1 * (y 0).val = (y 0).val; omega
  | ⟨1, _⟩ => show win10_2.index t (1 : Fin 2) * 64 + 1 * (y 1).val = (y 1).val; omega

theorem read10_3 (c : Dev nD) (t : Fin cfg10.N) : iblk10 V c 3 t = (V c (Pipeline.arrRef spec10 3) : S1x64.Idx → EReal) := by
  obtain ⟨-, -, -, -, -, -, e30, e31, -⟩ := idx_facts10 t
  funext y
  show V c (Pipeline.arrRef spec10 3) (((cfg10.win 3).blk t).view.emb y) = V c (Pipeline.arrRef spec10 3) y
  refine congrArg _ (funext fun a => Fin.ext ?_)
  match a with
  | ⟨0, _⟩ => show win10_3.index t (0 : Fin 2) * 1 + 1 * (y 0).val = (y 0).val; omega
  | ⟨1, _⟩ => show win10_3.index t (1 : Fin 2) * 64 + 1 * (y 1).val = (y 1).val; omega

theorem read10_4 (c : Dev nD) (t : Fin cfg10.N) : iblk10 V c 4 t = (V c (Pipeline.arrRef spec10 4) : S1x64.Idx → EReal) := by
  obtain ⟨-, -, -, -, -, -, -, -, e40, e41, -⟩ := idx_facts10 t
  funext y
  show V c (Pipeline.arrRef spec10 4) (((cfg10.win 4).blk t).view.emb y) = V c (Pipeline.arrRef spec10 4) y
  refine congrArg _ (funext fun a => Fin.ext ?_)
  match a with
  | ⟨0, _⟩ => show win10_4.index t (0 : Fin 2) * 1 + 1 * (y 0).val = (y 0).val; omega
  | ⟨1, _⟩ => show win10_4.index t (1 : Fin 2) * 64 + 1 * (y 1).val = (y 1).val; omega

theorem read10_5 (c : Dev nD) (t : Fin cfg10.N) : iblk10 V c 5 t = (V c (Pipeline.arrRef spec10 5) : S1x64.Idx → EReal) := by
  obtain ⟨-, -, -, -, -, -, -, -, -, -, e50, e51, -⟩ := idx_facts10 t
  funext y
  show V c (Pipeline.arrRef spec10 5) (((cfg10.win 5).blk t).view.emb y) = V c (Pipeline.arrRef spec10 5) y
  refine congrArg _ (funext fun a => Fin.ext ?_)
  match a with
  | ⟨0, _⟩ => show win10_5.index t (0 : Fin 2) * 1 + 1 * (y 0).val = (y 0).val; omega
  | ⟨1, _⟩ => show win10_5.index t (1 : Fin 2) * 64 + 1 * (y 1).val = (y 1).val; omega

/-- What point t writes back is block t of G10. -/
theorem flushed10_eq (c : Dev nD) (t : Fin cfg10.N) :
    (dat10 (F := Ideal) V c).flushed 6 t = ((cfg10.win 6).blk t).view.read (Elt Ideal) (G10 V c) := by
  show (cfg10.win 6).cut (grid10.coords t) ((dat10 V c).after 6 t) = _
  rw [after10_6]
  unfold out10_6
  rw [View.canon_unit_zero hz10]
  simp only [View.ld_unit_zero (S := S10000x64) hz10, View.ld_unit_zero (S := S1x64) hz10]
  obtain ⟨-, -, -, -, -, -, -, -, -, -, -, -, e60, e61⟩ := idx_facts10 t
  refine funext fun (j : S10000x64.Idx) => ?_
  obtain ⟨p, q, rfl⟩ : ∃ (p : Fin 10000) (q : Fin 64), j = ix2 p q := ⟨j 0, j 1, eq_ix2 j⟩
  have ht : t.val < 10 := lt_of_lt_of_eq t.isLt N_10
  have he : ((cfg10.win 6).blk t).view.emb (ix2 p q) = ix2 (⟨t.val * 10000 + p.val, by omega⟩ : Fin 100000) q :=
    funext fun a => Fin.ext (by
      match a with
      | ⟨0, _⟩ => show win10_6.index t (0 : Fin 2) * 10000 + 1 * p.val = t.val * 10000 + p.val; omega
      | ⟨1, _⟩ => show win10_6.index t (1 : Fin 2) * 64 + 1 * q.val = q.val; omega)
  show k10_pay1 (F := Ideal) (iblk10 V c 3 t) (iblk10 V c 4 t) (iblk10 V c 0 t) (iblk10 V c 2 t) (iblk10 V c 5 t) (iblk10 V c 1 t) (ix2 p q)
    = G10 V c (((cfg10.win 6).blk t).view.emb (ix2 p q))
  refine (pay10_eq_bnres (iblk10 V c 3 t) (iblk10 V c 4 t) (iblk10 V c 0 t) (iblk10 V c 2 t) (iblk10 V c 5 t) (iblk10 V c 1 t) p q).trans ?_
  refine Eq.trans ?_ (congrArg (G10 V c) he).symm
  exact bnres_entry10 _ _ _ _ _ _ _ _ _ _ _ _ p _ q (read10_0 V c t p q _ rfl) (read10_1 V c t p q _ rfl)
    (read10_2 V c t) (read10_3 V c t) (read10_4 V c t) (read10_5 V c t)

/-- An index of the array is in point t's block iff each coordinate is in the block's range on its axis. -/
theorem mem_blk10 (t : Fin cfg10.N) (i : S100000x64.Idx) :
    i ∈ ((cfg10.win 6).blk t).view.set ↔ ∀ a : Fin 2, win10_6.index t a * S10000x64.size a ≤ (i a).val ∧ (i a).val < win10_6.index t a * S10000x64.size a + S10000x64.size a := by
  show i ∈ ((View.whole main_v118).slice (win10_6.rect t)).set ↔ _
  rw [View.set_slice_whole, Rect.mem_set_unit]
  exact Iff.rfl

/-- The ten blocks tile the array: row r is in the block of point r / 10000. -/
theorem cover10 (i : S100000x64.Idx) : ∃ t : Fin cfg10.N, (cfg10.win 6).flush t = true ∧ i ∈ ((cfg10.win 6).blk t).view.set := by
  have hi0 : (i 0).val < 100000 := idx2_lt0 i
  have hi1 : (i 1).val < 64 := idx2_lt1 i
  have hN : cfg10.N = 10 := N_10
  obtain ⟨t, ht⟩ : ∃ t : Fin cfg10.N, t.val = (i 0).val / 10000 := ⟨⟨(i 0).val / 10000, by rw [hN]; omega⟩, rfl⟩
  obtain ⟨-, -, -, -, -, -, -, -, -, -, -, -, e60, e61⟩ := idx_facts10 t
  refine ⟨t, flush10_6 t, ?_⟩
  rw [mem_blk10]
  intro a
  match a with
  | ⟨0, _⟩ => show win10_6.index t (0 : Fin 2) * 10000 ≤ (i 0).val ∧ (i 0).val < win10_6.index t (0 : Fin 2) * 10000 + 10000; omega
  | ⟨1, _⟩ => show win10_6.index t (1 : Fin 2) * 64 ≤ (i 1).val ∧ (i 1).val < win10_6.index t (1 : Fin 2) * 64 + 64; omega

/-- The array after the region: Spec.bnres of the arrays the region finds (windows 0 … 5: h, x, mean, variance,
    scale, shift). -/
theorem final10 (c : Dev nD) :
    (dat10 (F := Ideal) V c).arrAt 6 cfg10.N
      = Cert.Spec.bnres (V c (Pipeline.arrRef spec10 0) : S100000x64.Idx → EReal) (V c (Pipeline.arrRef spec10 1) : S100000x64.Idx → EReal)
          (V c (Pipeline.arrRef spec10 2) : S1x64.Idx → EReal) (V c (Pipeline.arrRef spec10 3) : S1x64.Idx → EReal)
          (V c (Pipeline.arrRef spec10 4) : S1x64.Idx → EReal) (V c (Pipeline.arrRef spec10 5) : S1x64.Idx → EReal) :=
  (dat10 V c).arrAt_eq_of_cover 6 (G10 V c) (fun t _ => flushed10_eq V c t) (cover10)

end Blocks

end Cert.KernelIdeal.RegionValue

end
-- ==== Proof.Region11.lean ====
/-
  Region 11: the edge update. Each of the 64 grid points takes the rows 10000 t .. 10000 t + 9999 of the three
  row-tiled operands (the two gathered node arrays and the edge array), joins them side by side into 192 columns,
  runs two layers on the join (the first rectified) against the whole weight and bias arrays, and adds half of the
  result to the edge rows. Row p of block t is row 10000 t + p of the arrays, so the value written at an entry depends
  only on that row of the operands and on the weights: the blocks are the restrictions of one whole-array function,
  and they tile the 640000 rows.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One grid point's payload at an entry of its block -/

/-- The three row blocks joined along the columns, read at row p and column q: the block whose span of 64
    columns holds q, at column q less the columns before that block. -/
theorem join11_apply (x0 x1 x2 : Vec Ideal S10000x64 .f32) (p : Fin 10000) (q : Fin 192) :
    concatenate S10000x192 1 [⟨S10000x64, x0⟩, ⟨S10000x64, x1⟩, ⟨S10000x64, x2⟩]
      concatenates_S10000x64_S10000x64_S10000x64_S10000x192_d1 (ix2 p q)
      = Cert.Spec.cat3 (M := 10000) x0 x1 x2 (ix2 p q) := by
  unfold Cert.Spec.cat3
  have hq := q.isLt
  by_cases h : q.val < 64
  · rw [dif_pos (show ((ix2 p q : S10000x192.Idx) 1).val < 64 from h)]
    refine concatenate_apply_piece (1 : Fin S10000x192.rank) _ _ (ix2 p q) 0 (by simp) S10000x64 x0 rfl rfl 0 rfl
      (ix2 p ⟨q.val, h⟩) (fun b hb => ?_) ?_
    · match b with
      | ⟨0, _⟩ => rfl
      | ⟨1, _⟩ => exact absurd rfl hb
    · show 0 + q.val = q.val; omega
  · rw [dif_neg (show ¬ ((ix2 p q : S10000x192.Idx) 1).val < 64 from h)]
    by_cases h' : q.val < 128
    · rw [dif_pos (show ((ix2 p q : S10000x192.Idx) 1).val < 128 from h')]
      refine concatenate_apply_piece (1 : Fin S10000x192.rank) _ _ (ix2 p q) 1 (by simp) S10000x64 x1 rfl rfl 64 rfl
        (ix2 p ⟨q.val - 64, by omega⟩) (fun b hb => ?_) ?_
      · match b with
        | ⟨0, _⟩ => rfl
        | ⟨1, _⟩ => exact absurd rfl hb
      · show 64 + (q.val - 64) = q.val; omega
    · rw [dif_neg (show ¬ ((ix2 p q : S10000x192.Idx) 1).val < 128 from h')]
      refine concatenate_apply_piece (1 : Fin S10000x192.rank) _ _ (ix2 p q) 2 (by simp) S10000x64 x2 rfl rfl 128 rfl
        (ix2 p ⟨q.val - 128, by omega⟩) (fun b hb => ?_) ?_
      · match b with
        | ⟨0, _⟩ => rfl
        | ⟨1, _⟩ => exact absurd rfl hb
      · show 128 + (q.val - 128) = q.val; omega

/-- A matrix product accumulated into the zero array, read at row p and column q: the sum over the one contracted
    axis of the left operand's row p times the right operand's column q. The four hypotheses say which axis of each
    operand is contracted and that the other axis follows the result's index. -/
theorem matmul11_zero_ix2 {M K N : Nat} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (a : FVec Ideal ⟨2, ![M, K]⟩ .f32) (b : FVec Ideal ⟨2, ![K, N]⟩ .f32) (p : Fin M) (q : Fin N) :
    matmul d none a b (constant (F := Ideal) ⟨2, ![M, N]⟩ .f32 0x00000000#32) (ix2 p q)
      = ∑ k : Fin K, a (ix2 p k) * b (ix2 k q) := by
  refine (Ideal.matmul_constant_zero_apply d none a b (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

/-- The first layer's product: 192 joined columns against the 192 rows of the weights. -/
theorem mm11_192_64 (a : FVec Ideal S10000x192 .f32) (b : FVec Ideal S192x64 .f32) (p : Fin 10000) (q : Fin 64) :
    matmul dot_S10000x192_S192x64_S10000x64_1_0_0_1_n_n none a b (constant (F := Ideal) S10000x64 .f32 0x00000000#32) (ix2 p q)
      = ∑ k : Fin 192, a (ix2 p k) * b (ix2 k q) :=
  matmul11_zero_ix2 dot_S10000x192_S192x64_S10000x64_1_0_0_1_n_n rfl rfl rfl rfl
    (fun j k => by
      unfold DotDims.lhsIdx
      rw [dif_neg (show ¬(0 : Fin S10000x192.rank) ∈ dot_S10000x192_S192x64_S10000x64_1_0_0_1_n_n.lhsBatch by decide), dif_pos (show (0 : Fin S10000x192.rank) ∈ dot_S10000x192_S192x64_S10000x64_1_0_0_1_n_n.lhsNonContracting by decide)]
      rfl)
    (fun j k => by
      unfold DotDims.rhsIdx
      rw [dif_neg (show ¬(1 : Fin S192x64.rank) ∈ dot_S10000x192_S192x64_S10000x64_1_0_0_1_n_n.rhsBatch by decide), dif_pos (show (1 : Fin S192x64.rank) ∈ dot_S10000x192_S192x64_S10000x64_1_0_0_1_n_n.rhsNonContracting by decide)]
      rfl)
    a b p q

/-- The second layer's product: 64 columns against the 64 rows of the weights. -/
theorem mm11_64_64 (a : FVec Ideal S10000x64 .f32) (b : FVec Ideal S64x64 .f32) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) :=
  matmul11_zero_ix2 dot_S10000x64_S64x64_S10000x64_1_0_0_1_n_n rfl rfl rfl rfl
    (fun j k => by
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl)
    (fun j k => by
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
    a b p q

/-- The three row blocks side by side, as one block of 192 columns. -/
abbrev joined11 (x0 x1 x2 : Vec Ideal S10000x64 .f32) : FVec Ideal S10000x192 .f32 :=
  concatenate S10000x192 1 [⟨S10000x64, x0⟩, ⟨S10000x64, x1⟩, ⟨S10000x64, x2⟩]
    concatenates_S10000x64_S10000x64_S10000x64_S10000x192_d1

/-- A bias row spread down the 10000 rows, read at row p and column q: the row's entry at column q. -/
theorem bias11_apply (b : Vec Ideal S1x64 .f32) (p : Fin 10000) (q : Fin 64) :
    broadcastTo S10000x64 b broadcasts_S1x64_S10000x64 (ix2 p q) = b (ix2 (0 : Fin 1) q) :=
  broadcastTo_1b_ab_apply b broadcasts_S1x64_S10000x64 p q

/-- The first layer on the joined block, rectified, at row p and column k. -/
theorem hidden11_apply (x0 x1 x2 : Vec Ideal S10000x64 .f32) (w1 : Vec Ideal S192x64 .f32) (b1 : Vec Ideal S1x64 .f32)
    (p : Fin 10000) (k : Fin 64) :
    maximumf (addf (matmul (φ₁ := .f32) (φ₂ := .f32) dot_S10000x192_S192x64_S10000x64_1_0_0_1_n_n none (joined11 x0 x1 x2)
        w1 (constant (F := Ideal) S10000x64 .f32 0x00000000#32)) (broadcastTo S10000x64 b1 broadcasts_S1x64_S10000x64))
      (broadcast S10000x64 (Scalar.ofBits (F := Ideal) .f32 0x00000000#32)) (ix2 p k)
      = Cert.Spec.relu (Cert.Spec.lin (Cert.Spec.cat3 (M := 10000) x0 x1 x2) w1 b1) (ix2 p k) := by
  show max (matmul (φ₁ := .f32) (φ₂ := .f32) dot_S10000x192_S192x64_S10000x64_1_0_0_1_n_n none (joined11 x0 x1 x2) w1 (constant (F := Ideal) S10000x64 .f32 0x00000000#32) (ix2 p k)
      + broadcastTo S10000x64 b1 broadcasts_S1x64_S10000x64 (ix2 p k)) (Ideal.ofBits .f32 0x00000000#32) = _
  rw [mm11_192_64, bias11_apply, Ideal.ofBits_zero_f32]
  unfold Cert.Spec.relu Cert.Spec.lin
  refine congrArg (fun s => max (s + b1 (ix2 (0 : Fin 1) k)) 0) (Finset.sum_congr rfl fun j _ => ?_)
  exact congrArg (· * w1 (ix2 j k)) (join11_apply x0 x1 x2 p j)

/-- The same, as an equation of whole blocks. -/
theorem hidden11_eq (x0 x1 x2 : Vec Ideal S10000x64 .f32) (w1 : Vec Ideal S192x64 .f32) (b1 : Vec Ideal S1x64 .f32) :
    maximumf (addf (matmul (φ₁ := .f32) (φ₂ := .f32) dot_S10000x192_S192x64_S10000x64_1_0_0_1_n_n none (joined11 x0 x1 x2)
        w1 (constant (F := Ideal) S10000x64 .f32 0x00000000#32)) (broadcastTo S10000x64 b1 broadcasts_S1x64_S10000x64))
      (broadcast S10000x64 (Scalar.ofBits (F := Ideal) .f32 0x00000000#32))
      = Cert.Spec.relu (Cert.Spec.lin (Cert.Spec.cat3 (M := 10000) x0 x1 x2) w1 b1) := by
  funext j
  obtain ⟨p, k, rfl⟩ : ∃ (p : Fin 10000) (k : Fin 64), j = ix2 p k := ⟨j 0, j 1, eq_ix2 j⟩
  exact hidden11_apply x0 x1 x2 w1 b1 p k

/-- The whole payload of one grid point at row p and column q of its block: the edge update of the three row blocks. -/
theorem pay11_apply (x0 x1 x2 : Vec Ideal S10000x64 .f32) (w1 : Vec Ideal S192x64 .f32) (b1 : Vec Ideal S1x64 .f32)
    (w2 : Vec Ideal S64x64 .f32) (b2 : Vec Ideal S1x64 .f32) (p : Fin 10000) (q : Fin 64) :
    k11_pay1 (F := Ideal) x0 x1 x2 w1 b1 w2 b2 x2 (ix2 p q) = Cert.Spec.emlp (M := 10000) x0 x1 x2 w1 b1 w2 b2 (ix2 p q) := by
  unfold k11_pay1
  simp only [shapeCast_self]
  show x2 (ix2 p q) + (matmul (φ₁ := .f32) (φ₂ := .f32) dot_S10000x64_S64x64_S10000x64_1_0_0_1_n_n none _ w2 (constant (F := Ideal) S10000x64 .f32 0x00000000#32) (ix2 p q)
      + broadcastTo S10000x64 b2 broadcasts_S1x64_S10000x64 (ix2 p q)) * Ideal.ofBits .f32 0x3F000000#32 = _
  rw [mm11_64_64, bias11_apply, hidden11_eq]
  simp only [shapeCast_self]
  rfl

/-! ## The specification is row-local -/

/-- The join at row p reads only row p of its three operands. -/
theorem cat3_row11 {M M' : Nat} (xs xd e : Cert.Spec.Mat M 64) (xs' xd' e' : Cert.Spec.Mat M' 64) (p : Fin M) (p' : Fin M')
    (hs : ∀ k, xs' (ix2 p' k) = xs (ix2 p k)) (hd : ∀ k, xd' (ix2 p' k) = xd (ix2 p k))
    (he : ∀ k, e' (ix2 p' k) = e (ix2 p k)) (j : Fin 192) :
    Cert.Spec.cat3 xs' xd' e' (ix2 p' j) = Cert.Spec.cat3 xs xd e (ix2 p j) := by
  unfold Cert.Spec.cat3
  by_cases h : j.val < 64
  · rw [dif_pos (show ((ix2 p' j : (⟨2, ![M', 192]⟩ : Shape).Idx) 1).val < 64 from h),
      dif_pos (show ((ix2 p j : (⟨2, ![M, 192]⟩ : Shape).Idx) 1).val < 64 from h)]
    exact hs _
  · rw [dif_neg (show ¬ ((ix2 p' j : (⟨2, ![M', 192]⟩ : Shape).Idx) 1).val < 64 from h),
      dif_neg (show ¬ ((ix2 p j : (⟨2, ![M, 192]⟩ : Shape).Idx) 1).val < 64 from h)]
    by_cases h' : j.val < 128
    · rw [dif_pos (show ((ix2 p' j : (⟨2, ![M', 192]⟩ : Shape).Idx) 1).val < 128 from h'),
        dif_pos (show ((ix2 p j : (⟨2, ![M, 192]⟩ : Shape).Idx) 1).val < 128 from h')]
      exact hd _
    · rw [dif_neg (show ¬ ((ix2 p' j : (⟨2, ![M', 192]⟩ : Shape).Idx) 1).val < 128 from h'),
        dif_neg (show ¬ ((ix2 p j : (⟨2, ![M, 192]⟩ : Shape).Idx) 1).val < 128 from h')]
      exact he _

/-- The edge update at row p reads only row p of the three row-tiled operands (and all of the weights). -/
theorem emlp_row11 {M M' : Nat} (xs xd e : Cert.Spec.Mat M 64) (xs' xd' e' : Cert.Spec.Mat M' 64)
    (w1 w1' : Cert.Spec.Mat 192 64) (b1 b1' : Cert.Spec.Mat 1 64) (w2 w2' : Cert.Spec.Mat 64 64) (b2 b2' : Cert.Spec.Mat 1 64)
    (p : Fin M) (p' : Fin M')
    (hs : ∀ k, xs' (ix2 p' k) = xs (ix2 p k)) (hd : ∀ k, xd' (ix2 p' k) = xd (ix2 p k))
    (he : ∀ k, e' (ix2 p' k) = e (ix2 p k))
    (hw1 : w1' = w1) (hb1 : b1' = b1) (hw2 : w2' = w2) (hb2 : b2' = b2) (q : Fin 64) :
    Cert.Spec.emlp xs' xd' e' w1' b1' w2' b2' (ix2 p' q) = Cert.Spec.emlp xs xd e w1 b1 w2 b2 (ix2 p q) := by
  subst hw1 hb1 hw2 hb2
  have hh : ∀ k : Fin 64, Cert.Spec.relu (Cert.Spec.lin (Cert.Spec.cat3 xs' xd' e') w1' b1') (ix2 p' k)
      = Cert.Spec.relu (Cert.Spec.lin (Cert.Spec.cat3 xs xd e) w1' b1') (ix2 p k) := fun k => by
    show max ((∑ j : Fin 192, Cert.Spec.cat3 xs' xd' e' (ix2 p' j) * w1' (ix2 j k)) + b1' (ix2 (0 : Fin 1) k)) 0
      = max ((∑ j : Fin 192, Cert.Spec.cat3 xs xd e (ix2 p j) * w1' (ix2 j k)) + b1' (ix2 (0 : Fin 1) k)) 0
    rw [Finset.sum_congr rfl fun j _ => by rw [cat3_row11 xs xd e xs' xd' e' p p' hs hd he j]]
  show e' (ix2 p' q) + ((∑ k : Fin 64, Cert.Spec.relu (Cert.Spec.lin (Cert.Spec.cat3 xs' xd' e') w1' b1') (ix2 p' k) * w2' (ix2 k q))
      + b2' (ix2 (0 : Fin 1) q)) * Cert.Spec.half
    = e (ix2 p q) + ((∑ k : Fin 64, Cert.Spec.relu (Cert.Spec.lin (Cert.Spec.cat3 xs xd e) w1' b1') (ix2 p k) * w2' (ix2 k q))
      + b2' (ix2 (0 : Fin 1) q)) * Cert.Spec.half
  rw [he q, Finset.sum_congr rfl fun k _ => by rw [hh k]]

/-! ## From the blocks to the array -/

variable (V : (c : Dev nD) → (b : Ref sig .tc) → Buf (Elt Ideal) ((c : Thread nD τ).loc b))

/-- Every access of the body starts at the origin of its staging buffer. -/
theorem origin11 : (![0, 0] : Fin 2 → Nat) = fun _ => 0 := funext fun a => by fin_cases a <;> rfl

/-- The block index of every window at every grid point, decided over the 64 points: the three row-tiled operands and
    the result are at block t of the rows; the weights and biases stay at block 0; every window is at block 0 of the
    columns. -/
theorem block_index11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0 :=
  (by decide +kernel : ∀ t : Fin grid11.N, _)

/-- Row p of block t is row 10000 t + p of the array. -/
def row11 (t : Fin cfg11.N) (p : Fin 10000) : Fin 640000 :=
  ⟨t.val * 10000 + p.val, by
    have ht : t.val < grid11.N := t.isLt
    rw [N_11] at ht
    have := p.isLt
    omega⟩

/-- Where entry (p, k) of window 0's block at point t sits in its array. -/
theorem emb11_0 (t : Fin cfg11.N) (p : Fin 10000) (k : Fin 64) :
    ((cfg11.win 0).blk t).view.emb (ix2 p k) = ix2 (row11 t p) k := by
  obtain ⟨e00, e01, e10, e11, e20, e21, e30, e31, e40, e41, e50, e51, e60, e61, e70, e71⟩ := block_index11 t
  funext a; apply Fin.ext
  match a with
  | ⟨0, _⟩ => show win11_0.index t (0 : Fin 2) * 10000 + 1 * p.val = t.val * 10000 + p.val; omega
  | ⟨1, _⟩ => show win11_0.index t (1 : Fin 2) * 64 + 1 * k.val = k.val; omega

/-- Where entry (p, k) of window 1's block at point t sits in its array. -/
theorem emb11_1 (t : Fin cfg11.N) (p : Fin 10000) (k : Fin 64) :
    ((cfg11.win 1).blk t).view.emb (ix2 p k) = ix2 (row11 t p) k := by
  obtain ⟨e00, e01, e10, e11, e20, e21, e30, e31, e40, e41, e50, e51, e60, e61, e70, e71⟩ := block_index11 t
  funext a; apply Fin.ext
  match a with
  | ⟨0, _⟩ => show win11_1.index t (0 : Fin 2) * 10000 + 1 * p.val = t.val * 10000 + p.val; omega
  | ⟨1, _⟩ => show win11_1.index t (1 : Fin 2) * 64 + 1 * k.val = k.val; omega

/-- Where entry (p, k) of window 2's block at point t sits in its array. -/
theorem emb11_2 (t : Fin cfg11.N) (p : Fin 10000) (k : Fin 64) :
    ((cfg11.win 2).blk t).view.emb (ix2 p k) = ix2 (row11 t p) k := by
  obtain ⟨e00, e01, e10, e11, e20, e21, e30, e31, e40, e41, e50, e51, e60, e61, e70, e71⟩ := block_index11 t
  funext a; apply Fin.ext
  match a with
  | ⟨0, _⟩ => show win11_2.index t (0 : Fin 2) * 10000 + 1 * p.val = t.val * 10000 + p.val; omega
  | ⟨1, _⟩ => show win11_2.index t (1 : Fin 2) * 64 + 1 * k.val = k.val; omega

/-- Where entry (p, k) of window 7's block at point t sits in its array. -/
theorem emb11_7 (t : Fin cfg11.N) (p : Fin 10000) (k : Fin 64) :
    ((cfg11.win 7).blk t).view.emb (ix2 p k) = ix2 (row11 t p) k := by
  obtain ⟨e00, e01, e10, e11, e20, e21, e30, e31, e40, e41, e50, e51, e60, e61, e70, e71⟩ := block_index11 t
  funext a; apply Fin.ext
  match a with
  | ⟨0, _⟩ => show win11_7.index t (0 : Fin 2) * 10000 + 1 * p.val = t.val * 10000 + p.val; omega
  | ⟨1, _⟩ => show win11_7.index t (1 : Fin 2) * 64 + 1 * k.val = k.val; omega

/-- Window 3's one block is the whole array. -/
theorem emb11_3 (t : Fin cfg11.N) (y : S192x64.Idx) : ((cfg11.win 3).blk t).view.emb y = y := by
  obtain ⟨e00, e01, e10, e11, e20, e21, e30, e31, e40, e41, e50, e51, e60, e61, e70, e71⟩ := block_index11 t
  funext a; apply Fin.ext
  match a with
  | ⟨0, _⟩ => show win11_3.index t (0 : Fin 2) * 192 + 1 * (y 0).val = (y 0).val; omega
  | ⟨1, _⟩ => show win11_3.index t (1 : Fin 2) * 64 + 1 * (y 1).val = (y 1).val; omega

/-- Window 4's one block is the whole array. -/
theorem emb11_4 (t : Fin cfg11.N) (y : S1x64.Idx) : ((cfg11.win 4).blk t).view.emb y = y := by
  obtain ⟨e00, e01, e10, e11, e20, e21, e30, e31, e40, e41, e50, e51, e60, e61, e70, e71⟩ := block_index11 t
  funext a; apply Fin.ext
  match a with
  | ⟨0, _⟩ => show win11_4.index t (0 : Fin 2) * 1 + 1 * (y 0).val = (y 0).val; omega
  | ⟨1, _⟩ => show win11_4.index t (1 : Fin 2) * 64 + 1 * (y 1).val = (y 1).val; omega

/-- Window 5's one block is the whole array. -/
theorem emb11_5 (t : Fin cfg11.N) (y : S64x64.Idx) : ((cfg11.win 5).blk t).view.emb y = y := by
  obtain ⟨e00, e01, e10, e11, e20, e21, e30, e31, e40, e41, e50, e51, e60, e61, e70, e71⟩ := block_index11 t
  funext a; apply Fin.ext
  match a with
  | ⟨0, _⟩ => show win11_5.index t (0 : Fin 2) * 64 + 1 * (y 0).val = (y 0).val; omega
  | ⟨1, _⟩ => show win11_5.index t (1 : Fin 2) * 64 + 1 * (y 1).val = (y 1).val; omega

/-- Window 6's one block is the whole array. -/
theorem emb11_6 (t : Fin cfg11.N) (y : S1x64.Idx) : ((cfg11.win 6).blk t).view.emb y = y := by
  obtain ⟨e00, e01, e10, e11, e20, e21, e30, e31, e40, e41, e50, e51, e60, e61, e70, e71⟩ := block_index11 t
  funext a; apply Fin.ext
  match a with
  | ⟨0, _⟩ => show win11_6.index t (0 : Fin 2) * 1 + 1 * (y 0).val = (y 0).val; omega
  | ⟨1, _⟩ => show win11_6.index t (1 : Fin 2) * 64 + 1 * (y 1).val = (y 1).val; omega

/-- Operand 0's block at point t, at an entry: the array at the entry's row of the array. -/
theorem blk11_0 (c : Dev nD) (t : Fin cfg11.N) (p : Fin 10000) (k : Fin 64) :
    iblk11 V c 0 t (ix2 p k) = (V c (Pipeline.arrRef spec11 0) : Cert.Spec.Mat 640000 64) (ix2 (row11 t p) k) := by
  show V c (Pipeline.arrRef spec11 0) (((cfg11.win 0).blk t).view.emb (ix2 p k)) = _
  rw [emb11_0 t p k]

/-- Operand 1's block at point t, at an entry: the array at the entry's row of the array. -/
theorem blk11_1 (c : Dev nD) (t : Fin cfg11.N) (p : Fin 10000) (k : Fin 64) :
    iblk11 V c 1 t (ix2 p k) = (V c (Pipeline.arrRef spec11 1) : Cert.Spec.Mat 640000 64) (ix2 (row11 t p) k) := by
  show V c (Pipeline.arrRef spec11 1) (((cfg11.win 1).blk t).view.emb (ix2 p k)) = _
  rw [emb11_1 t p k]

/-- Operand 2's block at point t, at an entry: the array at the entry's row of the array. -/
theorem blk11_2 (c : Dev nD) (t : Fin cfg11.N) (p : Fin 10000) (k : Fin 64) :
    iblk11 V c 2 t (ix2 p k) = (V c (Pipeline.arrRef spec11 2) : Cert.Spec.Mat 640000 64) (ix2 (row11 t p) k) := by
  show V c (Pipeline.arrRef spec11 2) (((cfg11.win 2).blk t).view.emb (ix2 p k)) = _
  rw [emb11_2 t p k]

/-- Window 3's block at every point is its whole array. -/
theorem whole11_3 (c : Dev nD) (t : Fin cfg11.N) :
    (iblk11 V c 3 t : Cert.Spec.Mat 192 64) = (V c (Pipeline.arrRef spec11 3) : Cert.Spec.Mat 192 64) := by
  funext y
  show V c (Pipeline.arrRef spec11 3) (((cfg11.win 3).blk t).view.emb y) = _
  rw [emb11_3 t y]

/-- Window 4's block at every point is its whole array. -/
theorem whole11_4 (c : Dev nD) (t : Fin cfg11.N) :
    (iblk11 V c 4 t : Cert.Spec.Mat 1 64) = (V c (Pipeline.arrRef spec11 4) : Cert.Spec.Mat 1 64) := by
  funext y
  show V c (Pipeline.arrRef spec11 4) (((cfg11.win 4).blk t).view.emb y) = _
  rw [emb11_4 t y]

/-- Window 5's block at every point is its whole array. -/
theorem whole11_5 (c : Dev nD) (t : Fin cfg11.N) :
    (iblk11 V c 5 t : Cert.Spec.Mat 64 64) = (V c (Pipeline.arrRef spec11 5) : Cert.Spec.Mat 64 64) := by
  funext y
  show V c (Pipeline.arrRef spec11 5) (((cfg11.win 5).blk t).view.emb y) = _
  rw [emb11_5 t y]

/-- Window 6's block at every point is its whole array. -/
theorem whole11_6 (c : Dev nD) (t : Fin cfg11.N) :
    (iblk11 V c 6 t : Cert.Spec.Mat 1 64) = (V c (Pipeline.arrRef spec11 6) : Cert.Spec.Mat 1 64) := by
  funext y
  show V c (Pipeline.arrRef spec11 6) (((cfg11.win 6).blk t).view.emb y) = _
  rw [emb11_6 t y]

/-- The edge update of the arrays as the region finds them. -/
abbrev G11 (c : Dev nD) : Cert.Spec.Mat 640000 64 :=
  Cert.Spec.emlp (M := 640000) (V c (Pipeline.arrRef spec11 0)) (V c (Pipeline.arrRef spec11 1)) (V c (Pipeline.arrRef spec11 2))
    (V c (Pipeline.arrRef spec11 3)) (V c (Pipeline.arrRef spec11 4)) (V c (Pipeline.arrRef spec11 5)) (V c (Pipeline.arrRef spec11 6))

/-- What point t writes back is block t of the edge update of the whole arrays. -/
theorem flushed11_eq (c : Dev nD) (t : Fin cfg11.N) :
    (dat11 (F := Ideal) V c).flushed 7 t = ((cfg11.win 7).blk t).view.read (Elt Ideal) (G11 V c) := by
  show (cfg11.win 7).cut (grid11.coords t) ((dat11 (F := Ideal) V c).after 7 t) = _
  rw [after11_7]
  unfold out11_7
  rw [View.canon_unit_zero origin11]
  simp only [View.ld_unit_zero (S := S10000x64) origin11, View.ld_unit_zero (S := S192x64) origin11,
    View.ld_unit_zero (S := S1x64) origin11, View.ld_unit_zero (S := S64x64) origin11]
  funext j
  obtain ⟨p, q, rfl⟩ : ∃ (p : Fin 10000) (q : Fin 64), j = ix2 p q := ⟨j 0, j 1, eq_ix2 j⟩
  show k11_pay1 (F := Ideal) (iblk11 V c 0 t) (iblk11 V c 1 t) (iblk11 V c 2 t) (iblk11 V c 3 t) (iblk11 V c 4 t)
      (iblk11 V c 5 t) (iblk11 V c 6 t) (iblk11 V c 2 t) (ix2 p q)
    = G11 V c (((cfg11.win 7).blk t).view.emb (ix2 p q))
  rw [emb11_7 t p q]
  refine (pay11_apply (iblk11 V c 0 t) (iblk11 V c 1 t) (iblk11 V c 2 t) (iblk11 V c 3 t) (iblk11 V c 4 t)
      (iblk11 V c 5 t) (iblk11 V c 6 t) p q).trans ?_
  exact emlp_row11 (V c (Pipeline.arrRef spec11 0)) (V c (Pipeline.arrRef spec11 1)) (V c (Pipeline.arrRef spec11 2))
    (iblk11 V c 0 t) (iblk11 V c 1 t) (iblk11 V c 2 t)
    (V c (Pipeline.arrRef spec11 3)) (iblk11 V c 3 t) (V c (Pipeline.arrRef spec11 4)) (iblk11 V c 4 t)
    (V c (Pipeline.arrRef spec11 5)) (iblk11 V c 5 t) (V c (Pipeline.arrRef spec11 6)) (iblk11 V c 6 t)
    (row11 t p) p (blk11_0 V c t p) (blk11_1 V c t p) (blk11_2 V c t p)
    (whole11_3 V c t) (whole11_4 V c t) (whole11_5 V c t) (whole11_6 V c t) q

/-- An entry of the result array is in point t's block iff each coordinate is in the block's range on its axis. -/
theorem mem_blk11 (t : Fin cfg11.N) (i : S640000x64.Idx) :
    i ∈ ((cfg11.win 7).blk t).view.set ↔ ∀ a : Fin 2, win11_7.index t a * S10000x64.size a ≤ (i a).val
      ∧ (i a).val < win11_7.index t a * S10000x64.size a + S10000x64.size a := by
  show i ∈ ((View.whole main_v143).slice (win11_7.rect t)).set ↔ _
  rw [View.set_slice_whole, Rect.mem_set_unit]
  exact Iff.rfl

/-- The blocks tile the array: row r is in the block of point r / 10000. -/
theorem cover11 (i : S640000x64.Idx) :
    ∃ t : Fin cfg11.N, (cfg11.win 7).flush t = true ∧ i ∈ ((cfg11.win 7).blk t).view.set := by
  have hi0 : (i 0).val < 640000 := (i 0).isLt
  have hi1 : (i 1).val < 64 := (i 1).isLt
  have hN : grid11.N = 64 := N_11
  let t : Fin cfg11.N := ⟨(i 0).val / 10000, by show (i 0).val / 10000 < grid11.N; rw [hN]; omega⟩
  obtain ⟨e00, e01, e10, e11, e20, e21, e30, e31, e40, e41, e50, e51, e60, e61, e70, e71⟩ := block_index11 t
  have ht : t.val = (i 0).val / 10000 := rfl
  refine ⟨t, flush11_7 t, ?_⟩
  rw [mem_blk11]
  intro a
  match a with
  | ⟨0, _⟩ =>
    show win11_7.index t (0 : Fin 2) * 10000 ≤ (i 0).val ∧ (i 0).val < win11_7.index t (0 : Fin 2) * 10000 + 10000
    omega
  | ⟨1, _⟩ =>
    show win11_7.index t (1 : Fin 2) * 64 ≤ (i 1).val ∧ (i 1).val < win11_7.index t (1 : Fin 2) * 64 + 64
    omega

/-- The result array after the region: the edge update of the arrays the region was entered with. -/
theorem final11 (c : Dev nD) :
    (dat11 (F := Ideal) V c).arrAt 7 cfg11.N
      = Cert.Spec.emlp (M := 640000) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (V c (Pipeline.arrRef spec11 6)) :=
  (dat11 (F := Ideal) V c).arrAt_eq_of_cover 7 (G11 V c) (fun t _ => flushed11_eq V c t) (cover11)

end Cert.KernelIdeal.RegionValue

end
-- ==== Proof.Region12.lean ====
/-
  Region 12: the read-out. Each of the 64 grid points takes the rows 10000 t .. 10000 t + 9999 of the two gathered node
  arrays and of the edge array, joins the two node blocks side by side and rectifies the join, joins the result with the
  edge block (not rectified) into 192 columns, and runs three layers 192 → 50 → 25 → 1 on it, the first two rectified,
  against the whole weight and bias arrays. Row p of block t is row 10000 t + p of the arrays and every layer is
  row-local, so the blocks are the restrictions of one whole-array function, and they tile the 640000 rows.
-/
import proofs.«156771_j85263690760421_1_alg».proof.Proof.Gen.KernelIdeal.Frame
import proofs.«156771_j85263690760421_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One grid point's payload at an entry of its block -/

/-- The rectified join of the two node blocks, joined with the edge block: one block of 192 columns. -/
abbrev joined12 (x0 x1 x2 : Vec Ideal S10000x64 .f32) : FVec Ideal S10000x192 .f32 :=
  concatenate S10000x192 1
    [⟨S10000x128, maximumf (φ := .f32)
        (concatenate S10000x128 1 [⟨S10000x64, x0⟩, ⟨S10000x64, x1⟩] concatenates_S10000x64_S10000x64_S10000x128_d1)
        (broadcast S10000x128 (Scalar.ofBits (F := Ideal) .f32 0x00000000#32))⟩,
     ⟨S10000x64, x2⟩]
    concatenates_S10000x128_S10000x64_S10000x192_d1

/-- The join read at row p and column j: below column 128 the rectified entry of the node block whose 64 columns hold
    j, from column 128 on the edge block's entry, not rectified. -/
theorem join12_apply (x0 x1 x2 : Vec Ideal S10000x64 .f32) (p : Fin 10000) (j : Fin 192) :
    joined12 x0 x1 x2 (ix2 p j) = Cert.Spec.catRelu (M := 10000) x0 x1 x2 (ix2 p j) := by
  unfold Cert.Spec.catRelu
  have hj := j.isLt
  by_cases h : j.val < 64
  · have h128 : j.val < 128 := by omega
    rw [dif_pos (show ((ix2 p j : S10000x192.Idx) 1).val < 64 from h)]
    refine (concatenate_pair_apply_left (1 : Fin S10000x192.rank) _ x2 concatenates_S10000x128_S10000x64_S10000x192_d1
      (ix2 p j) rfl (ix2 p (⟨j.val, h128⟩ : Fin 128)) (fun b => ?_)).trans ?_
    · match b with
      | ⟨0, _⟩ => rfl
      | ⟨1, _⟩ => rfl
    · show max (concatenate S10000x128 1 [⟨S10000x64, x0⟩, ⟨S10000x64, x1⟩] concatenates_S10000x64_S10000x64_S10000x128_d1
          (ix2 p (⟨j.val, h128⟩ : Fin 128))) (Ideal.ofBits .f32 0x00000000#32) = _
      rw [Ideal.ofBits_zero_f32]
      refine congrArg (max · 0) ?_
      exact concatenate_pair_apply_left (1 : Fin S10000x128.rank) x0 x1 concatenates_S10000x64_S10000x64_S10000x128_d1
        (ix2 p (⟨j.val, h128⟩ : Fin 128)) rfl (ix2 p (⟨j.val, h⟩ : Fin 64)) (fun b => by
          match b with
          | ⟨0, _⟩ => rfl
          | ⟨1, _⟩ => rfl)
  · rw [dif_neg (show ¬ ((ix2 p j : S10000x192.Idx) 1).val < 64 from h)]
    by_cases h' : j.val < 128
    · rw [dif_pos (show ((ix2 p j : S10000x192.Idx) 1).val < 128 from h')]
      refine (concatenate_pair_apply_left (1 : Fin S10000x192.rank) _ x2 concatenates_S10000x128_S10000x64_S10000x192_d1
        (ix2 p j) rfl (ix2 p (⟨j.val, h'⟩ : Fin 128)) (fun b => ?_)).trans ?_
      · match b with
        | ⟨0, _⟩ => rfl
        | ⟨1, _⟩ => rfl
      · show max (concatenate S10000x128 1 [⟨S10000x64, x0⟩, ⟨S10000x64, x1⟩] concatenates_S10000x64_S10000x64_S10000x128_d1
            (ix2 p (⟨j.val, h'⟩ : Fin 128))) (Ideal.ofBits .f32 0x00000000#32) = _
        rw [Ideal.ofBits_zero_f32]
        refine congrArg (max · 0) ?_
        refine concatenate_pair_apply_right (1 : Fin S10000x128.rank) x0 x1 concatenates_S10000x64_S10000x64_S10000x128_d1
          (ix2 p (⟨j.val, h'⟩ : Fin 128)) rfl rfl (ix2 p (⟨j.val - 64, by omega⟩ : Fin 64)) (fun b hb => ?_) ?_
        · match b with
          | ⟨0, _⟩ => rfl
          | ⟨1, _⟩ => exact absurd rfl hb
        · show (j.val - 64) + 64 = j.val; omega
    · rw [dif_neg (show ¬ ((ix2 p j : S10000x192.Idx) 1).val < 128 from h')]
      refine concatenate_pair_apply_right (1 : Fin S10000x192.rank) _ x2 concatenates_S10000x128_S10000x64_S10000x192_d1
        (ix2 p j) rfl rfl (ix2 p (⟨j.val - 128, by omega⟩ : Fin 64)) (fun b hb => ?_) ?_
      · match b with
        | ⟨0, _⟩ => rfl
        | ⟨1, _⟩ => exact absurd rfl hb
      · show (j.val - 128) + 128 = j.val; omega

/-- The same, as an equation of whole blocks. -/
theorem join12_eq (x0 x1 x2 : Vec Ideal S10000x64 .f32) :
    joined12 x0 x1 x2 = Cert.Spec.catRelu (M := 10000) x0 x1 x2 := by
  funext i
  obtain ⟨p, j, rfl⟩ : ∃ (p : Fin 10000) (j : Fin 192), i = ix2 p j := ⟨i 0, i 1, eq_ix2 i⟩
  exact join12_apply x0 x1 x2 p j

/-- A matrix product accumulated into the zero array, read at row p and column q: the sum over the one contracted
    axis of the left operand's row p times the right operand's column q. The four hypotheses say which axis of each
    operand is contracted and that the other axis follows the result's index. -/
theorem matmul12_zero_ix2 {M K N : Nat} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (a : FVec Ideal ⟨2, ![M, K]⟩ .f32) (b : FVec Ideal ⟨2, ![K, N]⟩ .f32) (p : Fin M) (q : Fin N) :
    matmul d none a b (constant (F := Ideal) ⟨2, ![M, N]⟩ .f32 0x00000000#32) (ix2 p q)
      = ∑ k : Fin K, a (ix2 p k) * b (ix2 k q) := by
  refine (Ideal.matmul_constant_zero_apply d none a b (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

/-- A layer's product: 192 columns against the 192 rows of the weights. -/
theorem mm12_192_50 (a : FVec Ideal S10000x192 .f32) (b : FVec Ideal S192x50 .f32) (p : Fin 10000) (q : Fin 50) :
    matmul dot_S10000x192_S192x50_S10000x50_1_0_0_1_n_n none a b (constant (F := Ideal) S10000x50 .f32 0x00000000#32) (ix2 p q)
      = ∑ k : Fin 192, a (ix2 p k) * b (ix2 k q) :=
  matmul12_zero_ix2 dot_S10000x192_S192x50_S10000x50_1_0_0_1_n_n rfl rfl rfl rfl
    (fun j k => by
      unfold DotDims.lhsIdx
      rw [dif_neg (show ¬(0 : Fin S10000x192.rank) ∈ dot_S10000x192_S192x50_S10000x50_1_0_0_1_n_n.lhsBatch by decide), dif_pos (show (0 : Fin S10000x192.rank) ∈ dot_S10000x192_S192x50_S10000x50_1_0_0_1_n_n.lhsNonContracting by decide)]
      rfl)
    (fun j k => by
      unfold DotDims.rhsIdx
      rw [dif_neg (show ¬(1 : Fin S192x50.rank) ∈ dot_S10000x192_S192x50_S10000x50_1_0_0_1_n_n.rhsBatch by decide), dif_pos (show (1 : Fin S192x50.rank) ∈ dot_S10000x192_S192x50_S10000x50_1_0_0_1_n_n.rhsNonContracting by decide)]
      rfl)
    a b p q

/-- A layer before its rectifier, as a whole block: the product plus the bias row spread down the rows. -/
theorem lin12_192_50 (h : FVec Ideal S10000x192 .f32) (w : Vec Ideal S192x50 .f32) (b : Vec Ideal S1x50 .f32) :
    addf (matmul (φ₁ := .f32) (φ₂ := .f32) dot_S10000x192_S192x50_S10000x50_1_0_0_1_n_n none h w (constant (F := Ideal) S10000x50 .f32 0x00000000#32))
        (broadcastTo S10000x50 b broadcasts_S1x50_S10000x50)
      = Cert.Spec.lin (M := 10000) (K := 192) (N := 50) h w b := by
  funext i
  obtain ⟨p, q, rfl⟩ : ∃ (p : Fin 10000) (q : Fin 50), i = ix2 p q := ⟨i 0, i 1, eq_ix2 i⟩
  show matmul (φ₁ := .f32) (φ₂ := .f32) dot_S10000x192_S192x50_S10000x50_1_0_0_1_n_n none h w (constant (F := Ideal) S10000x50 .f32 0x00000000#32) (ix2 p q)
      + broadcastTo S10000x50 b broadcasts_S1x50_S10000x50 (ix2 p q) = _
  rw [mm12_192_50, broadcastTo_1b_ab_apply b broadcasts_S1x50_S10000x50 p q]
  rfl

/-- A layer's product: 50 columns against the 50 rows of the weights. -/
theorem mm12_50_25 (a : FVec Ideal S10000x50 .f32) (b : FVec Ideal S50x25 .f32) (p : Fin 10000) (q : Fin 25) :
    matmul dot_S10000x50_S50x25_S10000x25_1_0_0_1_n_n none a b (constant (F := Ideal) S10000x25 .f32 0x00000000#32) (ix2 p q)
      = ∑ k : Fin 50, a (ix2 p k) * b (ix2 k q) :=
  matmul12_zero_ix2 dot_S10000x50_S50x25_S10000x25_1_0_0_1_n_n rfl rfl rfl rfl
    (fun j k => by
      unfold DotDims.lhsIdx
      rw [dif_neg (show ¬(0 : Fin S10000x50.rank) ∈ dot_S10000x50_S50x25_S10000x25_1_0_0_1_n_n.lhsBatch by decide), dif_pos (show (0 : Fin S10000x50.rank) ∈ dot_S10000x50_S50x25_S10000x25_1_0_0_1_n_n.lhsNonContracting by decide)]
      rfl)
    (fun j k => by
      unfold DotDims.rhsIdx
      rw [dif_neg (show ¬(1 : Fin S50x25.rank) ∈ dot_S10000x50_S50x25_S10000x25_1_0_0_1_n_n.rhsBatch by decide), dif_pos (show (1 : Fin S50x25.rank) ∈ dot_S10000x50_S50x25_S10000x25_1_0_0_1_n_n.rhsNonContracting by decide)]
      rfl)
    a b p q

/-- A layer before its rectifier, as a whole block: the product plus the bias row spread down the rows. -/
theorem lin12_50_25 (h : FVec Ideal S10000x50 .f32) (w : Vec Ideal S50x25 .f32) (b : Vec Ideal S1x25 .f32) :
    addf (matmul (φ₁ := .f32) (φ₂ := .f32) dot_S10000x50_S50x25_S10000x25_1_0_0_1_n_n none h w (constant (F := Ideal) S10000x25 .f32 0x00000000#32))
        (broadcastTo S10000x25 b broadcasts_S1x25_S10000x25)
      = Cert.Spec.lin (M := 10000) (K := 50) (N := 25) h w b := by
  funext i
  obtain ⟨p, q, rfl⟩ : ∃ (p : Fin 10000) (q : Fin 25), i = ix2 p q := ⟨i 0, i 1, eq_ix2 i⟩
  show matmul (φ₁ := .f32) (φ₂ := .f32) dot_S10000x50_S50x25_S10000x25_1_0_0_1_n_n none h w (constant (F := Ideal) S10000x25 .f32 0x00000000#32) (ix2 p q)
      + broadcastTo S10000x25 b broadcasts_S1x25_S10000x25 (ix2 p q) = _
  rw [mm12_50_25, broadcastTo_1b_ab_apply b broadcasts_S1x25_S10000x25 p q]
  rfl

/-- A layer's product: 25 columns against the 25 rows of the weights. -/
theorem mm12_25_1 (a : FVec Ideal S10000x25 .f32) (b : FVec Ideal S25x1 .f32) (p : Fin 10000) (q : Fin 1) :
    matmul dot_S10000x25_S25x1_S10000x1_1_0_0_1_n_n none a b (constant (F := Ideal) S10000x1 .f32 0x00000000#32) (ix2 p q)
      = ∑ k : Fin 25, a (ix2 p k) * b (ix2 k q) :=
  matmul12_zero_ix2 dot_S10000x25_S25x1_S10000x1_1_0_0_1_n_n rfl rfl rfl rfl
    (fun j k => by
      unfold DotDims.lhsIdx
      rw [dif_neg (show ¬(0 : Fin S10000x25.rank) ∈ dot_S10000x25_S25x1_S10000x1_1_0_0_1_n_n.lhsBatch by decide), dif_pos (show (0 : Fin S10000x25.rank) ∈ dot_S10000x25_S25x1_S10000x1_1_0_0_1_n_n.lhsNonContracting by decide)]
      rfl)
    (fun j k => by
      unfold DotDims.rhsIdx
      rw [dif_neg (show ¬(1 : Fin S25x1.rank) ∈ dot_S10000x25_S25x1_S10000x1_1_0_0_1_n_n.rhsBatch by decide), dif_pos (show (1 : Fin S25x1.rank) ∈ dot_S10000x25_S25x1_S10000x1_1_0_0_1_n_n.rhsNonContracting by decide)]
      rfl)
    a b p q

/-- A layer before its rectifier, as a whole block: the product plus the bias row spread down the rows. -/
theorem lin12_25_1 (h : FVec Ideal S10000x25 .f32) (w : Vec Ideal S25x1 .f32) (b : Vec Ideal S1x1 .f32) :
    addf (matmul (φ₁ := .f32) (φ₂ := .f32) dot_S10000x25_S25x1_S10000x1_1_0_0_1_n_n none h w (constant (F := Ideal) S10000x1 .f32 0x00000000#32))
        (broadcastTo S10000x1 b broadcasts_S1x1_S10000x1)
      = Cert.Spec.lin (M := 10000) (K := 25) (N := 1) h w b := by
  funext i
  obtain ⟨p, q, rfl⟩ : ∃ (p : Fin 10000) (q : Fin 1), i = ix2 p q := ⟨i 0, i 1, eq_ix2 i⟩
  show matmul (φ₁ := .f32) (φ₂ := .f32) dot_S10000x25_S25x1_S10000x1_1_0_0_1_n_n none h w (constant (F := Ideal) S10000x1 .f32 0x00000000#32) (ix2 p q)
      + broadcastTo S10000x1 b broadcasts_S1x1_S10000x1 (ix2 p q) = _
  rw [mm12_25_1, broadcastTo_1b_ab_apply b broadcasts_S1x1_S10000x1 p q]
  rfl

/-- The rectifier against the zero block, as a whole block of 50 columns. -/
theorem relu12_50 (y : FVec Ideal S10000x50 .f32) :
    maximumf y (broadcast S10000x50 (Scalar.ofBits (F := Ideal) .f32 0x00000000#32)) = Cert.Spec.relu (M := 10000) (N := 50) y := by
  funext i
  show max (y i) (Ideal.ofBits .f32 0x00000000#32) = max (y i) 0
  rw [Ideal.ofBits_zero_f32]

/-- The rectifier against the zero block, as a whole block of 25 columns. -/
theorem relu12_25 (y : FVec Ideal S10000x25 .f32) :
    maximumf y (broadcast S10000x25 (Scalar.ofBits (F := Ideal) .f32 0x00000000#32)) = Cert.Spec.relu (M := 10000) (N := 25) y := by
  funext i
  show max (y i) (Ideal.ofBits .f32 0x00000000#32) = max (y i) 0
  rw [Ideal.ofBits_zero_f32]

/-- The whole payload of one grid point at row p of its block (its one column q): the read-out of the three row blocks. -/
theorem pay12_apply (x0 x1 x2 : Vec Ideal S10000x64 .f32) (w1 : Vec Ideal S192x50 .f32) (b1 : Vec Ideal S1x50 .f32)
    (w2 : Vec Ideal S50x25 .f32) (b2 : Vec Ideal S1x25 .f32) (w3 : Vec Ideal S25x1 .f32) (b3 : Vec Ideal S1x1 .f32)
    (p : Fin 10000) (q : Fin 1) :
    k12_pay1 (F := Ideal) x0 x1 x2 w1 b1 w2 b2 w3 b3 (ix2 p q)
      = Cert.Spec.readout (M := 10000) x0 x1 x2 w1 b1 w2 b2 w3 b3 (ix2 p q) := by
  unfold k12_pay1
  simp only [shapeCast_self]
  rw [lin12_192_50, relu12_50, lin12_50_25, relu12_25, lin12_25_1]
  refine (congrArg (fun J => Cert.Spec.lin (Cert.Spec.relu (Cert.Spec.lin (Cert.Spec.relu (Cert.Spec.lin J w1 b1)) w2 b2)) w3 b3 (ix2 p q))
    (join12_eq (shapeCast S10000x64 x0 shapeCasts_S10000x64_S10000x64) (shapeCast S10000x64 x1 shapeCasts_S10000x64_S10000x64)
      (shapeCast S10000x64 x2 shapeCasts_S10000x64_S10000x64))).trans ?_
  simp only [shapeCast_self]
  rfl

/-! ## The specification is row-local -/

/-- A layer at row p reads only row p of its operand. -/
theorem lin_row12 {M M' K N : Nat} (x : Cert.Spec.Mat M K) (x' : Cert.Spec.Mat M' K) (w : Cert.Spec.Mat K N) (b : Cert.Spec.Mat 1 N)
    (p : Fin M) (p' : Fin M') (h : ∀ k, x' (ix2 p' k) = x (ix2 p k)) (q : Fin N) :
    Cert.Spec.lin x' w b (ix2 p' q) = Cert.Spec.lin x w b (ix2 p q) := by
  show (∑ k : Fin K, x' (ix2 p' k) * w (ix2 k q)) + b (ix2 (0 : Fin 1) q)
    = (∑ k : Fin K, x (ix2 p k) * w (ix2 k q)) + b (ix2 (0 : Fin 1) q)
  rw [Finset.sum_congr rfl fun k _ => by rw [h k]]

/-- The rectifier is entrywise. -/
theorem relu_row12 {M M' N : Nat} (x : Cert.Spec.Mat M N) (x' : Cert.Spec.Mat M' N) (p : Fin M) (p' : Fin M')
    (h : ∀ k, x' (ix2 p' k) = x (ix2 p k)) (k : Fin N) :
    Cert.Spec.relu x' (ix2 p' k) = Cert.Spec.relu x (ix2 p k) := by
  show max (x' (ix2 p' k)) 0 = max (x (ix2 p k)) 0
  rw [h k]

/-- The rectified join at row p reads only row p of its three operands. -/
theorem catRelu_row12 {M M' : Nat} (xs xd e : Cert.Spec.Mat M 64) (xs' xd' e' : Cert.Spec.Mat M' 64) (p : Fin M) (p' : Fin M')
    (hs : ∀ k, xs' (ix2 p' k) = xs (ix2 p k)) (hd : ∀ k, xd' (ix2 p' k) = xd (ix2 p k))
    (he : ∀ k, e' (ix2 p' k) = e (ix2 p k)) (j : Fin 192) :
    Cert.Spec.catRelu xs' xd' e' (ix2 p' j) = Cert.Spec.catRelu xs xd e (ix2 p j) := by
  unfold Cert.Spec.catRelu
  by_cases h : j.val < 64
  · rw [dif_pos (show ((ix2 p' j : (⟨2, ![M', 192]⟩ : Shape).Idx) 1).val < 64 from h),
      dif_pos (show ((ix2 p j : (⟨2, ![M, 192]⟩ : Shape).Idx) 1).val < 64 from h)]
    exact congrArg (max · 0) (hs _)
  · rw [dif_neg (show ¬ ((ix2 p' j : (⟨2, ![M', 192]⟩ : Shape).Idx) 1).val < 64 from h),
      dif_neg (show ¬ ((ix2 p j : (⟨2, ![M, 192]⟩ : Shape).Idx) 1).val < 64 from h)]
    by_cases h' : j.val < 128
    · rw [dif_pos (show ((ix2 p' j : (⟨2, ![M', 192]⟩ : Shape).Idx) 1).val < 128 from h'),
        dif_pos (show ((ix2 p j : (⟨2, ![M, 192]⟩ : Shape).Idx) 1).val < 128 from h')]
      exact congrArg (max · 0) (hd _)
    · rw [dif_neg (show ¬ ((ix2 p' j : (⟨2, ![M', 192]⟩ : Shape).Idx) 1).val < 128 from h'),
        dif_neg (show ¬ ((ix2 p j : (⟨2, ![M, 192]⟩ : Shape).Idx) 1).val < 128 from h')]
      exact he _

/-- The read-out at row p reads only row p of the three row-tiled operands (and all of the weights). -/
theorem readout_row12 {M M' : Nat} (xs xd e : Cert.Spec.Mat M 64) (xs' xd' e' : Cert.Spec.Mat M' 64)
    (w1 w1' : Cert.Spec.Mat 192 50) (b1 b1' : Cert.Spec.Mat 1 50) (w2 w2' : Cert.Spec.Mat 50 25) (b2 b2' : Cert.Spec.Mat 1 25)
    (w3 w3' : Cert.Spec.Mat 25 1) (b3 b3' : Cert.Spec.Mat 1 1)
    (p : Fin M) (p' : Fin M')
    (hs : ∀ k, xs' (ix2 p' k) = xs (ix2 p k)) (hd : ∀ k, xd' (ix2 p' k) = xd (ix2 p k))
    (he : ∀ k, e' (ix2 p' k) = e (ix2 p k))
    (hw1 : w1' = w1) (hb1 : b1' = b1) (hw2 : w2' = w2) (hb2 : b2' = b2) (hw3 : w3' = w3) (hb3 : b3' = b3) (q : Fin 1) :
    Cert.Spec.readout xs' xd' e' w1' b1' w2' b2' w3' b3' (ix2 p' q) = Cert.Spec.readout xs xd e w1 b1 w2 b2 w3 b3 (ix2 p q) := by
  subst hw1 hb1 hw2 hb2 hw3 hb3
  unfold Cert.Spec.readout
  exact lin_row12 _ _ w3' b3' p p' (fun k2 => relu_row12 _ _ p p' (fun k1 => lin_row12 _ _ w2' b2' p p'
    (fun k0 => relu_row12 _ _ p p' (fun j => lin_row12 _ _ w1' b1' p p'
      (catRelu_row12 xs xd e xs' xd' e' p p' hs hd he) j) k0) k1) k2) q

/-! ## From the blocks to the array -/

variable (V : (c : Dev nD) → (b : Ref sig .tc) → Buf (Elt Ideal) ((c : Thread nD τ).loc b))

/-- Every access of the body starts at the origin of its staging buffer. -/
theorem origin12 : (![0, 0] : Fin 2 → Nat) = fun _ => 0 := funext fun a => by fin_cases a <;> rfl

/-- The block index of every window at every grid point, decided over the 64 points: the three row-tiled operands and
    the result are at block t of the rows; the weights and biases stay at block 0; every window is at block 0 of the
    columns. -/
theorem block_index12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0
    ∧ win12_8.index t (0 : Fin 2) = 0 ∧ win12_8.index t (1 : Fin 2) = 0
    ∧ win12_9.index t (0 : Fin 2) = t.val ∧ win12_9.index t (1 : Fin 2) = 0 :=
  (by decide +kernel : ∀ t : Fin grid12.N, _)

/-- Row p of block t is row 10000 t + p of the array. -/
def row12 (t : Fin cfg12.N) (p : Fin 10000) : Fin 640000 :=
  ⟨t.val * 10000 + p.val, by
    have ht : t.val < grid12.N := t.isLt
    rw [N_12] at ht
    have := p.isLt
    omega⟩

/-- Where entry (p, k) of window 0's block at point t sits in its array. -/
theorem emb12_0 (t : Fin cfg12.N) (p : Fin 10000) (k : Fin 64) :
    ((cfg12.win 0).blk t).view.emb (ix2 p k) = ix2 (row12 t p) k := by
  obtain ⟨e00, e01, e10, e11, e20, e21, e30, e31, e40, e41, e50, e51, e60, e61, e70, e71, e80, e81, e90, e91⟩ := block_index12 t
  funext a; apply Fin.ext
  match a with
  | ⟨0, _⟩ => show win12_0.index t (0 : Fin 2) * 10000 + 1 * p.val = t.val * 10000 + p.val; omega
  | ⟨1, _⟩ => show win12_0.index t (1 : Fin 2) * 64 + 1 * k.val = k.val; omega

/-- Where entry (p, k) of window 1's block at point t sits in its array. -/
theorem emb12_1 (t : Fin cfg12.N) (p : Fin 10000) (k : Fin 64) :
    ((cfg12.win 1).blk t).view.emb (ix2 p k) = ix2 (row12 t p) k := by
  obtain ⟨e00, e01, e10, e11, e20, e21, e30, e31, e40, e41, e50, e51, e60, e61, e70, e71, e80, e81, e90, e91⟩ := block_index12 t
  funext a; apply Fin.ext
  match a with
  | ⟨0, _⟩ => show win12_1.index t (0 : Fin 2) * 10000 + 1 * p.val = t.val * 10000 + p.val; omega
  | ⟨1, _⟩ => show win12_1.index t (1 : Fin 2) * 64 + 1 * k.val = k.val; omega

/-- Where entry (p, k) of window 2's block at point t sits in its array. -/
theorem emb12_2 (t : Fin cfg12.N) (p : Fin 10000) (k : Fin 64) :
    ((cfg12.win 2).blk t).view.emb (ix2 p k) = ix2 (row12 t p) k := by
  obtain ⟨e00, e01, e10, e11, e20, e21, e30, e31, e40, e41, e50, e51, e60, e61, e70, e71, e80, e81, e90, e91⟩ := block_index12 t
  funext a; apply Fin.ext
  match a with
  | ⟨0, _⟩ => show win12_2.index t (0 : Fin 2) * 10000 + 1 * p.val = t.val * 10000 + p.val; omega
  | ⟨1, _⟩ => show win12_2.index t (1 : Fin 2) * 64 + 1 * k.val = k.val; omega

/-- Where entry (p, k) of window 9's block at point t sits in its array. -/
theorem emb12_9 (t : Fin cfg12.N) (p : Fin 10000) (k : Fin 1) :
    ((cfg12.win 9).blk t).view.emb (ix2 p k) = ix2 (row12 t p) k := by
  obtain ⟨e00, e01, e10, e11, e20, e21, e30, e31, e40, e41, e50, e51, e60, e61, e70, e71, e80, e81, e90, e91⟩ := block_index12 t
  funext a; apply Fin.ext
  match a with
  | ⟨0, _⟩ => show win12_9.index t (0 : Fin 2) * 10000 + 1 * p.val = t.val * 10000 + p.val; omega
  | ⟨1, _⟩ => show win12_9.index t (1 : Fin 2) * 1 + 1 * k.val = k.val; omega

/-- Window 3's one block is the whole array. -/
theorem emb12_3 (t : Fin cfg12.N) (y : S192x50.Idx) : ((cfg12.win 3).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_3.index t (0 : Fin 2) * 192 + 1 * (y 0).val = (y 0).val; omega
  | ⟨1, _⟩ => show win12_3.index t (1 : Fin 2) * 50 + 1 * (y 1).val = (y 1).val; omega

/-- Window 4's one block is the whole array. -/
theorem emb12_4 (t : Fin cfg12.N) (y : S1x50.Idx) : ((cfg12.win 4).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_4.index t (0 : Fin 2) * 1 + 1 * (y 0).val = (y 0).val; omega
  | ⟨1, _⟩ => show win12_4.index t (1 : Fin 2) * 50 + 1 * (y 1).val = (y 1).val; omega

/-- Window 5's one block is the whole array. -/
theorem emb12_5 (t : Fin cfg12.N) (y : S50x25.Idx) : ((cfg12.win 5).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_5.index t (0 : Fin 2) * 50 + 1 * (y 0).val = (y 0).val; omega
  | ⟨1, _⟩ => show win12_5.index t (1 : Fin 2) * 25 + 1 * (y 1).val = (y 1).val; omega

/-- Window 6's one block is the whole array. -/
theorem emb12_6 (t : Fin cfg12.N) (y : S1x25.Idx) : ((cfg12.win 6).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_6.index t (0 : Fin 2) * 1 + 1 * (y 0).val = (y 0).val; omega
  | ⟨1, _⟩ => show win12_6.index t (1 : Fin 2) * 25 + 1 * (y 1).val = (y 1).val; omega

/-- Window 7's one block is the whole array. -/
theorem emb12_7 (t : Fin cfg12.N) (y : S25x1.Idx) : ((cfg12.win 7).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_7.index t (0 : Fin 2) * 25 + 1 * (y 0).val = (y 0).val; omega
  | ⟨1, _⟩ => show win12_7.index t (1 : Fin 2) * 1 + 1 * (y 1).val = (y 1).val; omega

/-- Window 8's one block is the whole array. -/
theorem emb12_8 (t : Fin cfg12.N) (y : S1x1.Idx) : ((cfg12.win 8).blk t).view.emb y = y := by
  obtain ⟨e00, e01, e10, e11, e20, e21, e30, e31, e40, e41, e50, e51, e60, e61, e70, e71, e80, e81, e90, e91⟩ := block_index12 t
  funext a; apply Fin.ext
  match a with
  | ⟨0, _⟩ => show win12_8.index t (0 : Fin 2) * 1 + 1 * (y 0).val = (y 0).val; omega
  | ⟨1, _⟩ => show win12_8.index t (1 : Fin 2) * 1 + 1 * (y 1).val = (y 1).val; omega

/-- Operand 0's block at point t, at an entry: the array at the entry's row of the array. -/
theorem blk12_0 (c : Dev nD) (t : Fin cfg12.N) (p : Fin 10000) (k : Fin 64) :
    iblk12 V c 0 t (ix2 p k) = (V c (Pipeline.arrRef spec12 0) : Cert.Spec.Mat 640000 64) (ix2 (row12 t p) k) := by
  show V c (Pipeline.arrRef spec12 0) (((cfg12.win 0).blk t).view.emb (ix2 p k)) = _
  rw [emb12_0 t p k]

/-- Operand 1's block at point t, at an entry: the array at the entry's row of the array. -/
theorem blk12_1 (c : Dev nD) (t : Fin cfg12.N) (p : Fin 10000) (k : Fin 64) :
    iblk12 V c 1 t (ix2 p k) = (V c (Pipeline.arrRef spec12 1) : Cert.Spec.Mat 640000 64) (ix2 (row12 t p) k) := by
  show V c (Pipeline.arrRef spec12 1) (((cfg12.win 1).blk t).view.emb (ix2 p k)) = _
  rw [emb12_1 t p k]

/-- Operand 2's block at point t, at an entry: the array at the entry's row of the array. -/
theorem blk12_2 (c : Dev nD) (t : Fin cfg12.N) (p : Fin 10000) (k : Fin 64) :
    iblk12 V c 2 t (ix2 p k) = (V c (Pipeline.arrRef spec12 2) : Cert.Spec.Mat 640000 64) (ix2 (row12 t p) k) := by
  show V c (Pipeline.arrRef spec12 2) (((cfg12.win 2).blk t).view.emb (ix2 p k)) = _
  rw [emb12_2 t p k]

/-- Window 3's block at every point is its whole array. -/
theorem whole12_3 (c : Dev nD) (t : Fin cfg12.N) :
    (iblk12 V c 3 t : Cert.Spec.Mat 192 50) = (V c (Pipeline.arrRef spec12 3) : Cert.Spec.Mat 192 50) := by
  funext y
  show V c (Pipeline.arrRef spec12 3) (((cfg12.win 3).blk t).view.emb y) = _
  rw [emb12_3 t y]

/-- Window 4's block at every point is its whole array. -/
theorem whole12_4 (c : Dev nD) (t : Fin cfg12.N) :
    (iblk12 V c 4 t : Cert.Spec.Mat 1 50) = (V c (Pipeline.arrRef spec12 4) : Cert.Spec.Mat 1 50) := by
  funext y
  show V c (Pipeline.arrRef spec12 4) (((cfg12.win 4).blk t).view.emb y) = _
  rw [emb12_4 t y]

/-- Window 5's block at every point is its whole array. -/
theorem whole12_5 (c : Dev nD) (t : Fin cfg12.N) :
    (iblk12 V c 5 t : Cert.Spec.Mat 50 25) = (V c (Pipeline.arrRef spec12 5) : Cert.Spec.Mat 50 25) := by
  funext y
  show V c (Pipeline.arrRef spec12 5) (((cfg12.win 5).blk t).view.emb y) = _
  rw [emb12_5 t y]

/-- Window 6's block at every point is its whole array. -/
theorem whole12_6 (c : Dev nD) (t : Fin cfg12.N) :
    (iblk12 V c 6 t : Cert.Spec.Mat 1 25) = (V c (Pipeline.arrRef spec12 6) : Cert.Spec.Mat 1 25) := by
  funext y
  show V c (Pipeline.arrRef spec12 6) (((cfg12.win 6).blk t).view.emb y) = _
  rw [emb12_6 t y]

/-- Window 7's block at every point is its whole array. -/
theorem whole12_7 (c : Dev nD) (t : Fin cfg12.N) :
    (iblk12 V c 7 t : Cert.Spec.Mat 25 1) = (V c (Pipeline.arrRef spec12 7) : Cert.Spec.Mat 25 1) := by
  funext y
  show V c (Pipeline.arrRef spec12 7) (((cfg12.win 7).blk t).view.emb y) = _
  rw [emb12_7 t y]

/-- Window 8's block at every point is its whole array. -/
theorem whole12_8 (c : Dev nD) (t : Fin cfg12.N) :
    (iblk12 V c 8 t : Cert.Spec.Mat 1 1) = (V c (Pipeline.arrRef spec12 8) : Cert.Spec.Mat 1 1) := by
  funext y
  show V c (Pipeline.arrRef spec12 8) (((cfg12.win 8).blk t).view.emb y) = _
  rw [emb12_8 t y]

/-- The read-out of the arrays as the region finds them. -/
abbrev G12 (c : Dev nD) : Cert.Spec.Mat 640000 1 :=
  Cert.Spec.readout (M := 640000) (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8))

/-- What point t writes back is block t of the read-out of the whole arrays. -/
theorem flushed12_eq (c : Dev nD) (t : Fin cfg12.N) :
    (dat12 (F := Ideal) V c).flushed 9 t = ((cfg12.win 9).blk t).view.read (Elt Ideal) (G12 V c) := by
  show (cfg12.win 9).cut (grid12.coords t) ((dat12 (F := Ideal) V c).after 9 t) = _
  rw [after12_9]
  unfold out12_9
  rw [View.canon_unit_zero origin12]
  simp only [View.ld_unit_zero (S := S10000x64) origin12, View.ld_unit_zero (S := S192x50) origin12,
    View.ld_unit_zero (S := S1x50) origin12, View.ld_unit_zero (S := S50x25) origin12, View.ld_unit_zero (S := S1x25) origin12,
    View.ld_unit_zero (S := S25x1) origin12, View.ld_unit_zero (S := S1x1) origin12]
  funext j
  obtain ⟨p, q, rfl⟩ : ∃ (p : Fin 10000) (q : Fin 1), j = ix2 p q := ⟨j 0, j 1, eq_ix2 j⟩
  show k12_pay1 (F := Ideal) (iblk12 V c 0 t) (iblk12 V c 1 t) (iblk12 V c 2 t) (iblk12 V c 3 t) (iblk12 V c 4 t) (iblk12 V c 5 t) (iblk12 V c 6 t) (iblk12 V c 7 t) (iblk12 V c 8 t) (ix2 p q)
    = G12 V c (((cfg12.win 9).blk t).view.emb (ix2 p q))
  rw [emb12_9 t p q]
  refine (pay12_apply (iblk12 V c 0 t) (iblk12 V c 1 t) (iblk12 V c 2 t) (iblk12 V c 3 t) (iblk12 V c 4 t) (iblk12 V c 5 t) (iblk12 V c 6 t) (iblk12 V c 7 t) (iblk12 V c 8 t) p q).trans ?_
  exact readout_row12 (V c (Pipeline.arrRef spec12 0)) (V c (Pipeline.arrRef spec12 1)) (V c (Pipeline.arrRef spec12 2))
    (iblk12 V c 0 t) (iblk12 V c 1 t) (iblk12 V c 2 t)
    (V c (Pipeline.arrRef spec12 3)) (iblk12 V c 3 t) (V c (Pipeline.arrRef spec12 4)) (iblk12 V c 4 t) (V c (Pipeline.arrRef spec12 5)) (iblk12 V c 5 t) (V c (Pipeline.arrRef spec12 6)) (iblk12 V c 6 t) (V c (Pipeline.arrRef spec12 7)) (iblk12 V c 7 t) (V c (Pipeline.arrRef spec12 8)) (iblk12 V c 8 t)
    (row12 t p) p (blk12_0 V c t p) (blk12_1 V c t p) (blk12_2 V c t p)
    (whole12_3 V c t) (whole12_4 V c t) (whole12_5 V c t) (whole12_6 V c t) (whole12_7 V c t) (whole12_8 V c t) q

/-- An entry of the result array is in point t's block iff each coordinate is in the block's range on its axis. -/
theorem mem_blk12 (t : Fin cfg12.N) (i : S640000x1.Idx) :
    i ∈ ((cfg12.win 9).blk t).view.set ↔ ∀ a : Fin 2, win12_9.index t a * S10000x1.size a ≤ (i a).val
      ∧ (i a).val < win12_9.index t a * S10000x1.size a + S10000x1.size a := by
  show i ∈ ((View.whole main_v161).slice (win12_9.rect t)).set ↔ _
  rw [View.set_slice_whole, Rect.mem_set_unit]
  exact Iff.rfl

/-- The blocks tile the array: row r is in the block of point r / 10000. -/
theorem cover12 (i : S640000x1.Idx) :
    ∃ t : Fin cfg12.N, (cfg12.win 9).flush t = true ∧ i ∈ ((cfg12.win 9).blk t).view.set := by
  have hi0 : (i 0).val < 640000 := (i 0).isLt
  have hi1 : (i 1).val < 1 := (i 1).isLt
  have hN : grid12.N = 64 := N_12
  let t : Fin cfg12.N := ⟨(i 0).val / 10000, by show (i 0).val / 10000 < grid12.N; rw [hN]; omega⟩
  obtain ⟨e00, e01, e10, e11, e20, e21, e30, e31, e40, e41, e50, e51, e60, e61, e70, e71, e80, e81, e90, e91⟩ := block_index12 t
  have ht : t.val = (i 0).val / 10000 := rfl
  refine ⟨t, flush12_9 t, ?_⟩
  rw [mem_blk12]
  intro a
  match a with
  | ⟨0, _⟩ =>
    show win12_9.index t (0 : Fin 2) * 10000 ≤ (i 0).val ∧ (i 0).val < win12_9.index t (0 : Fin 2) * 10000 + 10000
    omega
  | ⟨1, _⟩ =>
    show win12_9.index t (1 : Fin 2) * 1 ≤ (i 1).val ∧ (i 1).val < win12_9.index t (1 : Fin 2) * 1 + 1
    omega

/-- The result array after the region: the read-out of the arrays the region was entered with. -/
theorem final12 (c : Dev nD) :
    (dat12 (F := Ideal) V c).arrAt 9 cfg12.N
      = Cert.Spec.readout (M := 640000) (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) :=
  (dat12 (F := Ideal) V c).arrAt_eq_of_cover 9 (G12 V c) (fun t _ => flushed12_eq V c t) (cover12)

end Cert.KernelIdeal.RegionValue

end
-- ==== Proof.ChainStages.lean ====
/-
  The run's fold read stage by stage.

  At each boundary of the fold the buffers the next segment reads are named as the network's stages of the launch
  arguments: a region's output array is the stage function of its input arrays (the region's value lemma), whose
  contents were fixed at earlier boundaries; a host stretch's results are the program's re-layouts, gathers,
  scatter-sum and batch statistics of buffers fixed earlier. At the last boundary the two result buffers are the
  network's node features after two layers and its edge read-out.
-/
import proofs.«156771_j85263690760421_1_alg».proof.Proof.ChainKeep
import proofs.«156771_j85263690760421_1_alg».proof.Proof.KArgs
import proofs.«156771_j85263690760421_1_alg».proof.Proof.KGlue
import proofs.«156771_j85263690760421_1_alg».proof.Proof.Region0
import proofs.«156771_j85263690760421_1_alg».proof.Proof.Region1
import proofs.«156771_j85263690760421_1_alg».proof.Proof.Region2
import proofs.«156771_j85263690760421_1_alg».proof.Proof.Region3
import proofs.«156771_j85263690760421_1_alg».proof.Proof.Region4
import proofs.«156771_j85263690760421_1_alg».proof.Proof.Region5
import proofs.«156771_j85263690760421_1_alg».proof.Proof.Region6
import proofs.«156771_j85263690760421_1_alg».proof.Proof.Region7
import proofs.«156771_j85263690760421_1_alg».proof.Proof.Region8
import proofs.«156771_j85263690760421_1_alg».proof.Proof.Region9
import proofs.«156771_j85263690760421_1_alg».proof.Proof.Region10
import proofs.«156771_j85263690760421_1_alg».proof.Proof.Region11
import proofs.«156771_j85263690760421_1_alg».proof.Proof.Region12

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

/-! ## A function of several arguments at equal arguments -/

theorem congr1 {α0 β : Sort _} (f : α0 → β)
    {a0 b0 : α0} (h0 : a0 = b0) :
    f a0 = f b0 := by
  subst h0; rfl

theorem congr3 {α0 α1 α2 β : Sort _} (f : α0 → α1 → α2 → β)
    {a0 b0 : α0} (h0 : a0 = b0) {a1 b1 : α1} (h1 : a1 = b1) {a2 b2 : α2} (h2 : a2 = b2) :
    f a0 a1 a2 = f b0 b1 b2 := by
  subst h0; subst h1; subst h2; rfl

theorem congr4 {α0 α1 α2 α3 β : Sort _} (f : α0 → α1 → α2 → α3 → β)
    {a0 b0 : α0} (h0 : a0 = b0) {a1 b1 : α1} (h1 : a1 = b1) {a2 b2 : α2} (h2 : a2 = b2) {a3 b3 : α3} (h3 : a3 = b3) :
    f a0 a1 a2 a3 = f b0 b1 b2 b3 := by
  subst h0; subst h1; subst h2; subst h3; rfl

theorem congr6 {α0 α1 α2 α3 α4 α5 β : Sort _} (f : α0 → α1 → α2 → α3 → α4 → α5 → β)
    {a0 b0 : α0} (h0 : a0 = b0) {a1 b1 : α1} (h1 : a1 = b1) {a2 b2 : α2} (h2 : a2 = b2) {a3 b3 : α3} (h3 : a3 = b3) {a4 b4 : α4} (h4 : a4 = b4) {a5 b5 : α5} (h5 : a5 = b5) :
    f a0 a1 a2 a3 a4 a5 = f b0 b1 b2 b3 b4 b5 := by
  subst h0; subst h1; subst h2; subst h3; subst h4; subst h5; rfl

theorem congr7 {α0 α1 α2 α3 α4 α5 α6 β : Sort _} (f : α0 → α1 → α2 → α3 → α4 → α5 → α6 → β)
    {a0 b0 : α0} (h0 : a0 = b0) {a1 b1 : α1} (h1 : a1 = b1) {a2 b2 : α2} (h2 : a2 = b2) {a3 b3 : α3} (h3 : a3 = b3) {a4 b4 : α4} (h4 : a4 = b4) {a5 b5 : α5} (h5 : a5 = b5) {a6 b6 : α6} (h6 : a6 = b6) :
    f a0 a1 a2 a3 a4 a5 a6 = f b0 b1 b2 b3 b4 b5 b6 := by
  subst h0; subst h1; subst h2; subst h3; subst h4; subst h5; subst h6; rfl

theorem congr9 {α0 α1 α2 α3 α4 α5 α6 α7 α8 β : Sort _} (f : α0 → α1 → α2 → α3 → α4 → α5 → α6 → α7 → α8 → β)
    {a0 b0 : α0} (h0 : a0 = b0) {a1 b1 : α1} (h1 : a1 = b1) {a2 b2 : α2} (h2 : a2 = b2) {a3 b3 : α3} (h3 : a3 = b3) {a4 b4 : α4} (h4 : a4 = b4) {a5 b5 : α5} (h5 : a5 = b5) {a6 b6 : α6} (h6 : a6 = b6) {a7 b7 : α7} (h7 : a7 = b7) {a8 b8 : α8} (h8 : a8 = b8) :
    f a0 a1 a2 a3 a4 a5 a6 a7 a8 = f b0 b1 b2 b3 b4 b5 b6 b7 b8 := by
  subst h0; subst h1; subst h2; subst h3; subst h4; subst h5; subst h6; subst h7; subst h8; rfl

/-! ## The stages, boundary by boundary -/

theorem S_v0 (c : Dev nD) : W1 m ρ c (Proc.devRef .tc main_v0) = (Cert.Spec.row (argsK m c).nb) := by
  show StableHlo.after hostOps0 (W0 m ρ c) (Proc.devRef .tc main_v0) = _
  dsimp only [hostOps0]
  after_results
  exact Cert.KernelIdeal.Glue.row_S64 _

theorem S_v1 (c : Dev nD) : W2 m ρ c (Proc.devRef .tc main_v1) = (Cert.Spec.x0 (argsK m c)) := by
  have h0 : V1 m ρ c (Pipeline.arrRef spec0 0) = (argsK m c).x := (at1_arg0 m ρ c).trans rfl
  have h1 : V1 m ρ c (Pipeline.arrRef spec0 1) = (argsK m c).nw := (at1_arg4 m ρ c).trans rfl
  have h2 : V1 m ρ c (Pipeline.arrRef spec0 2) = (Cert.Spec.row (argsK m c).nb) := S_v0 m ρ c
  refine ((out0_3 m ρ c).trans (Cert.KernelIdeal.RegionValue.final0 (V1 m ρ) c)).trans ?_
  exact congr3 (Cert.Spec.lin (M := 100000) (K := 32) (N := 64)) h0 h1 h2

theorem S_v2 (c : Dev nD) : W3 m ρ c (Proc.devRef .tc main_v2) = (Cert.Spec.row (argsK m c).eb) := by
  show StableHlo.after hostOps1 (W2 m ρ c) (Proc.devRef .tc main_v2) = _
  dsimp only [hostOps1]
  after_results
  rw [at2_arg7 m ρ c]
  exact Cert.KernelIdeal.Glue.row_S64 _

theorem S_v3 (c : Dev nD) : W4 m ρ c (Proc.devRef .tc main_v3) = (Cert.Spec.e0 (argsK m c)) := by
  have h0 : V3 m ρ c (Pipeline.arrRef spec1 0) = (argsK m c).ea := (at3_arg1 m ρ c).trans rfl
  have h1 : V3 m ρ c (Pipeline.arrRef spec1 1) = (argsK m c).ew := (at3_arg6 m ρ c).trans rfl
  have h2 : V3 m ρ c (Pipeline.arrRef spec1 2) = (Cert.Spec.row (argsK m c).eb) := S_v2 m ρ c
  refine ((out1_3 m ρ c).trans (Cert.KernelIdeal.RegionValue.final1 (V3 m ρ) c)).trans ?_
  exact congr3 (Cert.Spec.lin (M := 640000) (K := 16) (N := 64)) h0 h1 h2

theorem S_v10 (c : Dev nD) : W5 m ρ c (Proc.devRef .tc main_v10) = ((argsK m c).gS (Cert.Spec.x0 (argsK m c))) := by
  show StableHlo.after hostOps2 (W4 m ρ c) (Proc.devRef .tc main_v10) = _
  dsimp only [hostOps2]
  after_results
  rw [at4_v1 m ρ c, S_v1 m ρ c, at4_arg2 m ρ c]
  try rfl

theorem S_v12 (c : Dev nD) : W5 m ρ c (Proc.devRef .tc main_v12) = (Cert.Spec.sl 0 (argsK m c).lw) := by
  show StableHlo.after hostOps2 (W4 m ρ c) (Proc.devRef .tc main_v12) = _
  dsimp only [hostOps2]
  after_results
  rw [at4_arg8 m ρ c]
  exact Cert.KernelIdeal.Glue.sl0_S64x64 _

theorem S_v15 (c : Dev nD) : W5 m ρ c (Proc.devRef .tc main_v15) = (Cert.Spec.row (Cert.Spec.slRow 0 (argsK m c).lb)) := by
  show StableHlo.after hostOps2 (W4 m ρ c) (Proc.devRef .tc main_v15) = _
  dsimp only [hostOps2]
  after_results
  rw [at4_arg9 m ρ c]
  exact Cert.KernelIdeal.Glue.rowSlRow0_S64 _

theorem S_v16 (c : Dev nD) : W6 m ρ c (Proc.devRef .tc main_v16) = (Cert.Spec.msg (Cert.Spec.e0 (argsK m c)) (Cert.Spec.sl 0 (argsK m c).lw) (Cert.Spec.row (Cert.Spec.slRow 0 (argsK m c).lb)) ((argsK m c).gS (Cert.Spec.x0 (argsK m c)))) := by
  have h0 : V5 m ρ c (Pipeline.arrRef spec2 0) = (Cert.Spec.e0 (argsK m c)) := (at5_v3 m ρ c).trans (S_v3 m ρ c)
  have h1 : V5 m ρ c (Pipeline.arrRef spec2 1) = (Cert.Spec.sl 0 (argsK m c).lw) := S_v12 m ρ c
  have h2 : V5 m ρ c (Pipeline.arrRef spec2 2) = (Cert.Spec.row (Cert.Spec.slRow 0 (argsK m c).lb)) := S_v15 m ρ c
  have h3 : V5 m ρ c (Pipeline.arrRef spec2 3) = ((argsK m c).gS (Cert.Spec.x0 (argsK m c))) := S_v10 m ρ c
  refine ((out2_4 m ρ c).trans (Cert.KernelIdeal.RegionValue.final2 (V5 m ρ) c)).trans ?_
  exact congr4 (Cert.Spec.msg (M := 640000)) h0 h1 h2 h3

theorem S_v19 (c : Dev nD) : W7 m ρ c (Proc.devRef .tc main_v19) = ((argsK m c).sc (Cert.Spec.msg (Cert.Spec.e0 (argsK m c)) (Cert.Spec.sl 0 (argsK m c).lw) (Cert.Spec.row (Cert.Spec.slRow 0 (argsK m c).lb)) ((argsK m c).gS (Cert.Spec.x0 (argsK m c))))) := by
  show StableHlo.after hostOps3 (W6 m ρ c) (Proc.devRef .tc main_v19) = _
  dsimp only [hostOps3]
  after_results
  rw [at6_arg3 m ρ c, S_v16 m ρ c]
  try rfl

theorem S_v21 (c : Dev nD) : W7 m ρ c (Proc.devRef .tc main_v21) = (Cert.Spec.sl 0 (argsK m c).cw1) := by
  show StableHlo.after hostOps3 (W6 m ρ c) (Proc.devRef .tc main_v21) = _
  dsimp only [hostOps3]
  after_results
  rw [at6_arg10 m ρ c]
  exact Cert.KernelIdeal.Glue.sl0_S64x64 _

theorem S_v25 (c : Dev nD) : W7 m ρ c (Proc.devRef .tc main_v25) = (Cert.Spec.sl 0 (argsK m c).cw2) := by
  show StableHlo.after hostOps3 (W6 m ρ c) (Proc.devRef .tc main_v25) = _
  dsimp only [hostOps3]
  after_results
  rw [at6_arg12 m ρ c]
  exact Cert.KernelIdeal.Glue.sl0_S64x64 _

theorem S_v28 (c : Dev nD) : W7 m ρ c (Proc.devRef .tc main_v28) = (Cert.Spec.row (Cert.Spec.slRow 0 (argsK m c).cb1)) := by
  show StableHlo.after hostOps3 (W6 m ρ c) (Proc.devRef .tc main_v28) = _
  dsimp only [hostOps3]
  after_results
  rw [at6_arg11 m ρ c]
  exact Cert.KernelIdeal.Glue.rowSlRow0_S64 _

theorem S_v29 (c : Dev nD) : W7 m ρ c (Proc.devRef .tc main_v29) = (Cert.Spec.row (Cert.Spec.slRow 0 (argsK m c).cb2)) := by
  show StableHlo.after hostOps3 (W6 m ρ c) (Proc.devRef .tc main_v29) = _
  dsimp only [hostOps3]
  after_results
  rw [at6_arg13 m ρ c]
  exact Cert.KernelIdeal.Glue.rowSlRow0_S64 _

theorem S_v30 (c : Dev nD) : W8 m ρ c (Proc.devRef .tc main_v30) = (Cert.Spec.preNorm (argsK m c) 0 (Cert.Spec.x0 (argsK m c)) (Cert.Spec.e0 (argsK m c))) := by
  have h0 : V7 m ρ c (Pipeline.arrRef spec3 0) = (Cert.Spec.x0 (argsK m c)) := (at7_v1 m ρ c).trans (S_v1 m ρ c)
  have h1 : V7 m ρ c (Pipeline.arrRef spec3 1) = ((argsK m c).sc (Cert.Spec.msg (Cert.Spec.e0 (argsK m c)) (Cert.Spec.sl 0 (argsK m c).lw) (Cert.Spec.row (Cert.Spec.slRow 0 (argsK m c).lb)) ((argsK m c).gS (Cert.Spec.x0 (argsK m c))))) := S_v19 m ρ c
  have h2 : V7 m ρ c (Pipeline.arrRef spec3 2) = (Cert.Spec.sl 0 (argsK m c).cw1) := S_v21 m ρ c
  have h3 : V7 m ρ c (Pipeline.arrRef spec3 3) = (Cert.Spec.row (Cert.Spec.slRow 0 (argsK m c).cb1)) := S_v28 m ρ c
  have h4 : V7 m ρ c (Pipeline.arrRef spec3 4) = (Cert.Spec.sl 0 (argsK m c).cw2) := S_v25 m ρ c
  have h5 : V7 m ρ c (Pipeline.arrRef spec3 5) = (Cert.Spec.row (Cert.Spec.slRow 0 (argsK m c).cb2)) := S_v29 m ρ c
  refine ((out3_6 m ρ c).trans (Cert.KernelIdeal.RegionValue.final3 (V7 m ρ) c)).trans ?_
  exact congr6 (Cert.Spec.conv (M := 100000)) h0 h1 h2 h3 h4 h5

theorem S_v31_0 (c : Dev nD) : W9 m ρ c (Proc.devRef .tc main_v31_0) = (Cert.Spec.colsum (Cert.Spec.preNorm (argsK m c) 0 (Cert.Spec.x0 (argsK m c)) (Cert.Spec.e0 (argsK m c)))) := by
  have h0 : V8 m ρ c (Pipeline.arrRef spec4 0) = (Cert.Spec.preNorm (argsK m c) 0 (Cert.Spec.x0 (argsK m c)) (Cert.Spec.e0 (argsK m c))) := S_v30 m ρ c
  refine ((out4_1 m ρ c).trans (Cert.KernelIdeal.RegionValue.final4_sum (V8 m ρ) c)).trans ?_
  exact congr1 (Cert.Spec.colsum (M := 100000)) h0

theorem S_v31_1 (c : Dev nD) : W9 m ρ c (Proc.devRef .tc main_v31_1) = (Cert.Spec.colsumsq (Cert.Spec.preNorm (argsK m c) 0 (Cert.Spec.x0 (argsK m c)) (Cert.Spec.e0 (argsK m c)))) := by
  have h0 : V8 m ρ c (Pipeline.arrRef spec4 0) = (Cert.Spec.preNorm (argsK m c) 0 (Cert.Spec.x0 (argsK m c)) (Cert.Spec.e0 (argsK m c))) := S_v30 m ρ c
  refine ((out4_2 m ρ c).trans (Cert.KernelIdeal.RegionValue.final4_sumsq (V8 m ρ) c)).trans ?_
  exact congr1 (Cert.Spec.colsumsq (M := 100000)) h0

theorem S_v44 (c : Dev nD) : W10 m ρ c (Proc.devRef .tc main_v44) = (Cert.Spec.meanK (Cert.Spec.preNorm (argsK m c) 0 (Cert.Spec.x0 (argsK m c)) (Cert.Spec.e0 (argsK m c)))) := by
  show StableHlo.after hostOps5 (W9 m ρ c) (Proc.devRef .tc main_v44) = _
  dsimp only [hostOps5]
  after_results
  rw [S_v31_0 m ρ c]
  exact Cert.KernelIdeal.Glue.mean_colsum _

theorem S_v45 (c : Dev nD) : W10 m ρ c (Proc.devRef .tc main_v45) = (Cert.Spec.varK (Cert.Spec.preNorm (argsK m c) 0 (Cert.Spec.x0 (argsK m c)) (Cert.Spec.e0 (argsK m c)))) := by
  show StableHlo.after hostOps5 (W9 m ρ c) (Proc.devRef .tc main_v45) = _
  dsimp only [hostOps5]
  after_results
  rw [S_v31_1 m ρ c, S_v31_0 m ρ c]
  exact Cert.KernelIdeal.Glue.var_colsum _

theorem S_v46 (c : Dev nD) : W10 m ρ c (Proc.devRef .tc main_v46) = (Cert.Spec.row (Cert.Spec.slRow 0 (argsK m c).gam)) := by
  show StableHlo.after hostOps5 (W9 m ρ c) (Proc.devRef .tc main_v46) = _
  dsimp only [hostOps5]
  after_results
  rw [at9_arg18 m ρ c]
  exact Cert.KernelIdeal.Glue.rowSlRow0_S64 _

theorem S_v47 (c : Dev nD) : W10 m ρ c (Proc.devRef .tc main_v47) = (Cert.Spec.row (Cert.Spec.slRow 0 (argsK m c).bet)) := by
  show StableHlo.after hostOps5 (W9 m ρ c) (Proc.devRef .tc main_v47) = _
  dsimp only [hostOps5]
  after_results
  rw [at9_arg19 m ρ c]
  exact Cert.KernelIdeal.Glue.rowSlRow0_S64 _

theorem S_v48 (c : Dev nD) : W11 m ρ c (Proc.devRef .tc main_v48) = (Cert.Spec.x1K (argsK m c)) := by
  have h0 : V10 m ρ c (Pipeline.arrRef spec5 0) = (Cert.Spec.preNorm (argsK m c) 0 (Cert.Spec.x0 (argsK m c)) (Cert.Spec.e0 (argsK m c))) := (at10_v30 m ρ c).trans (S_v30 m ρ c)
  have h1 : V10 m ρ c (Pipeline.arrRef spec5 1) = (Cert.Spec.x0 (argsK m c)) := (at10_v1 m ρ c).trans (S_v1 m ρ c)
  have h2 : V10 m ρ c (Pipeline.arrRef spec5 2) = (Cert.Spec.meanK (Cert.Spec.preNorm (argsK m c) 0 (Cert.Spec.x0 (argsK m c)) (Cert.Spec.e0 (argsK m c)))) := S_v44 m ρ c
  have h3 : V10 m ρ c (Pipeline.arrRef spec5 3) = (Cert.Spec.varK (Cert.Spec.preNorm (argsK m c) 0 (Cert.Spec.x0 (argsK m c)) (Cert.Spec.e0 (argsK m c)))) := S_v45 m ρ c
  have h4 : V10 m ρ c (Pipeline.arrRef spec5 4) = (Cert.Spec.row (Cert.Spec.slRow 0 (argsK m c).gam)) := S_v46 m ρ c
  have h5 : V10 m ρ c (Pipeline.arrRef spec5 5) = (Cert.Spec.row (Cert.Spec.slRow 0 (argsK m c).bet)) := S_v47 m ρ c
  refine ((out5_6 m ρ c).trans (Cert.KernelIdeal.RegionValue.final5 (V10 m ρ) c)).trans ?_
  exact congr6 (Cert.Spec.bnres (M := 100000)) h0 h1 h2 h3 h4 h5

set_option maxHeartbeats 4000000 in
theorem S_v55 (c : Dev nD) : W12 m ρ c (Proc.devRef .tc main_v55) = ((argsK m c).gS (Cert.Spec.x1K (argsK m c))) := by
  show StableHlo.after hostOps6 (W11 m ρ c) (Proc.devRef .tc main_v55) = _
  dsimp only [hostOps6]
  after_results
  rw [S_v48 m ρ c, at11_arg2 m ρ c]
  try rfl

set_option maxHeartbeats 4000000 in
theorem S_v62 (c : Dev nD) : W12 m ρ c (Proc.devRef .tc main_v62) = ((argsK m c).gD (Cert.Spec.x1K (argsK m c))) := by
  show StableHlo.after hostOps6 (W11 m ρ c) (Proc.devRef .tc main_v62) = _
  dsimp only [hostOps6]
  after_results
  rw [S_v48 m ρ c, at11_arg3 m ρ c]
  try rfl

set_option maxHeartbeats 4000000 in
theorem S_v64 (c : Dev nD) : W12 m ρ c (Proc.devRef .tc main_v64) = (Cert.Spec.sl 0 (argsK m c).mw1) := by
  show StableHlo.after hostOps6 (W11 m ρ c) (Proc.devRef .tc main_v64) = _
  dsimp only [hostOps6]
  after_results
  rw [at11_arg14 m ρ c]
  exact Cert.KernelIdeal.Glue.sl0_S192x64 _

set_option maxHeartbeats 4000000 in
theorem S_v68 (c : Dev nD) : W12 m ρ c (Proc.devRef .tc main_v68) = (Cert.Spec.sl 0 (argsK m c).mw2) := by
  show StableHlo.after hostOps6 (W11 m ρ c) (Proc.devRef .tc main_v68) = _
  dsimp only [hostOps6]
  after_results
  rw [at11_arg16 m ρ c]
  exact Cert.KernelIdeal.Glue.sl0_S64x64 _

set_option maxHeartbeats 4000000 in
theorem S_v71 (c : Dev nD) : W12 m ρ c (Proc.devRef .tc main_v71) = (Cert.Spec.row (Cert.Spec.slRow 0 (argsK m c).mb1)) := by
  show StableHlo.after hostOps6 (W11 m ρ c) (Proc.devRef .tc main_v71) = _
  dsimp only [hostOps6]
  after_results
  rw [at11_arg15 m ρ c]
  exact Cert.KernelIdeal.Glue.rowSlRow0_S64 _

set_option maxHeartbeats 4000000 in
theorem S_v72 (c : Dev nD) : W12 m ρ c (Proc.devRef .tc main_v72) = (Cert.Spec.row (Cert.Spec.slRow 0 (argsK m c).mb2)) := by
  show StableHlo.after hostOps6 (W11 m ρ c) (Proc.devRef .tc main_v72) = _
  dsimp only [hostOps6]
  after_results
  rw [at11_arg17 m ρ c]
  exact Cert.KernelIdeal.Glue.rowSlRow0_S64 _

set_option maxHeartbeats 4000000 in
theorem S_v73 (c : Dev nD) : W13 m ρ c (Proc.devRef .tc main_v73) = (Cert.Spec.e1K (argsK m c)) := by
  have h0 : V12 m ρ c (Pipeline.arrRef spec6 0) = ((argsK m c).gS (Cert.Spec.x1K (argsK m c))) := S_v55 m ρ c
  have h1 : V12 m ρ c (Pipeline.arrRef spec6 1) = ((argsK m c).gD (Cert.Spec.x1K (argsK m c))) := S_v62 m ρ c
  have h2 : V12 m ρ c (Pipeline.arrRef spec6 2) = (Cert.Spec.e0 (argsK m c)) := (at12_v3 m ρ c).trans (S_v3 m ρ c)
  have h3 : V12 m ρ c (Pipeline.arrRef spec6 3) = (Cert.Spec.sl 0 (argsK m c).mw1) := S_v64 m ρ c
  have h4 : V12 m ρ c (Pipeline.arrRef spec6 4) = (Cert.Spec.row (Cert.Spec.slRow 0 (argsK m c).mb1)) := S_v71 m ρ c
  have h5 : V12 m ρ c (Pipeline.arrRef spec6 5) = (Cert.Spec.sl 0 (argsK m c).mw2) := S_v68 m ρ c
  have h6 : V12 m ρ c (Pipeline.arrRef spec6 6) = (Cert.Spec.row (Cert.Spec.slRow 0 (argsK m c).mb2)) := S_v72 m ρ c
  refine ((out6_7 m ρ c).trans (Cert.KernelIdeal.RegionValue.final6 (V12 m ρ) c)).trans ?_
  exact congr7 (Cert.Spec.emlp (M := 640000)) h0 h1 h2 h3 h4 h5 h6

theorem S_v80 (c : Dev nD) : W14 m ρ c (Proc.devRef .tc main_v80) = ((argsK m c).gS (Cert.Spec.x1K (argsK m c))) := by
  show StableHlo.after hostOps7 (W13 m ρ c) (Proc.devRef .tc main_v80) = _
  dsimp only [hostOps7]
  after_results
  rw [at13_v48 m ρ c, S_v48 m ρ c, at13_arg2 m ρ c]
  try rfl

theorem S_v82 (c : Dev nD) : W14 m ρ c (Proc.devRef .tc main_v82) = (Cert.Spec.sl 1 (argsK m c).lw) := by
  show StableHlo.after hostOps7 (W13 m ρ c) (Proc.devRef .tc main_v82) = _
  dsimp only [hostOps7]
  after_results
  rw [at13_arg8 m ρ c]
  exact Cert.KernelIdeal.Glue.sl1_S64x64 _

theorem S_v85 (c : Dev nD) : W14 m ρ c (Proc.devRef .tc main_v85) = (Cert.Spec.row (Cert.Spec.slRow 1 (argsK m c).lb)) := by
  show StableHlo.after hostOps7 (W13 m ρ c) (Proc.devRef .tc main_v85) = _
  dsimp only [hostOps7]
  after_results
  rw [at13_arg9 m ρ c]
  exact Cert.KernelIdeal.Glue.rowSlRow1_S64 _

theorem S_v86 (c : Dev nD) : W15 m ρ c (Proc.devRef .tc main_v86) = (Cert.Spec.msg (Cert.Spec.e1K (argsK m c)) (Cert.Spec.sl 1 (argsK m c).lw) (Cert.Spec.row (Cert.Spec.slRow 1 (argsK m c).lb)) ((argsK m c).gS (Cert.Spec.x1K (argsK m c)))) := by
  have h0 : V14 m ρ c (Pipeline.arrRef spec7 0) = (Cert.Spec.e1K (argsK m c)) := (at14_v73 m ρ c).trans (S_v73 m ρ c)
  have h1 : V14 m ρ c (Pipeline.arrRef spec7 1) = (Cert.Spec.sl 1 (argsK m c).lw) := S_v82 m ρ c
  have h2 : V14 m ρ c (Pipeline.arrRef spec7 2) = (Cert.Spec.row (Cert.Spec.slRow 1 (argsK m c).lb)) := S_v85 m ρ c
  have h3 : V14 m ρ c (Pipeline.arrRef spec7 3) = ((argsK m c).gS (Cert.Spec.x1K (argsK m c))) := S_v80 m ρ c
  refine ((out7_4 m ρ c).trans (Cert.KernelIdeal.RegionValue.final7 (V14 m ρ) c)).trans ?_
  exact congr4 (Cert.Spec.msg (M := 640000)) h0 h1 h2 h3

theorem S_v89 (c : Dev nD) : W16 m ρ c (Proc.devRef .tc main_v89) = ((argsK m c).sc (Cert.Spec.msg (Cert.Spec.e1K (argsK m c)) (Cert.Spec.sl 1 (argsK m c).lw) (Cert.Spec.row (Cert.Spec.slRow 1 (argsK m c).lb)) ((argsK m c).gS (Cert.Spec.x1K (argsK m c))))) := by
  show StableHlo.after hostOps8 (W15 m ρ c) (Proc.devRef .tc main_v89) = _
  dsimp only [hostOps8]
  after_results
  rw [at15_arg3 m ρ c, S_v86 m ρ c]
  try rfl

theorem S_v91 (c : Dev nD) : W16 m ρ c (Proc.devRef .tc main_v91) = (Cert.Spec.sl 1 (argsK m c).cw1) := by
  show StableHlo.after hostOps8 (W15 m ρ c) (Proc.devRef .tc main_v91) = _
  dsimp only [hostOps8]
  after_results
  rw [at15_arg10 m ρ c]
  exact Cert.KernelIdeal.Glue.sl1_S64x64 _

theorem S_v95 (c : Dev nD) : W16 m ρ c (Proc.devRef .tc main_v95) = (Cert.Spec.sl 1 (argsK m c).cw2) := by
  show StableHlo.after hostOps8 (W15 m ρ c) (Proc.devRef .tc main_v95) = _
  dsimp only [hostOps8]
  after_results
  rw [at15_arg12 m ρ c]
  exact Cert.KernelIdeal.Glue.sl1_S64x64 _

theorem S_v98 (c : Dev nD) : W16 m ρ c (Proc.devRef .tc main_v98) = (Cert.Spec.row (Cert.Spec.slRow 1 (argsK m c).cb1)) := by
  show StableHlo.after hostOps8 (W15 m ρ c) (Proc.devRef .tc main_v98) = _
  dsimp only [hostOps8]
  after_results
  rw [at15_arg11 m ρ c]
  exact Cert.KernelIdeal.Glue.rowSlRow1_S64 _

theorem S_v99 (c : Dev nD) : W16 m ρ c (Proc.devRef .tc main_v99) = (Cert.Spec.row (Cert.Spec.slRow 1 (argsK m c).cb2)) := by
  show StableHlo.after hostOps8 (W15 m ρ c) (Proc.devRef .tc main_v99) = _
  dsimp only [hostOps8]
  after_results
  rw [at15_arg13 m ρ c]
  exact Cert.KernelIdeal.Glue.rowSlRow1_S64 _

theorem S_v100 (c : Dev nD) : W17 m ρ c (Proc.devRef .tc main_v100) = (Cert.Spec.preNorm (argsK m c) 1 (Cert.Spec.x1K (argsK m c)) (Cert.Spec.e1K (argsK m c))) := by
  have h0 : V16 m ρ c (Pipeline.arrRef spec8 0) = (Cert.Spec.x1K (argsK m c)) := (at16_v48 m ρ c).trans (S_v48 m ρ c)
  have h1 : V16 m ρ c (Pipeline.arrRef spec8 1) = ((argsK m c).sc (Cert.Spec.msg (Cert.Spec.e1K (argsK m c)) (Cert.Spec.sl 1 (argsK m c).lw) (Cert.Spec.row (Cert.Spec.slRow 1 (argsK m c).lb)) ((argsK m c).gS (Cert.Spec.x1K (argsK m c))))) := S_v89 m ρ c
  have h2 : V16 m ρ c (Pipeline.arrRef spec8 2) = (Cert.Spec.sl 1 (argsK m c).cw1) := S_v91 m ρ c
  have h3 : V16 m ρ c (Pipeline.arrRef spec8 3) = (Cert.Spec.row (Cert.Spec.slRow 1 (argsK m c).cb1)) := S_v98 m ρ c
  have h4 : V16 m ρ c (Pipeline.arrRef spec8 4) = (Cert.Spec.sl 1 (argsK m c).cw2) := S_v95 m ρ c
  have h5 : V16 m ρ c (Pipeline.arrRef spec8 5) = (Cert.Spec.row (Cert.Spec.slRow 1 (argsK m c).cb2)) := S_v99 m ρ c
  refine ((out8_6 m ρ c).trans (Cert.KernelIdeal.RegionValue.final8 (V16 m ρ) c)).trans ?_
  exact congr6 (Cert.Spec.conv (M := 100000)) h0 h1 h2 h3 h4 h5

theorem S_v101_0 (c : Dev nD) : W18 m ρ c (Proc.devRef .tc main_v101_0) = (Cert.Spec.colsum (Cert.Spec.preNorm (argsK m c) 1 (Cert.Spec.x1K (argsK m c)) (Cert.Spec.e1K (argsK m c)))) := by
  have h0 : V17 m ρ c (Pipeline.arrRef spec9 0) = (Cert.Spec.preNorm (argsK m c) 1 (Cert.Spec.x1K (argsK m c)) (Cert.Spec.e1K (argsK m c))) := S_v100 m ρ c
  refine ((out9_1 m ρ c).trans (Cert.KernelIdeal.RegionValue.final9_sum (V17 m ρ) c)).trans ?_
  exact congr1 (Cert.Spec.colsum (M := 100000)) h0

theorem S_v101_1 (c : Dev nD) : W18 m ρ c (Proc.devRef .tc main_v101_1) = (Cert.Spec.colsumsq (Cert.Spec.preNorm (argsK m c) 1 (Cert.Spec.x1K (argsK m c)) (Cert.Spec.e1K (argsK m c)))) := by
  have h0 : V17 m ρ c (Pipeline.arrRef spec9 0) = (Cert.Spec.preNorm (argsK m c) 1 (Cert.Spec.x1K (argsK m c)) (Cert.Spec.e1K (argsK m c))) := S_v100 m ρ c
  refine ((out9_2 m ρ c).trans (Cert.KernelIdeal.RegionValue.final9_sumsq (V17 m ρ) c)).trans ?_
  exact congr1 (Cert.Spec.colsumsq (M := 100000)) h0

theorem S_v114 (c : Dev nD) : W19 m ρ c (Proc.devRef .tc main_v114) = (Cert.Spec.meanK (Cert.Spec.preNorm (argsK m c) 1 (Cert.Spec.x1K (argsK m c)) (Cert.Spec.e1K (argsK m c)))) := by
  show StableHlo.after hostOps10 (W18 m ρ c) (Proc.devRef .tc main_v114) = _
  dsimp only [hostOps10]
  after_results
  rw [S_v101_0 m ρ c]
  exact Cert.KernelIdeal.Glue.mean_colsum _

theorem S_v115 (c : Dev nD) : W19 m ρ c (Proc.devRef .tc main_v115) = (Cert.Spec.varK (Cert.Spec.preNorm (argsK m c) 1 (Cert.Spec.x1K (argsK m c)) (Cert.Spec.e1K (argsK m c)))) := by
  show StableHlo.after hostOps10 (W18 m ρ c) (Proc.devRef .tc main_v115) = _
  dsimp only [hostOps10]
  after_results
  rw [S_v101_1 m ρ c, S_v101_0 m ρ c]
  exact Cert.KernelIdeal.Glue.var_colsum _

theorem S_v116 (c : Dev nD) : W19 m ρ c (Proc.devRef .tc main_v116) = (Cert.Spec.row (Cert.Spec.slRow 1 (argsK m c).gam)) := by
  show StableHlo.after hostOps10 (W18 m ρ c) (Proc.devRef .tc main_v116) = _
  dsimp only [hostOps10]
  after_results
  rw [at18_arg18 m ρ c]
  exact Cert.KernelIdeal.Glue.rowSlRow1_S64 _

theorem S_v117 (c : Dev nD) : W19 m ρ c (Proc.devRef .tc main_v117) = (Cert.Spec.row (Cert.Spec.slRow 1 (argsK m c).bet)) := by
  show StableHlo.after hostOps10 (W18 m ρ c) (Proc.devRef .tc main_v117) = _
  dsimp only [hostOps10]
  after_results
  rw [at18_arg19 m ρ c]
  exact Cert.KernelIdeal.Glue.rowSlRow1_S64 _

theorem S_v118 (c : Dev nD) : W20 m ρ c (Proc.devRef .tc main_v118) = (Cert.Spec.x2K (argsK m c)) := by
  have h0 : V19 m ρ c (Pipeline.arrRef spec10 0) = (Cert.Spec.preNorm (argsK m c) 1 (Cert.Spec.x1K (argsK m c)) (Cert.Spec.e1K (argsK m c))) := (at19_v100 m ρ c).trans (S_v100 m ρ c)
  have h1 : V19 m ρ c (Pipeline.arrRef spec10 1) = (Cert.Spec.x1K (argsK m c)) := (at19_v48 m ρ c).trans (S_v48 m ρ c)
  have h2 : V19 m ρ c (Pipeline.arrRef spec10 2) = (Cert.Spec.meanK (Cert.Spec.preNorm (argsK m c) 1 (Cert.Spec.x1K (argsK m c)) (Cert.Spec.e1K (argsK m c)))) := S_v114 m ρ c
  have h3 : V19 m ρ c (Pipeline.arrRef spec10 3) = (Cert.Spec.varK (Cert.Spec.preNorm (argsK m c) 1 (Cert.Spec.x1K (argsK m c)) (Cert.Spec.e1K (argsK m c)))) := S_v115 m ρ c
  have h4 : V19 m ρ c (Pipeline.arrRef spec10 4) = (Cert.Spec.row (Cert.Spec.slRow 1 (argsK m c).gam)) := S_v116 m ρ c
  have h5 : V19 m ρ c (Pipeline.arrRef spec10 5) = (Cert.Spec.row (Cert.Spec.slRow 1 (argsK m c).bet)) := S_v117 m ρ c
  refine ((out10_6 m ρ c).trans (Cert.KernelIdeal.RegionValue.final10 (V19 m ρ) c)).trans ?_
  exact congr6 (Cert.Spec.bnres (M := 100000)) h0 h1 h2 h3 h4 h5

set_option maxHeartbeats 4000000 in
theorem S_v125 (c : Dev nD) : W21 m ρ c (Proc.devRef .tc main_v125) = ((argsK m c).gS (Cert.Spec.x2K (argsK m c))) := by
  show StableHlo.after hostOps11 (W20 m ρ c) (Proc.devRef .tc main_v125) = _
  dsimp only [hostOps11]
  after_results
  rw [S_v118 m ρ c, at20_arg2 m ρ c]
  try rfl

set_option maxHeartbeats 4000000 in
theorem S_v132 (c : Dev nD) : W21 m ρ c (Proc.devRef .tc main_v132) = ((argsK m c).gD (Cert.Spec.x2K (argsK m c))) := by
  show StableHlo.after hostOps11 (W20 m ρ c) (Proc.devRef .tc main_v132) = _
  dsimp only [hostOps11]
  after_results
  rw [S_v118 m ρ c, at20_arg3 m ρ c]
  try rfl

set_option maxHeartbeats 4000000 in
theorem S_v134 (c : Dev nD) : W21 m ρ c (Proc.devRef .tc main_v134) = (Cert.Spec.sl 1 (argsK m c).mw1) := by
  show StableHlo.after hostOps11 (W20 m ρ c) (Proc.devRef .tc main_v134) = _
  dsimp only [hostOps11]
  after_results
  rw [at20_arg14 m ρ c]
  exact Cert.KernelIdeal.Glue.sl1_S192x64 _

set_option maxHeartbeats 4000000 in
theorem S_v138 (c : Dev nD) : W21 m ρ c (Proc.devRef .tc main_v138) = (Cert.Spec.sl 1 (argsK m c).mw2) := by
  show StableHlo.after hostOps11 (W20 m ρ c) (Proc.devRef .tc main_v138) = _
  dsimp only [hostOps11]
  after_results
  rw [at20_arg16 m ρ c]
  exact Cert.KernelIdeal.Glue.sl1_S64x64 _

set_option maxHeartbeats 4000000 in
theorem S_v141 (c : Dev nD) : W21 m ρ c (Proc.devRef .tc main_v141) = (Cert.Spec.row (Cert.Spec.slRow 1 (argsK m c).mb1)) := by
  show StableHlo.after hostOps11 (W20 m ρ c) (Proc.devRef .tc main_v141) = _
  dsimp only [hostOps11]
  after_results
  rw [at20_arg15 m ρ c]
  exact Cert.KernelIdeal.Glue.rowSlRow1_S64 _

set_option maxHeartbeats 4000000 in
theorem S_v142 (c : Dev nD) : W21 m ρ c (Proc.devRef .tc main_v142) = (Cert.Spec.row (Cert.Spec.slRow 1 (argsK m c).mb2)) := by
  show StableHlo.after hostOps11 (W20 m ρ c) (Proc.devRef .tc main_v142) = _
  dsimp only [hostOps11]
  after_results
  rw [at20_arg17 m ρ c]
  exact Cert.KernelIdeal.Glue.rowSlRow1_S64 _

set_option maxHeartbeats 4000000 in
theorem S_v143 (c : Dev nD) : W22 m ρ c (Proc.devRef .tc main_v143) = (Cert.Spec.e2K (argsK m c)) := by
  have h0 : V21 m ρ c (Pipeline.arrRef spec11 0) = ((argsK m c).gS (Cert.Spec.x2K (argsK m c))) := S_v125 m ρ c
  have h1 : V21 m ρ c (Pipeline.arrRef spec11 1) = ((argsK m c).gD (Cert.Spec.x2K (argsK m c))) := S_v132 m ρ c
  have h2 : V21 m ρ c (Pipeline.arrRef spec11 2) = (Cert.Spec.e1K (argsK m c)) := (at21_v73 m ρ c).trans (S_v73 m ρ c)
  have h3 : V21 m ρ c (Pipeline.arrRef spec11 3) = (Cert.Spec.sl 1 (argsK m c).mw1) := S_v134 m ρ c
  have h4 : V21 m ρ c (Pipeline.arrRef spec11 4) = (Cert.Spec.row (Cert.Spec.slRow 1 (argsK m c).mb1)) := S_v141 m ρ c
  have h5 : V21 m ρ c (Pipeline.arrRef spec11 5) = (Cert.Spec.sl 1 (argsK m c).mw2) := S_v138 m ρ c
  have h6 : V21 m ρ c (Pipeline.arrRef spec11 6) = (Cert.Spec.row (Cert.Spec.slRow 1 (argsK m c).mb2)) := S_v142 m ρ c
  refine ((out11_7 m ρ c).trans (Cert.KernelIdeal.RegionValue.final11 (V21 m ρ) c)).trans ?_
  exact congr7 (Cert.Spec.emlp (M := 640000)) h0 h1 h2 h3 h4 h5 h6

set_option maxHeartbeats 4000000 in
theorem S_v150 (c : Dev nD) : W23 m ρ c (Proc.devRef .tc main_v150) = ((argsK m c).gS (Cert.Spec.x2K (argsK m c))) := by
  show StableHlo.after hostOps12 (W22 m ρ c) (Proc.devRef .tc main_v150) = _
  dsimp only [hostOps12]
  after_results
  rw [at22_v118 m ρ c, S_v118 m ρ c, at22_arg2 m ρ c]
  try rfl

set_option maxHeartbeats 4000000 in
theorem S_v157 (c : Dev nD) : W23 m ρ c (Proc.devRef .tc main_v157) = ((argsK m c).gD (Cert.Spec.x2K (argsK m c))) := by
  show StableHlo.after hostOps12 (W22 m ρ c) (Proc.devRef .tc main_v157) = _
  dsimp only [hostOps12]
  after_results
  rw [at22_v118 m ρ c, S_v118 m ρ c, at22_arg3 m ρ c]
  try rfl

set_option maxHeartbeats 4000000 in
theorem S_v158 (c : Dev nD) : W23 m ρ c (Proc.devRef .tc main_v158) = (Cert.Spec.row (argsK m c).rb1) := by
  show StableHlo.after hostOps12 (W22 m ρ c) (Proc.devRef .tc main_v158) = _
  dsimp only [hostOps12]
  after_results
  rw [at22_arg21 m ρ c]
  exact Cert.KernelIdeal.Glue.row_S50 _

set_option maxHeartbeats 4000000 in
theorem S_v159 (c : Dev nD) : W23 m ρ c (Proc.devRef .tc main_v159) = (Cert.Spec.row (argsK m c).rb2) := by
  show StableHlo.after hostOps12 (W22 m ρ c) (Proc.devRef .tc main_v159) = _
  dsimp only [hostOps12]
  after_results
  rw [at22_arg23 m ρ c]
  exact Cert.KernelIdeal.Glue.row_S25 _

set_option maxHeartbeats 4000000 in
theorem S_v160 (c : Dev nD) : W23 m ρ c (Proc.devRef .tc main_v160) = (Cert.Spec.row (argsK m c).rb3) := by
  show StableHlo.after hostOps12 (W22 m ρ c) (Proc.devRef .tc main_v160) = _
  dsimp only [hostOps12]
  after_results
  rw [at22_arg25 m ρ c]
  exact Cert.KernelIdeal.Glue.row_S1 _

set_option maxHeartbeats 4000000 in
theorem S_v161 (c : Dev nD) : W24 m ρ c (Proc.devRef .tc main_v161) = (Cert.Spec.logitK (argsK m c)) := by
  have h0 : V23 m ρ c (Pipeline.arrRef spec12 0) = ((argsK m c).gS (Cert.Spec.x2K (argsK m c))) := S_v150 m ρ c
  have h1 : V23 m ρ c (Pipeline.arrRef spec12 1) = ((argsK m c).gD (Cert.Spec.x2K (argsK m c))) := S_v157 m ρ c
  have h2 : V23 m ρ c (Pipeline.arrRef spec12 2) = (Cert.Spec.e2K (argsK m c)) := (at23_v143 m ρ c).trans (S_v143 m ρ c)
  have h3 : V23 m ρ c (Pipeline.arrRef spec12 3) = (argsK m c).rw1 := (at23_arg20 m ρ c).trans rfl
  have h4 : V23 m ρ c (Pipeline.arrRef spec12 4) = (Cert.Spec.row (argsK m c).rb1) := S_v158 m ρ c
  have h5 : V23 m ρ c (Pipeline.arrRef spec12 5) = (argsK m c).rw2 := (at23_arg22 m ρ c).trans rfl
  have h6 : V23 m ρ c (Pipeline.arrRef spec12 6) = (Cert.Spec.row (argsK m c).rb2) := S_v159 m ρ c
  have h7 : V23 m ρ c (Pipeline.arrRef spec12 7) = (argsK m c).rw3 := (at23_arg24 m ρ c).trans rfl
  have h8 : V23 m ρ c (Pipeline.arrRef spec12 8) = (Cert.Spec.row (argsK m c).rb3) := S_v160 m ρ c
  refine ((out12_9 m ρ c).trans (Cert.KernelIdeal.RegionValue.final12 (V23 m ρ) c)).trans ?_
  exact congr9 (Cert.Spec.readout (M := 640000)) h0 h1 h2 h3 h4 h5 h6 h7 h8

/-- The first result: the node features after the second layer, carried from the tenth region's exit to the end. -/
theorem result_x (c : Dev nD) : W24 m ρ c (Proc.devRef .tc main_v118) = Cert.Spec.x2K (argsK m c) :=
  (at24_v118 m ρ c).trans (S_v118 m ρ c)

/-- The second result: the edge read-out. -/
theorem result_logit (c : Dev nD) : W24 m ρ c (Proc.devRef .tc main_v161) = Cert.Spec.logitK (argsK m c) :=
  S_v161 m ρ c

end Cert.KernelIdeal.Chain

end
-- ==== Proof.RefRun.lean ====
/-
  The reference program's run, written out segment by segment.

  The program is a straight line of host operations. It is listed here as a concatenation of segments, one per
  stage of the network, in program order. Running a concatenation is running its parts in turn, so the device's
  buffer contents after the whole line are reached through a chain of boundary valuations: the launch contents,
  then the contents after each segment. A segment changes only the buffers it writes; every other buffer keeps the
  contents it had at the previous boundary, which is what lets a buffer be traced back to the segment that wrote it.
-/
import proofs.«156771_j85263690760421_1_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-! ## The operations, in segments -/

/-- Segment 0, node embedding x0 = x·W + b (%0–%3): 4 operations. -/
abbrev seg0 : List (HloOp τ sig (Elt F)) :=
  [ binary main_arg0 main_arg4 main_v0 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]

/-- Segment 1, edge embedding e0 (%4–%7): 4 operations. -/
abbrev seg1 : List (HloOp τ sig (Elt F)) :=
  [ binary main_arg1 main_arg6 main_v4 ((fun l r => Host.dotGeneral dot_S640000x16_S16x64_S640000x64_1_0_0_1_n_n none l r) : (⟨S640000x16, .f32⟩ : BufTy).Contents (Elt F) → (⟨S16x64, .f32⟩ : BufTy).Contents (Elt F) → (⟨S640000x64, .f32⟩ : BufTy).Contents (Elt F)),
    unary main_arg7 main_v5 (broadcastInDim S1x64 ![1] bcast_S64_S1x64_1 : (⟨S64, .f32⟩ : BufTy).Contents (Elt F) → (⟨S1x64, .f32⟩ : BufTy).Contents (Elt F)),
    unary main_v5 main_v6 (broadcastInDim S640000x64 ![0, 1] bcast_S1x64_S640000x64_0_1 : (⟨S1x64, .f32⟩ : BufTy).Contents (Elt F) → (⟨S640000x64, .f32⟩ : BufTy).Contents (Elt F)),
    binary main_v4 main_v6 main_v7 (addf : (⟨S640000x64, .f32⟩ : BufTy).Contents (Elt F) → (⟨S640000x64, .f32⟩ : BufTy).Contents (Elt F) → (⟨S640000x64, .f32⟩ : BufTy).Contents (Elt F)) ]

/-- Segment 2, layer 1: message relu(x[src] + e·W + b) (%8–%24): 21 operations. -/
abbrev seg2 : List (HloOp τ sig (Elt F)) :=
  [ nullary main_c (constantI S_ 32 0#32),
    unary main_c main_v8 (broadcastInDim S640000 ![] bcast_S_S640000 : (⟨S_, .i32⟩ : BufTy).Contents (Elt F) → (⟨S640000, .i32⟩ : BufTy).Contents (Elt F)),
    binary main_arg2 main_v8 main_v9 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v10 (broadcastInDim S640000 ![] bcast_S_S640000 : (⟨S_, .i32⟩ : BufTy).Contents (Elt F) → (⟨S640000, .i32⟩ : BufTy).Contents (Elt F)),
    binary main_arg2 main_v10 main_v11 (addi : (⟨S640000, .i32⟩ : BufTy).Contents (Elt F) → (⟨S640000, .i32⟩ : BufTy).Contents (Elt F) → (⟨S640000, .i32⟩ : BufTy).Contents (Elt F)),
    ternary main_v9 main_v11 main_arg2 main_v12 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v12 main_v13 (broadcastInDim S640000x1 ![0] bcast_S640000_S640000x1_0 : (⟨S640000, .i32⟩ : BufTy).Contents (Elt F) → (⟨S640000x1, .i32⟩ : BufTy).Contents (Elt F)),
    binary main_v3 main_v13 main_v14 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    unary main_arg8 main_v15 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v15 main_v16 rfl shapeCasts_S1x64x64_S64x64,
    binary main_v7 main_v16 main_v17 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    binary main_v14 main_v17 main_v18 (addf : (⟨S640000x64, .f32⟩ : BufTy).Contents (Elt F) → (⟨S640000x64, .f32⟩ : BufTy).Contents (Elt F) → (⟨S640000x64, .f32⟩ : BufTy).Contents (Elt F)),
    unary main_arg9 main_v19 ((extractStridedSlice S1x64 ![0, 0] · slices_S2x64_S1x64_0_0) : (⟨S2x64, .f32⟩ : BufTy).Contents (Elt F) → (⟨S1x64, .f32⟩ : BufTy).Contents (Elt F)),
    reshape main_v19 main_v20 rfl shapeCasts_S1x64_S64,
    unary main_v20 main_v21 (broadcastInDim S1x64 ![1] bcast_S64_S1x64_1 : (⟨S64, .f32⟩ : BufTy).Contents (Elt F) → (⟨S1x64, .f32⟩ : BufTy).Contents (Elt F)),
    unary main_v21 main_v22 (broadcastInDim S640000x64 ![0, 1] bcast_S1x64_S640000x64_0_1 : (⟨S1x64, .f32⟩ : BufTy).Contents (Elt F) → (⟨S640000x64, .f32⟩ : BufTy).Contents (Elt F)),
    binary main_v18 main_v22 main_v23 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S640000x64, .f32⟩) main_call0_v0) (broadcastInDim S640000x64 ![] bcast_S_S640000x64),
    TRef.binary (TRef.of (T := ⟨S640000x64, .f32⟩) main_v23) (TRef.of (T := ⟨S640000x64, .f32⟩) main_call0_v0) (TRef.of (T := ⟨S640000x64, .f32⟩) main_v24) maximumf ]

/-- Segment 3, layer 1: scatter-add of the messages by dst (%25–%27): 4 operations. -/
abbrev seg3 : List (HloOp τ sig (Elt F)) :=
  [ nullary main_cst (constant S_ .f32 0x00000000#32),
    unary main_cst main_v25 (broadcastInDim S100000x64 ![] bcast_S_S100000x64 : (⟨S_, .f32⟩ : BufTy).Contents (Elt F) → (⟨S100000x64, .f32⟩ : BufTy).Contents (Elt F)),
    unary main_arg3 main_v26 (broadcastInDim S640000x1 ![0] bcast_S640000_S640000x1_0 : (⟨S640000, .i32⟩ : BufTy).Contents (Elt F) → (⟨S640000x1, .i32⟩ : BufTy).Contents (Elt F)),
    ternary main_v25 main_v26 main_v24 main_v27 ((fun x i u => Host.scatterAdd scatter_S100000x64_S640000x1_S640000x64_1_0_0_1 x i u) : (⟨S100000x64, .f32⟩ : BufTy).Contents (Elt F) → (⟨S640000x1, .i32⟩ : BufTy).Contents (Elt F) → (⟨S640000x64, .f32⟩ : BufTy).Contents (Elt F) → (⟨S100000x64, .f32⟩ : BufTy).Contents (Elt F)) ]

/-- Segment 4, layer 1: node update mlp (%28–%45): 20 operations. -/
abbrev seg4 : List (HloOp τ sig (Elt F)) :=
  [ binary main_v3 main_v27 main_v28 (addf : (⟨S100000x64, .f32⟩ : BufTy).Contents (Elt F) → (⟨S100000x64, .f32⟩ : BufTy).Contents (Elt F) → (⟨S100000x64, .f32⟩ : BufTy).Contents (Elt F)),
    unary main_arg10 main_v29 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v29 main_v30 rfl shapeCasts_S1x64x64_S64x64,
    binary main_v28 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v32 ((extractStridedSlice S1x64 ![0, 0] · slices_S2x64_S1x64_0_0) : (⟨S2x64, .f32⟩ : BufTy).Contents (Elt F) → (⟨S1x64, .f32⟩ : BufTy).Contents (Elt F)),
    reshape main_v32 main_v33 rfl shapeCasts_S1x64_S64,
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v31 main_v35 main_v36 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v36) (TRef.of (T := ⟨S100000x64, .f32⟩) main_call1_v0) (TRef.of (T := ⟨S100000x64, .f32⟩) main_v37) maximumf,
    unary main_arg12 main_v38 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v38 main_v39 rfl shapeCasts_S1x64x64_S64x64,
    binary main_v37 main_v39 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v41 ((extractStridedSlice S1x64 ![0, 0] · slices_S2x64_S1x64_0_0) : (⟨S2x64, .f32⟩ : BufTy).Contents (Elt F) → (⟨S1x64, .f32⟩ : BufTy).Contents (Elt F)),
    reshape main_v41 main_v42 rfl shapeCasts_S1x64_S64,
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v40 main_v44 main_v45 (addf : (⟨S100000x64, .f32⟩ : BufTy).Contents (Elt F) → (⟨S100000x64, .f32⟩ : BufTy).Contents (Elt F) → (⟨S100000x64, .f32⟩ : BufTy).Contents (Elt F)) ]

/-- Segment 5, layer 1: normalisation, the column mean and variance (%46–%59): 18 operations. -/
abbrev seg5 : List (HloOp τ sig (Elt F)) :=
  [ unary main_arg18 main_v46 ((extractStridedSlice S1x64 ![0, 0] · slices_S2x64_S1x64_0_0) : (⟨S2x64, .f32⟩ : BufTy).Contents (Elt F) → (⟨S1x64, .f32⟩ : BufTy).Contents (Elt F)),
    reshape main_v46 main_v47 rfl shapeCasts_S1x64_S64,
    unary main_arg19 main_v48 ((extractStridedSlice S1x64 ![0, 0] · slices_S2x64_S1x64_0_0) : (⟨S2x64, .f32⟩ : BufTy).Contents (Elt F) → (⟨S1x64, .f32⟩ : BufTy).Contents (Elt F)),
    reshape main_v48 main_v49 rfl shapeCasts_S1x64_S64,
    nullary main_cst_1 (constant S_ .f32 0x00000000#32),
    binary main_v45 main_cst_1 main_v50 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v51 (broadcastInDim S64 ![] bcast_S_S64 : (⟨S_, .f32⟩ : BufTy).Contents (Elt F) → (⟨S64, .f32⟩ : BufTy).Contents (Elt F)),
    binary main_v50 main_v51 main_v52 (Host.divf : (⟨S64, .f32⟩ : BufTy).Contents (Elt F) → (⟨S64, .f32⟩ : BufTy).Contents (Elt F) → (⟨S64, .f32⟩ : BufTy).Contents (Elt F)),
    unary main_v52 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v45 main_v54 main_v55 (subf : (⟨S100000x64, .f32⟩ : BufTy).Contents (Elt F) → (⟨S100000x64, .f32⟩ : BufTy).Contents (Elt F) → (⟨S100000x64, .f32⟩ : BufTy).Contents (Elt F)),
    binary main_v55 main_v55 main_v56 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v56 main_cst_3 main_v57 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v58 (broadcastInDim S64 ![] bcast_S_S64 : (⟨S_, .f32⟩ : BufTy).Contents (Elt F) → (⟨S64, .f32⟩ : BufTy).Contents (Elt F)),
    binary main_v57 main_v58 main_v59 (Host.divf : (⟨S64, .f32⟩ : BufTy).Contents (Elt F) → (⟨S64, .f32⟩ : BufTy).Contents (Elt F) → (⟨S64, .f32⟩ : BufTy).Contents (Elt F)) ]

/-- Segment 6, layer 1: normalisation applied, relu, residual, halving (%60–%78): 23 operations. -/
abbrev seg6 : List (HloOp τ sig (Elt F)) :=
  [ unary main_v52 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v45 main_v61 main_v62 (subf : (⟨S100000x64, .f32⟩ : BufTy).Contents (Elt F) → (⟨S100000x64, .f32⟩ : BufTy).Contents (Elt F) → (⟨S100000x64, .f32⟩ : BufTy).Contents (Elt F)),
    unary main_v47 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v64 main_v62 main_v65 (mulf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x3727C5AC#32),
    unary main_cst_5 main_v66 (broadcastInDim S64 ![] bcast_S_S64 : (⟨S_, .f32⟩ : BufTy).Contents (Elt F) → (⟨S64, .f32⟩ : BufTy).Contents (Elt F)),
    binary main_v59 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v65 main_v70 main_v71 (mulf : (⟨S100000x64, .f32⟩ : BufTy).Contents (Elt F) → (⟨S100000x64, .f32⟩ : BufTy).Contents (Elt F) → (⟨S100000x64, .f32⟩ : BufTy).Contents (Elt F)),
    unary main_v49 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v74) (TRef.of (T := ⟨S100000x64, .f32⟩) main_call2_v0) (TRef.of (T := ⟨S100000x64, .f32⟩) main_v75) maximumf,
    binary main_v3 main_v75 main_v76 (addf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x40000000#32),
    unary main_cst_6 main_v77 (broadcastInDim S100000x64 ![] bcast_S_S100000x64 : (⟨S_, .f32⟩ : BufTy).Contents (Elt F) → (⟨S100000x64, .f32⟩ : BufTy).Contents (Elt F)),
    binary main_v76 main_v77 main_v78 (Host.divf : (⟨S100000x64, .f32⟩ : BufTy).Contents (Elt F) → (⟨S100000x64, .f32⟩ : BufTy).Contents (Elt F) → (⟨S100000x64, .f32⟩ : BufTy).Contents (Elt F)) ]

/-- Segment 7, layer 1: the two gathers and the concatenation (%79–%93): 19 operations. -/
abbrev seg7 : List (HloOp τ sig (Elt F)) :=
  [ nullary main_c_7 (constantI S_ 32 0#32),
    unary main_c_7 main_v79 (broadcastInDim S640000 ![] bcast_S_S640000 : (⟨S_, .i32⟩ : BufTy).Contents (Elt F) → (⟨S640000, .i32⟩ : BufTy).Contents (Elt F)),
    binary main_arg2 main_v79 main_v80 (cmpi .slt : (⟨S640000, .i32⟩ : BufTy).Contents (Elt F) → (⟨S640000, .i32⟩ : BufTy).Contents (Elt F) → (⟨S640000, .i1⟩ : BufTy).Contents (Elt F)),
    nullary main_c_8 (constantI S_ 32 100000#32),
    unary main_c_8 main_v81 (broadcastInDim S640000 ![] bcast_S_S640000 : (⟨S_, .i32⟩ : BufTy).Contents (Elt F) → (⟨S640000, .i32⟩ : BufTy).Contents (Elt F)),
    binary main_arg2 main_v81 main_v82 (addi : (⟨S640000, .i32⟩ : BufTy).Contents (Elt F) → (⟨S640000, .i32⟩ : BufTy).Contents (Elt F) → (⟨S640000, .i32⟩ : BufTy).Contents (Elt F)),
    ternary main_v80 main_v82 main_arg2 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v83 main_v84 (broadcastInDim S640000x1 ![0] bcast_S640000_S640000x1_0 : (⟨S640000, .i32⟩ : BufTy).Contents (Elt F) → (⟨S640000x1, .i32⟩ : BufTy).Contents (Elt F)),
    binary main_v78 main_v84 main_v85 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nullary main_c_9 (constantI S_ 32 0#32),
    unary main_c_9 main_v86 (broadcastInDim S640000 ![] bcast_S_S640000 : (⟨S_, .i32⟩ : BufTy).Contents (Elt F) → (⟨S640000, .i32⟩ : BufTy).Contents (Elt F)),
    binary main_arg3 main_v86 main_v87 (cmpi .slt : (⟨S640000, .i32⟩ : BufTy).Contents (Elt F) → (⟨S640000, .i32⟩ : BufTy).Contents (Elt F) → (⟨S640000, .i1⟩ : BufTy).Contents (Elt F)),
    nullary main_c_10 (constantI S_ 32 100000#32),
    unary main_c_10 main_v88 (broadcastInDim S640000 ![] bcast_S_S640000 : (⟨S_, .i32⟩ : BufTy).Contents (Elt F) → (⟨S640000, .i32⟩ : BufTy).Contents (Elt F)),
    binary main_arg3 main_v88 main_v89 (addi : (⟨S640000, .i32⟩ : BufTy).Contents (Elt F) → (⟨S640000, .i32⟩ : BufTy).Contents (Elt F) → (⟨S640000, .i32⟩ : BufTy).Contents (Elt F)),
    ternary main_v87 main_v89 main_arg3 main_v90 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v90 main_v91 (broadcastInDim S640000x1 ![0] bcast_S640000_S640000x1_0 : (⟨S640000, .i32⟩ : BufTy).Contents (Elt F) → (⟨S640000x1, .i32⟩ : BufTy).Contents (Elt F)),
    binary main_v78 main_v91 main_v92 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nary ![main_v85, main_v92, main_v7] main_v93 (fun u => concatenate S640000x192 1 [⟨S640000x64, u 0⟩, ⟨S640000x64, u 1⟩, ⟨S640000x64, u 2⟩] concatenates_S640000x64_S640000x64_S640000x64_S640000x192_d1) ]

/-- Segment 8, layer 1: edge update mlp and residual (%94–%113): 23 operations. -/
abbrev seg8 : List (HloOp τ sig (Elt F)) :=
  [ unary main_arg14 main_v94 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v94 main_v95 rfl shapeCasts_S1x192x64_S192x64,
    binary main_v93 main_v95 main_v96 ((fun l r => Host.dotGeneral dot_S640000x192_S192x64_S640000x64_1_0_0_1_n_n none l r) : (⟨S640000x192, .f32⟩ : BufTy).Contents (Elt F) → (⟨S192x64, .f32⟩ : BufTy).Contents (Elt F) → (⟨S640000x64, .f32⟩ : BufTy).Contents (Elt F)),
    unary main_arg15 main_v97 ((extractStridedSlice S1x64 ![0, 0] · slices_S2x64_S1x64_0_0) : (⟨S2x64, .f32⟩ : BufTy).Contents (Elt F) → (⟨S1x64, .f32⟩ : BufTy).Contents (Elt F)),
    reshape main_v97 main_v98 rfl shapeCasts_S1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S640000x64 ![0, 1] bcast_S1x64_S640000x64_0_1 : (⟨S1x64, .f32⟩ : BufTy).Contents (Elt F) → (⟨S640000x64, .f32⟩ : BufTy).Contents (Elt F)),
    binary main_v96 main_v100 main_v101 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S640000x64, .f32⟩) main_call3_v0) (broadcastInDim S640000x64 ![] bcast_S_S640000x64),
    TRef.binary (TRef.of (T := ⟨S640000x64, .f32⟩) main_v101) (TRef.of (T := ⟨S640000x64, .f32⟩) main_call3_v0) (TRef.of (T := ⟨S640000x64, .f32⟩) main_v102) maximumf,
    unary main_arg16 main_v103 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v103 main_v104 rfl shapeCasts_S1x64x64_S64x64,
    binary main_v102 main_v104 main_v105 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    unary main_arg17 main_v106 ((extractStridedSlice S1x64 ![0, 0] · slices_S2x64_S1x64_0_0) : (⟨S2x64, .f32⟩ : BufTy).Contents (Elt F) → (⟨S1x64, .f32⟩ : BufTy).Contents (Elt F)),
    reshape main_v106 main_v107 rfl shapeCasts_S1x64_S64,
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S640000x64 ![0, 1] bcast_S1x64_S640000x64_0_1 : (⟨S1x64, .f32⟩ : BufTy).Contents (Elt F) → (⟨S640000x64, .f32⟩ : BufTy).Contents (Elt F)),
    binary main_v105 main_v109 main_v110 (addf : (⟨S640000x64, .f32⟩ : BufTy).Contents (Elt F) → (⟨S640000x64, .f32⟩ : BufTy).Contents (Elt F) → (⟨S640000x64, .f32⟩ : BufTy).Contents (Elt F)),
    nullary main_cst_11 (constant S_ .f32 0x40000000#32),
    unary main_cst_11 main_v111 (broadcastInDim S640000x64 ![] bcast_S_S640000x64 : (⟨S_, .f32⟩ : BufTy).Contents (Elt F) → (⟨S640000x64, .f32⟩ : BufTy).Contents (Elt F)),
    binary main_v110 main_v111 main_v112 (Host.divf : (⟨S640000x64, .f32⟩ : BufTy).Contents (Elt F) → (⟨S640000x64, .f32⟩ : BufTy).Contents (Elt F) → (⟨S640000x64, .f32⟩ : BufTy).Contents (Elt F)),
    binary main_v7 main_v112 main_v113 (addf : (⟨S640000x64, .f32⟩ : BufTy).Contents (Elt F) → (⟨S640000x64, .f32⟩ : BufTy).Contents (Elt F) → (⟨S640000x64, .f32⟩ : BufTy).Contents (Elt F)) ]

/-- Segment 9, layer 2: message (%114–%130): 21 operations. -/
abbrev seg9 : List (HloOp τ sig (Elt F)) :=
  [ nullary main_c_12 (constantI S_ 32 0#32),
    unary main_c_12 main_v114 (broadcastInDim S640000 ![] bcast_S_S640000 : (⟨S_, .i32⟩ : BufTy).Contents (Elt F) → (⟨S640000, .i32⟩ : BufTy).Contents (Elt F)),
    binary main_arg2 main_v114 main_v115 (cmpi .slt : (⟨S640000, .i32⟩ : BufTy).Contents (Elt F) → (⟨S640000, .i32⟩ : BufTy).Contents (Elt F) → (⟨S640000, .i1⟩ : BufTy).Contents (Elt F)),
    nullary main_c_13 (constantI S_ 32 100000#32),
    unary main_c_13 main_v116 (broadcastInDim S640000 ![] bcast_S_S640000 : (⟨S_, .i32⟩ : BufTy).Contents (Elt F) → (⟨S640000, .i32⟩ : BufTy).Contents (Elt F)),
    binary main_arg2 main_v116 main_v117 (addi : (⟨S640000, .i32⟩ : BufTy).Contents (Elt F) → (⟨S640000, .i32⟩ : BufTy).Contents (Elt F) → (⟨S640000, .i32⟩ : BufTy).Contents (Elt F)),
    ternary main_v115 main_v117 main_arg2 main_v118 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v118 main_v119 (broadcastInDim S640000x1 ![0] bcast_S640000_S640000x1_0 : (⟨S640000, .i32⟩ : BufTy).Contents (Elt F) → (⟨S640000x1, .i32⟩ : BufTy).Contents (Elt F)),
    binary main_v78 main_v119 main_v120 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    unary main_arg8 main_v121 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v121 main_v122 rfl shapeCasts_S1x64x64_S64x64,
    binary main_v113 main_v122 main_v123 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    binary main_v120 main_v123 main_v124 (addf : (⟨S640000x64, .f32⟩ : BufTy).Contents (Elt F) → (⟨S640000x64, .f32⟩ : BufTy).Contents (Elt F) → (⟨S640000x64, .f32⟩ : BufTy).Contents (Elt F)),
    unary main_arg9 main_v125 ((extractStridedSlice S1x64 ![1, 0] · slices_S2x64_S1x64_1_0) : (⟨S2x64, .f32⟩ : BufTy).Contents (Elt F) → (⟨S1x64, .f32⟩ : BufTy).Contents (Elt F)),
    reshape main_v125 main_v126 rfl shapeCasts_S1x64_S64,
    unary main_v126 main_v127 (broadcastInDim S1x64 ![1] bcast_S64_S1x64_1 : (⟨S64, .f32⟩ : BufTy).Contents (Elt F) → (⟨S1x64, .f32⟩ : BufTy).Contents (Elt F)),
    unary main_v127 main_v128 (broadcastInDim S640000x64 ![0, 1] bcast_S1x64_S640000x64_0_1 : (⟨S1x64, .f32⟩ : BufTy).Contents (Elt F) → (⟨S640000x64, .f32⟩ : BufTy).Contents (Elt F)),
    binary main_v124 main_v128 main_v129 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S640000x64, .f32⟩) main_call4_v0) (broadcastInDim S640000x64 ![] bcast_S_S640000x64),
    TRef.binary (TRef.of (T := ⟨S640000x64, .f32⟩) main_v129) (TRef.of (T := ⟨S640000x64, .f32⟩) main_call4_v0) (TRef.of (T := ⟨S640000x64, .f32⟩) main_v130) maximumf ]

/-- Segment 10, layer 2: scatter-add (%131–%133): 4 operations. -/
abbrev seg10 : List (HloOp τ sig (Elt F)) :=
  [ nullary main_cst_14 (constant S_ .f32 0x00000000#32),
    unary main_cst_14 main_v131 (broadcastInDim S100000x64 ![] bcast_S_S100000x64 : (⟨S_, .f32⟩ : BufTy).Contents (Elt F) → (⟨S100000x64, .f32⟩ : BufTy).Contents (Elt F)),
    unary main_arg3 main_v132 (broadcastInDim S640000x1 ![0] bcast_S640000_S640000x1_0 : (⟨S640000, .i32⟩ : BufTy).Contents (Elt F) → (⟨S640000x1, .i32⟩ : BufTy).Contents (Elt F)),
    ternary main_v131 main_v132 main_v130 main_v133 ((fun x i u => Host.scatterAdd scatter_S100000x64_S640000x1_S640000x64_1_0_0_1 x i u) : (⟨S100000x64, .f32⟩ : BufTy).Contents (Elt F) → (⟨S640000x1, .i32⟩ : BufTy).Contents (Elt F) → (⟨S640000x64, .f32⟩ : BufTy).Contents (Elt F) → (⟨S100000x64, .f32⟩ : BufTy).Contents (Elt F)) ]

/-- Segment 11, layer 2: node update mlp (%134–%151): 20 operations. -/
abbrev seg11 : List (HloOp τ sig (Elt F)) :=
  [ binary main_v78 main_v133 main_v134 (addf : (⟨S100000x64, .f32⟩ : BufTy).Contents (Elt F) → (⟨S100000x64, .f32⟩ : BufTy).Contents (Elt F) → (⟨S100000x64, .f32⟩ : BufTy).Contents (Elt F)),
    unary main_arg10 main_v135 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v135 main_v136 rfl shapeCasts_S1x64x64_S64x64,
    binary main_v134 main_v136 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v138 ((extractStridedSlice S1x64 ![1, 0] · slices_S2x64_S1x64_1_0) : (⟨S2x64, .f32⟩ : BufTy).Contents (Elt F) → (⟨S1x64, .f32⟩ : BufTy).Contents (Elt F)),
    reshape main_v138 main_v139 rfl shapeCasts_S1x64_S64,
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v137 main_v141 main_v142 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v142) (TRef.of (T := ⟨S100000x64, .f32⟩) main_call5_v0) (TRef.of (T := ⟨S100000x64, .f32⟩) main_v143) maximumf,
    unary main_arg12 main_v144 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v144 main_v145 rfl shapeCasts_S1x64x64_S64x64,
    binary main_v143 main_v145 main_v146 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v147 ((extractStridedSlice S1x64 ![1, 0] · slices_S2x64_S1x64_1_0) : (⟨S2x64, .f32⟩ : BufTy).Contents (Elt F) → (⟨S1x64, .f32⟩ : BufTy).Contents (Elt F)),
    reshape main_v147 main_v148 rfl shapeCasts_S1x64_S64,
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v146 main_v150 main_v151 (addf : (⟨S100000x64, .f32⟩ : BufTy).Contents (Elt F) → (⟨S100000x64, .f32⟩ : BufTy).Contents (Elt F) → (⟨S100000x64, .f32⟩ : BufTy).Contents (Elt F)) ]

/-- Segment 12, layer 2: normalisation, the column mean and variance (%152–%165): 18 operations. -/
abbrev seg12 : List (HloOp τ sig (Elt F)) :=
  [ unary main_arg18 main_v152 ((extractStridedSlice S1x64 ![1, 0] · slices_S2x64_S1x64_1_0) : (⟨S2x64, .f32⟩ : BufTy).Contents (Elt F) → (⟨S1x64, .f32⟩ : BufTy).Contents (Elt F)),
    reshape main_v152 main_v153 rfl shapeCasts_S1x64_S64,
    unary main_arg19 main_v154 ((extractStridedSlice S1x64 ![1, 0] · slices_S2x64_S1x64_1_0) : (⟨S2x64, .f32⟩ : BufTy).Contents (Elt F) → (⟨S1x64, .f32⟩ : BufTy).Contents (Elt F)),
    reshape main_v154 main_v155 rfl shapeCasts_S1x64_S64,
    nullary main_cst_15 (constant S_ .f32 0x00000000#32),
    binary main_v151 main_cst_15 main_v156 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v157 (broadcastInDim S64 ![] bcast_S_S64 : (⟨S_, .f32⟩ : BufTy).Contents (Elt F) → (⟨S64, .f32⟩ : BufTy).Contents (Elt F)),
    binary main_v156 main_v157 main_v158 (Host.divf : (⟨S64, .f32⟩ : BufTy).Contents (Elt F) → (⟨S64, .f32⟩ : BufTy).Contents (Elt F) → (⟨S64, .f32⟩ : BufTy).Contents (Elt F)),
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S100000x64 ![0, 1] bcast_S1x64_S100000x64_0_1 : (⟨S1x64, .f32⟩ : BufTy).Contents (Elt F) → (⟨S100000x64, .f32⟩ : BufTy).Contents (Elt F)),
    binary main_v151 main_v160 main_v161 (subf : (⟨S100000x64, .f32⟩ : BufTy).Contents (Elt F) → (⟨S100000x64, .f32⟩ : BufTy).Contents (Elt F) → (⟨S100000x64, .f32⟩ : BufTy).Contents (Elt F)),
    binary main_v161 main_v161 main_v162 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v162 main_cst_17 main_v163 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)) ]

/-- Segment 13, layer 2: normalisation applied, relu, residual, halving (%166–%184): 23 operations. -/
abbrev seg13 : List (HloOp τ sig (Elt F)) :=
  [ unary main_v158 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v151 main_v167 main_v168 (subf : (⟨S100000x64, .f32⟩ : BufTy).Contents (Elt F) → (⟨S100000x64, .f32⟩ : BufTy).Contents (Elt F) → (⟨S100000x64, .f32⟩ : BufTy).Contents (Elt F)),
    unary main_v153 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v170 main_v168 main_v171 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v172 (broadcastInDim S64 ![] bcast_S_S64 : (⟨S_, .f32⟩ : BufTy).Contents (Elt F) → (⟨S64, .f32⟩ : BufTy).Contents (Elt F)),
    binary main_v165 main_v172 main_v173 (addf : (⟨S64, .f32⟩ : BufTy).Contents (Elt F) → (⟨S64, .f32⟩ : BufTy).Contents (Elt F) → (⟨S64, .f32⟩ : BufTy).Contents (Elt F)),
    unary main_v173 main_v174 (Host.rsqrt : (⟨S64, .f32⟩ : BufTy).Contents (Elt F) → (⟨S64, .f32⟩ : BufTy).Contents (Elt F)),
    unary main_v174 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v171 main_v176 main_v177 (mulf : (⟨S100000x64, .f32⟩ : BufTy).Contents (Elt F) → (⟨S100000x64, .f32⟩ : BufTy).Contents (Elt F) → (⟨S100000x64, .f32⟩ : BufTy).Contents (Elt F)),
    unary main_v155 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v177 main_v179 main_v180 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v180) (TRef.of (T := ⟨S100000x64, .f32⟩) main_call6_v0) (TRef.of (T := ⟨S100000x64, .f32⟩) main_v181) maximumf,
    binary main_v78 main_v181 main_v182 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x40000000#32),
    unary main_cst_20 main_v183 (broadcastInDim S100000x64 ![] bcast_S_S100000x64 : (⟨S_, .f32⟩ : BufTy).Contents (Elt F) → (⟨S100000x64, .f32⟩ : BufTy).Contents (Elt F)),
    binary main_v182 main_v183 main_v184 (Host.divf : (⟨S100000x64, .f32⟩ : BufTy).Contents (Elt F) → (⟨S100000x64, .f32⟩ : BufTy).Contents (Elt F) → (⟨S100000x64, .f32⟩ : BufTy).Contents (Elt F)) ]

/-- Segment 14, layer 2: the two gathers and the concatenation (%185–%199): 19 operations. -/
abbrev seg14 : List (HloOp τ sig (Elt F)) :=
  [ nullary main_c_21 (constantI S_ 32 0#32),
    unary main_c_21 main_v185 (broadcastInDim S640000 ![] bcast_S_S640000 : (⟨S_, .i32⟩ : BufTy).Contents (Elt F) → (⟨S640000, .i32⟩ : BufTy).Contents (Elt F)),
    binary main_arg2 main_v185 main_v186 (cmpi .slt : (⟨S640000, .i32⟩ : BufTy).Contents (Elt F) → (⟨S640000, .i32⟩ : BufTy).Contents (Elt F) → (⟨S640000, .i1⟩ : BufTy).Contents (Elt F)),
    nullary main_c_22 (constantI S_ 32 100000#32),
    unary main_c_22 main_v187 (broadcastInDim S640000 ![] bcast_S_S640000 : (⟨S_, .i32⟩ : BufTy).Contents (Elt F) → (⟨S640000, .i32⟩ : BufTy).Contents (Elt F)),
    binary main_arg2 main_v187 main_v188 (addi : (⟨S640000, .i32⟩ : BufTy).Contents (Elt F) → (⟨S640000, .i32⟩ : BufTy).Contents (Elt F) → (⟨S640000, .i32⟩ : BufTy).Contents (Elt F)),
    ternary main_v186 main_v188 main_arg2 main_v189 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v189 main_v190 (broadcastInDim S640000x1 ![0] bcast_S640000_S640000x1_0 : (⟨S640000, .i32⟩ : BufTy).Contents (Elt F) → (⟨S640000x1, .i32⟩ : BufTy).Contents (Elt F)),
    binary main_v184 main_v190 main_v191 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nullary main_c_23 (constantI S_ 32 0#32),
    unary main_c_23 main_v192 (broadcastInDim S640000 ![] bcast_S_S640000 : (⟨S_, .i32⟩ : BufTy).Contents (Elt F) → (⟨S640000, .i32⟩ : BufTy).Contents (Elt F)),
    binary main_arg3 main_v192 main_v193 (cmpi .slt : (⟨S640000, .i32⟩ : BufTy).Contents (Elt F) → (⟨S640000, .i32⟩ : BufTy).Contents (Elt F) → (⟨S640000, .i1⟩ : BufTy).Contents (Elt F)),
    nullary main_c_24 (constantI S_ 32 100000#32),
    unary main_c_24 main_v194 (broadcastInDim S640000 ![] bcast_S_S640000 : (⟨S_, .i32⟩ : BufTy).Contents (Elt F) → (⟨S640000, .i32⟩ : BufTy).Contents (Elt F)),
    binary main_arg3 main_v194 main_v195 (addi : (⟨S640000, .i32⟩ : BufTy).Contents (Elt F) → (⟨S640000, .i32⟩ : BufTy).Contents (Elt F) → (⟨S640000, .i32⟩ : BufTy).Contents (Elt F)),
    ternary main_v193 main_v195 main_arg3 main_v196 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v196 main_v197 (broadcastInDim S640000x1 ![0] bcast_S640000_S640000x1_0 : (⟨S640000, .i32⟩ : BufTy).Contents (Elt F) → (⟨S640000x1, .i32⟩ : BufTy).Contents (Elt F)),
    binary main_v184 main_v197 main_v198 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nary ![main_v191, main_v198, main_v113] main_v199 (fun u => concatenate S640000x192 1 [⟨S640000x64, u 0⟩, ⟨S640000x64, u 1⟩, ⟨S640000x64, u 2⟩] concatenates_S640000x64_S640000x64_S640000x64_S640000x192_d1) ]

/-- Segment 15, layer 2: edge update mlp and residual (%200–%219): 23 operations. -/
abbrev seg15 : List (HloOp τ sig (Elt F)) :=
  [ unary main_arg14 main_v200 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v200 main_v201 rfl shapeCasts_S1x192x64_S192x64,
    binary main_v199 main_v201 main_v202 ((fun l r => Host.dotGeneral dot_S640000x192_S192x64_S640000x64_1_0_0_1_n_n none l r) : (⟨S640000x192, .f32⟩ : BufTy).Contents (Elt F) → (⟨S192x64, .f32⟩ : BufTy).Contents (Elt F) → (⟨S640000x64, .f32⟩ : BufTy).Contents (Elt F)),
    unary main_arg15 main_v203 ((extractStridedSlice S1x64 ![1, 0] · slices_S2x64_S1x64_1_0) : (⟨S2x64, .f32⟩ : BufTy).Contents (Elt F) → (⟨S1x64, .f32⟩ : BufTy).Contents (Elt F)),
    reshape main_v203 main_v204 rfl shapeCasts_S1x64_S64,
    unary main_v204 main_v205 (broadcastInDim S1x64 ![1] bcast_S64_S1x64_1 : (⟨S64, .f32⟩ : BufTy).Contents (Elt F) → (⟨S1x64, .f32⟩ : BufTy).Contents (Elt F)),
    unary main_v205 main_v206 (broadcastInDim S640000x64 ![0, 1] bcast_S1x64_S640000x64_0_1 : (⟨S1x64, .f32⟩ : BufTy).Contents (Elt F) → (⟨S640000x64, .f32⟩ : BufTy).Contents (Elt F)),
    binary main_v202 main_v206 main_v207 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S640000x64, .f32⟩) main_call7_v0) (broadcastInDim S640000x64 ![] bcast_S_S640000x64),
    TRef.binary (TRef.of (T := ⟨S640000x64, .f32⟩) main_v207) (TRef.of (T := ⟨S640000x64, .f32⟩) main_call7_v0) (TRef.of (T := ⟨S640000x64, .f32⟩) main_v208) maximumf,
    unary main_arg16 main_v209 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v209 main_v210 rfl shapeCasts_S1x64x64_S64x64,
    binary main_v208 main_v210 main_v211 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    unary main_arg17 main_v212 ((extractStridedSlice S1x64 ![1, 0] · slices_S2x64_S1x64_1_0) : (⟨S2x64, .f32⟩ : BufTy).Contents (Elt F) → (⟨S1x64, .f32⟩ : BufTy).Contents (Elt F)),
    reshape main_v212 main_v213 rfl shapeCasts_S1x64_S64,
    unary main_v213 main_v214 (broadcastInDim S1x64 ![1] bcast_S64_S1x64_1 : (⟨S64, .f32⟩ : BufTy).Contents (Elt F) → (⟨S1x64, .f32⟩ : BufTy).Contents (Elt F)),
    unary main_v214 main_v215 (broadcastInDim S640000x64 ![0, 1] bcast_S1x64_S640000x64_0_1 : (⟨S1x64, .f32⟩ : BufTy).Contents (Elt F) → (⟨S640000x64, .f32⟩ : BufTy).Contents (Elt F)),
    binary main_v211 main_v215 main_v216 (addf : (⟨S640000x64, .f32⟩ : BufTy).Contents (Elt F) → (⟨S640000x64, .f32⟩ : BufTy).Contents (Elt F) → (⟨S640000x64, .f32⟩ : BufTy).Contents (Elt F)),
    nullary main_cst_25 (constant S_ .f32 0x40000000#32),
    unary main_cst_25 main_v217 (broadcastInDim S640000x64 ![] bcast_S_S640000x64 : (⟨S_, .f32⟩ : BufTy).Contents (Elt F) → (⟨S640000x64, .f32⟩ : BufTy).Contents (Elt F)),
    binary main_v216 main_v217 main_v218 (Host.divf : (⟨S640000x64, .f32⟩ : BufTy).Contents (Elt F) → (⟨S640000x64, .f32⟩ : BufTy).Contents (Elt F) → (⟨S640000x64, .f32⟩ : BufTy).Contents (Elt F)),
    binary main_v113 main_v218 main_v219 (addf : (⟨S640000x64, .f32⟩ : BufTy).Contents (Elt F) → (⟨S640000x64, .f32⟩ : BufTy).Contents (Elt F) → (⟨S640000x64, .f32⟩ : BufTy).Contents (Elt F)) ]

/-- Segment 16, read-out: the two gathers, concatenation, relu, concatenation with the edge features (%220–%236): 23 operations. -/
abbrev seg16 : List (HloOp τ sig (Elt F)) :=
  [ nullary main_c_26 (constantI S_ 32 0#32),
    unary main_c_26 main_v220 (broadcastInDim S640000 ![] bcast_S_S640000 : (⟨S_, .i32⟩ : BufTy).Contents (Elt F) → (⟨S640000, .i32⟩ : BufTy).Contents (Elt F)),
    binary main_arg2 main_v220 main_v221 (cmpi .slt : (⟨S640000, .i32⟩ : BufTy).Contents (Elt F) → (⟨S640000, .i32⟩ : BufTy).Contents (Elt F) → (⟨S640000, .i1⟩ : BufTy).Contents (Elt F)),
    nullary main_c_27 (constantI S_ 32 100000#32),
    unary main_c_27 main_v222 (broadcastInDim S640000 ![] bcast_S_S640000 : (⟨S_, .i32⟩ : BufTy).Contents (Elt F) → (⟨S640000, .i32⟩ : BufTy).Contents (Elt F)),
    binary main_arg2 main_v222 main_v223 (addi : (⟨S640000, .i32⟩ : BufTy).Contents (Elt F) → (⟨S640000, .i32⟩ : BufTy).Contents (Elt F) → (⟨S640000, .i32⟩ : BufTy).Contents (Elt F)),
    ternary main_v221 main_v223 main_arg2 main_v224 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v224 main_v225 (broadcastInDim S640000x1 ![0] bcast_S640000_S640000x1_0 : (⟨S640000, .i32⟩ : BufTy).Contents (Elt F) → (⟨S640000x1, .i32⟩ : BufTy).Contents (Elt F)),
    binary main_v184 main_v225 main_v226 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nullary main_c_28 (constantI S_ 32 0#32),
    unary main_c_28 main_v227 (broadcastInDim S640000 ![] bcast_S_S640000 : (⟨S_, .i32⟩ : BufTy).Contents (Elt F) → (⟨S640000, .i32⟩ : BufTy).Contents (Elt F)),
    binary main_arg3 main_v227 main_v228 (cmpi .slt : (⟨S640000, .i32⟩ : BufTy).Contents (Elt F) → (⟨S640000, .i32⟩ : BufTy).Contents (Elt F) → (⟨S640000, .i1⟩ : BufTy).Contents (Elt F)),
    nullary main_c_29 (constantI S_ 32 100000#32),
    unary main_c_29 main_v229 (broadcastInDim S640000 ![] bcast_S_S640000 : (⟨S_, .i32⟩ : BufTy).Contents (Elt F) → (⟨S640000, .i32⟩ : BufTy).Contents (Elt F)),
    binary main_arg3 main_v229 main_v230 (addi : (⟨S640000, .i32⟩ : BufTy).Contents (Elt F) → (⟨S640000, .i32⟩ : BufTy).Contents (Elt F) → (⟨S640000, .i32⟩ : BufTy).Contents (Elt F)),
    ternary main_v228 main_v230 main_arg3 main_v231 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v231 main_v232 (broadcastInDim S640000x1 ![0] bcast_S640000_S640000x1_0 : (⟨S640000, .i32⟩ : BufTy).Contents (Elt F) → (⟨S640000x1, .i32⟩ : BufTy).Contents (Elt F)),
    binary main_v184 main_v232 main_v233 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    binary main_v226 main_v233 main_v234 ((fun a b => concatenate S640000x128 1 [⟨S640000x64, a⟩, ⟨S640000x64, b⟩] concatenates_S640000x64_S640000x64_S640000x128_d1) : (⟨S640000x64, .f32⟩ : BufTy).Contents (Elt F) → (⟨S640000x64, .f32⟩ : BufTy).Contents (Elt F) → (⟨S640000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S640000x128, .f32⟩) main_call8_v0) (broadcastInDim S640000x128 ![] bcast_S_S640000x128),
    TRef.binary (TRef.of (T := ⟨S640000x128, .f32⟩) main_v234) (TRef.of (T := ⟨S640000x128, .f32⟩) main_call8_v0) (TRef.of (T := ⟨S640000x128, .f32⟩) main_v235) maximumf,
    binary main_v235 main_v219 main_v236 ((fun a b => concatenate S640000x192 1 [⟨S640000x128, a⟩, ⟨S640000x64, b⟩] concatenates_S640000x128_S640000x64_S640000x192_d1) : (⟨S640000x128, .f32⟩ : BufTy).Contents (Elt F) → (⟨S640000x64, .f32⟩ : BufTy).Contents (Elt F) → (⟨S640000x192, .f32⟩ : BufTy).Contents (Elt F)) ]

/-- Segment 17, read-out: the three dense layers (%237–%250): 18 operations. -/
abbrev seg17 : List (HloOp τ sig (Elt F)) :=
  [ binary main_v236 main_arg20 main_v237 ((fun l r => Host.dotGeneral dot_S640000x192_S192x50_S640000x50_1_0_0_1_n_n none l r) : (⟨S640000x192, .f32⟩ : BufTy).Contents (Elt F) → (⟨S192x50, .f32⟩ : BufTy).Contents (Elt F) → (⟨S640000x50, .f32⟩ : BufTy).Contents (Elt F)),
    unary main_arg21 main_v238 (broadcastInDim S1x50 ![1] bcast_S50_S1x50_1 : (⟨S50, .f32⟩ : BufTy).Contents (Elt F) → (⟨S1x50, .f32⟩ : BufTy).Contents (Elt F)),
    unary main_v238 main_v239 (broadcastInDim S640000x50 ![0, 1] bcast_S1x50_S640000x50_0_1 : (⟨S1x50, .f32⟩ : BufTy).Contents (Elt F) → (⟨S640000x50, .f32⟩ : BufTy).Contents (Elt F)),
    binary main_v237 main_v239 main_v240 (addf : (⟨S640000x50, .f32⟩ : BufTy).Contents (Elt F) → (⟨S640000x50, .f32⟩ : BufTy).Contents (Elt F) → (⟨S640000x50, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S640000x50, .f32⟩) main_call9_v0) (broadcastInDim S640000x50 ![] bcast_S_S640000x50),
    TRef.binary (TRef.of (T := ⟨S640000x50, .f32⟩) main_v240) (TRef.of (T := ⟨S640000x50, .f32⟩) main_call9_v0) (TRef.of (T := ⟨S640000x50, .f32⟩) main_v241) maximumf,
    binary main_v241 main_arg22 main_v242 ((fun l r => Host.dotGeneral dot_S640000x50_S50x25_S640000x25_1_0_0_1_n_n none l r) : (⟨S640000x50, .f32⟩ : BufTy).Contents (Elt F) → (⟨S50x25, .f32⟩ : BufTy).Contents (Elt F) → (⟨S640000x25, .f32⟩ : BufTy).Contents (Elt F)),
    unary main_arg23 main_v243 (broadcastInDim S1x25 ![1] bcast_S25_S1x25_1 : (⟨S25, .f32⟩ : BufTy).Contents (Elt F) → (⟨S1x25, .f32⟩ : BufTy).Contents (Elt F)),
    unary main_v243 main_v244 (broadcastInDim S640000x25 ![0, 1] bcast_S1x25_S640000x25_0_1 : (⟨S1x25, .f32⟩ : BufTy).Contents (Elt F) → (⟨S640000x25, .f32⟩ : BufTy).Contents (Elt F)),
    binary main_v242 main_v244 main_v245 (addf : (⟨S640000x25, .f32⟩ : BufTy).Contents (Elt F) → (⟨S640000x25, .f32⟩ : BufTy).Contents (Elt F) → (⟨S640000x25, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S640000x25, .f32⟩) main_call10_v0) (broadcastInDim S640000x25 ![] bcast_S_S640000x25),
    TRef.binary (TRef.of (T := ⟨S640000x25, .f32⟩) main_v245) (TRef.of (T := ⟨S640000x25, .f32⟩) main_call10_v0) (TRef.of (T := ⟨S640000x25, .f32⟩) main_v246) maximumf,
    binary main_v246 main_arg24 main_v247 ((fun l r => Host.dotGeneral dot_S640000x25_S25x1_S640000x1_1_0_0_1_n_n none l r) : (⟨S640000x25, .f32⟩ : BufTy).Contents (Elt F) → (⟨S25x1, .f32⟩ : BufTy).Contents (Elt F) → (⟨S640000x1, .f32⟩ : BufTy).Contents (Elt F)),
    unary main_arg25 main_v248 (broadcastInDim S1x1 ![1] bcast_S1_S1x1_1 : (⟨S1, .f32⟩ : BufTy).Contents (Elt F) → (⟨S1x1, .f32⟩ : BufTy).Contents (Elt F)),
    unary main_v248 main_v249 (broadcastInDim S640000x1 ![0, 1] bcast_S1x1_S640000x1_0_1 : (⟨S1x1, .f32⟩ : BufTy).Contents (Elt F) → (⟨S640000x1, .f32⟩ : BufTy).Contents (Elt F)),
    binary main_v247 main_v249 main_v250 (addf : (⟨S640000x1, .f32⟩ : BufTy).Contents (Elt F) → (⟨S640000x1, .f32⟩ : BufTy).Contents (Elt F) → (⟨S640000x1, .f32⟩ : BufTy).Contents (Elt F)) ]

/-- The whole line: the segments in program order. -/
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17)))))))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem sub0 : (seg0 : List (HloOp τ sig (Elt F))).Forall fun op => op.bufs ⊆ tcRefs τ sig :=
  ⟨binary_bufs_sub .., unary_bufs_sub .., unary_bufs_sub .., binary_bufs_sub ..⟩

theorem sub1 : (seg1 : List (HloOp τ sig (Elt F))).Forall fun op => op.bufs ⊆ tcRefs τ sig :=
  ⟨binary_bufs_sub .., unary_bufs_sub .., unary_bufs_sub .., binary_bufs_sub ..⟩

theorem sub2 : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

theorem sub3 : (seg3 : List (HloOp τ sig (Elt F))).Forall fun op => op.bufs ⊆ tcRefs τ sig :=
  ⟨nullary_bufs_sub .., unary_bufs_sub .., unary_bufs_sub .., ternary_bufs_sub ..⟩

theorem sub4 : (seg4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem sub5 : (seg5 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩

theorem sub6 : (seg6 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub ..⟩

theorem sub7 : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩

theorem sub8 : (seg8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem sub9 : (seg9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

theorem sub10 : (seg10 : List (HloOp τ sig (Elt F))).Forall fun op => op.bufs ⊆ tcRefs τ sig :=
  ⟨nullary_bufs_sub .., unary_bufs_sub .., unary_bufs_sub .., ternary_bufs_sub ..⟩

theorem sub11 : (seg11 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem sub12 : (seg12 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩

theorem sub13 : (seg13 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub ..⟩

theorem sub14 : (seg14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩

theorem sub15 : (seg15 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem sub16 : (seg16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub ..⟩

theorem sub17 : (seg17 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.2 ⟨sub0, List.forall_append.2 ⟨sub1, List.forall_append.2 ⟨sub2, List.forall_append.2 ⟨sub3, List.forall_append.2 ⟨sub4, List.forall_append.2 ⟨sub5, List.forall_append.2 ⟨sub6, List.forall_append.2 ⟨sub7, List.forall_append.2 ⟨sub8, List.forall_append.2 ⟨sub9, List.forall_append.2 ⟨sub10, List.forall_append.2 ⟨sub11, List.forall_append.2 ⟨sub12, List.forall_append.2 ⟨sub13, List.forall_append.2 ⟨sub14, List.forall_append.2 ⟨sub15, List.forall_append.2 ⟨sub16, sub17⟩⟩⟩⟩⟩⟩⟩⟩⟩⟩⟩⟩⟩⟩⟩⟩⟩

theorem fresh0 : ∀ op ∈ (seg0 : List (HloOp τ sig (Elt F))), op.fresh = ∅ := by
  intro _ h; (repeat (cases h with | head => rfl | tail _ h => ?_)); exact nomatch h

theorem fresh1 : ∀ op ∈ (seg1 : List (HloOp τ sig (Elt F))), op.fresh = ∅ := by
  intro _ h; (repeat (cases h with | head => rfl | tail _ h => ?_)); exact nomatch h

theorem fresh2 : ∀ op ∈ (seg2 : List (HloOp τ sig (Elt F))), op.fresh = ∅ := by
  intro _ h; (repeat (cases h with | head => rfl | tail _ h => ?_)); exact nomatch h

theorem fresh3 : ∀ op ∈ (seg3 : List (HloOp τ sig (Elt F))), op.fresh = ∅ := by
  intro _ h; (repeat (cases h with | head => rfl | tail _ h => ?_)); exact nomatch h

theorem fresh4 : ∀ op ∈ (seg4 : List (HloOp τ sig (Elt F))), op.fresh = ∅ := by
  intro _ h; (repeat (cases h with | head => rfl | tail _ h => ?_)); exact nomatch h

theorem fresh5 : ∀ op ∈ (seg5 : List (HloOp τ sig (Elt F))), op.fresh = ∅ := by
  intro _ h; (repeat (cases h with | head => rfl | tail _ h => ?_)); exact nomatch h

theorem fresh6 : ∀ op ∈ (seg6 : List (HloOp τ sig (Elt F))), op.fresh = ∅ := by
  intro _ h; (repeat (cases h with | head => rfl | tail _ h => ?_)); exact nomatch h

theorem fresh7 : ∀ op ∈ (seg7 : List (HloOp τ sig (Elt F))), op.fresh = ∅ := by
  intro _ h; (repeat (cases h with | head => rfl | tail _ h => ?_)); exact nomatch h

theorem fresh8 : ∀ op ∈ (seg8 : List (HloOp τ sig (Elt F))), op.fresh = ∅ := by
  intro _ h; (repeat (cases h with | head => rfl | tail _ h => ?_)); exact nomatch h

theorem fresh9 : ∀ op ∈ (seg9 : List (HloOp τ sig (Elt F))), op.fresh = ∅ := by
  intro _ h; (repeat (cases h with | head => rfl | tail _ h => ?_)); exact nomatch h

theorem fresh10 : ∀ op ∈ (seg10 : List (HloOp τ sig (Elt F))), op.fresh = ∅ := by
  intro _ h; (repeat (cases h with | head => rfl | tail _ h => ?_)); exact nomatch h

theorem fresh11 : ∀ op ∈ (seg11 : List (HloOp τ sig (Elt F))), op.fresh = ∅ := by
  intro _ h; (repeat (cases h with | head => rfl | tail _ h => ?_)); exact nomatch h

theorem fresh12 : ∀ op ∈ (seg12 : List (HloOp τ sig (Elt F))), op.fresh = ∅ := by
  intro _ h; (repeat (cases h with | head => rfl | tail _ h => ?_)); exact nomatch h

theorem fresh13 : ∀ op ∈ (seg13 : List (HloOp τ sig (Elt F))), op.fresh = ∅ := by
  intro _ h; (repeat (cases h with | head => rfl | tail _ h => ?_)); exact nomatch h

theorem fresh14 : ∀ op ∈ (seg14 : List (HloOp τ sig (Elt F))), op.fresh = ∅ := by
  intro _ h; (repeat (cases h with | head => rfl | tail _ h => ?_)); exact nomatch h

theorem fresh15 : ∀ op ∈ (seg15 : List (HloOp τ sig (Elt F))), op.fresh = ∅ := by
  intro _ h; (repeat (cases h with | head => rfl | tail _ h => ?_)); exact nomatch h

theorem fresh16 : ∀ op ∈ (seg16 : List (HloOp τ sig (Elt F))), op.fresh = ∅ := by
  intro _ h; (repeat (cases h with | head => rfl | tail _ h => ?_)); exact nomatch h

theorem fresh17 : ∀ op ∈ (seg17 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · exact fresh0 op h
  rcases List.mem_append.1 h with h | h
  · exact fresh1 op h
  rcases List.mem_append.1 h with h | h
  · exact fresh2 op h
  rcases List.mem_append.1 h with h | h
  · exact fresh3 op h
  rcases List.mem_append.1 h with h | h
  · exact fresh4 op h
  rcases List.mem_append.1 h with h | h
  · exact fresh5 op h
  rcases List.mem_append.1 h with h | h
  · exact fresh6 op h
  rcases List.mem_append.1 h with h | h
  · exact fresh7 op h
  rcases List.mem_append.1 h with h | h
  · exact fresh8 op h
  rcases List.mem_append.1 h with h | h
  · exact fresh9 op h
  rcases List.mem_append.1 h with h | h
  · exact fresh10 op h
  rcases List.mem_append.1 h with h | h
  · exact fresh11 op h
  rcases List.mem_append.1 h with h | h
  · exact fresh12 op h
  rcases List.mem_append.1 h with h | h
  · exact fresh13 op h
  rcases List.mem_append.1 h with h | h
  · exact fresh14 op h
  rcases List.mem_append.1 h with h | h
  · exact fresh15 op h
  rcases List.mem_append.1 h with h | h
  · exact fresh16 op h
  exact fresh17 op h

/-! ## Boundary valuations -/

/-- Running a concatenation is running its parts in turn. -/
theorem after_append (a b : List (HloOp τ sig (Elt F))) (V : Valuation τ sig (Elt F)) :
    after (a ++ b) V = after b (after a V) := by
  induction a generalizing V with
  | nil => rfl
  | cons op l ih => rw [List.cons_append, after_cons, after_cons, ih]

/-- The device's buffer contents at launch. -/
def U0 (m : (ℓ : Loc nD τ sig) → Buf (Elt F) ℓ) (c : Dev nD) : Valuation τ sig (Elt F) := launchContents m c
theorem U0_eq (m : (ℓ : Loc nD τ sig) → Buf (Elt F) ℓ) (c : Dev nD) : U0 m c = launchContents m c := rfl
/-- At launch a buffer holds the initial memory's contents. -/
theorem U0_apply (m : (ℓ : Loc nD τ sig) → Buf (Elt F) ℓ) (c : Dev nD) (b : Ref sig .tc) :
    U0 m c (no_index (Proc.devRef .tc b)) = m ((c.tc : Thread nD τ).loc b) := rfl

/-- The contents after segment 0. -/
def U1 (m : (ℓ : Loc nD τ sig) → Buf (Elt F) ℓ) (c : Dev nD) : Valuation τ sig (Elt F) := after seg0 (U0 m c)
theorem U1_eq (m : (ℓ : Loc nD τ sig) → Buf (Elt F) ℓ) (c : Dev nD) : U1 m c = after seg0 (U0 m c) := rfl

/-- The contents after segment 1. -/
def U2 (m : (ℓ : Loc nD τ sig) → Buf (Elt F) ℓ) (c : Dev nD) : Valuation τ sig (Elt F) := after seg1 (U1 m c)
theorem U2_eq (m : (ℓ : Loc nD τ sig) → Buf (Elt F) ℓ) (c : Dev nD) : U2 m c = after seg1 (U1 m c) := rfl

/-- The contents after segment 2. -/
def U3 (m : (ℓ : Loc nD τ sig) → Buf (Elt F) ℓ) (c : Dev nD) : Valuation τ sig (Elt F) := after seg2 (U2 m c)
theorem U3_eq (m : (ℓ : Loc nD τ sig) → Buf (Elt F) ℓ) (c : Dev nD) : U3 m c = after seg2 (U2 m c) := rfl

/-- The contents after segment 3. -/
def U4 (m : (ℓ : Loc nD τ sig) → Buf (Elt F) ℓ) (c : Dev nD) : Valuation τ sig (Elt F) := after seg3 (U3 m c)
theorem U4_eq (m : (ℓ : Loc nD τ sig) → Buf (Elt F) ℓ) (c : Dev nD) : U4 m c = after seg3 (U3 m c) := rfl

/-- The contents after segment 4. -/
def U5 (m : (ℓ : Loc nD τ sig) → Buf (Elt F) ℓ) (c : Dev nD) : Valuation τ sig (Elt F) := after seg4 (U4 m c)
theorem U5_eq (m : (ℓ : Loc nD τ sig) → Buf (Elt F) ℓ) (c : Dev nD) : U5 m c = after seg4 (U4 m c) := rfl

/-- The contents after segment 5. -/
def U6 (m : (ℓ : Loc nD τ sig) → Buf (Elt F) ℓ) (c : Dev nD) : Valuation τ sig (Elt F) := after seg5 (U5 m c)
theorem U6_eq (m : (ℓ : Loc nD τ sig) → Buf (Elt F) ℓ) (c : Dev nD) : U6 m c = after seg5 (U5 m c) := rfl

/-- The contents after segment 6. -/
def U7 (m : (ℓ : Loc nD τ sig) → Buf (Elt F) ℓ) (c : Dev nD) : Valuation τ sig (Elt F) := after seg6 (U6 m c)
theorem U7_eq (m : (ℓ : Loc nD τ sig) → Buf (Elt F) ℓ) (c : Dev nD) : U7 m c = after seg6 (U6 m c) := rfl

/-- The contents after segment 7. -/
def U8 (m : (ℓ : Loc nD τ sig) → Buf (Elt F) ℓ) (c : Dev nD) : Valuation τ sig (Elt F) := after seg7 (U7 m c)
theorem U8_eq (m : (ℓ : Loc nD τ sig) → Buf (Elt F) ℓ) (c : Dev nD) : U8 m c = after seg7 (U7 m c) := rfl

/-- The contents after segment 8. -/
def U9 (m : (ℓ : Loc nD τ sig) → Buf (Elt F) ℓ) (c : Dev nD) : Valuation τ sig (Elt F) := after seg8 (U8 m c)
theorem U9_eq (m : (ℓ : Loc nD τ sig) → Buf (Elt F) ℓ) (c : Dev nD) : U9 m c = after seg8 (U8 m c) := rfl

/-- The contents after segment 9. -/
def U10 (m : (ℓ : Loc nD τ sig) → Buf (Elt F) ℓ) (c : Dev nD) : Valuation τ sig (Elt F) := after seg9 (U9 m c)
theorem U10_eq (m : (ℓ : Loc nD τ sig) → Buf (Elt F) ℓ) (c : Dev nD) : U10 m c = after seg9 (U9 m c) := rfl

/-- The contents after segment 10. -/
def U11 (m : (ℓ : Loc nD τ sig) → Buf (Elt F) ℓ) (c : Dev nD) : Valuation τ sig (Elt F) := after seg10 (U10 m c)
theorem U11_eq (m : (ℓ : Loc nD τ sig) → Buf (Elt F) ℓ) (c : Dev nD) : U11 m c = after seg10 (U10 m c) := rfl

/-- The contents after segment 11. -/
def U12 (m : (ℓ : Loc nD τ sig) → Buf (Elt F) ℓ) (c : Dev nD) : Valuation τ sig (Elt F) := after seg11 (U11 m c)
theorem U12_eq (m : (ℓ : Loc nD τ sig) → Buf (Elt F) ℓ) (c : Dev nD) : U12 m c = after seg11 (U11 m c) := rfl

/-- The contents after segment 12. -/
def U13 (m : (ℓ : Loc nD τ sig) → Buf (Elt F) ℓ) (c : Dev nD) : Valuation τ sig (Elt F) := after seg12 (U12 m c)
theorem U13_eq (m : (ℓ : Loc nD τ sig) → Buf (Elt F) ℓ) (c : Dev nD) : U13 m c = after seg12 (U12 m c) := rfl

/-- The contents after segment 13. -/
def U14 (m : (ℓ : Loc nD τ sig) → Buf (Elt F) ℓ) (c : Dev nD) : Valuation τ sig (Elt F) := after seg13 (U13 m c)
theorem U14_eq (m : (ℓ : Loc nD τ sig) → Buf (Elt F) ℓ) (c : Dev nD) : U14 m c = after seg13 (U13 m c) := rfl

/-- The contents after segment 14. -/
def U15 (m : (ℓ : Loc nD τ sig) → Buf (Elt F) ℓ) (c : Dev nD) : Valuation τ sig (Elt F) := after seg14 (U14 m c)
theorem U15_eq (m : (ℓ : Loc nD τ sig) → Buf (Elt F) ℓ) (c : Dev nD) : U15 m c = after seg14 (U14 m c) := rfl

/-- The contents after segment 15. -/
def U16 (m : (ℓ : Loc nD τ sig) → Buf (Elt F) ℓ) (c : Dev nD) : Valuation τ sig (Elt F) := after seg15 (U15 m c)
theorem U16_eq (m : (ℓ : Loc nD τ sig) → Buf (Elt F) ℓ) (c : Dev nD) : U16 m c = after seg15 (U15 m c) := rfl

/-- The contents after segment 16. -/
def U17 (m : (ℓ : Loc nD τ sig) → Buf (Elt F) ℓ) (c : Dev nD) : Valuation τ sig (Elt F) := after seg16 (U16 m c)
theorem U17_eq (m : (ℓ : Loc nD τ sig) → Buf (Elt F) ℓ) (c : Dev nD) : U17 m c = after seg16 (U16 m c) := rfl

/-- The contents after segment 17. -/
def U18 (m : (ℓ : Loc nD τ sig) → Buf (Elt F) ℓ) (c : Dev nD) : Valuation τ sig (Elt F) := after seg17 (U17 m c)
theorem U18_eq (m : (ℓ : Loc nD τ sig) → Buf (Elt F) ℓ) (c : Dev nD) : U18 m c = after seg17 (U17 m c) := rfl

/-- The contents after the whole line are the last boundary valuation. -/
theorem after_ops (m : (ℓ : Loc nD τ sig) → Buf (Elt F) ℓ) (c : Dev nD) :
    after (ops : List (HloOp τ sig (Elt F))) (launchContents m c) = U18 m c := by
  rw [U18_eq, U17_eq, U16_eq, U15_eq, U14_eq, U13_eq, U12_eq, U11_eq, U10_eq, U9_eq, U8_eq, U7_eq, U6_eq, U5_eq, U4_eq, U3_eq, U2_eq, U1_eq, U0_eq]
  show after (seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17)))))))))))))))))) _ = _
  rw [after_append seg0, after_append seg1, after_append seg2, after_append seg3, after_append seg4, after_append seg5, after_append seg6, after_append seg7, after_append seg8, after_append seg9, after_append seg10, after_append seg11, after_append seg12, after_append seg13, after_append seg14, after_append seg15, after_append seg16]

/-- On every device, for any float values, from any memory with zero counters: every weakly fair execution of
    @main terminates with every buffer at the last boundary valuation. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = U18 m c (Proc.devRef .tc b) :=
  (θ_run defs _ _).mono (fun _ h c b => (h c b).trans (by rw [after_ops]))
    (run_seq scopedRefs_eq scopedSems_eq defs main (fun _ => ops) main_eq (fun _ => ops_sub) m ρ (fun _ => ops_fresh))

/-! ## What each segment writes, and that it leaves the rest

The statements below read the valuation at a buffer given as a reference; the buffer is left out of the rewriting
index so that they fire as rewrite rules at literal references. -/

/-- A reference in a list is, as a device buffer, in the list's image. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- The buffers segment 0 writes. -/
abbrev writes0 : List (Ref sig .tc) :=
  [main_v0, main_v1, main_v2, main_v3]
theorem writes_sub0 : (seg0 : List (HloOp τ sig (Elt F))).Forall fun op => op.writes ⊆ ((writes0).map (Proc.devRef (τ := τ) .tc)).toFinset :=
  ⟨single_sub (by decide), single_sub (by decide), single_sub (by decide), single_sub (by decide)⟩
theorem keep0 (m : (ℓ : Loc nD τ sig) → Buf (Elt F) ℓ) (c : Dev nD) (b : Ref sig .tc) (hb : b ∉ writes0) :
    U1 m c (no_index (Proc.devRef .tc b)) = U0 m c (Proc.devRef .tc b) := by
  rw [U1_eq]; exact after_of_writes_sub seg0 _ writes_sub0 hb

/-- The buffers segment 1 writes. -/
abbrev writes1 : List (Ref sig .tc) :=
  [main_v4, main_v5, main_v6, main_v7]
theorem writes_sub1 : (seg1 : List (HloOp τ sig (Elt F))).Forall fun op => op.writes ⊆ ((writes1).map (Proc.devRef (τ := τ) .tc)).toFinset :=
  ⟨single_sub (by decide), single_sub (by decide), single_sub (by decide), single_sub (by decide)⟩
theorem keep1 (m : (ℓ : Loc nD τ sig) → Buf (Elt F) ℓ) (c : Dev nD) (b : Ref sig .tc) (hb : b ∉ writes1) :
    U2 m c (no_index (Proc.devRef .tc b)) = U1 m c (Proc.devRef .tc b) := by
  rw [U2_eq]; exact after_of_writes_sub seg1 _ writes_sub1 hb

/-- The buffers segment 2 writes. -/
abbrev writes2 : List (Ref sig .tc) :=
  [main_c, main_v8, main_v9, main_c_0, main_v10, main_v11, main_v12, main_v13, main_v14, main_v15, main_v16, main_v17, main_v18, main_v19, main_v20, main_v21, main_v22, main_v23, main_call0_cst, main_call0_v0, main_v24]
theorem writes_sub2 : (seg2 : List (HloOp τ sig (Elt F))).Forall fun op => op.writes ⊆ ((writes2).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep2 (m : (ℓ : Loc nD τ sig) → Buf (Elt F) ℓ) (c : Dev nD) (b : Ref sig .tc) (hb : b ∉ writes2) :
    U3 m c (no_index (Proc.devRef .tc b)) = U2 m c (Proc.devRef .tc b) := by
  rw [U3_eq]; exact after_of_writes_sub seg2 _ writes_sub2 hb

/-- The buffers segment 3 writes. -/
abbrev writes3 : List (Ref sig .tc) :=
  [main_cst, main_v25, main_v26, main_v27]
theorem writes_sub3 : (seg3 : List (HloOp τ sig (Elt F))).Forall fun op => op.writes ⊆ ((writes3).map (Proc.devRef (τ := τ) .tc)).toFinset :=
  ⟨single_sub (by decide), single_sub (by decide), single_sub (by decide), single_sub (by decide)⟩
theorem keep3 (m : (ℓ : Loc nD τ sig) → Buf (Elt F) ℓ) (c : Dev nD) (b : Ref sig .tc) (hb : b ∉ writes3) :
    U4 m c (no_index (Proc.devRef .tc b)) = U3 m c (Proc.devRef .tc b) := by
  rw [U4_eq]; exact after_of_writes_sub seg3 _ writes_sub3 hb

/-- The buffers segment 4 writes. -/
abbrev writes4 : List (Ref sig .tc) :=
  [main_v28, main_v29, main_v30, main_v31, main_v32, main_v33, main_v34, main_v35, main_v36, main_call1_cst, main_call1_v0, main_v37, main_v38, main_v39, main_v40, main_v41, main_v42, main_v43, main_v44, main_v45]
theorem writes_sub4 : (seg4 : List (HloOp τ sig (Elt F))).Forall fun op => op.writes ⊆ ((writes4).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep4 (m : (ℓ : Loc nD τ sig) → Buf (Elt F) ℓ) (c : Dev nD) (b : Ref sig .tc) (hb : b ∉ writes4) :
    U5 m c (no_index (Proc.devRef .tc b)) = U4 m c (Proc.devRef .tc b) := by
  rw [U5_eq]; exact after_of_writes_sub seg4 _ writes_sub4 hb

/-- The buffers segment 5 writes. -/
abbrev writes5 : List (Ref sig .tc) :=
  [main_v46, main_v47, main_v48, main_v49, main_cst_1, main_v50, main_cst_2, main_v51, main_v52, main_v53, main_v54, main_v55, main_v56, main_cst_3, main_v57, main_cst_4, main_v58, main_v59]
theorem writes_sub5 : (seg5 : List (HloOp τ sig (Elt F))).Forall fun op => op.writes ⊆ ((writes5).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep5 (m : (ℓ : Loc nD τ sig) → Buf (Elt F) ℓ) (c : Dev nD) (b : Ref sig .tc) (hb : b ∉ writes5) :
    U6 m c (no_index (Proc.devRef .tc b)) = U5 m c (Proc.devRef .tc b) := by
  rw [U6_eq]; exact after_of_writes_sub seg5 _ writes_sub5 hb

/-- The buffers segment 6 writes. -/
abbrev writes6 : List (Ref sig .tc) :=
  [main_v60, main_v61, main_v62, main_v63, main_v64, main_v65, main_cst_5, main_v66, main_v67, main_v68, main_v69, main_v70, main_v71, main_v72, main_v73, main_v74, main_call2_cst, main_call2_v0, main_v75, main_v76, main_cst_6, main_v77, main_v78]
theorem writes_sub6 : (seg6 : List (HloOp τ sig (Elt F))).Forall fun op => op.writes ⊆ ((writes6).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep6 (m : (ℓ : Loc nD τ sig) → Buf (Elt F) ℓ) (c : Dev nD) (b : Ref sig .tc) (hb : b ∉ writes6) :
    U7 m c (no_index (Proc.devRef .tc b)) = U6 m c (Proc.devRef .tc b) := by
  rw [U7_eq]; exact after_of_writes_sub seg6 _ writes_sub6 hb

/-- The buffers segment 7 writes. -/
abbrev writes7 : List (Ref sig .tc) :=
  [main_c_7, main_v79, main_v80, main_c_8, main_v81, main_v82, main_v83, main_v84, main_v85, main_c_9, main_v86, main_v87, main_c_10, main_v88, main_v89, main_v90, main_v91, main_v92, main_v93]
theorem writes_sub7 : (seg7 : List (HloOp τ sig (Elt F))).Forall fun op => op.writes ⊆ ((writes7).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep7 (m : (ℓ : Loc nD τ sig) → Buf (Elt F) ℓ) (c : Dev nD) (b : Ref sig .tc) (hb : b ∉ writes7) :
    U8 m c (no_index (Proc.devRef .tc b)) = U7 m c (Proc.devRef .tc b) := by
  rw [U8_eq]; exact after_of_writes_sub seg7 _ writes_sub7 hb

/-- The buffers segment 8 writes. -/
abbrev writes8 : List (Ref sig .tc) :=
  [main_v94, main_v95, main_v96, main_v97, main_v98, main_v99, main_v100, main_v101, main_call3_cst, main_call3_v0, main_v102, main_v103, main_v104, main_v105, main_v106, main_v107, main_v108, main_v109, main_v110, main_cst_11, main_v111, main_v112, main_v113]
theorem writes_sub8 : (seg8 : List (HloOp τ sig (Elt F))).Forall fun op => op.writes ⊆ ((writes8).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep8 (m : (ℓ : Loc nD τ sig) → Buf (Elt F) ℓ) (c : Dev nD) (b : Ref sig .tc) (hb : b ∉ writes8) :
    U9 m c (no_index (Proc.devRef .tc b)) = U8 m c (Proc.devRef .tc b) := by
  rw [U9_eq]; exact after_of_writes_sub seg8 _ writes_sub8 hb

/-- The buffers segment 9 writes. -/
abbrev writes9 : List (Ref sig .tc) :=
  [main_c_12, main_v114, main_v115, main_c_13, main_v116, main_v117, main_v118, main_v119, main_v120, main_v121, main_v122, main_v123, main_v124, main_v125, main_v126, main_v127, main_v128, main_v129, main_call4_cst, main_call4_v0, main_v130]
theorem writes_sub9 : (seg9 : List (HloOp τ sig (Elt F))).Forall fun op => op.writes ⊆ ((writes9).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep9 (m : (ℓ : Loc nD τ sig) → Buf (Elt F) ℓ) (c : Dev nD) (b : Ref sig .tc) (hb : b ∉ writes9) :
    U10 m c (no_index (Proc.devRef .tc b)) = U9 m c (Proc.devRef .tc b) := by
  rw [U10_eq]; exact after_of_writes_sub seg9 _ writes_sub9 hb

/-- The buffers segment 10 writes. -/
abbrev writes10 : List (Ref sig .tc) :=
  [main_cst_14, main_v131, main_v132, main_v133]
theorem writes_sub10 : (seg10 : List (HloOp τ sig (Elt F))).Forall fun op => op.writes ⊆ ((writes10).map (Proc.devRef (τ := τ) .tc)).toFinset :=
  ⟨single_sub (by decide), single_sub (by decide), single_sub (by decide), single_sub (by decide)⟩
theorem keep10 (m : (ℓ : Loc nD τ sig) → Buf (Elt F) ℓ) (c : Dev nD) (b : Ref sig .tc) (hb : b ∉ writes10) :
    U11 m c (no_index (Proc.devRef .tc b)) = U10 m c (Proc.devRef .tc b) := by
  rw [U11_eq]; exact after_of_writes_sub seg10 _ writes_sub10 hb

/-- The buffers segment 11 writes. -/
abbrev writes11 : List (Ref sig .tc) :=
  [main_v134, main_v135, main_v136, main_v137, main_v138, main_v139, main_v140, main_v141, main_v142, main_call5_cst, main_call5_v0, main_v143, main_v144, main_v145, main_v146, main_v147, main_v148, main_v149, main_v150, main_v151]
theorem writes_sub11 : (seg11 : List (HloOp τ sig (Elt F))).Forall fun op => op.writes ⊆ ((writes11).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep11 (m : (ℓ : Loc nD τ sig) → Buf (Elt F) ℓ) (c : Dev nD) (b : Ref sig .tc) (hb : b ∉ writes11) :
    U12 m c (no_index (Proc.devRef .tc b)) = U11 m c (Proc.devRef .tc b) := by
  rw [U12_eq]; exact after_of_writes_sub seg11 _ writes_sub11 hb

/-- The buffers segment 12 writes. -/
abbrev writes12 : List (Ref sig .tc) :=
  [main_v152, main_v153, main_v154, main_v155, main_cst_15, main_v156, main_cst_16, main_v157, main_v158, main_v159, main_v160, main_v161, main_v162, main_cst_17, main_v163, main_cst_18, main_v164, main_v165]
theorem writes_sub12 : (seg12 : List (HloOp τ sig (Elt F))).Forall fun op => op.writes ⊆ ((writes12).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep12 (m : (ℓ : Loc nD τ sig) → Buf (Elt F) ℓ) (c : Dev nD) (b : Ref sig .tc) (hb : b ∉ writes12) :
    U13 m c (no_index (Proc.devRef .tc b)) = U12 m c (Proc.devRef .tc b) := by
  rw [U13_eq]; exact after_of_writes_sub seg12 _ writes_sub12 hb

/-- The buffers segment 13 writes. -/
abbrev writes13 : List (Ref sig .tc) :=
  [main_v166, main_v167, main_v168, main_v169, main_v170, main_v171, main_cst_19, main_v172, main_v173, main_v174, main_v175, main_v176, main_v177, main_v178, main_v179, main_v180, main_call6_cst, main_call6_v0, main_v181, main_v182, main_cst_20, main_v183, main_v184]
theorem writes_sub13 : (seg13 : List (HloOp τ sig (Elt F))).Forall fun op => op.writes ⊆ ((writes13).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep13 (m : (ℓ : Loc nD τ sig) → Buf (Elt F) ℓ) (c : Dev nD) (b : Ref sig .tc) (hb : b ∉ writes13) :
    U14 m c (no_index (Proc.devRef .tc b)) = U13 m c (Proc.devRef .tc b) := by
  rw [U14_eq]; exact after_of_writes_sub seg13 _ writes_sub13 hb

/-- The buffers segment 14 writes. -/
abbrev writes14 : List (Ref sig .tc) :=
  [main_c_21, main_v185, main_v186, main_c_22, main_v187, main_v188, main_v189, main_v190, main_v191, main_c_23, main_v192, main_v193, main_c_24, main_v194, main_v195, main_v196, main_v197, main_v198, main_v199]
theorem writes_sub14 : (seg14 : List (HloOp τ sig (Elt F))).Forall fun op => op.writes ⊆ ((writes14).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep14 (m : (ℓ : Loc nD τ sig) → Buf (Elt F) ℓ) (c : Dev nD) (b : Ref sig .tc) (hb : b ∉ writes14) :
    U15 m c (no_index (Proc.devRef .tc b)) = U14 m c (Proc.devRef .tc b) := by
  rw [U15_eq]; exact after_of_writes_sub seg14 _ writes_sub14 hb

/-- The buffers segment 15 writes. -/
abbrev writes15 : List (Ref sig .tc) :=
  [main_v200, main_v201, main_v202, main_v203, main_v204, main_v205, main_v206, main_v207, main_call7_cst, main_call7_v0, main_v208, main_v209, main_v210, main_v211, main_v212, main_v213, main_v214, main_v215, main_v216, main_cst_25, main_v217, main_v218, main_v219]
theorem writes_sub15 : (seg15 : List (HloOp τ sig (Elt F))).Forall fun op => op.writes ⊆ ((writes15).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep15 (m : (ℓ : Loc nD τ sig) → Buf (Elt F) ℓ) (c : Dev nD) (b : Ref sig .tc) (hb : b ∉ writes15) :
    U16 m c (no_index (Proc.devRef .tc b)) = U15 m c (Proc.devRef .tc b) := by
  rw [U16_eq]; exact after_of_writes_sub seg15 _ writes_sub15 hb

/-- The buffers segment 16 writes. -/
abbrev writes16 : List (Ref sig .tc) :=
  [main_c_26, main_v220, main_v221, main_c_27, main_v222, main_v223, main_v224, main_v225, main_v226, main_c_28, main_v227, main_v228, main_c_29, main_v229, main_v230, main_v231, main_v232, main_v233, main_v234, main_call8_cst, main_call8_v0, main_v235, main_v236]
theorem writes_sub16 : (seg16 : List (HloOp τ sig (Elt F))).Forall fun op => op.writes ⊆ ((writes16).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep16 (m : (ℓ : Loc nD τ sig) → Buf (Elt F) ℓ) (c : Dev nD) (b : Ref sig .tc) (hb : b ∉ writes16) :
    U17 m c (no_index (Proc.devRef .tc b)) = U16 m c (Proc.devRef .tc b) := by
  rw [U17_eq]; exact after_of_writes_sub seg16 _ writes_sub16 hb

/-- The buffers segment 17 writes. -/
abbrev writes17 : List (Ref sig .tc) :=
  [main_v237, main_v238, main_v239, main_v240, main_call9_cst, main_call9_v0, main_v241, main_v242, main_v243, main_v244, main_v245, main_call10_cst, main_call10_v0, main_v246, main_v247, main_v248, main_v249, main_v250]
theorem writes_sub17 : (seg17 : List (HloOp τ sig (Elt F))).Forall fun op => op.writes ⊆ ((writes17).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keep17 (m : (ℓ : Loc nD τ sig) → Buf (Elt F) ℓ) (c : Dev nD) (b : Ref sig .tc) (hb : b ∉ writes17) :
    U18 m c (no_index (Proc.devRef .tc b)) = U17 m c (Proc.devRef .tc b) := by
  rw [U18_eq]; exact after_of_writes_sub seg17 _ writes_sub17 hb

end Cert.ReferenceIdeal.RunValue

end
-- ==== Proof.RefStages.lean ====
/-
  The reference program read stage by stage: each group of its host operations, applied to arbitrary operand
  arrays, is one of the specification's whole-array functions of those operands. A weight or bias that the program
  cuts out of a stacked array by a slice and a reshape is the stack's layer; a bias broadcast down the rows is the
  one-row array of that bias; a joined array is read by the column's position among the pieces.
-/
import proofs.«156771_j85263690760421_1_alg».proof.Proof.Gen.ReferenceIdeal
import proofs.«156771_j85263690760421_1_alg».proof.Proof.Spec
import proofs.«156771_j85263690760421_1_alg».proof.Proof.Net
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.Spec

/-! ## The single operations at an index -/

/-- A constant broadcast to any shape reads the constant everywhere. -/
theorem splat_apply {S : Shape} (h : S_.BroadcastsInDim S (![] : Fin 0 → Fin S.rank)) (bits : BitVec 32) (i : S.Idx) :
    broadcastInDim S ![] h (constant (F := Ideal) S_ .f32 bits) i = Ideal.ofBits .f32 bits := by
  rw [broadcastInDim_apply _ h _ i (fun a => a.elim0) (fun a => a.elim0)]
  rfl

/-- The host's quotient at an index. -/
theorem hdivf_apply {s : Shape} (a b : FVec Ideal s .f32) (i : s.Idx) : Host.divf a b i = Ideal.div (a i) (b i) := rfl
/-- The host's reciprocal square root at an index. -/
theorem hrsqrt_apply {s : Shape} (a : FVec Ideal s .f32) (i : s.Idx) : Host.rsqrt a i = Ideal.rsqrt (a i) := rfl

/-- A rank-1 array of 64 entries broadcast to one row and then down the rows reads, at row `p` and column `q`,
    its entry `q`. -/
theorem brow_S100000x64_apply (b : FVec Ideal S64 .f32) (i : S100000x64.Idx) :
    broadcastInDim S100000x64 ![0, 1] bcast_S1x64_S100000x64_0_1 (broadcastInDim S1x64 ![1] bcast_S64_S1x64_1 b) i
      = b (ix1 (i 1)) := by
  rw [broadcastInDim_apply _ bcast_S1x64_S100000x64_0_1 _ i (ix2 (0 : Fin 1) (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ bcast_S64_S1x64_1 b (ix2 (0 : Fin 1) (i 1)) (ix1 (i 1)) (fun a => match a with
      | ⟨0, _⟩ => by show (i 1).val = if (64 : Nat) = 1 then 0 else (i 1).val; rw [if_neg (by decide)])]

/-- A rank-1 array of 64 entries broadcast to one row and then down the rows reads, at row `p` and column `q`,
    its entry `q`. -/
theorem brow_S640000x64_apply (b : FVec Ideal S64 .f32) (i : S640000x64.Idx) :
    broadcastInDim S640000x64 ![0, 1] bcast_S1x64_S640000x64_0_1 (broadcastInDim S1x64 ![1] bcast_S64_S1x64_1 b) i
      = b (ix1 (i 1)) := by
  rw [broadcastInDim_apply _ bcast_S1x64_S640000x64_0_1 _ i (ix2 (0 : Fin 1) (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ bcast_S64_S1x64_1 b (ix2 (0 : Fin 1) (i 1)) (ix1 (i 1)) (fun a => match a with
      | ⟨0, _⟩ => by show (i 1).val = if (64 : Nat) = 1 then 0 else (i 1).val; rw [if_neg (by decide)])]

/-- A rank-1 array of 50 entries broadcast to one row and then down the rows reads, at row `p` and column `q`,
    its entry `q`. -/
theorem brow_S640000x50_apply (b : FVec Ideal S50 .f32) (i : S640000x50.Idx) :
    broadcastInDim S640000x50 ![0, 1] bcast_S1x50_S640000x50_0_1 (broadcastInDim S1x50 ![1] bcast_S50_S1x50_1 b) i
      = b (ix1 (i 1)) := by
  rw [broadcastInDim_apply _ bcast_S1x50_S640000x50_0_1 _ i (ix2 (0 : Fin 1) (i 1)) (fun a => match a with
      | ⟨0, _⟩ => by show 0 = if (1 : Nat) = 1 then 0 else (i 0).val; rw [if_pos rfl]
      | ⟨1, _⟩ => by show (i 1).val = if (50 : Nat) = 1 then 0 else (i 1).val; rw [if_neg (by decide)]),
    broadcastInDim_apply _ bcast_S50_S1x50_1 b (ix2 (0 : Fin 1) (i 1)) (ix1 (i 1)) (fun a => match a with
      | ⟨0, _⟩ => by show (i 1).val = if (50 : Nat) = 1 then 0 else (i 1).val; rw [if_neg (by decide)])]

/-- A rank-1 array of 25 entries broadcast to one row and then down the rows reads, at row `p` and column `q`,
    its entry `q`. -/
theorem brow_S640000x25_apply (b : FVec Ideal S25 .f32) (i : S640000x25.Idx) :
    broadcastInDim S640000x25 ![0, 1] bcast_S1x25_S640000x25_0_1 (broadcastInDim S1x25 ![1] bcast_S25_S1x25_1 b) i
      = b (ix1 (i 1)) := by
  rw [broadcastInDim_apply _ bcast_S1x25_S640000x25_0_1 _ i (ix2 (0 : Fin 1) (i 1)) (fun a => match a with
      | ⟨0, _⟩ => by show 0 = if (1 : Nat) = 1 then 0 else (i 0).val; rw [if_pos rfl]
      | ⟨1, _⟩ => by show (i 1).val = if (25 : Nat) = 1 then 0 else (i 1).val; rw [if_neg (by decide)]),
    broadcastInDim_apply _ bcast_S25_S1x25_1 b (ix2 (0 : Fin 1) (i 1)) (ix1 (i 1)) (fun a => match a with
      | ⟨0, _⟩ => by show (i 1).val = if (25 : Nat) = 1 then 0 else (i 1).val; rw [if_neg (by decide)])]

/-- A rank-1 array of 1 entries broadcast to one row and then down the rows reads, at row `p` and column `q`,
    its entry `q`. -/
theorem brow_S640000x1_apply (b : FVec Ideal S1 .f32) (i : S640000x1.Idx) :
    broadcastInDim S640000x1 ![0, 1] bcast_S1x1_S640000x1_0_1 (broadcastInDim S1x1 ![1] bcast_S1_S1x1_1 b) i
      = b (ix1 (i 1)) := by
  rw [broadcastInDim_apply _ bcast_S1x1_S640000x1_0_1 _ i (ix2 (0 : Fin 1) (i 1)) (fun a => match a with
      | ⟨0, _⟩ => by show 0 = if (1 : Nat) = 1 then 0 else (i 0).val; rw [if_pos rfl]
      | ⟨1, _⟩ => by show (i 1).val = if (1 : Nat) = 1 then 0 else (i 1).val; have h1 : (i 1).val < 1 := (i 1).isLt; rw [if_pos rfl]; omega),
    broadcastInDim_apply _ bcast_S1_S1x1_1 b (ix2 (0 : Fin 1) (i 1)) (ix1 (i 1)) (fun a => match a with
      | ⟨0, _⟩ => by show (i 1).val = if (1 : Nat) = 1 then 0 else (i 1).val; have h1 : (i 1).val < 1 := (i 1).isLt; rw [if_pos rfl]; omega)]

/-- Matrix 0 of a stack of two `64x64` matrices, cut out by a slice and a reshape. -/
theorem slmat64_0 (A : FVec Ideal S2x64x64 .f32) :
    shapeCast _ (extractStridedSlice S1x64x64 ![0, 0, 0] A slices_S2x64x64_S1x64x64_0_0_0) shapeCasts_S1x64x64_S64x64
      = sl 0 A := by
  funext i
  have e0 : (i 0).val < 64 := (i 0).isLt
  have e1 : (i 1).val < 64 := (i 1).isLt
  let k1 : S1x64x64.Idx := ix3 (0 : Fin 1) (⟨(i 0).val, e0⟩ : Fin 64) (⟨(i 1).val, e1⟩ : Fin 64)
  let k2 : S2x64x64.Idx := ix3 (0 : Fin 2) (⟨(i 0).val, e0⟩ : Fin 64) (⟨(i 1).val, e1⟩ : Fin 64)
  rw [shapeCast_apply _ shapeCasts_S1x64x64_S64x64 i k1 (by
        rewrite [Shape.rowMajor_val_three, Shape.rowMajor_val_two]
        show (0 * 64 + (i 0).val) * 64 + (i 1).val = (i 0).val * 64 + (i 1).val; omega),
    extractStridedSlice_apply ![0, 0, 0] A slices_S2x64x64_S1x64x64_0_0_0 k1 k2 (fun a => match a with
      | ⟨0, _⟩ => by show 0 = 0 + 0; rfl
      | ⟨1, _⟩ => by show (i 0).val = 0 + (i 0).val; omega
      | ⟨2, _⟩ => by show (i 1).val = 0 + (i 1).val; omega)]
  rfl

/-- Matrix 1 of a stack of two `64x64` matrices, cut out by a slice and a reshape. -/
theorem slmat64_1 (A : FVec Ideal S2x64x64 .f32) :
    shapeCast _ (extractStridedSlice S1x64x64 ![1, 0, 0] A slices_S2x64x64_S1x64x64_1_0_0) shapeCasts_S1x64x64_S64x64
      = sl 1 A := by
  funext i
  have e0 : (i 0).val < 64 := (i 0).isLt
  have e1 : (i 1).val < 64 := (i 1).isLt
  let k1 : S1x64x64.Idx := ix3 (0 : Fin 1) (⟨(i 0).val, e0⟩ : Fin 64) (⟨(i 1).val, e1⟩ : Fin 64)
  let k2 : S2x64x64.Idx := ix3 (1 : Fin 2) (⟨(i 0).val, e0⟩ : Fin 64) (⟨(i 1).val, e1⟩ : Fin 64)
  rw [shapeCast_apply _ shapeCasts_S1x64x64_S64x64 i k1 (by
        rewrite [Shape.rowMajor_val_three, Shape.rowMajor_val_two]
        show (0 * 64 + (i 0).val) * 64 + (i 1).val = (i 0).val * 64 + (i 1).val; omega),
    extractStridedSlice_apply ![1, 0, 0] A slices_S2x64x64_S1x64x64_1_0_0 k1 k2 (fun a => match a with
      | ⟨0, _⟩ => by show 1 = 1 + 0; rfl
      | ⟨1, _⟩ => by show (i 0).val = 0 + (i 0).val; omega
      | ⟨2, _⟩ => by show (i 1).val = 0 + (i 1).val; omega)]
  rfl

/-- Matrix 0 of a stack of two `192x64` matrices, cut out by a slice and a reshape. -/
theorem slmat192_0 (A : FVec Ideal S2x192x64 .f32) :
    shapeCast _ (extractStridedSlice S1x192x64 ![0, 0, 0] A slices_S2x192x64_S1x192x64_0_0_0) shapeCasts_S1x192x64_S192x64
      = sl 0 A := by
  funext i
  have e0 : (i 0).val < 192 := (i 0).isLt
  have e1 : (i 1).val < 64 := (i 1).isLt
  let k1 : S1x192x64.Idx := ix3 (0 : Fin 1) (⟨(i 0).val, e0⟩ : Fin 192) (⟨(i 1).val, e1⟩ : Fin 64)
  let k2 : S2x192x64.Idx := ix3 (0 : Fin 2) (⟨(i 0).val, e0⟩ : Fin 192) (⟨(i 1).val, e1⟩ : Fin 64)
  rw [shapeCast_apply _ shapeCasts_S1x192x64_S192x64 i k1 (by
        rewrite [Shape.rowMajor_val_three, Shape.rowMajor_val_two]
        show (0 * 192 + (i 0).val) * 64 + (i 1).val = (i 0).val * 64 + (i 1).val; omega),
    extractStridedSlice_apply ![0, 0, 0] A slices_S2x192x64_S1x192x64_0_0_0 k1 k2 (fun a => match a with
      | ⟨0, _⟩ => by show 0 = 0 + 0; rfl
      | ⟨1, _⟩ => by show (i 0).val = 0 + (i 0).val; omega
      | ⟨2, _⟩ => by show (i 1).val = 0 + (i 1).val; omega)]
  rfl

/-- Matrix 1 of a stack of two `192x64` matrices, cut out by a slice and a reshape. -/
theorem slmat192_1 (A : FVec Ideal S2x192x64 .f32) :
    shapeCast _ (extractStridedSlice S1x192x64 ![1, 0, 0] A slices_S2x192x64_S1x192x64_1_0_0) shapeCasts_S1x192x64_S192x64
      = sl 1 A := by
  funext i
  have e0 : (i 0).val < 192 := (i 0).isLt
  have e1 : (i 1).val < 64 := (i 1).isLt
  let k1 : S1x192x64.Idx := ix3 (0 : Fin 1) (⟨(i 0).val, e0⟩ : Fin 192) (⟨(i 1).val, e1⟩ : Fin 64)
  let k2 : S2x192x64.Idx := ix3 (1 : Fin 2) (⟨(i 0).val, e0⟩ : Fin 192) (⟨(i 1).val, e1⟩ : Fin 64)
  rw [shapeCast_apply _ shapeCasts_S1x192x64_S192x64 i k1 (by
        rewrite [Shape.rowMajor_val_three, Shape.rowMajor_val_two]
        show (0 * 192 + (i 0).val) * 64 + (i 1).val = (i 0).val * 64 + (i 1).val; omega),
    extractStridedSlice_apply ![1, 0, 0] A slices_S2x192x64_S1x192x64_1_0_0 k1 k2 (fun a => match a with
      | ⟨0, _⟩ => by show 1 = 1 + 0; rfl
      | ⟨1, _⟩ => by show (i 0).val = 0 + (i 0).val; omega
      | ⟨2, _⟩ => by show (i 1).val = 0 + (i 1).val; omega)]
  rfl

/-- Row 0 of a stack of two rows of 64 entries, cut out by a slice and a reshape. -/
theorem slvec64_0 (A : FVec Ideal S2x64 .f32) :
    shapeCast _ (extractStridedSlice S1x64 ![0, 0] A slices_S2x64_S1x64_0_0) shapeCasts_S1x64_S64
      = slRow 0 A := by
  funext i
  have e0 : (i 0).val < 64 := (i 0).isLt
  let k1 : S1x64.Idx := ix2 (0 : Fin 1) (⟨(i 0).val, e0⟩ : Fin 64)
  let k2 : S2x64.Idx := ix2 (0 : Fin 2) (⟨(i 0).val, e0⟩ : Fin 64)
  rw [shapeCast_apply _ shapeCasts_S1x64_S64 i k1 (by
        rewrite [Shape.rowMajor_val_two, Shape.rowMajor_val_one]
        show 0 * 64 + (i 0).val = (i 0).val; omega),
    extractStridedSlice_apply ![0, 0] A slices_S2x64_S1x64_0_0 k1 k2 (fun a => match a with
      | ⟨0, _⟩ => by show 0 = 0 + 0; rfl
      | ⟨1, _⟩ => by show (i 0).val = 0 + (i 0).val; omega)]
  rfl

/-- Row 1 of a stack of two rows of 64 entries, cut out by a slice and a reshape. -/
theorem slvec64_1 (A : FVec Ideal S2x64 .f32) :
    shapeCast _ (extractStridedSlice S1x64 ![1, 0] A slices_S2x64_S1x64_1_0) shapeCasts_S1x64_S64
      = slRow 1 A := by
  funext i
  have e0 : (i 0).val < 64 := (i 0).isLt
  let k1 : S1x64.Idx := ix2 (0 : Fin 1) (⟨(i 0).val, e0⟩ : Fin 64)
  let k2 : S2x64.Idx := ix2 (1 : Fin 2) (⟨(i 0).val, e0⟩ : Fin 64)
  rw [shapeCast_apply _ shapeCasts_S1x64_S64 i k1 (by
        rewrite [Shape.rowMajor_val_two, Shape.rowMajor_val_one]
        show 0 * 64 + (i 0).val = (i 0).val; omega),
    extractStridedSlice_apply ![1, 0] A slices_S2x64_S1x64_1_0 k1 k2 (fun a => match a with
      | ⟨0, _⟩ => by show 1 = 1 + 0; rfl
      | ⟨1, _⟩ => by show (i 0).val = 0 + (i 0).val; omega)]
  rfl

/-- The product of a `100000x32` array by a `32x64` array at an index: the sum over the contracted coordinate. -/
theorem dot_S100000x32_S32x64_S100000x64_1_0_0_1_n_n_apply (x : FVec Ideal S100000x32 .f32) (w : FVec Ideal S32x64 .f32) (i : S100000x64.Idx) :
    Host.dotGeneral dot_S100000x32_S32x64_S100000x64_1_0_0_1_n_n none x w i = ∑ k : Fin 32, x (ix2 (i 0) k) * w (ix2 k (i 1)) := by
  simp only [Host.dotGeneral]
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have hl0 : ∀ q, (dot_S100000x32_S32x64_S100000x64_1_0_0_1_n_n.lhsIdx i q 0).val = (i 0).val := fun q => by
    unfold DotDims.lhsIdx
    rw [dif_neg (show ¬(0 : Fin S100000x32.rank) ∈ dot_S100000x32_S32x64_S100000x64_1_0_0_1_n_n.lhsBatch by decide),
      dif_pos (show (0 : Fin S100000x32.rank) ∈ dot_S100000x32_S32x64_S100000x64_1_0_0_1_n_n.lhsNonContracting by decide)]
    rfl
  have hr1 : ∀ q, (dot_S100000x32_S32x64_S100000x64_1_0_0_1_n_n.rhsIdx i q 1).val = (i 1).val := fun q => by
    unfold DotDims.rhsIdx
    rw [dif_neg (show ¬(1 : Fin S32x64.rank) ∈ dot_S100000x32_S32x64_S100000x64_1_0_0_1_n_n.rhsBatch by decide),
      dif_pos (show (1 : Fin S32x64.rank) ∈ dot_S100000x32_S32x64_S100000x64_1_0_0_1_n_n.rhsNonContracting by decide)]
    rfl
  have el : dot_S100000x32_S32x64_S100000x64_1_0_0_1_n_n.lhsIdx i ((contrEquiv1 dot_S100000x32_S32x64_S100000x64_1_0_0_1_n_n 32 rfl rfl).symm k) = ix2 (i 0) k :=
    funext fun a => Fin.ext (by
      match a with
      | ⟨0, _⟩ => exact hl0 _
      | ⟨1, _⟩ => exact (dot_S100000x32_S32x64_S100000x64_1_0_0_1_n_n.lhsIdx_val_of_single rfl i _).trans hk)
  have er : dot_S100000x32_S32x64_S100000x64_1_0_0_1_n_n.rhsIdx i ((contrEquiv1 dot_S100000x32_S32x64_S100000x64_1_0_0_1_n_n 32 rfl rfl).symm k) = ix2 k (i 1) :=
    funext fun a => Fin.ext (by
      match a with
      | ⟨0, _⟩ => exact (dot_S100000x32_S32x64_S100000x64_1_0_0_1_n_n.rhsIdx_val_of_single rfl i _).trans hk
      | ⟨1, _⟩ => exact hr1 _)
  rw [el, er] <;> rfl

/-- The product of a `640000x16` array by a `16x64` array at an index: the sum over the contracted coordinate. -/
theorem dot_S640000x16_S16x64_S640000x64_1_0_0_1_n_n_apply (x : FVec Ideal S640000x16 .f32) (w : FVec Ideal S16x64 .f32) (i : S640000x64.Idx) :
    Host.dotGeneral dot_S640000x16_S16x64_S640000x64_1_0_0_1_n_n none x w i = ∑ k : Fin 16, x (ix2 (i 0) k) * w (ix2 k (i 1)) := by
  simp only [Host.dotGeneral]
  rw [Ideal.dotGeneral_apply, ← Equiv.sum_comp (contrEquiv1 dot_S640000x16_S16x64_S640000x64_1_0_0_1_n_n 16 rfl rfl).symm]
  refine Finset.sum_congr rfl fun k _ => ?_
  have hk := contrEquiv1_symm_val dot_S640000x16_S16x64_S640000x64_1_0_0_1_n_n 16 rfl rfl k
  have hl0 : ∀ q, (dot_S640000x16_S16x64_S640000x64_1_0_0_1_n_n.lhsIdx i q 0).val = (i 0).val := fun q => by
    unfold DotDims.lhsIdx
    rw [dif_neg (show ¬(0 : Fin S640000x16.rank) ∈ dot_S640000x16_S16x64_S640000x64_1_0_0_1_n_n.lhsBatch by decide),
      dif_pos (show (0 : Fin S640000x16.rank) ∈ dot_S640000x16_S16x64_S640000x64_1_0_0_1_n_n.lhsNonContracting by decide)]
    rfl
  have hr1 : ∀ q, (dot_S640000x16_S16x64_S640000x64_1_0_0_1_n_n.rhsIdx i q 1).val = (i 1).val := fun q => by
    unfold DotDims.rhsIdx
    rw [dif_neg (show ¬(1 : Fin S16x64.rank) ∈ dot_S640000x16_S16x64_S640000x64_1_0_0_1_n_n.rhsBatch by decide),
      dif_pos (show (1 : Fin S16x64.rank) ∈ dot_S640000x16_S16x64_S640000x64_1_0_0_1_n_n.rhsNonContracting by decide)]
    rfl
  have el : dot_S640000x16_S16x64_S640000x64_1_0_0_1_n_n.lhsIdx i ((contrEquiv1 dot_S640000x16_S16x64_S640000x64_1_0_0_1_n_n 16 rfl rfl).symm k) = ix2 (i 0) k :=
    funext fun a => Fin.ext (by
      match a with
      | ⟨0, _⟩ => exact hl0 _
      | ⟨1, _⟩ => exact (dot_S640000x16_S16x64_S640000x64_1_0_0_1_n_n.lhsIdx_val_of_single rfl i _).trans hk)
  have er : dot_S640000x16_S16x64_S640000x64_1_0_0_1_n_n.rhsIdx i ((contrEquiv1 dot_S640000x16_S16x64_S640000x64_1_0_0_1_n_n 16 rfl rfl).symm k) = ix2 k (i 1) :=
    funext fun a => Fin.ext (by
      match a with
      | ⟨0, _⟩ => exact (dot_S640000x16_S16x64_S640000x64_1_0_0_1_n_n.rhsIdx_val_of_single rfl i _).trans hk
      | ⟨1, _⟩ => exact hr1 _)
  rw [el, er] <;> rfl

/-- The product of a `640000x64` array by a `64x64` array at an index: the sum over the contracted coordinate. -/
theorem dot_S640000x64_S64x64_S640000x64_1_0_0_1_n_n_apply (x : FVec Ideal S640000x64 .f32) (w : FVec Ideal S64x64 .f32) (i : S640000x64.Idx) :
    Host.dotGeneral dot_S640000x64_S64x64_S640000x64_1_0_0_1_n_n none x w i = ∑ k : Fin 64, x (ix2 (i 0) k) * w (ix2 k (i 1)) := by
  simp only [Host.dotGeneral]
  rw [Ideal.dotGeneral_apply, ← Equiv.sum_comp (contrEquiv1 dot_S640000x64_S64x64_S640000x64_1_0_0_1_n_n 64 rfl rfl).symm]
  refine Finset.sum_congr rfl fun k _ => ?_
  have hk := contrEquiv1_symm_val dot_S640000x64_S64x64_S640000x64_1_0_0_1_n_n 64 rfl rfl k
  have hl0 : ∀ q, (dot_S640000x64_S64x64_S640000x64_1_0_0_1_n_n.lhsIdx i q 0).val = (i 0).val := fun q => by
    unfold DotDims.lhsIdx
    rw [dif_neg (show ¬(0 : Fin S640000x64.rank) ∈ dot_S640000x64_S64x64_S640000x64_1_0_0_1_n_n.lhsBatch by decide),
      dif_pos (show (0 : Fin S640000x64.rank) ∈ dot_S640000x64_S64x64_S640000x64_1_0_0_1_n_n.lhsNonContracting by decide)]
    rfl
  have hr1 : ∀ q, (dot_S640000x64_S64x64_S640000x64_1_0_0_1_n_n.rhsIdx i q 1).val = (i 1).val := fun q => by
    unfold DotDims.rhsIdx
    rw [dif_neg (show ¬(1 : Fin S64x64.rank) ∈ dot_S640000x64_S64x64_S640000x64_1_0_0_1_n_n.rhsBatch by decide),
      dif_pos (show (1 : Fin S64x64.rank) ∈ dot_S640000x64_S64x64_S640000x64_1_0_0_1_n_n.rhsNonContracting by decide)]
    rfl
  have el : dot_S640000x64_S64x64_S640000x64_1_0_0_1_n_n.lhsIdx i ((contrEquiv1 dot_S640000x64_S64x64_S640000x64_1_0_0_1_n_n 64 rfl rfl).symm k) = ix2 (i 0) k :=
    funext fun a => Fin.ext (by
      match a with
      | ⟨0, _⟩ => exact hl0 _
      | ⟨1, _⟩ => exact (dot_S640000x64_S64x64_S640000x64_1_0_0_1_n_n.lhsIdx_val_of_single rfl i _).trans hk)
  have er : dot_S640000x64_S64x64_S640000x64_1_0_0_1_n_n.rhsIdx i ((contrEquiv1 dot_S640000x64_S64x64_S640000x64_1_0_0_1_n_n 64 rfl rfl).symm k) = ix2 k (i 1) :=
    funext fun a => Fin.ext (by
      match a with
      | ⟨0, _⟩ => exact (dot_S640000x64_S64x64_S640000x64_1_0_0_1_n_n.rhsIdx_val_of_single rfl i _).trans hk
      | ⟨1, _⟩ => exact hr1 _)
  rw [el, er] <;> rfl

/-- The product of a `100000x64` array by a `64x64` array at an index: the sum over the contracted coordinate. -/
theorem dot_S100000x64_S64x64_S100000x64_1_0_0_1_n_n_apply (x : FVec Ideal S100000x64 .f32) (w : FVec Ideal S64x64 .f32) (i : S100000x64.Idx) :
    Host.dotGeneral dot_S100000x64_S64x64_S100000x64_1_0_0_1_n_n none x w i = ∑ k : Fin 64, x (ix2 (i 0) k) * w (ix2 k (i 1)) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have hl0 : ∀ q, (dot_S100000x64_S64x64_S100000x64_1_0_0_1_n_n.lhsIdx i q 0).val = (i 0).val := fun q => by
    unfold DotDims.lhsIdx
    rw [dif_neg (show ¬(0 : Fin S100000x64.rank) ∈ dot_S100000x64_S64x64_S100000x64_1_0_0_1_n_n.lhsBatch by decide),
      dif_pos (show (0 : Fin S100000x64.rank) ∈ dot_S100000x64_S64x64_S100000x64_1_0_0_1_n_n.lhsNonContracting by decide)]
    rfl
  have hr1 : ∀ q, (dot_S100000x64_S64x64_S100000x64_1_0_0_1_n_n.rhsIdx i q 1).val = (i 1).val := fun q => by
    unfold DotDims.rhsIdx
    rw [dif_neg (show ¬(1 : Fin S64x64.rank) ∈ dot_S100000x64_S64x64_S100000x64_1_0_0_1_n_n.rhsBatch by decide),
      dif_pos (show (1 : Fin S64x64.rank) ∈ dot_S100000x64_S64x64_S100000x64_1_0_0_1_n_n.rhsNonContracting by decide)]
    rfl
  have el : dot_S100000x64_S64x64_S100000x64_1_0_0_1_n_n.lhsIdx i ((contrEquiv1 dot_S100000x64_S64x64_S100000x64_1_0_0_1_n_n 64 rfl rfl).symm k) = ix2 (i 0) k :=
    funext fun a => Fin.ext (by
      match a with
      | ⟨0, _⟩ => exact hl0 _
      | ⟨1, _⟩ => exact (dot_S100000x64_S64x64_S100000x64_1_0_0_1_n_n.lhsIdx_val_of_single rfl i _).trans hk)
  have er : dot_S100000x64_S64x64_S100000x64_1_0_0_1_n_n.rhsIdx i ((contrEquiv1 dot_S100000x64_S64x64_S100000x64_1_0_0_1_n_n 64 rfl rfl).symm k) = ix2 k (i 1) :=
    funext fun a => Fin.ext (by
      match a with
      | ⟨0, _⟩ => exact (dot_S100000x64_S64x64_S100000x64_1_0_0_1_n_n.rhsIdx_val_of_single rfl i _).trans hk
      | ⟨1, _⟩ => exact hr1 _)
  rw [el, er] <;> rfl

/-- The product of a `640000x192` array by a `192x64` array at an index: the sum over the contracted coordinate. -/
theorem dot_S640000x192_S192x64_S640000x64_1_0_0_1_n_n_apply (x : FVec Ideal S640000x192 .f32) (w : FVec Ideal S192x64 .f32) (i : S640000x64.Idx) :
    Host.dotGeneral dot_S640000x192_S192x64_S640000x64_1_0_0_1_n_n none x w i = ∑ k : Fin 192, x (ix2 (i 0) k) * w (ix2 k (i 1)) := by
  simp only [Host.dotGeneral]
  rw [Ideal.dotGeneral_apply, ← Equiv.sum_comp (contrEquiv1 dot_S640000x192_S192x64_S640000x64_1_0_0_1_n_n 192 rfl rfl).symm]
  refine Finset.sum_congr rfl fun k _ => ?_
  have hk := contrEquiv1_symm_val dot_S640000x192_S192x64_S640000x64_1_0_0_1_n_n 192 rfl rfl k
  have hl0 : ∀ q, (dot_S640000x192_S192x64_S640000x64_1_0_0_1_n_n.lhsIdx i q 0).val = (i 0).val := fun q => by
    unfold DotDims.lhsIdx
    rw [dif_neg (show ¬(0 : Fin S640000x192.rank) ∈ dot_S640000x192_S192x64_S640000x64_1_0_0_1_n_n.lhsBatch by decide),
      dif_pos (show (0 : Fin S640000x192.rank) ∈ dot_S640000x192_S192x64_S640000x64_1_0_0_1_n_n.lhsNonContracting by decide)]
    rfl
  have hr1 : ∀ q, (dot_S640000x192_S192x64_S640000x64_1_0_0_1_n_n.rhsIdx i q 1).val = (i 1).val := fun q => by
    unfold DotDims.rhsIdx
    rw [dif_neg (show ¬(1 : Fin S192x64.rank) ∈ dot_S640000x192_S192x64_S640000x64_1_0_0_1_n_n.rhsBatch by decide),
      dif_pos (show (1 : Fin S192x64.rank) ∈ dot_S640000x192_S192x64_S640000x64_1_0_0_1_n_n.rhsNonContracting by decide)]
    rfl
  have el : dot_S640000x192_S192x64_S640000x64_1_0_0_1_n_n.lhsIdx i ((contrEquiv1 dot_S640000x192_S192x64_S640000x64_1_0_0_1_n_n 192 rfl rfl).symm k) = ix2 (i 0) k :=
    funext fun a => Fin.ext (by
      match a with
      | ⟨0, _⟩ => exact hl0 _
      | ⟨1, _⟩ => exact (dot_S640000x192_S192x64_S640000x64_1_0_0_1_n_n.lhsIdx_val_of_single rfl i _).trans hk)
  have er : dot_S640000x192_S192x64_S640000x64_1_0_0_1_n_n.rhsIdx i ((contrEquiv1 dot_S640000x192_S192x64_S640000x64_1_0_0_1_n_n 192 rfl rfl).symm k) = ix2 k (i 1) :=
    funext fun a => Fin.ext (by
      match a with
      | ⟨0, _⟩ => exact (dot_S640000x192_S192x64_S640000x64_1_0_0_1_n_n.rhsIdx_val_of_single rfl i _).trans hk
      | ⟨1, _⟩ => exact hr1 _)
  rw [el, er] <;> rfl

/-- The product of a `640000x192` array by a `192x50` array at an index: the sum over the contracted coordinate. -/
theorem dot_S640000x192_S192x50_S640000x50_1_0_0_1_n_n_apply (x : FVec Ideal S640000x192 .f32) (w : FVec Ideal S192x50 .f32) (i : S640000x50.Idx) :
    Host.dotGeneral dot_S640000x192_S192x50_S640000x50_1_0_0_1_n_n none x w i = ∑ k : Fin 192, x (ix2 (i 0) k) * w (ix2 k (i 1)) := by
  simp only [Host.dotGeneral]
  rw [Ideal.dotGeneral_apply, ← Equiv.sum_comp (contrEquiv1 dot_S640000x192_S192x50_S640000x50_1_0_0_1_n_n 192 rfl rfl).symm]
  refine Finset.sum_congr rfl fun k _ => ?_
  have hk := contrEquiv1_symm_val dot_S640000x192_S192x50_S640000x50_1_0_0_1_n_n 192 rfl rfl k
  have hl0 : ∀ q, (dot_S640000x192_S192x50_S640000x50_1_0_0_1_n_n.lhsIdx i q 0).val = (i 0).val := fun q => by
    unfold DotDims.lhsIdx
    rw [dif_neg (show ¬(0 : Fin S640000x192.rank) ∈ dot_S640000x192_S192x50_S640000x50_1_0_0_1_n_n.lhsBatch by decide),
      dif_pos (show (0 : Fin S640000x192.rank) ∈ dot_S640000x192_S192x50_S640000x50_1_0_0_1_n_n.lhsNonContracting by decide)]
    rfl
  have hr1 : ∀ q, (dot_S640000x192_S192x50_S640000x50_1_0_0_1_n_n.rhsIdx i q 1).val = (i 1).val := fun q => by
    unfold DotDims.rhsIdx
    rw [dif_neg (show ¬(1 : Fin S192x50.rank) ∈ dot_S640000x192_S192x50_S640000x50_1_0_0_1_n_n.rhsBatch by decide),
      dif_pos (show (1 : Fin S192x50.rank) ∈ dot_S640000x192_S192x50_S640000x50_1_0_0_1_n_n.rhsNonContracting by decide)]
    rfl
  have el : dot_S640000x192_S192x50_S640000x50_1_0_0_1_n_n.lhsIdx i ((contrEquiv1 dot_S640000x192_S192x50_S640000x50_1_0_0_1_n_n 192 rfl rfl).symm k) = ix2 (i 0) k :=
    funext fun a => Fin.ext (by
      match a with
      | ⟨0, _⟩ => exact hl0 _
      | ⟨1, _⟩ => exact (dot_S640000x192_S192x50_S640000x50_1_0_0_1_n_n.lhsIdx_val_of_single rfl i _).trans hk)
  have er : dot_S640000x192_S192x50_S640000x50_1_0_0_1_n_n.rhsIdx i ((contrEquiv1 dot_S640000x192_S192x50_S640000x50_1_0_0_1_n_n 192 rfl rfl).symm k) = ix2 k (i 1) :=
    funext fun a => Fin.ext (by
      match a with
      | ⟨0, _⟩ => exact (dot_S640000x192_S192x50_S640000x50_1_0_0_1_n_n.rhsIdx_val_of_single rfl i _).trans hk
      | ⟨1, _⟩ => exact hr1 _)
  rw [el, er] <;> rfl

/-- The product of a `640000x50` array by a `50x25` array at an index: the sum over the contracted coordinate. -/
theorem dot_S640000x50_S50x25_S640000x25_1_0_0_1_n_n_apply (x : FVec Ideal S640000x50 .f32) (w : FVec Ideal S50x25 .f32) (i : S640000x25.Idx) :
    Host.dotGeneral dot_S640000x50_S50x25_S640000x25_1_0_0_1_n_n none x w i = ∑ k : Fin 50, x (ix2 (i 0) k) * w (ix2 k (i 1)) := by
  simp only [Host.dotGeneral]
  rw [Ideal.dotGeneral_apply, ← Equiv.sum_comp (contrEquiv1 dot_S640000x50_S50x25_S640000x25_1_0_0_1_n_n 50 rfl rfl).symm]
  refine Finset.sum_congr rfl fun k _ => ?_
  have hk := contrEquiv1_symm_val dot_S640000x50_S50x25_S640000x25_1_0_0_1_n_n 50 rfl rfl k
  have hl0 : ∀ q, (dot_S640000x50_S50x25_S640000x25_1_0_0_1_n_n.lhsIdx i q 0).val = (i 0).val := fun q => by
    unfold DotDims.lhsIdx
    rw [dif_neg (show ¬(0 : Fin S640000x50.rank) ∈ dot_S640000x50_S50x25_S640000x25_1_0_0_1_n_n.lhsBatch by decide),
      dif_pos (show (0 : Fin S640000x50.rank) ∈ dot_S640000x50_S50x25_S640000x25_1_0_0_1_n_n.lhsNonContracting by decide)]
    rfl
  have hr1 : ∀ q, (dot_S640000x50_S50x25_S640000x25_1_0_0_1_n_n.rhsIdx i q 1).val = (i 1).val := fun q => by
    unfold DotDims.rhsIdx
    rw [dif_neg (show ¬(1 : Fin S50x25.rank) ∈ dot_S640000x50_S50x25_S640000x25_1_0_0_1_n_n.rhsBatch by decide),
      dif_pos (show (1 : Fin S50x25.rank) ∈ dot_S640000x50_S50x25_S640000x25_1_0_0_1_n_n.rhsNonContracting by decide)]
    rfl
  have el : dot_S640000x50_S50x25_S640000x25_1_0_0_1_n_n.lhsIdx i ((contrEquiv1 dot_S640000x50_S50x25_S640000x25_1_0_0_1_n_n 50 rfl rfl).symm k) = ix2 (i 0) k :=
    funext fun a => Fin.ext (by
      match a with
      | ⟨0, _⟩ => exact hl0 _
      | ⟨1, _⟩ => exact (dot_S640000x50_S50x25_S640000x25_1_0_0_1_n_n.lhsIdx_val_of_single rfl i _).trans hk)
  have er : dot_S640000x50_S50x25_S640000x25_1_0_0_1_n_n.rhsIdx i ((contrEquiv1 dot_S640000x50_S50x25_S640000x25_1_0_0_1_n_n 50 rfl rfl).symm k) = ix2 k (i 1) :=
    funext fun a => Fin.ext (by
      match a with
      | ⟨0, _⟩ => exact (dot_S640000x50_S50x25_S640000x25_1_0_0_1_n_n.rhsIdx_val_of_single rfl i _).trans hk
      | ⟨1, _⟩ => exact hr1 _)
  rw [el, er] <;> rfl

/-- The product of a `640000x25` array by a `25x1` array at an index: the sum over the contracted coordinate. -/
theorem dot_S640000x25_S25x1_S640000x1_1_0_0_1_n_n_apply (x : FVec Ideal S640000x25 .f32) (w : FVec Ideal S25x1 .f32) (i : S640000x1.Idx) :
    Host.dotGeneral dot_S640000x25_S25x1_S640000x1_1_0_0_1_n_n none x w i = ∑ k : Fin 25, x (ix2 (i 0) k) * w (ix2 k (i 1)) := by
  simp only [Host.dotGeneral]
  rw [Ideal.dotGeneral_apply, ← Equiv.sum_comp (contrEquiv1 dot_S640000x25_S25x1_S640000x1_1_0_0_1_n_n 25 rfl rfl).symm]
  refine Finset.sum_congr rfl fun k _ => ?_
  have hk := contrEquiv1_symm_val dot_S640000x25_S25x1_S640000x1_1_0_0_1_n_n 25 rfl rfl k
  have hl0 : ∀ q, (dot_S640000x25_S25x1_S640000x1_1_0_0_1_n_n.lhsIdx i q 0).val = (i 0).val := fun q => by
    unfold DotDims.lhsIdx
    rw [dif_neg (show ¬(0 : Fin S640000x25.rank) ∈ dot_S640000x25_S25x1_S640000x1_1_0_0_1_n_n.lhsBatch by decide),
      dif_pos (show (0 : Fin S640000x25.rank) ∈ dot_S640000x25_S25x1_S640000x1_1_0_0_1_n_n.lhsNonContracting by decide)]
    rfl
  have hr1 : ∀ q, (dot_S640000x25_S25x1_S640000x1_1_0_0_1_n_n.rhsIdx i q 1).val = (i 1).val := fun q => by
    unfold DotDims.rhsIdx
    rw [dif_neg (show ¬(1 : Fin S25x1.rank) ∈ dot_S640000x25_S25x1_S640000x1_1_0_0_1_n_n.rhsBatch by decide),
      dif_pos (show (1 : Fin S25x1.rank) ∈ dot_S640000x25_S25x1_S640000x1_1_0_0_1_n_n.rhsNonContracting by decide)]
    rfl
  have el : dot_S640000x25_S25x1_S640000x1_1_0_0_1_n_n.lhsIdx i ((contrEquiv1 dot_S640000x25_S25x1_S640000x1_1_0_0_1_n_n 25 rfl rfl).symm k) = ix2 (i 0) k :=
    funext fun a => Fin.ext (by
      match a with
      | ⟨0, _⟩ => exact hl0 _
      | ⟨1, _⟩ => exact (dot_S640000x25_S25x1_S640000x1_1_0_0_1_n_n.lhsIdx_val_of_single rfl i _).trans hk)
  have er : dot_S640000x25_S25x1_S640000x1_1_0_0_1_n_n.rhsIdx i ((contrEquiv1 dot_S640000x25_S25x1_S640000x1_1_0_0_1_n_n 25 rfl rfl).symm k) = ix2 k (i 1) :=
    funext fun a => Fin.ext (by
      match a with
      | ⟨0, _⟩ => exact (dot_S640000x25_S25x1_S640000x1_1_0_0_1_n_n.rhsIdx_val_of_single rfl i _).trans hk
      | ⟨1, _⟩ => exact hr1 _)
  rw [el, er] <;> rfl

/-- The host's sum down the rows, at a column: the initial value plus the sum of the column's entries. -/
theorem colsum_apply (x : FVec Ideal S100000x64 .f32) (v : FVec Ideal S_ .f32) (j : S64.Idx) :
    Host.reduceAdd x v reducesTo_S100000x64_S64_d0 h_S_ j
      = v (Shape.Idx.first h_S_) + ∑ k : Fin 100000, x (ix2 k (j 0)) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg x (funext fun a => Fin.ext (by match a with | ⟨0, _⟩ => rfl | ⟨1, _⟩ => rfl))

/-! ## Joined arrays -/

/-- Three arrays of 64 columns joined along the columns: the column's position picks the piece. -/
theorem concat3_eq (a b c : FVec Ideal S640000x64 .f32) :
    concatenate S640000x192 1 [⟨S640000x64, a⟩, ⟨S640000x64, b⟩, ⟨S640000x64, c⟩]
        concatenates_S640000x64_S640000x64_S640000x64_S640000x192_d1
      = cat3 a b c := by
  funext i
  have hi1 : (i 1).val < 192 := (i 1).isLt
  unfold cat3
  by_cases h1 : (i 1).val < 64
  · rw [dif_pos h1]
    exact concatenate_apply_piece 1 [⟨S640000x64, a⟩, ⟨S640000x64, b⟩, ⟨S640000x64, c⟩] _ i 0 (by show 0 < 3; omega) S640000x64 a
      (by rfl) (by rfl) 0 (by rfl) (ix2 (i 0) ⟨(i 1).val, h1⟩)
      (fun d hd => by match d with | ⟨0, _⟩ => rfl | ⟨1, _⟩ => exact absurd rfl hd)
      (by show 0 + (i 1).val = (i 1).val; omega)
  · rw [dif_neg h1]
    by_cases h2 : (i 1).val < 128
    · rw [dif_pos h2]
      exact concatenate_apply_piece 1 [⟨S640000x64, a⟩, ⟨S640000x64, b⟩, ⟨S640000x64, c⟩] _ i 1 (by show 1 < 3; omega) S640000x64 b
        (by rfl) (by rfl) 64 (by rfl) (ix2 (i 0) ⟨(i 1).val - 64, by omega⟩)
        (fun d hd => by match d with | ⟨0, _⟩ => rfl | ⟨1, _⟩ => exact absurd rfl hd)
        (by show 64 + ((i 1).val - 64) = (i 1).val; omega)
    · rw [dif_neg h2]
      exact concatenate_apply_piece 1 [⟨S640000x64, a⟩, ⟨S640000x64, b⟩, ⟨S640000x64, c⟩] _ i 2 (by show 2 < 3; omega) S640000x64 c
        (by rfl) (by rfl) 128 (by rfl) (ix2 (i 0) ⟨(i 1).val - 128, by omega⟩)
        (fun d hd => by match d with | ⟨0, _⟩ => rfl | ⟨1, _⟩ => exact absurd rfl hd)
        (by show 128 + ((i 1).val - 128) = (i 1).val; omega)

/-- Two arrays of 64 columns joined and rectified, then joined with a third: the first 128 columns are the rectified
    entries of the first two arrays, the last 64 the third array's. -/
theorem catRelu_eq (a b c : FVec Ideal S640000x64 .f32) :
    concatenate S640000x192 1 [⟨S640000x128, maximumf (concatenate S640000x128 1 [⟨S640000x64, a⟩, ⟨S640000x64, b⟩]
        concatenates_S640000x64_S640000x64_S640000x128_d1)
        (broadcastInDim S640000x128 ![] bcast_S_S640000x128 (constant (F := Ideal) S_ .f32 0x00000000#32))⟩, ⟨S640000x64, c⟩]
        concatenates_S640000x128_S640000x64_S640000x192_d1
      = catRelu a b c := by
  funext i
  have hi1 : (i 1).val < 192 := (i 1).isLt
  unfold catRelu
  by_cases h1 : (i 1).val < 64
  · rw [dif_pos h1,
      concatenate_pair_apply_left 1 _ c concatenates_S640000x128_S640000x64_S640000x192_d1 i (by rfl)
        (ix2 (i 0) (⟨(i 1).val, by omega⟩ : Fin 128)) (fun d => by match d with | ⟨0, _⟩ => rfl | ⟨1, _⟩ => rfl),
      maximumf_apply, splat_apply, Ideal.ofBits_zero_f32,
      concatenate_pair_apply_left 1 a b concatenates_S640000x64_S640000x64_S640000x128_d1 _ (by rfl)
        (ix2 (i 0) ⟨(i 1).val, h1⟩) (fun d => by match d with | ⟨0, _⟩ => rfl | ⟨1, _⟩ => rfl)]
  · rw [dif_neg h1]
    by_cases h2 : (i 1).val < 128
    · rw [dif_pos h2,
        concatenate_pair_apply_left 1 _ c concatenates_S640000x128_S640000x64_S640000x192_d1 i (by rfl)
          (ix2 (i 0) (⟨(i 1).val, h2⟩ : Fin 128)) (fun d => by match d with | ⟨0, _⟩ => rfl | ⟨1, _⟩ => rfl),
        maximumf_apply, splat_apply, Ideal.ofBits_zero_f32,
        concatenate_pair_apply_right 1 a b concatenates_S640000x64_S640000x64_S640000x128_d1 _ (by rfl) (by rfl)
          (ix2 (i 0) ⟨(i 1).val - 64, by omega⟩)
          (fun d hd => by match d with | ⟨0, _⟩ => rfl | ⟨1, _⟩ => exact absurd rfl hd)
          (by show ((i 1).val - 64) + 64 = (i 1).val; omega)]
    · rw [dif_neg h2]
      exact concatenate_pair_apply_right 1 _ c concatenates_S640000x128_S640000x64_S640000x192_d1 i (by rfl) (by rfl)
        (ix2 (i 0) ⟨(i 1).val - 128, by omega⟩)
        (fun d hd => by match d with | ⟨0, _⟩ => rfl | ⟨1, _⟩ => exact absurd rfl hd)
        (by show ((i 1).val - 128) + 128 = (i 1).val; omega)

/-! ## The embeddings -/

/-- The node embedding: a matrix product plus a bias row. -/
theorem ref_lin_node (x0 : FVec Ideal S100000x32 .f32) (x4 : FVec Ideal S32x64 .f32) (x5 : FVec Ideal S64 .f32) :
    addf (Host.dotGeneral dot_S100000x32_S32x64_S100000x64_1_0_0_1_n_n none x0 x4) (broadcastInDim S100000x64
      ![0, 1] bcast_S1x64_S100000x64_0_1 (broadcastInDim S1x64 ![1] bcast_S64_S1x64_1 x5))
      = lin x0 x4 (row x5) := by
  funext i
  rw [addf_apply, dot_S100000x32_S32x64_S100000x64_1_0_0_1_n_n_apply, brow_S100000x64_apply]
  rfl

/-- The edge embedding: a matrix product plus a bias row. -/
theorem ref_lin_edge (x1 : FVec Ideal S640000x16 .f32) (x6 : FVec Ideal S16x64 .f32) (x7 : FVec Ideal S64 .f32) :
    addf (Host.dotGeneral dot_S640000x16_S16x64_S640000x64_1_0_0_1_n_n none x1 x6) (broadcastInDim S640000x64
      ![0, 1] bcast_S1x64_S640000x64_0_1 (broadcastInDim S1x64 ![1] bcast_S64_S1x64_1 x7))
      = lin x1 x6 (row x7) := by
  funext i
  rw [addf_apply, dot_S640000x16_S16x64_S640000x64_1_0_0_1_n_n_apply, brow_S640000x64_apply]
  rfl

/-! ## Layer 0: the message and the node update -/

/-- The message of layer 0: the gathered row plus the edge's linear image, rectified. The program adds the bias
    last; addition of extended reals is associative. -/
theorem ref_msg_0 (e : FVec Ideal S640000x64 .f32) (xs : FVec Ideal S640000x64 .f32) (x8 : FVec Ideal S2x64x64 .f32) (x9 : FVec Ideal S2x64 .f32) :
    maximumf (addf (addf xs (Host.dotGeneral dot_S640000x64_S64x64_S640000x64_1_0_0_1_n_n none e (shapeCast _
      (extractStridedSlice S1x64x64 ![0, 0, 0] x8 slices_S2x64x64_S1x64x64_0_0_0) shapeCasts_S1x64x64_S64x64)))
      (broadcastInDim S640000x64 ![0, 1] bcast_S1x64_S640000x64_0_1 (broadcastInDim S1x64 ![1] bcast_S64_S1x64_1
      (shapeCast _ (extractStridedSlice S1x64 ![0, 0] x9 slices_S2x64_S1x64_0_0) shapeCasts_S1x64_S64))))
      (broadcastInDim S640000x64 ![] bcast_S_S640000x64 (constant (F := Ideal) S_ .f32 0x00000000#32))
      = msg e (sl 0 x8) (row (slRow 0 x9)) xs := by
  funext i
  rw [maximumf_apply, addf_apply, addf_apply, slmat64_0, slvec64_0, dot_S640000x64_S64x64_S640000x64_1_0_0_1_n_n_apply, brow_S640000x64_apply, splat_apply,
    Ideal.ofBits_zero_f32]
  show max (_ + _ + _) 0 = max (_ + (_ + _)) 0
  rw [add_assoc]
  rfl

/-- The hidden layer of the node update of layer 0: a rectified layer on the node array plus the aggregate. -/
theorem ref_conv_hidden_0 (x : FVec Ideal S100000x64 .f32) (agg : FVec Ideal S100000x64 .f32) (x10 : FVec Ideal S2x64x64 .f32) (x11 : FVec Ideal S2x64 .f32) :
    maximumf (addf (Host.dotGeneral dot_S100000x64_S64x64_S100000x64_1_0_0_1_n_n none (addf x agg) (shapeCast _
      (extractStridedSlice S1x64x64 ![0, 0, 0] x10 slices_S2x64x64_S1x64x64_0_0_0) shapeCasts_S1x64x64_S64x64))
      (broadcastInDim S100000x64 ![0, 1] bcast_S1x64_S100000x64_0_1 (broadcastInDim S1x64 ![1] bcast_S64_S1x64_1
      (shapeCast _ (extractStridedSlice S1x64 ![0, 0] x11 slices_S2x64_S1x64_0_0) shapeCasts_S1x64_S64))))
      (broadcastInDim S100000x64 ![] bcast_S_S100000x64 (constant (F := Ideal) S_ .f32 0x00000000#32))
      = relu (lin (fun j => x j + agg j) (sl 0 x10) (row (slRow 0 x11))) := by
  funext i
  rw [maximumf_apply, addf_apply, slmat64_0, slvec64_0, dot_S100000x64_S64x64_S100000x64_1_0_0_1_n_n_apply, brow_S100000x64_apply, splat_apply,
    Ideal.ofBits_zero_f32]
  rfl

/-- The node update of layer 0 before normalisation: two layers on the node array plus the aggregate. -/
theorem ref_conv_0 (x : FVec Ideal S100000x64 .f32) (agg : FVec Ideal S100000x64 .f32) (x10 : FVec Ideal S2x64x64 .f32) (x11 : FVec Ideal S2x64 .f32) (x12 : FVec Ideal S2x64x64 .f32) (x13 : FVec Ideal S2x64 .f32) :
    addf (Host.dotGeneral dot_S100000x64_S64x64_S100000x64_1_0_0_1_n_n none (maximumf (addf (Host.dotGeneral
      dot_S100000x64_S64x64_S100000x64_1_0_0_1_n_n none (addf x agg) (shapeCast _ (extractStridedSlice S1x64x64
      ![0, 0, 0] x10 slices_S2x64x64_S1x64x64_0_0_0) shapeCasts_S1x64x64_S64x64)) (broadcastInDim S100000x64 ![0, 1]
      bcast_S1x64_S100000x64_0_1 (broadcastInDim S1x64 ![1] bcast_S64_S1x64_1 (shapeCast _ (extractStridedSlice S1x64
      ![0, 0] x11 slices_S2x64_S1x64_0_0) shapeCasts_S1x64_S64)))) (broadcastInDim S100000x64 ![] bcast_S_S100000x64
      (constant (F := Ideal) S_ .f32 0x00000000#32))) (shapeCast _ (extractStridedSlice S1x64x64 ![0, 0, 0] x12
      slices_S2x64x64_S1x64x64_0_0_0) shapeCasts_S1x64x64_S64x64)) (broadcastInDim S100000x64 ![0, 1]
      bcast_S1x64_S100000x64_0_1 (broadcastInDim S1x64 ![1] bcast_S64_S1x64_1 (shapeCast _ (extractStridedSlice S1x64
      ![0, 0] x13 slices_S2x64_S1x64_0_0) shapeCasts_S1x64_S64)))
      = conv x agg (sl 0 x10) (row (slRow 0 x11)) (sl 0 x12) (row (slRow 0 x13)) := by
  funext i
  rw [ref_conv_hidden_0 x agg x10 x11, addf_apply, slmat64_0, slvec64_0, dot_S100000x64_S64x64_S100000x64_1_0_0_1_n_n_apply, brow_S100000x64_apply]
  rfl

/-! ## Layer 1: the message and the node update -/

/-- The message of layer 1: the gathered row plus the edge's linear image, rectified. The program adds the bias
    last; addition of extended reals is associative. -/
theorem ref_msg_1 (e : FVec Ideal S640000x64 .f32) (xs : FVec Ideal S640000x64 .f32) (x8 : FVec Ideal S2x64x64 .f32) (x9 : FVec Ideal S2x64 .f32) :
    maximumf (addf (addf xs (Host.dotGeneral dot_S640000x64_S64x64_S640000x64_1_0_0_1_n_n none e (shapeCast _
      (extractStridedSlice S1x64x64 ![1, 0, 0] x8 slices_S2x64x64_S1x64x64_1_0_0) shapeCasts_S1x64x64_S64x64)))
      (broadcastInDim S640000x64 ![0, 1] bcast_S1x64_S640000x64_0_1 (broadcastInDim S1x64 ![1] bcast_S64_S1x64_1
      (shapeCast _ (extractStridedSlice S1x64 ![1, 0] x9 slices_S2x64_S1x64_1_0) shapeCasts_S1x64_S64))))
      (broadcastInDim S640000x64 ![] bcast_S_S640000x64 (constant (F := Ideal) S_ .f32 0x00000000#32))
      = msg e (sl 1 x8) (row (slRow 1 x9)) xs := by
  funext i
  rw [maximumf_apply, addf_apply, addf_apply, slmat64_1, slvec64_1, dot_S640000x64_S64x64_S640000x64_1_0_0_1_n_n_apply, brow_S640000x64_apply, splat_apply,
    Ideal.ofBits_zero_f32]
  show max (_ + _ + _) 0 = max (_ + (_ + _)) 0
  rw [add_assoc]
  rfl

/-- The hidden layer of the node update of layer 1: a rectified layer on the node array plus the aggregate. -/
theorem ref_conv_hidden_1 (x : FVec Ideal S100000x64 .f32) (agg : FVec Ideal S100000x64 .f32) (x10 : FVec Ideal S2x64x64 .f32) (x11 : FVec Ideal S2x64 .f32) :
    maximumf (addf (Host.dotGeneral dot_S100000x64_S64x64_S100000x64_1_0_0_1_n_n none (addf x agg) (shapeCast _
      (extractStridedSlice S1x64x64 ![1, 0, 0] x10 slices_S2x64x64_S1x64x64_1_0_0) shapeCasts_S1x64x64_S64x64))
      (broadcastInDim S100000x64 ![0, 1] bcast_S1x64_S100000x64_0_1 (broadcastInDim S1x64 ![1] bcast_S64_S1x64_1
      (shapeCast _ (extractStridedSlice S1x64 ![1, 0] x11 slices_S2x64_S1x64_1_0) shapeCasts_S1x64_S64))))
      (broadcastInDim S100000x64 ![] bcast_S_S100000x64 (constant (F := Ideal) S_ .f32 0x00000000#32))
      = relu (lin (fun j => x j + agg j) (sl 1 x10) (row (slRow 1 x11))) := by
  funext i
  rw [maximumf_apply, addf_apply, slmat64_1, slvec64_1, dot_S100000x64_S64x64_S100000x64_1_0_0_1_n_n_apply, brow_S100000x64_apply, splat_apply,
    Ideal.ofBits_zero_f32]
  rfl

/-- The node update of layer 1 before normalisation: two layers on the node array plus the aggregate. -/
theorem ref_conv_1 (x : FVec Ideal S100000x64 .f32) (agg : FVec Ideal S100000x64 .f32) (x10 : FVec Ideal S2x64x64 .f32) (x11 : FVec Ideal S2x64 .f32) (x12 : FVec Ideal S2x64x64 .f32) (x13 : FVec Ideal S2x64 .f32) :
    addf (Host.dotGeneral dot_S100000x64_S64x64_S100000x64_1_0_0_1_n_n none (maximumf (addf (Host.dotGeneral
      dot_S100000x64_S64x64_S100000x64_1_0_0_1_n_n none (addf x agg) (shapeCast _ (extractStridedSlice S1x64x64
      ![1, 0, 0] x10 slices_S2x64x64_S1x64x64_1_0_0) shapeCasts_S1x64x64_S64x64)) (broadcastInDim S100000x64 ![0, 1]
      bcast_S1x64_S100000x64_0_1 (broadcastInDim S1x64 ![1] bcast_S64_S1x64_1 (shapeCast _ (extractStridedSlice S1x64
      ![1, 0] x11 slices_S2x64_S1x64_1_0) shapeCasts_S1x64_S64)))) (broadcastInDim S100000x64 ![] bcast_S_S100000x64
      (constant (F := Ideal) S_ .f32 0x00000000#32))) (shapeCast _ (extractStridedSlice S1x64x64 ![1, 0, 0] x12
      slices_S2x64x64_S1x64x64_1_0_0) shapeCasts_S1x64x64_S64x64)) (broadcastInDim S100000x64 ![0, 1]
      bcast_S1x64_S100000x64_0_1 (broadcastInDim S1x64 ![1] bcast_S64_S1x64_1 (shapeCast _ (extractStridedSlice S1x64
      ![1, 0] x13 slices_S2x64_S1x64_1_0) shapeCasts_S1x64_S64)))
      = conv x agg (sl 1 x10) (row (slRow 1 x11)) (sl 1 x12) (row (slRow 1 x13)) := by
  funext i
  rw [ref_conv_hidden_1 x agg x10 x11, addf_apply, slmat64_1, slvec64_1, dot_S100000x64_S64x64_S100000x64_1_0_0_1_n_n_apply, brow_S100000x64_apply]
  rfl

end Cert.ReferenceIdeal.RefValue

end
-- ==== Proof.RefNorm.lean ====
/-
  The reference program's normalisation, read as whole-array functions.

  For an array `h` of 100000 rows and 64 columns the program sums each column from zero and divides by the count:
  that is the column mean. It then subtracts the mean, broadcast down the rows, squares by multiplying the deviation
  with itself, sums each column from zero and divides by the count: the mean of the squared deviations. The
  normalised update multiplies the scale, broadcast down the rows, by the deviation and by the reciprocal square
  root of the variance plus the guard, adds the shift, rectifies against a zero array, adds the residual and divides
  by an array of twos. The scale and the shift are one row of a stack of two, cut out by a slice and a reshape.
-/
import proofs.«156771_j85263690760421_1_alg».proof.Proof.RefStages

noncomputable section

open scoped BigOperators

namespace Cert.ReferenceIdeal.RefValue

open Cert.ReferenceIdeal Cert.ReferenceIdeal.Gen Idealize.ShloMosaic Idealize.ShloMosaic.ValueIdx Cert.Spec

/-- The column means: each column summed from zero, over the count. -/
theorem ref_mean (h : FVec Ideal S100000x64 .f32) :
    Host.divf (Host.reduceAdd h (constant (F := Ideal) S_ .f32 0x00000000#32) reducesTo_S100000x64_S64_d0 h_S_)
      (broadcastInDim S64 ![] bcast_S_S64 (constant (F := Ideal) S_ .f32 0x47C35000#32))
      = meanR h := by
  funext j
  rw [hdivf_apply, colsum_apply, splat_apply, constant_apply, Ideal.ofBits_zero_f32]
  rfl

/-- The mean of the squared deviations from a given row `m`: the deviation is multiplied with itself, each column is
    summed from zero, and the sum is divided by the count. -/
theorem ref_var_at (h : FVec Ideal S100000x64 .f32) (m : FVec Ideal S64 .f32) :
    Host.divf (Host.reduceAdd (mulf (subf h (broadcastInDim S100000x64 ![0, 1] bcast_S1x64_S100000x64_0_1
      (broadcastInDim S1x64 ![1] bcast_S64_S1x64_1 m))) (subf h (broadcastInDim S100000x64 ![0, 1]
      bcast_S1x64_S100000x64_0_1 (broadcastInDim S1x64 ![1] bcast_S64_S1x64_1 m)))) (constant (F := Ideal)
      S_ .f32 0x00000000#32) reducesTo_S100000x64_S64_d0 h_S_) (broadcastInDim S64 ![] bcast_S_S64 (constant
      (F := Ideal) S_ .f32 0x47C35000#32))
      = fun j => Ideal.div (0 + ∑ p : Fin 100000, (h (ix2 p (j 0)) - m j) * (h (ix2 p (j 0)) - m j)) cnt := by
  funext j
  obtain ⟨q, rfl⟩ : ∃ q : Fin 64, j = ix1 q := ⟨j 0, eq_ix1 j⟩
  rw [hdivf_apply, colsum_apply, splat_apply, constant_apply, Ideal.ofBits_zero_f32]
  refine congrArg (fun z => Ideal.div (0 + z) cnt) (Finset.sum_congr rfl fun p _ => ?_)
  rw [mulf_apply, subf_apply, brow_S100000x64_apply]

/-- The variance as the program computes it: the mean of the squared deviations from the column means. -/
theorem ref_var (h : FVec Ideal S100000x64 .f32) :
    Host.divf (Host.reduceAdd (mulf (subf h (broadcastInDim S100000x64 ![0, 1] bcast_S1x64_S100000x64_0_1
      (broadcastInDim S1x64 ![1] bcast_S64_S1x64_1 (Host.divf (Host.reduceAdd h (constant (F := Ideal) S_
      .f32 0x00000000#32) reducesTo_S100000x64_S64_d0 h_S_) (broadcastInDim S64 ![] bcast_S_S64 (constant
      (F := Ideal) S_ .f32 0x47C35000#32)))))) (subf h (broadcastInDim S100000x64 ![0, 1]
      bcast_S1x64_S100000x64_0_1 (broadcastInDim S1x64 ![1] bcast_S64_S1x64_1 (Host.divf (Host.reduceAdd h
      (constant (F := Ideal) S_ .f32 0x00000000#32) reducesTo_S100000x64_S64_d0 h_S_) (broadcastInDim S64
      ![] bcast_S_S64 (constant (F := Ideal) S_ .f32 0x47C35000#32))))))) (constant (F := Ideal) S_ .f32
      0x00000000#32) reducesTo_S100000x64_S64_d0 h_S_) (broadcastInDim S64 ![] bcast_S_S64 (constant
      (F := Ideal) S_ .f32 0x47C35000#32))
      = varR h := by
  rw [ref_mean h]
  exact ref_var_at h (meanR h)

/-- The normalised update with residual, for a given mean, variance, scale and shift (rank-1 arrays of 64 entries). -/
theorem ref_bn (h x : FVec Ideal S100000x64 .f32) (mean var g b : FVec Ideal S64 .f32) :
    Host.divf (addf x (maximumf (addf (mulf (mulf (broadcastInDim S100000x64 ![0, 1] bcast_S1x64_S100000x64_0_1
      (broadcastInDim S1x64 ![1] bcast_S64_S1x64_1 g)) (subf h (broadcastInDim S100000x64 ![0, 1]
      bcast_S1x64_S100000x64_0_1 (broadcastInDim S1x64 ![1] bcast_S64_S1x64_1 mean)))) (broadcastInDim
      S100000x64 ![0, 1] bcast_S1x64_S100000x64_0_1 (broadcastInDim S1x64 ![1] bcast_S64_S1x64_1 (Host.rsqrt
      (addf var (broadcastInDim S64 ![] bcast_S_S64 (constant (F := Ideal) S_ .f32 0x3727C5AC#32)))))))
      (broadcastInDim S100000x64 ![0, 1] bcast_S1x64_S100000x64_0_1 (broadcastInDim S1x64 ![1]
      bcast_S64_S1x64_1 b))) (broadcastInDim S100000x64 ![] bcast_S_S100000x64 (constant (F := Ideal) S_
      .f32 0x00000000#32)))) (broadcastInDim S100000x64 ![] bcast_S_S100000x64 (constant (F := Ideal) S_
      .f32 0x40000000#32))
      = bnresRef h x mean var g b := by
  funext i
  rw [hdivf_apply, addf_apply, maximumf_apply, addf_apply, mulf_apply, mulf_apply, subf_apply,
    brow_S100000x64_apply, brow_S100000x64_apply, brow_S100000x64_apply, brow_S100000x64_apply,
    hrsqrt_apply, addf_apply, splat_apply, splat_apply, splat_apply, Ideal.ofBits_zero_f32]
  rfl

/-- Layer 0's normalised update: scale and shift are row 0 of their stacks. -/
theorem ref_bn0 (h x : FVec Ideal S100000x64 .f32) (mean var : FVec Ideal S64 .f32) (G B : FVec Ideal S2x64 .f32) :
    Host.divf (addf x (maximumf (addf (mulf (mulf (broadcastInDim S100000x64 ![0, 1] bcast_S1x64_S100000x64_0_1
      (broadcastInDim S1x64 ![1] bcast_S64_S1x64_1 (shapeCast _ (extractStridedSlice S1x64 ![0, 0] G
      slices_S2x64_S1x64_0_0) shapeCasts_S1x64_S64))) (subf h (broadcastInDim S100000x64 ![0, 1]
      bcast_S1x64_S100000x64_0_1 (broadcastInDim S1x64 ![1] bcast_S64_S1x64_1 mean)))) (broadcastInDim
      S100000x64 ![0, 1] bcast_S1x64_S100000x64_0_1 (broadcastInDim S1x64 ![1] bcast_S64_S1x64_1 (Host.rsqrt
      (addf var (broadcastInDim S64 ![] bcast_S_S64 (constant (F := Ideal) S_ .f32 0x3727C5AC#32)))))))
      (broadcastInDim S100000x64 ![0, 1] bcast_S1x64_S100000x64_0_1 (broadcastInDim S1x64 ![1]
      bcast_S64_S1x64_1 (shapeCast _ (extractStridedSlice S1x64 ![0, 0] B slices_S2x64_S1x64_0_0)
      shapeCasts_S1x64_S64)))) (broadcastInDim S100000x64 ![] bcast_S_S100000x64 (constant (F := Ideal) S_
      .f32 0x00000000#32)))) (broadcastInDim S100000x64 ![] bcast_S_S100000x64 (constant (F := Ideal) S_
      .f32 0x40000000#32))
      = bnresRef h x mean var (slRow 0 G) (slRow 0 B) := by
  rw [ref_bn, slvec64_0, slvec64_0]

/-- Layer 1's normalised update: scale and shift are row 1 of their stacks. -/
theorem ref_bn1 (h x : FVec Ideal S100000x64 .f32) (mean var : FVec Ideal S64 .f32) (G B : FVec Ideal S2x64 .f32) :
    Host.divf (addf x (maximumf (addf (mulf (mulf (broadcastInDim S100000x64 ![0, 1] bcast_S1x64_S100000x64_0_1
      (broadcastInDim S1x64 ![1] bcast_S64_S1x64_1 (shapeCast _ (extractStridedSlice S1x64 ![1, 0] G
      slices_S2x64_S1x64_1_0) shapeCasts_S1x64_S64))) (subf h (broadcastInDim S100000x64 ![0, 1]
      bcast_S1x64_S100000x64_0_1 (broadcastInDim S1x64 ![1] bcast_S64_S1x64_1 mean)))) (broadcastInDim
      S100000x64 ![0, 1] bcast_S1x64_S100000x64_0_1 (broadcastInDim S1x64 ![1] bcast_S64_S1x64_1 (Host.rsqrt
      (addf var (broadcastInDim S64 ![] bcast_S_S64 (constant (F := Ideal) S_ .f32 0x3727C5AC#32)))))))
      (broadcastInDim S100000x64 ![0, 1] bcast_S1x64_S100000x64_0_1 (broadcastInDim S1x64 ![1]
      bcast_S64_S1x64_1 (shapeCast _ (extractStridedSlice S1x64 ![1, 0] B slices_S2x64_S1x64_1_0)
      shapeCasts_S1x64_S64)))) (broadcastInDim S100000x64 ![] bcast_S_S100000x64 (constant (F := Ideal) S_
      .f32 0x00000000#32)))) (broadcastInDim S100000x64 ![] bcast_S_S100000x64 (constant (F := Ideal) S_
      .f32 0x40000000#32))
      = bnresRef h x mean var (slRow 1 G) (slRow 1 B) := by
  rw [ref_bn, slvec64_1, slvec64_1]

end Cert.ReferenceIdeal.RefValue

end
-- ==== Proof.RefEdge.lean ====
/-
  The reference's edge updates and its read-out, as the specification's functions.

  Each of these stretches of the reference is a short chain of whole-array operations on three arrays of 640000 rows:
  a join along the columns, matrix products with a weight array (for the edge updates, one matrix of a stack of two, cut
  out by a slice and a reshape), a bias row broadcast down the rows, the rectifier against a broadcast zero, and for the
  edge updates a division by a broadcast two and the residual sum. Read at an index, a join is the piece whose span of
  columns holds the column, a product is the sum over the contracted coordinate, and every other operation is entrywise;
  so each stretch equals its specification index by index.
-/
import proofs.«156771_j85263690760421_1_alg».proof.Proof.RefStages

noncomputable section

open scoped BigOperators

namespace Cert.ReferenceIdeal.RefValue

open Cert.ReferenceIdeal Cert.ReferenceIdeal.Gen Idealize.ShloMosaic Idealize.ShloMosaic.ValueIdx Cert.Spec

/-! ## The edge updates -/

/-- The hidden layer of the edge update of layer 0: a rectified layer on the three arrays joined side by side. -/
theorem ref_emlp_hidden0 (a b e : FVec Ideal S640000x64 .f32) (W1 : FVec Ideal S2x192x64 .f32) (B1 : FVec Ideal S2x64 .f32) :
    maximumf (addf (Host.dotGeneral dot_S640000x192_S192x64_S640000x64_1_0_0_1_n_n none
          (concatenate S640000x192 1 [⟨S640000x64, a⟩, ⟨S640000x64, b⟩, ⟨S640000x64, e⟩]
            concatenates_S640000x64_S640000x64_S640000x64_S640000x192_d1 : FVec Ideal S640000x192 .f32)
          (shapeCast _ (extractStridedSlice S1x192x64 ![0, 0, 0] W1 slices_S2x192x64_S1x192x64_0_0_0) shapeCasts_S1x192x64_S192x64))
        (broadcastInDim S640000x64 ![0, 1] bcast_S1x64_S640000x64_0_1 (broadcastInDim S1x64 ![1] bcast_S64_S1x64_1
          (shapeCast _ (extractStridedSlice S1x64 ![0, 0] B1 slices_S2x64_S1x64_0_0) shapeCasts_S1x64_S64))))
      (broadcastInDim S640000x64 ![] bcast_S_S640000x64 (constant (F := Ideal) S_ .f32 0x00000000#32))
      = relu (lin (cat3 a b e) (sl 0 W1) (row (slRow 0 B1))) := by
  funext i
  rw [maximumf_apply, addf_apply, concat3_eq, slmat192_0, slvec64_0, dot_S640000x192_S192x64_S640000x64_1_0_0_1_n_n_apply,
    brow_S640000x64_apply, splat_apply, Ideal.ofBits_zero_f32]
  rfl

/-- The edge update of layer 0: two layers on the join, the first rectified; the result divided by two and added
    to the edge array. -/
theorem ref_emlp0 (a b e : FVec Ideal S640000x64 .f32) (W1 : FVec Ideal S2x192x64 .f32) (B1 : FVec Ideal S2x64 .f32)
    (W2 : FVec Ideal S2x64x64 .f32) (B2 : FVec Ideal S2x64 .f32) :
    addf e (Host.divf
      (addf (Host.dotGeneral dot_S640000x64_S64x64_S640000x64_1_0_0_1_n_n none
          (maximumf (addf (Host.dotGeneral dot_S640000x192_S192x64_S640000x64_1_0_0_1_n_n none
          (concatenate S640000x192 1 [⟨S640000x64, a⟩, ⟨S640000x64, b⟩, ⟨S640000x64, e⟩]
            concatenates_S640000x64_S640000x64_S640000x64_S640000x192_d1 : FVec Ideal S640000x192 .f32)
          (shapeCast _ (extractStridedSlice S1x192x64 ![0, 0, 0] W1 slices_S2x192x64_S1x192x64_0_0_0) shapeCasts_S1x192x64_S192x64))
        (broadcastInDim S640000x64 ![0, 1] bcast_S1x64_S640000x64_0_1 (broadcastInDim S1x64 ![1] bcast_S64_S1x64_1
          (shapeCast _ (extractStridedSlice S1x64 ![0, 0] B1 slices_S2x64_S1x64_0_0) shapeCasts_S1x64_S64))))
      (broadcastInDim S640000x64 ![] bcast_S_S640000x64 (constant (F := Ideal) S_ .f32 0x00000000#32)))
          (shapeCast _ (extractStridedSlice S1x64x64 ![0, 0, 0] W2 slices_S2x64x64_S1x64x64_0_0_0) shapeCasts_S1x64x64_S64x64))
        (broadcastInDim S640000x64 ![0, 1] bcast_S1x64_S640000x64_0_1 (broadcastInDim S1x64 ![1] bcast_S64_S1x64_1
          (shapeCast _ (extractStridedSlice S1x64 ![0, 0] B2 slices_S2x64_S1x64_0_0) shapeCasts_S1x64_S64))))
      (broadcastInDim S640000x64 ![] bcast_S_S640000x64 (constant (F := Ideal) S_ .f32 0x40000000#32)))
      = emlpRef a b e (sl 0 W1) (row (slRow 0 B1)) (sl 0 W2) (row (slRow 0 B2)) := by
  funext i
  rw [addf_apply, hdivf_apply, addf_apply, ref_emlp_hidden0 a b e W1 B1, slmat64_0, slvec64_0,
    dot_S640000x64_S64x64_S640000x64_1_0_0_1_n_n_apply, brow_S640000x64_apply, splat_apply]
  rfl

/-- The hidden layer of the edge update of layer 1: a rectified layer on the three arrays joined side by side. -/
theorem ref_emlp_hidden1 (a b e : FVec Ideal S640000x64 .f32) (W1 : FVec Ideal S2x192x64 .f32) (B1 : FVec Ideal S2x64 .f32) :
    maximumf (addf (Host.dotGeneral dot_S640000x192_S192x64_S640000x64_1_0_0_1_n_n none
          (concatenate S640000x192 1 [⟨S640000x64, a⟩, ⟨S640000x64, b⟩, ⟨S640000x64, e⟩]
            concatenates_S640000x64_S640000x64_S640000x64_S640000x192_d1 : FVec Ideal S640000x192 .f32)
          (shapeCast _ (extractStridedSlice S1x192x64 ![1, 0, 0] W1 slices_S2x192x64_S1x192x64_1_0_0) shapeCasts_S1x192x64_S192x64))
        (broadcastInDim S640000x64 ![0, 1] bcast_S1x64_S640000x64_0_1 (broadcastInDim S1x64 ![1] bcast_S64_S1x64_1
          (shapeCast _ (extractStridedSlice S1x64 ![1, 0] B1 slices_S2x64_S1x64_1_0) shapeCasts_S1x64_S64))))
      (broadcastInDim S640000x64 ![] bcast_S_S640000x64 (constant (F := Ideal) S_ .f32 0x00000000#32))
      = relu (lin (cat3 a b e) (sl 1 W1) (row (slRow 1 B1))) := by
  funext i
  rw [maximumf_apply, addf_apply, concat3_eq, slmat192_1, slvec64_1, dot_S640000x192_S192x64_S640000x64_1_0_0_1_n_n_apply,
    brow_S640000x64_apply, splat_apply, Ideal.ofBits_zero_f32]
  rfl

/-- The edge update of layer 1: two layers on the join, the first rectified; the result divided by two and added
    to the edge array. -/
theorem ref_emlp1 (a b e : FVec Ideal S640000x64 .f32) (W1 : FVec Ideal S2x192x64 .f32) (B1 : FVec Ideal S2x64 .f32)
    (W2 : FVec Ideal S2x64x64 .f32) (B2 : FVec Ideal S2x64 .f32) :
    addf e (Host.divf
      (addf (Host.dotGeneral dot_S640000x64_S64x64_S640000x64_1_0_0_1_n_n none
          (maximumf (addf (Host.dotGeneral dot_S640000x192_S192x64_S640000x64_1_0_0_1_n_n none
          (concatenate S640000x192 1 [⟨S640000x64, a⟩, ⟨S640000x64, b⟩, ⟨S640000x64, e⟩]
            concatenates_S640000x64_S640000x64_S640000x64_S640000x192_d1 : FVec Ideal S640000x192 .f32)
          (shapeCast _ (extractStridedSlice S1x192x64 ![1, 0, 0] W1 slices_S2x192x64_S1x192x64_1_0_0) shapeCasts_S1x192x64_S192x64))
        (broadcastInDim S640000x64 ![0, 1] bcast_S1x64_S640000x64_0_1 (broadcastInDim S1x64 ![1] bcast_S64_S1x64_1
          (shapeCast _ (extractStridedSlice S1x64 ![1, 0] B1 slices_S2x64_S1x64_1_0) shapeCasts_S1x64_S64))))
      (broadcastInDim S640000x64 ![] bcast_S_S640000x64 (constant (F := Ideal) S_ .f32 0x00000000#32)))
          (shapeCast _ (extractStridedSlice S1x64x64 ![1, 0, 0] W2 slices_S2x64x64_S1x64x64_1_0_0) shapeCasts_S1x64x64_S64x64))
        (broadcastInDim S640000x64 ![0, 1] bcast_S1x64_S640000x64_0_1 (broadcastInDim S1x64 ![1] bcast_S64_S1x64_1
          (shapeCast _ (extractStridedSlice S1x64 ![1, 0] B2 slices_S2x64_S1x64_1_0) shapeCasts_S1x64_S64))))
      (broadcastInDim S640000x64 ![] bcast_S_S640000x64 (constant (F := Ideal) S_ .f32 0x40000000#32)))
      = emlpRef a b e (sl 1 W1) (row (slRow 1 B1)) (sl 1 W2) (row (slRow 1 B2)) := by
  funext i
  rw [addf_apply, hdivf_apply, addf_apply, ref_emlp_hidden1 a b e W1 B1, slmat64_1, slvec64_1,
    dot_S640000x64_S64x64_S640000x64_1_0_0_1_n_n_apply, brow_S640000x64_apply, splat_apply]
  rfl

/-! ## The read-out -/

/-- The first layer of the read-out: a rectified layer of 50 columns on the rectified join. -/
theorem ref_readout_l1 (a b e : FVec Ideal S640000x64 .f32) (W1 : FVec Ideal S192x50 .f32) (b1 : FVec Ideal S50 .f32) :
    maximumf (addf (Host.dotGeneral dot_S640000x192_S192x50_S640000x50_1_0_0_1_n_n none
          (concatenate S640000x192 1
            [⟨S640000x128, maximumf (φ := .f32)
                (concatenate S640000x128 1 [⟨S640000x64, a⟩, ⟨S640000x64, b⟩] concatenates_S640000x64_S640000x64_S640000x128_d1)
                (broadcastInDim S640000x128 ![] bcast_S_S640000x128 (constant (F := Ideal) S_ .f32 0x00000000#32))⟩,
             ⟨S640000x64, e⟩]
            concatenates_S640000x128_S640000x64_S640000x192_d1 : FVec Ideal S640000x192 .f32) W1)
        (broadcastInDim S640000x50 ![0, 1] bcast_S1x50_S640000x50_0_1 (broadcastInDim S1x50 ![1] bcast_S50_S1x50_1 b1)))
      (broadcastInDim S640000x50 ![] bcast_S_S640000x50 (constant (F := Ideal) S_ .f32 0x00000000#32))
      = relu (lin (catRelu a b e) W1 (row b1)) := by
  funext i
  rw [maximumf_apply, addf_apply, catRelu_eq, dot_S640000x192_S192x50_S640000x50_1_0_0_1_n_n_apply,
    brow_S640000x50_apply, splat_apply, Ideal.ofBits_zero_f32]
  rfl

/-- The second layer of the read-out: a rectified layer of 25 columns. -/
theorem ref_readout_l2 (a b e : FVec Ideal S640000x64 .f32) (W1 : FVec Ideal S192x50 .f32) (b1 : FVec Ideal S50 .f32)
    (W2 : FVec Ideal S50x25 .f32) (b2 : FVec Ideal S25 .f32) :
    maximumf (addf (Host.dotGeneral dot_S640000x50_S50x25_S640000x25_1_0_0_1_n_n none
        (maximumf (addf (Host.dotGeneral dot_S640000x192_S192x50_S640000x50_1_0_0_1_n_n none
          (concatenate S640000x192 1
            [⟨S640000x128, maximumf (φ := .f32)
                (concatenate S640000x128 1 [⟨S640000x64, a⟩, ⟨S640000x64, b⟩] concatenates_S640000x64_S640000x64_S640000x128_d1)
                (broadcastInDim S640000x128 ![] bcast_S_S640000x128 (constant (F := Ideal) S_ .f32 0x00000000#32))⟩,
             ⟨S640000x64, e⟩]
            concatenates_S640000x128_S640000x64_S640000x192_d1 : FVec Ideal S640000x192 .f32) W1)
        (broadcastInDim S640000x50 ![0, 1] bcast_S1x50_S640000x50_0_1 (broadcastInDim S1x50 ![1] bcast_S50_S1x50_1 b1)))
      (broadcastInDim S640000x50 ![] bcast_S_S640000x50 (constant (F := Ideal) S_ .f32 0x00000000#32))) W2)
        (broadcastInDim S640000x25 ![0, 1] bcast_S1x25_S640000x25_0_1 (broadcastInDim S1x25 ![1] bcast_S25_S1x25_1 b2)))
      (broadcastInDim S640000x25 ![] bcast_S_S640000x25 (constant (F := Ideal) S_ .f32 0x00000000#32))
      = relu (lin (relu (lin (catRelu a b e) W1 (row b1))) W2 (row b2)) := by
  funext i
  rw [maximumf_apply, addf_apply, ref_readout_l1 a b e W1 b1, dot_S640000x50_S50x25_S640000x25_1_0_0_1_n_n_apply,
    brow_S640000x25_apply, splat_apply, Ideal.ofBits_zero_f32]
  rfl

/-- The read-out: three layers on the rectified join, the first two rectified. -/
theorem ref_readout (a b e : FVec Ideal S640000x64 .f32) (W1 : FVec Ideal S192x50 .f32) (b1 : FVec Ideal S50 .f32)
    (W2 : FVec Ideal S50x25 .f32) (b2 : FVec Ideal S25 .f32) (W3 : FVec Ideal S25x1 .f32) (b3 : FVec Ideal S1 .f32) :
    addf (Host.dotGeneral dot_S640000x25_S25x1_S640000x1_1_0_0_1_n_n none
        (maximumf (addf (Host.dotGeneral dot_S640000x50_S50x25_S640000x25_1_0_0_1_n_n none
        (maximumf (addf (Host.dotGeneral dot_S640000x192_S192x50_S640000x50_1_0_0_1_n_n none
          (concatenate S640000x192 1
            [⟨S640000x128, maximumf (φ := .f32)
                (concatenate S640000x128 1 [⟨S640000x64, a⟩, ⟨S640000x64, b⟩] concatenates_S640000x64_S640000x64_S640000x128_d1)
                (broadcastInDim S640000x128 ![] bcast_S_S640000x128 (constant (F := Ideal) S_ .f32 0x00000000#32))⟩,
             ⟨S640000x64, e⟩]
            concatenates_S640000x128_S640000x64_S640000x192_d1 : FVec Ideal S640000x192 .f32) W1)
        (broadcastInDim S640000x50 ![0, 1] bcast_S1x50_S640000x50_0_1 (broadcastInDim S1x50 ![1] bcast_S50_S1x50_1 b1)))
      (broadcastInDim S640000x50 ![] bcast_S_S640000x50 (constant (F := Ideal) S_ .f32 0x00000000#32))) W2)
        (broadcastInDim S640000x25 ![0, 1] bcast_S1x25_S640000x25_0_1 (broadcastInDim S1x25 ![1] bcast_S25_S1x25_1 b2)))
      (broadcastInDim S640000x25 ![] bcast_S_S640000x25 (constant (F := Ideal) S_ .f32 0x00000000#32))) W3)
      (broadcastInDim S640000x1 ![0, 1] bcast_S1x1_S640000x1_0_1 (broadcastInDim S1x1 ![1] bcast_S1_S1x1_1 b3))
      = readout a b e W1 (row b1) W2 (row b2) W3 (row b3) := by
  funext i
  rw [addf_apply, ref_readout_l2 a b e W1 b1 W2 b2, dot_S640000x25_S25x1_S640000x1_1_0_0_1_n_n_apply, brow_S640000x1_apply]
  rfl

end Cert.ReferenceIdeal.RefValue

end
-- ==== Proof.RefChain.lean ====
/-
  The reference program's values, stage by stage.

  The run leaves every buffer at the last boundary valuation. An argument array is written by no segment, so it is
  carried unchanged from the launch memory to the end. A result buffer is followed down to the boundary right after
  the segment that wrote it; there its value is the segment's operations applied to buffers written earlier, and by
  the stage lemmas those are the network's stages applied to the arguments.
-/
import proofs.«156771_j85263690760421_1_alg».proof.Proof.RefRun
import proofs.«156771_j85263690760421_1_alg».proof.Proof.RArgs
import proofs.«156771_j85263690760421_1_alg».proof.Proof.Net
import proofs.«156771_j85263690760421_1_alg».proof.Proof.RefStages
import proofs.«156771_j85263690760421_1_alg».proof.Proof.RefNorm
import proofs.«156771_j85263690760421_1_alg».proof.Proof.RefEdge

noncomputable section

namespace Cert.ReferenceIdeal.Chain

open Cert.ReferenceIdeal Cert.ReferenceIdeal.Gen Cert.ReferenceIdeal.RunValue Cert.ReferenceIdeal.RefValue
open Idealize.ShloMosaic Idealize.ShloMosaic.TcCoe Idealize.SL.Sem Idealize.ShloMosaic.StableHlo

/-! ## The argument arrays are carried to the end -/

theorem ref_arg0 (m : (ℓ : Loc nD τ sig) → Buf (Elt Ideal) ℓ) (c : Dev nD) :
    U18 m c (Proc.devRef .tc main_arg0) = m ((c.tc : Thread nD τ).loc main_arg0) := by
  simp (disch := decide) only [keep17, keep16, keep15, keep14, keep13, keep12, keep11, keep10, keep9, keep8, keep7, keep6, keep5, keep4, keep3, keep2, keep1, keep0, U0_apply]

theorem ref_arg1 (m : (ℓ : Loc nD τ sig) → Buf (Elt Ideal) ℓ) (c : Dev nD) :
    U18 m c (Proc.devRef .tc main_arg1) = m ((c.tc : Thread nD τ).loc main_arg1) := by
  simp (disch := decide) only [keep17, keep16, keep15, keep14, keep13, keep12, keep11, keep10, keep9, keep8, keep7, keep6, keep5, keep4, keep3, keep2, keep1, keep0, U0_apply]

theorem ref_arg2 (m : (ℓ : Loc nD τ sig) → Buf (Elt Ideal) ℓ) (c : Dev nD) :
    U18 m c (Proc.devRef .tc main_arg2) = m ((c.tc : Thread nD τ).loc main_arg2) := by
  simp (disch := decide) only [keep17, keep16, keep15, keep14, keep13, keep12, keep11, keep10, keep9, keep8, keep7, keep6, keep5, keep4, keep3, keep2, keep1, keep0, U0_apply]

theorem ref_arg3 (m : (ℓ : Loc nD τ sig) → Buf (Elt Ideal) ℓ) (c : Dev nD) :
    U18 m c (Proc.devRef .tc main_arg3) = m ((c.tc : Thread nD τ).loc main_arg3) := by
  simp (disch := decide) only [keep17, keep16, keep15, keep14, keep13, keep12, keep11, keep10, keep9, keep8, keep7, keep6, keep5, keep4, keep3, keep2, keep1, keep0, U0_apply]

theorem ref_arg4 (m : (ℓ : Loc nD τ sig) → Buf (Elt Ideal) ℓ) (c : Dev nD) :
    U18 m c (Proc.devRef .tc main_arg4) = m ((c.tc : Thread nD τ).loc main_arg4) := by
  simp (disch := decide) only [keep17, keep16, keep15, keep14, keep13, keep12, keep11, keep10, keep9, keep8, keep7, keep6, keep5, keep4, keep3, keep2, keep1, keep0, U0_apply]

theorem ref_arg5 (m : (ℓ : Loc nD τ sig) → Buf (Elt Ideal) ℓ) (c : Dev nD) :
    U18 m c (Proc.devRef .tc main_arg5) = m ((c.tc : Thread nD τ).loc main_arg5) := by
  simp (disch := decide) only [keep17, keep16, keep15, keep14, keep13, keep12, keep11, keep10, keep9, keep8, keep7, keep6, keep5, keep4, keep3, keep2, keep1, keep0, U0_apply]

theorem ref_arg6 (m : (ℓ : Loc nD τ sig) → Buf (Elt Ideal) ℓ) (c : Dev nD) :
    U18 m c (Proc.devRef .tc main_arg6) = m ((c.tc : Thread nD τ).loc main_arg6) := by
  simp (disch := decide) only [keep17, keep16, keep15, keep14, keep13, keep12, keep11, keep10, keep9, keep8, keep7, keep6, keep5, keep4, keep3, keep2, keep1, keep0, U0_apply]

theorem ref_arg7 (m : (ℓ : Loc nD τ sig) → Buf (Elt Ideal) ℓ) (c : Dev nD) :
    U18 m c (Proc.devRef .tc main_arg7) = m ((c.tc : Thread nD τ).loc main_arg7) := by
  simp (disch := decide) only [keep17, keep16, keep15, keep14, keep13, keep12, keep11, keep10, keep9, keep8, keep7, keep6, keep5, keep4, keep3, keep2, keep1, keep0, U0_apply]

theorem ref_arg8 (m : (ℓ : Loc nD τ sig) → Buf (Elt Ideal) ℓ) (c : Dev nD) :
    U18 m c (Proc.devRef .tc main_arg8) = m ((c.tc : Thread nD τ).loc main_arg8) := by
  simp (disch := decide) only [keep17, keep16, keep15, keep14, keep13, keep12, keep11, keep10, keep9, keep8, keep7, keep6, keep5, keep4, keep3, keep2, keep1, keep0, U0_apply]

theorem ref_arg9 (m : (ℓ : Loc nD τ sig) → Buf (Elt Ideal) ℓ) (c : Dev nD) :
    U18 m c (Proc.devRef .tc main_arg9) = m ((c.tc : Thread nD τ).loc main_arg9) := by
  simp (disch := decide) only [keep17, keep16, keep15, keep14, keep13, keep12, keep11, keep10, keep9, keep8, keep7, keep6, keep5, keep4, keep3, keep2, keep1, keep0, U0_apply]

theorem ref_arg10 (m : (ℓ : Loc nD τ sig) → Buf (Elt Ideal) ℓ) (c : Dev nD) :
    U18 m c (Proc.devRef .tc main_arg10) = m ((c.tc : Thread nD τ).loc main_arg10) := by
  simp (disch := decide) only [keep17, keep16, keep15, keep14, keep13, keep12, keep11, keep10, keep9, keep8, keep7, keep6, keep5, keep4, keep3, keep2, keep1, keep0, U0_apply]

theorem ref_arg11 (m : (ℓ : Loc nD τ sig) → Buf (Elt Ideal) ℓ) (c : Dev nD) :
    U18 m c (Proc.devRef .tc main_arg11) = m ((c.tc : Thread nD τ).loc main_arg11) := by
  simp (disch := decide) only [keep17, keep16, keep15, keep14, keep13, keep12, keep11, keep10, keep9, keep8, keep7, keep6, keep5, keep4, keep3, keep2, keep1, keep0, U0_apply]

theorem ref_arg12 (m : (ℓ : Loc nD τ sig) → Buf (Elt Ideal) ℓ) (c : Dev nD) :
    U18 m c (Proc.devRef .tc main_arg12) = m ((c.tc : Thread nD τ).loc main_arg12) := by
  simp (disch := decide) only [keep17, keep16, keep15, keep14, keep13, keep12, keep11, keep10, keep9, keep8, keep7, keep6, keep5, keep4, keep3, keep2, keep1, keep0, U0_apply]

theorem ref_arg13 (m : (ℓ : Loc nD τ sig) → Buf (Elt Ideal) ℓ) (c : Dev nD) :
    U18 m c (Proc.devRef .tc main_arg13) = m ((c.tc : Thread nD τ).loc main_arg13) := by
  simp (disch := decide) only [keep17, keep16, keep15, keep14, keep13, keep12, keep11, keep10, keep9, keep8, keep7, keep6, keep5, keep4, keep3, keep2, keep1, keep0, U0_apply]

theorem ref_arg14 (m : (ℓ : Loc nD τ sig) → Buf (Elt Ideal) ℓ) (c : Dev nD) :
    U18 m c (Proc.devRef .tc main_arg14) = m ((c.tc : Thread nD τ).loc main_arg14) := by
  simp (disch := decide) only [keep17, keep16, keep15, keep14, keep13, keep12, keep11, keep10, keep9, keep8, keep7, keep6, keep5, keep4, keep3, keep2, keep1, keep0, U0_apply]

theorem ref_arg15 (m : (ℓ : Loc nD τ sig) → Buf (Elt Ideal) ℓ) (c : Dev nD) :
    U18 m c (Proc.devRef .tc main_arg15) = m ((c.tc : Thread nD τ).loc main_arg15) := by
  simp (disch := decide) only [keep17, keep16, keep15, keep14, keep13, keep12, keep11, keep10, keep9, keep8, keep7, keep6, keep5, keep4, keep3, keep2, keep1, keep0, U0_apply]

theorem ref_arg16 (m : (ℓ : Loc nD τ sig) → Buf (Elt Ideal) ℓ) (c : Dev nD) :
    U18 m c (Proc.devRef .tc main_arg16) = m ((c.tc : Thread nD τ).loc main_arg16) := by
  simp (disch := decide) only [keep17, keep16, keep15, keep14, keep13, keep12, keep11, keep10, keep9, keep8, keep7, keep6, keep5, keep4, keep3, keep2, keep1, keep0, U0_apply]

theorem ref_arg17 (m : (ℓ : Loc nD τ sig) → Buf (Elt Ideal) ℓ) (c : Dev nD) :
    U18 m c (Proc.devRef .tc main_arg17) = m ((c.tc : Thread nD τ).loc main_arg17) := by
  simp (disch := decide) only [keep17, keep16, keep15, keep14, keep13, keep12, keep11, keep10, keep9, keep8, keep7, keep6, keep5, keep4, keep3, keep2, keep1, keep0, U0_apply]

theorem ref_arg18 (m : (ℓ : Loc nD τ sig) → Buf (Elt Ideal) ℓ) (c : Dev nD) :
    U18 m c (Proc.devRef .tc main_arg18) = m ((c.tc : Thread nD τ).loc main_arg18) := by
  simp (disch := decide) only [keep17, keep16, keep15, keep14, keep13, keep12, keep11, keep10, keep9, keep8, keep7, keep6, keep5, keep4, keep3, keep2, keep1, keep0, U0_apply]

theorem ref_arg19 (m : (ℓ : Loc nD τ sig) → Buf (Elt Ideal) ℓ) (c : Dev nD) :
    U18 m c (Proc.devRef .tc main_arg19) = m ((c.tc : Thread nD τ).loc main_arg19) := by
  simp (disch := decide) only [keep17, keep16, keep15, keep14, keep13, keep12, keep11, keep10, keep9, keep8, keep7, keep6, keep5, keep4, keep3, keep2, keep1, keep0, U0_apply]

theorem ref_arg20 (m : (ℓ : Loc nD τ sig) → Buf (Elt Ideal) ℓ) (c : Dev nD) :
    U18 m c (Proc.devRef .tc main_arg20) = m ((c.tc : Thread nD τ).loc main_arg20) := by
  simp (disch := decide) only [keep17, keep16, keep15, keep14, keep13, keep12, keep11, keep10, keep9, keep8, keep7, keep6, keep5, keep4, keep3, keep2, keep1, keep0, U0_apply]

theorem ref_arg21 (m : (ℓ : Loc nD τ sig) → Buf (Elt Ideal) ℓ) (c : Dev nD) :
    U18 m c (Proc.devRef .tc main_arg21) = m ((c.tc : Thread nD τ).loc main_arg21) := by
  simp (disch := decide) only [keep17, keep16, keep15, keep14, keep13, keep12, keep11, keep10, keep9, keep8, keep7, keep6, keep5, keep4, keep3, keep2, keep1, keep0, U0_apply]

theorem ref_arg22 (m : (ℓ : Loc nD τ sig) → Buf (Elt Ideal) ℓ) (c : Dev nD) :
    U18 m c (Proc.devRef .tc main_arg22) = m ((c.tc : Thread nD τ).loc main_arg22) := by
  simp (disch := decide) only [keep17, keep16, keep15, keep14, keep13, keep12, keep11, keep10, keep9, keep8, keep7, keep6, keep5, keep4, keep3, keep2, keep1, keep0, U0_apply]

theorem ref_arg23 (m : (ℓ : Loc nD τ sig) → Buf (Elt Ideal) ℓ) (c : Dev nD) :
    U18 m c (Proc.devRef .tc main_arg23) = m ((c.tc : Thread nD τ).loc main_arg23) := by
  simp (disch := decide) only [keep17, keep16, keep15, keep14, keep13, keep12, keep11, keep10, keep9, keep8, keep7, keep6, keep5, keep4, keep3, keep2, keep1, keep0, U0_apply]

theorem ref_arg24 (m : (ℓ : Loc nD τ sig) → Buf (Elt Ideal) ℓ) (c : Dev nD) :
    U18 m c (Proc.devRef .tc main_arg24) = m ((c.tc : Thread nD τ).loc main_arg24) := by
  simp (disch := decide) only [keep17, keep16, keep15, keep14, keep13, keep12, keep11, keep10, keep9, keep8, keep7, keep6, keep5, keep4, keep3, keep2, keep1, keep0, U0_apply]

theorem ref_arg25 (m : (ℓ : Loc nD τ sig) → Buf (Elt Ideal) ℓ) (c : Dev nD) :
    U18 m c (Proc.devRef .tc main_arg25) = m ((c.tc : Thread nD τ).loc main_arg25) := by
  simp (disch := decide) only [keep17, keep16, keep15, keep14, keep13, keep12, keep11, keep10, keep9, keep8, keep7, keep6, keep5, keep4, keep3, keep2, keep1, keep0, U0_apply]

/-- Every weakly fair execution of the reference terminates and leaves its argument arrays unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c main_arg0).trans (ref_arg0 m c),
      (h c main_arg1).trans (ref_arg1 m c),
      (h c main_arg2).trans (ref_arg2 m c),
      (h c main_arg3).trans (ref_arg3 m c),
      (h c main_arg4).trans (ref_arg4 m c),
      (h c main_arg5).trans (ref_arg5 m c),
      (h c main_arg6).trans (ref_arg6 m c),
      (h c main_arg7).trans (ref_arg7 m c),
      (h c main_arg8).trans (ref_arg8 m c),
      (h c main_arg9).trans (ref_arg9 m c),
      (h c main_arg10).trans (ref_arg10 m c),
      (h c main_arg11).trans (ref_arg11 m c),
      (h c main_arg12).trans (ref_arg12 m c),
      (h c main_arg13).trans (ref_arg13 m c),
      (h c main_arg14).trans (ref_arg14 m c),
      (h c main_arg15).trans (ref_arg15 m c),
      (h c main_arg16).trans (ref_arg16 m c),
      (h c main_arg17).trans (ref_arg17 m c),
      (h c main_arg18).trans (ref_arg18 m c),
      (h c main_arg19).trans (ref_arg19 m c),
      (h c main_arg20).trans (ref_arg20 m c),
      (h c main_arg21).trans (ref_arg21 m c),
      (h c main_arg22).trans (ref_arg22 m c),
      (h c main_arg23).trans (ref_arg23 m c),
      (h c main_arg24).trans (ref_arg24 m c),
      (h c main_arg25).trans (ref_arg25 m c)⟩)
    (run_raw m ρ)

/-! ## A three-operand concatenation's result -/

/-- The result of an operation over a literal family of three references, with each operand's contents read at its
    own reference (so that the operands' contents can be rewritten in turn). -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The results of a segment, rewritten operation by operation, a three-operand concatenation read operand by operand. -/
macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## Layer 0 -/

theorem stage_v3 (m : (ℓ : Loc nD τ sig) → Buf (Elt Ideal) ℓ) (c : Dev nD) : U1 m c (Proc.devRef .tc main_v3) = Cert.Spec.x0 (argsR m c) := by
  rw [U1_eq]; after_results_simp
  simp (disch := decide) only [keep17, keep16, keep15, keep14, keep13, keep12, keep11, keep10, keep9, keep8, keep7, keep6, keep5, keep4, keep3, keep2, keep1, keep0, U0_apply]
  exact ref_lin_node _ _ _

theorem stage_v7 (m : (ℓ : Loc nD τ sig) → Buf (Elt Ideal) ℓ) (c : Dev nD) : U2 m c (Proc.devRef .tc main_v7) = Cert.Spec.e0 (argsR m c) := by
  rw [U2_eq]; after_results_simp
  simp (disch := decide) only [keep17, keep16, keep15, keep14, keep13, keep12, keep11, keep10, keep9, keep8, keep7, keep6, keep5, keep4, keep3, keep2, keep1, keep0, U0_apply]
  exact ref_lin_edge _ _ _

theorem stage_v24 (m : (ℓ : Loc nD τ sig) → Buf (Elt Ideal) ℓ) (c : Dev nD) : U3 m c (Proc.devRef .tc main_v24)
    = Cert.Spec.msg (Cert.Spec.e0 (argsR m c)) (Cert.Spec.sl 0 (argsR m c).lw) (Cert.Spec.row (Cert.Spec.slRow 0 (argsR m c).lb))
        ((argsR m c).gS (Cert.Spec.x0 (argsR m c))) := by
  rw [U3_eq]; after_results_simp
  simp only [TRef.toBuf, TRef.ofBuf, cast_eq]
  simp (disch := decide) only [keep17, keep16, keep15, keep14, keep13, keep12, keep11, keep10, keep9, keep8, keep7, keep6, keep5, keep4, keep3, keep2, keep1, keep0, U0_apply]
  rw [stage_v3, stage_v7]
  exact ref_msg_0 _ _ _ _

theorem stage_v27 (m : (ℓ : Loc nD τ sig) → Buf (Elt Ideal) ℓ) (c : Dev nD) : U4 m c (Proc.devRef .tc main_v27)
    = (argsR m c).sc (Cert.Spec.msg (Cert.Spec.e0 (argsR m c)) (Cert.Spec.sl 0 (argsR m c).lw) (Cert.Spec.row (Cert.Spec.slRow 0 (argsR m c).lb))
        ((argsR m c).gS (Cert.Spec.x0 (argsR m c)))) := by
  rw [U4_eq]; after_results_simp
  simp (disch := decide) only [keep17, keep16, keep15, keep14, keep13, keep12, keep11, keep10, keep9, keep8, keep7, keep6, keep5, keep4, keep3, keep2, keep1, keep0, U0_apply]
  rw [stage_v24]
  rfl

theorem stage_v45 (m : (ℓ : Loc nD τ sig) → Buf (Elt Ideal) ℓ) (c : Dev nD) : U5 m c (Proc.devRef .tc main_v45)
    = Cert.Spec.preNorm (argsR m c) 0 (Cert.Spec.x0 (argsR m c)) (Cert.Spec.e0 (argsR m c)) := by
  rw [U5_eq]; after_results_simp
  simp only [TRef.toBuf, TRef.ofBuf, cast_eq]
  simp (disch := decide) only [keep17, keep16, keep15, keep14, keep13, keep12, keep11, keep10, keep9, keep8, keep7, keep6, keep5, keep4, keep3, keep2, keep1, keep0, U0_apply]
  rw [stage_v3, stage_v27]
  exact ref_conv_0 _ _ _ _ _ _

theorem stage_v47 (m : (ℓ : Loc nD τ sig) → Buf (Elt Ideal) ℓ) (c : Dev nD) : U6 m c (Proc.devRef .tc main_v47)
    = (shapeCast S64 (extractStridedSlice S1x64 ![0, 0] (m ((c.tc : Thread nD τ).loc main_arg18)) slices_S2x64_S1x64_0_0) shapeCasts_S1x64_S64 : (⟨S64, .f32⟩ : BufTy).Contents (Elt Ideal)) := by
  rw [U6_eq]; after_results_simp
  simp (disch := decide) only [keep17, keep16, keep15, keep14, keep13, keep12, keep11, keep10, keep9, keep8, keep7, keep6, keep5, keep4, keep3, keep2, keep1, keep0, U0_apply]
  rfl

theorem stage_v49 (m : (ℓ : Loc nD τ sig) → Buf (Elt Ideal) ℓ) (c : Dev nD) : U6 m c (Proc.devRef .tc main_v49)
    = (shapeCast S64 (extractStridedSlice S1x64 ![0, 0] (m ((c.tc : Thread nD τ).loc main_arg19)) slices_S2x64_S1x64_0_0) shapeCasts_S1x64_S64 : (⟨S64, .f32⟩ : BufTy).Contents (Elt Ideal)) := by
  rw [U6_eq]; after_results_simp
  simp (disch := decide) only [keep17, keep16, keep15, keep14, keep13, keep12, keep11, keep10, keep9, keep8, keep7, keep6, keep5, keep4, keep3, keep2, keep1, keep0, U0_apply]
  rfl

theorem stage_v52 (m : (ℓ : Loc nD τ sig) → Buf (Elt Ideal) ℓ) (c : Dev nD) : U6 m c (Proc.devRef .tc main_v52)
    = Cert.Spec.meanR (Cert.Spec.preNorm (argsR m c) 0 (Cert.Spec.x0 (argsR m c)) (Cert.Spec.e0 (argsR m c))) := by
  rw [U6_eq]; after_results_simp
  rw [stage_v45]
  exact ref_mean _

theorem stage_v59 (m : (ℓ : Loc nD τ sig) → Buf (Elt Ideal) ℓ) (c : Dev nD) : U6 m c (Proc.devRef .tc main_v59)
    = Cert.Spec.varR (Cert.Spec.preNorm (argsR m c) 0 (Cert.Spec.x0 (argsR m c)) (Cert.Spec.e0 (argsR m c))) := by
  rw [U6_eq]; after_results_simp
  rw [stage_v45]
  exact ref_var _

theorem stage_v78 (m : (ℓ : Loc nD τ sig) → Buf (Elt Ideal) ℓ) (c : Dev nD) : U7 m c (Proc.devRef .tc main_v78) = Cert.Spec.x1R (argsR m c) := by
  rw [U7_eq]; after_results_simp
  simp only [TRef.toBuf, TRef.ofBuf, cast_eq]
  simp (disch := decide) only [keep17, keep16, keep15, keep14, keep13, keep12, keep11, keep10, keep9, keep8, keep7, keep6, keep5, keep4, keep3, keep2, keep1, keep0, U0_apply]
  rw [stage_v3, stage_v45, stage_v47, stage_v49, stage_v52, stage_v59]
  exact ref_bn0 _ _ _ _ _ _

theorem carry7_v7 (m : (ℓ : Loc nD τ sig) → Buf (Elt Ideal) ℓ) (c : Dev nD) : U7 m c (Proc.devRef .tc main_v7) = U2 m c (Proc.devRef .tc main_v7) := by
  simp (disch := decide) only [keep17, keep16, keep15, keep14, keep13, keep12, keep11, keep10, keep9, keep8, keep7, keep6, keep5, keep4, keep3, keep2, keep1, keep0, U0_apply]
theorem carry7_arg2 (m : (ℓ : Loc nD τ sig) → Buf (Elt Ideal) ℓ) (c : Dev nD) : U7 m c (Proc.devRef .tc main_arg2) = m ((c.tc : Thread nD τ).loc main_arg2) := by
  simp (disch := decide) only [keep17, keep16, keep15, keep14, keep13, keep12, keep11, keep10, keep9, keep8, keep7, keep6, keep5, keep4, keep3, keep2, keep1, keep0, U0_apply]
theorem carry7_arg3 (m : (ℓ : Loc nD τ sig) → Buf (Elt Ideal) ℓ) (c : Dev nD) : U7 m c (Proc.devRef .tc main_arg3) = m ((c.tc : Thread nD τ).loc main_arg3) := by
  simp (disch := decide) only [keep17, keep16, keep15, keep14, keep13, keep12, keep11, keep10, keep9, keep8, keep7, keep6, keep5, keep4, keep3, keep2, keep1, keep0, U0_apply]

set_option maxHeartbeats 4000000 in
theorem stage_v93 (m : (ℓ : Loc nD τ sig) → Buf (Elt Ideal) ℓ) (c : Dev nD) : U8 m c (Proc.devRef .tc main_v93)
    = (concatenate S640000x192 1 [⟨S640000x64, (argsR m c).gS (Cert.Spec.x1R (argsR m c))⟩, ⟨S640000x64, (argsR m c).gD (Cert.Spec.x1R (argsR m c))⟩,
        ⟨S640000x64, Cert.Spec.e0 (argsR m c)⟩] concatenates_S640000x64_S640000x64_S640000x64_S640000x192_d1 : (⟨S640000x192, .f32⟩ : BufTy).Contents (Elt Ideal)) := by
  rw [U8_eq]; after_results3
  rw [stage_v78, carry7_v7, stage_v7, carry7_arg2, carry7_arg3]
  rfl

theorem stage_v113 (m : (ℓ : Loc nD τ sig) → Buf (Elt Ideal) ℓ) (c : Dev nD) : U9 m c (Proc.devRef .tc main_v113) = Cert.Spec.e1R (argsR m c) := by
  rw [U9_eq]; after_results_simp
  simp only [TRef.toBuf, TRef.ofBuf, cast_eq]
  simp (disch := decide) only [keep17, keep16, keep15, keep14, keep13, keep12, keep11, keep10, keep9, keep8, keep7, keep6, keep5, keep4, keep3, keep2, keep1, keep0, U0_apply]
  rw [stage_v93, stage_v7]
  exact ref_emlp0 _ _ _ _ _ _ _

end Cert.ReferenceIdeal.Chain

end
-- ==== Proof.RefChain1.lean ====
/-
  The reference program's second layer and read-out, stage by stage: what each buffer that a later segment reads
  holds at the boundary after the segment that writes it, as a function of the network's arguments. Each segment's
  operations, read over the earlier stages' results, are one of the whole-array stage lemmas.
-/
import proofs.«156771_j85263690760421_1_alg».proof.Proof.RefRun
import proofs.«156771_j85263690760421_1_alg».proof.Proof.RArgs
import proofs.«156771_j85263690760421_1_alg».proof.Proof.Net
import proofs.«156771_j85263690760421_1_alg».proof.Proof.RefStages
import proofs.«156771_j85263690760421_1_alg».proof.Proof.RefNorm
import proofs.«156771_j85263690760421_1_alg».proof.Proof.RefEdge
import proofs.«156771_j85263690760421_1_alg».proof.Proof.RefChain

noncomputable section

namespace Cert.ReferenceIdeal.Chain

open Cert.ReferenceIdeal Cert.ReferenceIdeal.Gen Cert.ReferenceIdeal.RunValue Cert.ReferenceIdeal.RefValue
open Idealize.ShloMosaic Idealize.ShloMosaic.TcCoe Idealize.SL.Sem Idealize.ShloMosaic.StableHlo
open Cert.Spec

section Layer1

variable (m : (ℓ : Loc nD τ sig) → Buf (Elt Ideal) ℓ) (c : Dev nD)

/-- The join of three arrays, as the operation that writes it: its result reads the three operands at their own
    references. -/
theorem v199_result (W : Valuation τ sig (Elt Ideal)) :
    (nary (τ := τ) ![main_v191, main_v198, main_v113] main_v199
        (fun u => concatenate S640000x192 1 [⟨S640000x64, u 0⟩, ⟨S640000x64, u 1⟩, ⟨S640000x64, u 2⟩]
          concatenates_S640000x64_S640000x64_S640000x64_S640000x192_d1)).result W (no_index (Proc.devRef .tc main_v199))
      = concatenate S640000x192 1 [⟨S640000x64, W (Proc.devRef .tc main_v191)⟩, ⟨S640000x64, W (Proc.devRef .tc main_v198)⟩,
          ⟨S640000x64, W (Proc.devRef .tc main_v113)⟩] concatenates_S640000x64_S640000x64_S640000x64_S640000x192_d1 :=
  nary_result _ _ _ _ _ W

/-- Joins of equal pieces are equal. -/
theorem concat3_congr {a a' b b' e e' : FVec Ideal S640000x64 .f32} (ha : a = a') (hb : b = b') (he : e = e') :
    concatenate S640000x192 1 [⟨S640000x64, a⟩, ⟨S640000x64, b⟩, ⟨S640000x64, e⟩]
        concatenates_S640000x64_S640000x64_S640000x64_S640000x192_d1
      = concatenate S640000x192 1 [⟨S640000x64, a'⟩, ⟨S640000x64, b'⟩, ⟨S640000x64, e'⟩]
        concatenates_S640000x64_S640000x64_S640000x64_S640000x192_d1 := by
  rw [ha, hb, he]

/-- Joins of equal pieces are equal. -/
theorem concat2_congr {a a' b b' : FVec Ideal S640000x64 .f32} (ha : a = a') (hb : b = b') :
    concatenate S640000x128 1 [⟨S640000x64, a⟩, ⟨S640000x64, b⟩] concatenates_S640000x64_S640000x64_S640000x128_d1
      = concatenate S640000x128 1 [⟨S640000x64, a'⟩, ⟨S640000x64, b'⟩] concatenates_S640000x64_S640000x64_S640000x128_d1 := by
  rw [ha, hb]

/-- Joins of equal pieces are equal. -/
theorem concat21_congr {p p' : FVec Ideal S640000x128 .f32} {e e' : FVec Ideal S640000x64 .f32} (hp : p = p') (he : e = e') :
    concatenate S640000x192 1 [⟨S640000x128, p⟩, ⟨S640000x64, e⟩] concatenates_S640000x128_S640000x64_S640000x192_d1
      = concatenate S640000x192 1 [⟨S640000x128, p'⟩, ⟨S640000x64, e'⟩] concatenates_S640000x128_S640000x64_S640000x192_d1 := by
  rw [hp, he]

/-! ## The second layer, from the first layer's node and edge arrays -/

section FromLayer0

variable (hx1 : U7 m c (Proc.devRef .tc main_v78) = x1R (argsR m c))
  (he1 : U9 m c (Proc.devRef .tc main_v113) = e1R (argsR m c))
include hx1 he1

/-- The messages of the second layer. -/
theorem stage_v130_of :
    U10 m c (Proc.devRef .tc main_v130)
      = msg (e1R (argsR m c)) (sl 1 (argsR m c).lw) (row (slRow 1 (argsR m c).lb)) ((argsR m c).gS (x1R (argsR m c))) := by
  rw [U10_eq]
  after_results_simp
  try simp only [TRef.toBuf, TRef.ofBuf, cast_eq]
  try simp (disch := decide) only [keep17, keep16, keep15, keep14, keep13, keep12, keep11, keep10, keep9, keep8, keep7, keep6, keep5, keep4, keep3, keep2, keep1, keep0, U0_apply]
  rw [hx1, he1]
  exact ref_msg_1 _ _ _ _

/-- Their sum at the destination nodes. -/
theorem stage_v133_of :
    U11 m c (Proc.devRef .tc main_v133)
      = (argsR m c).sc (msg (e1R (argsR m c)) (sl 1 (argsR m c).lw) (row (slRow 1 (argsR m c).lb))
          ((argsR m c).gS (x1R (argsR m c)))) := by
  rw [U11_eq]
  after_results_simp
  try simp (disch := decide) only [keep17, keep16, keep15, keep14, keep13, keep12, keep11, keep10, keep9, keep8, keep7, keep6, keep5, keep4, keep3, keep2, keep1, keep0, U0_apply]
  rw [stage_v130_of m c hx1 he1]
  rfl

/-- The node update of the second layer before normalisation. -/
theorem stage_v151_of :
    U12 m c (Proc.devRef .tc main_v151) = preNorm (argsR m c) 1 (x1R (argsR m c)) (e1R (argsR m c)) := by
  rw [U12_eq]
  after_results_simp
  try simp only [TRef.toBuf, TRef.ofBuf, cast_eq]
  try simp (disch := decide) only [keep17, keep16, keep15, keep14, keep13, keep12, keep11, keep10, keep9, keep8, keep7, keep6, keep5, keep4, keep3, keep2, keep1, keep0, U0_apply]
  rw [hx1, stage_v133_of m c hx1 he1]
  exact ref_conv_1 _ _ _ _ _ _

/-- Its column means. -/
theorem stage_v158_of :
    U13 m c (Proc.devRef .tc main_v158) = meanR (preNorm (argsR m c) 1 (x1R (argsR m c)) (e1R (argsR m c))) := by
  rw [U13_eq]
  after_results_simp
  try simp (disch := decide) only [keep17, keep16, keep15, keep14, keep13, keep12, keep11, keep10, keep9, keep8, keep7, keep6, keep5, keep4, keep3, keep2, keep1, keep0, U0_apply]
  rw [stage_v151_of m c hx1 he1]
  exact ref_mean _

/-- Its column variances. -/
theorem stage_v165_of :
    U13 m c (Proc.devRef .tc main_v165) = varR (preNorm (argsR m c) 1 (x1R (argsR m c)) (e1R (argsR m c))) := by
  rw [U13_eq]
  after_results_simp
  try simp (disch := decide) only [keep17, keep16, keep15, keep14, keep13, keep12, keep11, keep10, keep9, keep8, keep7, keep6, keep5, keep4, keep3, keep2, keep1, keep0, U0_apply]
  rw [stage_v151_of m c hx1 he1]
  exact ref_var _

omit hx1 he1 in
/-- The scale of the second layer's normalisation. -/
theorem stage_v153 : U13 m c (Proc.devRef .tc main_v153) = slRow 1 (argsR m c).gam := by
  rw [U13_eq]
  after_results_simp
  try simp (disch := decide) only [keep17, keep16, keep15, keep14, keep13, keep12, keep11, keep10, keep9, keep8, keep7, keep6, keep5, keep4, keep3, keep2, keep1, keep0, U0_apply]
  exact slvec64_1 _

omit hx1 he1 in
/-- The shift of the second layer's normalisation. -/
theorem stage_v155 : U13 m c (Proc.devRef .tc main_v155) = slRow 1 (argsR m c).bet := by
  rw [U13_eq]
  after_results_simp
  try simp (disch := decide) only [keep17, keep16, keep15, keep14, keep13, keep12, keep11, keep10, keep9, keep8, keep7, keep6, keep5, keep4, keep3, keep2, keep1, keep0, U0_apply]
  exact slvec64_1 _

/-- The node array after the second layer. -/
theorem stage_v184_of : U14 m c (Proc.devRef .tc main_v184) = x2R (argsR m c) := by
  rw [U14_eq]
  after_results_simp
  try simp only [TRef.toBuf, TRef.ofBuf, cast_eq]
  try simp (disch := decide) only [keep17, keep16, keep15, keep14, keep13, keep12, keep11, keep10, keep9, keep8, keep7, keep6, keep5, keep4, keep3, keep2, keep1, keep0, U0_apply]
  rw [hx1, stage_v151_of m c hx1 he1, stage_v153 m c, stage_v155 m c, stage_v158_of m c hx1 he1, stage_v165_of m c hx1 he1]
  exact ref_bn _ _ _ _ _ _

/-- The join of the two gathered node arrays and the edge array. -/
theorem stage_v199_of :
    U15 m c (Proc.devRef .tc main_v199)
      = concatenate S640000x192 1 [⟨S640000x64, (argsR m c).gS (x2R (argsR m c))⟩, ⟨S640000x64, (argsR m c).gD (x2R (argsR m c))⟩,
          ⟨S640000x64, e1R (argsR m c)⟩] concatenates_S640000x64_S640000x64_S640000x64_S640000x192_d1 := by
  rw [U15_eq]
  simp (disch := decide) only [after_cons, after_nil, v199_result]
  refine concat3_congr ?_ ?_ ?_
  · after_results_simp
    try simp (disch := decide) only [keep17, keep16, keep15, keep14, keep13, keep12, keep11, keep10, keep9, keep8, keep7, keep6, keep5, keep4, keep3, keep2, keep1, keep0, U0_apply]
    rw [stage_v184_of m c hx1 he1]
    rfl
  · after_results_simp
    try simp (disch := decide) only [keep17, keep16, keep15, keep14, keep13, keep12, keep11, keep10, keep9, keep8, keep7, keep6, keep5, keep4, keep3, keep2, keep1, keep0, U0_apply]
    rw [stage_v184_of m c hx1 he1]
    rfl
  · after_results_simp
    try simp (disch := decide) only [keep17, keep16, keep15, keep14, keep13, keep12, keep11, keep10, keep9, keep8, keep7, keep6, keep5, keep4, keep3, keep2, keep1, keep0, U0_apply]
    exact he1

/-- The edge array after the second layer. -/
theorem stage_v219_of : U16 m c (Proc.devRef .tc main_v219) = e2R (argsR m c) := by
  rw [U16_eq]
  after_results_simp
  try simp only [TRef.toBuf, TRef.ofBuf, cast_eq]
  try simp (disch := decide) only [keep17, keep16, keep15, keep14, keep13, keep12, keep11, keep10, keep9, keep8, keep7, keep6, keep5, keep4, keep3, keep2, keep1, keep0, U0_apply]
  rw [stage_v199_of m c hx1 he1, he1]
  exact ref_emlp1 _ _ _ _ _ _ _

/-- The read-out's operand: the rectified join of the gathered node arrays, joined with the edge array. -/
theorem stage_v236_of :
    U17 m c (Proc.devRef .tc main_v236)
      = concatenate S640000x192 1 [⟨S640000x128, maximumf (concatenate S640000x128 1
            [⟨S640000x64, (argsR m c).gS (x2R (argsR m c))⟩, ⟨S640000x64, (argsR m c).gD (x2R (argsR m c))⟩]
            concatenates_S640000x64_S640000x64_S640000x128_d1)
          (broadcastInDim S640000x128 ![] bcast_S_S640000x128 (constant (F := Ideal) S_ .f32 0x00000000#32))⟩,
          ⟨S640000x64, e2R (argsR m c)⟩] concatenates_S640000x128_S640000x64_S640000x192_d1 := by
  rw [U17_eq]
  after_results_simp
  refine concat21_congr ?_ ?_
  · after_results_simp
    try simp only [TRef.toBuf, TRef.ofBuf, cast_eq]
    refine congrArg₂ _ (concat2_congr ?_ ?_) rfl
    · after_results_simp
      try simp (disch := decide) only [keep17, keep16, keep15, keep14, keep13, keep12, keep11, keep10, keep9, keep8, keep7, keep6, keep5, keep4, keep3, keep2, keep1, keep0, U0_apply]
      rw [stage_v184_of m c hx1 he1]
      rfl
    · after_results_simp
      try simp (disch := decide) only [keep17, keep16, keep15, keep14, keep13, keep12, keep11, keep10, keep9, keep8, keep7, keep6, keep5, keep4, keep3, keep2, keep1, keep0, U0_apply]
      rw [stage_v184_of m c hx1 he1]
      rfl
  · after_results_simp
    try simp (disch := decide) only [keep17, keep16, keep15, keep14, keep13, keep12, keep11, keep10, keep9, keep8, keep7, keep6, keep5, keep4, keep3, keep2, keep1, keep0, U0_apply]
    exact stage_v219_of m c hx1 he1

/-- The read-out. -/
theorem stage_v250_of : U18 m c (Proc.devRef .tc main_v250) = logitR (argsR m c) := by
  rw [U18_eq]
  after_results_simp
  try simp only [TRef.toBuf, TRef.ofBuf, cast_eq]
  try simp (disch := decide) only [keep17, keep16, keep15, keep14, keep13, keep12, keep11, keep10, keep9, keep8, keep7, keep6, keep5, keep4, keep3, keep2, keep1, keep0, U0_apply]
  rw [stage_v236_of m c hx1 he1]
  exact ref_readout _ _ _ _ _ _ _ _ _

/-- The node array after the second layer, at the last boundary. -/
theorem stage_v184_end_of : U18 m c (Proc.devRef .tc main_v184) = x2R (argsR m c) := by
  simp (disch := decide) only [keep17, keep16, keep15, keep14]
  exact stage_v184_of m c hx1 he1

end FromLayer0

/-! ## The second layer and the read-out, from the arguments -/

/-- The node array after the second layer. -/
theorem stage_v184 : U14 m c (Proc.devRef .tc main_v184) = x2R (argsR m c) :=
  stage_v184_of m c (stage_v78 m c) (stage_v113 m c)

/-- The edge array after the second layer. -/
theorem stage_v219 : U16 m c (Proc.devRef .tc main_v219) = e2R (argsR m c) :=
  stage_v219_of m c (stage_v78 m c) (stage_v113 m c)

/-- The read-out, at the last boundary. -/
theorem stage_v250 : U18 m c (Proc.devRef .tc main_v250) = logitR (argsR m c) :=
  stage_v250_of m c (stage_v78 m c) (stage_v113 m c)

/-- The node array after the second layer, at the last boundary. -/
theorem stage_v184_end : U18 m c (Proc.devRef .tc main_v184) = x2R (argsR m c) :=
  stage_v184_end_of m c (stage_v78 m c) (stage_v113 m c)

end Layer1

/-- On every device, from any memory with zero counters, every weakly fair execution of the reference program
    terminates with the two results holding the network's node array and read-out, as functions of the arguments the
    launch memory holds, and with the arguments unchanged. -/
theorem ref_run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v184) = x2R (argsR m c) ∧
      r.2.mem ((c.tc : Thread nD τ).loc main_v250) = logitR (argsR m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25)) :=
  (θ_run defs _ _).mono (fun _ h c => ⟨(h c main_v184).trans (stage_v184_end m c), (h c main_v250).trans (stage_v250 m c),
    (h c main_arg0).trans (ref_arg0 m c),
    (h c main_arg1).trans (ref_arg1 m c),
    (h c main_arg2).trans (ref_arg2 m c),
    (h c main_arg3).trans (ref_arg3 m c),
    (h c main_arg4).trans (ref_arg4 m c),
    (h c main_arg5).trans (ref_arg5 m c),
    (h c main_arg6).trans (ref_arg6 m c),
    (h c main_arg7).trans (ref_arg7 m c),
    (h c main_arg8).trans (ref_arg8 m c),
    (h c main_arg9).trans (ref_arg9 m c),
    (h c main_arg10).trans (ref_arg10 m c),
    (h c main_arg11).trans (ref_arg11 m c),
    (h c main_arg12).trans (ref_arg12 m c),
    (h c main_arg13).trans (ref_arg13 m c),
    (h c main_arg14).trans (ref_arg14 m c),
    (h c main_arg15).trans (ref_arg15 m c),
    (h c main_arg16).trans (ref_arg16 m c),
    (h c main_arg17).trans (ref_arg17 m c),
    (h c main_arg18).trans (ref_arg18 m c),
    (h c main_arg19).trans (ref_arg19 m c),
    (h c main_arg20).trans (ref_arg20 m c),
    (h c main_arg21).trans (ref_arg21 m c),
    (h c main_arg22).trans (ref_arg22 m c),
    (h c main_arg23).trans (ref_arg23 m c),
    (h c main_arg24).trans (ref_arg24 m c),
    (h c main_arg25).trans (ref_arg25 m c)⟩) (run_raw m ρ)

end Cert.ReferenceIdeal.Chain

end
-- ==== Proof.lean ====
/-
  The kernel's program and the reference program compute the same network: a node and an edge embedding, two rounds
  of message passing (a message per edge from the gathered source row, its sum at the destination node, the node
  update, its batch normalisation with residual, and the edge update from the gathered endpoint rows), and a read-out
  per edge. They differ in two places only. The kernel takes the batch variance as the mean of the squares minus the
  squared mean, from two column sums accumulated block by block, where the reference takes the mean of the squared
  deviations; and the kernel halves by a product where the reference divides by two. Over the extended reals, on
  arguments whose entries are all finite — which the precondition says — the variance identity and the exactness of
  halving join the two, so both programs end with equal result arrays and unchanged arguments.
-/
import proofs.«156771_j85263690760421_1_alg».proof.Defs
import proofs.«156771_j85263690760421_1_alg».proof.Proof.Gen.Kernel
import proofs.«156771_j85263690760421_1_alg».proof.Proof.Gen.Kernel.Skeleton
import proofs.«156771_j85263690760421_1_alg».proof.Proof.Gen.Kernel.Launch
import proofs.«156771_j85263690760421_1_alg».proof.Proof.Gen.Kernel.Points
import proofs.«156771_j85263690760421_1_alg».proof.Proof.Gen.Kernel.Frame
import proofs.«156771_j85263690760421_1_alg».proof.Proof.Gen.KernelIdeal
import proofs.«156771_j85263690760421_1_alg».proof.Proof.Gen.KernelIdeal.Skeleton
import proofs.«156771_j85263690760421_1_alg».proof.Proof.Gen.KernelIdeal.Launch
import proofs.«156771_j85263690760421_1_alg».proof.Proof.Gen.KernelIdeal.Points
import proofs.«156771_j85263690760421_1_alg».proof.Proof.Gen.KernelIdeal.Frame
import proofs.«156771_j85263690760421_1_alg».proof.Proof.Gen.ReferenceIdeal
import proofs.«156771_j85263690760421_1_alg».proof.Proof.Gen.Pre_finite_inputs
import proofs.«156771_j85263690760421_1_alg».proof.Proof.Assemble
import proofs.«156771_j85263690760421_1_alg».proof.Proof.ChainStages
import proofs.«156771_j85263690760421_1_alg».proof.Proof.RefChain1
import Idealize.ShloMosaic.Adequacy
import Idealize.ShloMosaic.Init

noncomputable section

namespace Cert.Proof

open Idealize.ShloMosaic Idealize.SL.Sem

/-- The claim: the three frame claims, the idealisation that rewrote nothing, and the equality of the two programs'
    results over the extended reals on finite arguments. -/
theorem claim : Cert.Claim :=
  ⟨Cert.Kernel.Gen.facts, Cert.KernelIdeal.Gen.facts, Cert.ReferenceIdeal.Gen.facts, Cert.Pre_finite_inputs.Gen.facts,
    Parts.frame_Kernel,
    Parts.frame_KernelIdeal,
    fun m ρ _ => Cert.ReferenceIdeal.Chain.ref_frame m ρ,
    Parts.preserves,
    Parts.algebraic_of
      (fun m ρ c => Cert.KernelIdeal.Chain.result_x m ρ c)
      (fun m ρ c => Cert.KernelIdeal.Chain.result_logit m ρ c)
      (fun m' ρ' => Cert.ReferenceIdeal.Chain.ref_run_value m' ρ')⟩

end Cert.Proof

end
